-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S256x512 : Shape := ⟨2, ![256, 512]⟩
abbrev S256 : Shape := ⟨1, ![256]⟩
abbrev S512 : Shape := ⟨1, ![512]⟩
abbrev S64x1792 : Shape := ⟨2, ![64, 1792]⟩
abbrev S64 : Shape := ⟨1, ![64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S512 : S_.BroadcastsInDim S512 (![] : Fin 0 → Fin S512.rank)
  reducesTo_S512_S_d0 : S512.ReducesTo [0] S_
  bcast_S_S64x1792 : S_.BroadcastsInDim S64x1792 (![] : Fin 0 → Fin S64x1792.rank)
  reducesTo_S64x1792_S_d0_1 : S64x1792.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x1792 .f32) (main_arg8 : FVec F S64 .f32) (main_v33 : IVec S_ 1) : IVec S_ 1 :=
  let main_v34 : FVec F S64x1792 .f32 := Host.absf main_arg7
  let main_cst_12 : FVec F S_ .f32 := constant S_ .f32 0x7F800000#32
  let main_v35 : FVec F S64x1792 .f32 := broadcastInDim S64x1792 ![] bcast_S_S64x1792 main_cst_12
  let main_v36 : IVec S64x1792 1 := cmpf .olt main_v34 main_v35
  let main_c_13 : IVec S_ 1 := constantI S_ 1 1#1
  let main_v37 : IVec S_ 1 := (fun x v => Host.reduce IntOp.andi x v reducesTo_S64x1792_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S256 .f32) (main_arg5 : FVec F S512 .f32) (main_arg6 : FVec F S512 .f32) (main_arg7 : FVec F S64x1792 .f32) (main_arg8 : FVec F S64 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S8192x512 .f32) (main_arg1 : FVec F S8192x8192 .f32) (main_arg2 : FVec F S8192x8192 .f32) (main_arg3 : FVec F S256x512 .f32) (main_arg4 : FVec F S256 .f32) (main_arg5 : FVec F S512 .f32) (main_arg6 : FVec F S512 .f32) (main_arg7 : FVec F S64x1792 .f32) (main_arg8 : FVec F S64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_v13 main_v16
-- ==== Kernel.lean ====
abbrev S8192x512 : Shape := ⟨2, ![8192, 512]⟩
abbrev S8192x8192 : Shape := ⟨2, ![8192, 8192]⟩
abbrev S256x512 : Shape := ⟨2, ![256, 512]⟩
abbrev S256 : Shape := ⟨1, ![256]⟩
abbrev S512 : Shape := ⟨1, ![512]⟩
abbrev S64x1792 : Shape := ⟨2, ![64, 1792]⟩
abbrev S64 : Shape := ⟨1, ![64]⟩
abbrev S512x256 : Shape := ⟨2, ![512, 256]⟩
abbrev S1x256 : Shape := ⟨2, ![1, 256]⟩
abbrev S8192x256 : Shape := ⟨2, ![8192, 256]⟩
abbrev S1024x512 : Shape := ⟨2, ![1024, 512]⟩
abbrev S1024x256 : Shape := ⟨2, ![1024, 256]⟩
abbrev S_ : Shape := ⟨0, ![]⟩
abbrev S1x512 : Shape := ⟨2, ![1, 512]⟩
abbrev S64x256 : Shape := ⟨2, ![64, 256]⟩
abbrev S256x64 : Shape := ⟨2, ![256, 64]⟩
abbrev S64x512 : Shape := ⟨2, ![64, 512]⟩
abbrev S512x64 : Shape := ⟨2, ![512, 64]⟩
abbrev S1x64 : Shape := ⟨2, ![1, 64]⟩
abbrev S8192x64 : Shape := ⟨2, ![8192, 64]⟩
abbrev S1024x64 : Shape := ⟨2, ![1024, 64]⟩
abbrev S512x512 : Shape := ⟨2, ![512, 512]⟩

abbrev nBuf : Space → Nat
  | .hbm => 60
  | .vmem => 33
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S256x512, .f32⟩
  | .hbm, ⟨4, _⟩ => ⟨S256, .f32⟩
  | .hbm, ⟨5, _⟩ => ⟨S512, .f32⟩
  | .hbm, ⟨6, _⟩ => ⟨S512, .f32⟩
  | .hbm, ⟨7, _⟩ => ⟨S64x1792, .f32⟩
  | .hbm, ⟨8, _⟩ => ⟨S64, .f32⟩
  | .hbm, ⟨9, _⟩ => ⟨S512x256, .f32⟩
  | .hbm, ⟨10, _⟩ => ⟨S1x256, .f32⟩
  | .hbm, ⟨11, _⟩ => ⟨S8192x256, .f32⟩
  | .hbm, ⟨12, _⟩ => ⟨S8192x512, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .i32⟩
  | .hbm, ⟨19, _⟩ => ⟨S_, .f32⟩
  | .hbm, ⟨20, _⟩ => ⟨S512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S1x512, .f32⟩
  | .hbm, ⟨49, _⟩ => ⟨S1x512, .f32⟩
  | .hbm, ⟨50, _⟩ => ⟨S64x256, .f32⟩
  | .hbm, ⟨51, _⟩ => ⟨S256x64, .f32⟩
  | .hbm, ⟨52, _⟩ => ⟨S64x512, .f32⟩
  | .hbm, ⟨53, _⟩ => ⟨S512x64, .f32⟩
  | .hbm, ⟨54, _⟩ => ⟨S64x512, .f32⟩
  | .hbm, ⟨55, _⟩ => ⟨S512x64, .f32⟩
  | .hbm, ⟨56, _⟩ => ⟨S64x512, .f32⟩
  | .hbm, ⟨57, _⟩ => ⟨S512x64, .f32⟩
  | .hbm, ⟨58, _⟩ => ⟨S1x64, .f32⟩
  | .hbm, ⟨59, _⟩ => ⟨S8192x64, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1x256, .f32⟩
  | .local _ .vmem, ⟨4, _⟩ => ⟨S1024x256, .f32⟩
  | .local _ .vmem, ⟨5, _⟩ => ⟨S1024x256, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S8192x256, .f32⟩
  | .local _ .vmem, ⟨11, _⟩ => ⟨S1024x512, .f32⟩
  | .local _ .vmem, ⟨12, _⟩ => ⟨S1024x512, .f32⟩
  | .local _ .vmem, ⟨13, _⟩ => ⟨S1024x256, .f32⟩
  | .local _ .vmem, ⟨14, _⟩ => ⟨S1024x256, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S8192x512, .f32⟩
  | .local _ .vmem, ⟨20, _⟩ => ⟨S1x512, .f32⟩
  | .local _ .vmem, ⟨21, _⟩ => ⟨S1x512, .f32⟩
  | .local _ .vmem, ⟨22, _⟩ => ⟨S1024x256, .f32⟩
  | .local _ .vmem, ⟨23, _⟩ => ⟨S1024x256, .f32⟩
  | .local _ .vmem, ⟨24, _⟩ => ⟨S256x64, .f32⟩
  | .local _ .vmem, ⟨25, _⟩ => ⟨S512x64, .f32⟩
  | .local _ .vmem, ⟨26, _⟩ => ⟨S512x64, .f32⟩
  | .local _ .vmem, ⟨27, _⟩ => ⟨S512x64, .f32⟩
  | .local _ .vmem, ⟨28, _⟩ => ⟨S1x64, .f32⟩
  | .local _ .vmem, ⟨29, _⟩ => ⟨S1024x64, .f32⟩
  | .local _ .vmem, ⟨30, _⟩ => ⟨S1024x64, .f32⟩
  | .local _ .vmem, ⟨31, _⟩ => ⟨S1024x512, .f32⟩
  | .local _ .vmem, ⟨32, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_cst_3 : Ref sig .tc := ⟨.hbm, 35, rfl⟩
abbrev main_call0_v12 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v7 : Ref sig .tc := ⟨.hbm, 40, rfl⟩
abbrev main_cst_1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg11_0 : Ref sig .tc := ⟨.vmem, 29, rfl⟩
abbrev cc2_stg11_1 : Ref sig .tc := ⟨.vmem, 30, rfl⟩
abbrev cc2_scratch0 : Ref sig .tc := ⟨.vmem, 31, rfl⟩
abbrev cc2_scratch1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem11_0 : DmaSem sig := 27
abbrev cc2_sem11_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 16], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_14 : BitVec 32 := 0#32
  let v27 : BitVec 1 := Scalar.cmpi .ne v26 c0_i32_14
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S8192x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 16], ![false, false]⟩

def k2_mult1 (i : grid2.Coords) : BitVec 32 :=
  let arg1 : BitVec 32 := BitVec.ofNat 32 (i 1).val
  let c512_i32 : BitVec 32 := 512#32
  let v3 : BitVec 32 := Scalar.muli arg1 c512_i32
  v3
def k2_off1 (i : grid2.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_18 : BitVec 32 := 0#32
  let v35 : BitVec 1 := Scalar.cmpi .ne v34 c0_i32_18
  v35

def k2_mult2 (i : grid2.Coords) : BitVec 32 :=
  let arg0 : BitVec 32 := BitVec.ofNat 32 (i 0).val
  let c1024_i32 : BitVec 32 := 1024#32
  let v36 : BitVec 32 := Scalar.muli arg0 c1024_i32
  v36
def k2_off2 (i : grid2.Coords) : Fin 2 → Nat :=
  let arg0 : BitVec 32 := BitVec.ofNat 32 (i 0).val
  let c1024_i32 : BitVec 32 := 1024#32
  let v36 : BitVec 32 := Scalar.muli arg0 c1024_i32
  let v37 : BitVec 32 := v36
  let v38 : Index := Scalar.indexCast v37
  let c0_19 : Index := 0#32
  ![v38.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S8192x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 1 → Memref sig .tc .vmem S256x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S512x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S512x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S512x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 2 → Memref sig .tc .vmem S1024x64 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, false]

class Facts₀ : Prop where
  transposes_S256x512_S512x256_1_0 : S256x512.Transposes [1, 0] S512x256
  shapeCasts_S256_S1x256 : S256.ShapeCasts S1x256
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x256_0_0 : ∀ a, (![0, 0] : Fin 2 → Nat) a + S1024x256.size a ≤ S1024x512.size a
  inb_S1024x512_S1024x256_0_256 : ∀ a, (![0, 256] : Fin 2 → Nat) a + S1024x256.size a ≤ S1024x512.size a
  reducesTo_S8192x512_S512_d0 : S8192x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S8192x512_0_1 : S1x512.BroadcastsInDim S8192x512 (![0, 1] : Fin 2 → Fin S8192x512.rank)
  shapeCasts_S512_S1x512 : S512.ShapeCasts S1x512
  slices_S64x1792_S64x256_0_0 : S64x1792.Slices ![0, 0] S64x256
  transposes_S64x256_S256x64_1_0 : S64x256.Transposes [1, 0] S256x64
  slices_S64x1792_S64x512_0_256 : S64x1792.Slices ![0, 256] S64x512
  transposes_S64x512_S512x64_1_0 : S64x512.Transposes [1, 0] S512x64
  slices_S64x1792_S64x512_0_768 : S64x1792.Slices ![0, 768] S64x512
  slices_S64x1792_S64x512_0_1280 : S64x1792.Slices ![0, 1280] S64x512
  shapeCasts_S64_S1x64 : S64.ShapeCasts S1x64
  shapeCasts_S1024x512_S1024x512 : S1024x512.ShapeCasts S1024x512
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  broadcasts_S1x512_S1024x512 : S1x512.Broadcasts S1024x512
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  dot_S1024x512_S512x256_S1024x256_1_0_0_1_n_n_wf : DotDims.WF S1024x512 S512x256 S1024x256 [1] [0] [0] [1] [] []
  dot_S1024x512_S512x512_S1024x512_1_0_0_1_n_n_wf : DotDims.WF S1024x512 S512x512 S1024x512 [1] [0] [0] [1] [] []
  dot_S1024x256_S256x64_S1024x64_1_0_0_1_n_n_wf : DotDims.WF S1024x256 S256x64 S1024x64 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x8192.size a
  hwx1_0 : ∀ i : grid1.Coords, EltTy.bits .f32 = 32 ∨ (Rect.block (s := S8192x8192) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x8192.size a
  hwx1_1 : ∀ i : grid1.Coords, EltTy.bits .f32 = 32 ∨ (Rect.block (s := S8192x8192) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x256.size a ≤ S8192x256.size a
  hwx1_2 : ∀ i : grid1.Coords, EltTy.bits .f32 = 32 ∨ (Rect.block (s := S8192x256) S8192x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)
  hrank2 : 0 < grid2.rank
  k2_mult1_dvd : ∀ i : grid2.Coords, 512 ∣ (k2_mult1 i).toNat
  k2_off1_inb : ∀ i : grid2.Coords, ∀ a, (k2_off1 i) a + S512x512.size a ≤ S8192x512.size a
  k2_mult2_dvd : ∀ i : grid2.Coords, ∀ (k2_h2 : k2_cond2 i = 1#1), 1024 ∣ (k2_mult2 i).toNat
  k2_off2_inb : ∀ i : grid2.Coords, ∀ (k2_h2 : k2_cond2 i = 1#1), ∀ a, (k2_off2 i) a + S1024x512.size a ≤ S8192x512.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x8192.size a
  hwx2_0 : ∀ i : grid2.Coords, EltTy.bits .f32 = 32 ∨ (Rect.block (s := S8192x8192) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x8192.size a
  hwx2_1 : ∀ i : grid2.Coords, EltTy.bits .f32 = 32 ∨ (Rect.block (s := S8192x8192) S1024x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8192x512.size a ≤ S8192x512.size a
  hwx2_2 : ∀ i : grid2.Coords, EltTy.bits .f32 = 32 ∨ (Rect.block (s := S8192x512) S8192x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S8192x256.size a
  hwx2_5 : ∀ i : grid2.Coords, EltTy.bits .f32 = 32 ∨ (Rect.block (s := S8192x256) S1024x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x64.size a ≤ S256x64.size a
  hwx2_6 : ∀ i : grid2.Coords, EltTy.bits .f32 = 32 ∨ (Rect.block (s := S256x64) S256x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x64.size a ≤ S512x64.size a
  hwx2_7 : ∀ i : grid2.Coords, EltTy.bits .f32 = 32 ∨ (Rect.block (s := S512x64) S512x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S512x64.size a ≤ S512x64.size a
  hwx2_8 : ∀ i : grid2.Coords, EltTy.bits .f32 = 32 ∨ (Rect.block (s := S512x64) S512x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S512x64.size a ≤ S512x64.size a
  hwx2_9 : ∀ i : grid2.Coords, EltTy.bits .f32 = 32 ∨ (Rect.block (s := S512x64) S512x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1024x64.size a ≤ S8192x64.size a
  hwx2_11 : ∀ i : grid2.Coords, EltTy.bits .f32 = 32 ∨ (Rect.block (s := S8192x64) S1024x64.size (cc2_transform_11 i) (hinb2_11 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8192x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg1) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S8192x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S1024x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v17) S256x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v19) S512x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v21) S512x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v23) S512x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v24) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v25) S1024x64.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev idle2 : Fin 12 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k2_cond2 i == 1#1) | ⟨_ + 12, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S256x512 : Shape := ⟨2, ![256, 512]⟩
abbrev S256 : Shape := ⟨1, ![256]⟩
abbrev S512 : Shape := ⟨1, ![512]⟩
abbrev S64x1792 : Shape := ⟨2, ![64, 1792]⟩
abbrev S64 : Shape := ⟨1, ![64]⟩
abbrev S512x256 : Shape := ⟨2, ![512, 256]⟩
abbrev S8192x256 : Shape := ⟨2, ![8192, 256]⟩
abbrev S1x256 : Shape := ⟨2, ![1, 256]⟩
abbrev S_ : Shape := ⟨0, ![]⟩
abbrev S1x512 : Shape := ⟨2, ![1, 512]⟩
abbrev S8192x1024 : Shape := ⟨2, ![8192, 1024]⟩
abbrev S8192x1792 : Shape := ⟨2, ![8192, 1792]⟩
abbrev S1792x64 : Shape := ⟨2, ![1792, 64]⟩
abbrev S8192x64 : Shape := ⟨2, ![8192, 64]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S256x512, .f32⟩
  | .hbm, ⟨4, _⟩ => ⟨S256, .f32⟩
  | .hbm, ⟨5, _⟩ => ⟨S512, .f32⟩
  | .hbm, ⟨6, _⟩ => ⟨S512, .f32⟩
  | .hbm, ⟨7, _⟩ => ⟨S64x1792, .f32⟩
  | .hbm, ⟨8, _⟩ => ⟨S64, .f32⟩
  | .hbm, ⟨9, _⟩ => ⟨S512x256, .f32⟩
  | .hbm, ⟨10, _⟩ => ⟨S8192x256, .f32⟩
  | .hbm, ⟨11, _⟩ => ⟨S1x256, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x512, .f32⟩
  | .hbm, ⟨20, _⟩ => ⟨S_, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S_, .i32⟩
  | .hbm, ⟨26, _⟩ => ⟨S_, .f32⟩
  | .hbm, ⟨27, _⟩ => ⟨S512, .f32⟩
  | .hbm, ⟨28, _⟩ => ⟨S1x512, .f32⟩
  | .hbm, ⟨29, _⟩ => ⟨S_, .f32⟩
  | .hbm, ⟨30, _⟩ => ⟨S1x512, .f32⟩
  | .hbm, ⟨31, _⟩ => ⟨S1x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S1x512, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S512, .f32⟩
  | .hbm, ⟨53, _⟩ => ⟨S512, .f32⟩
  | .hbm, ⟨54, _⟩ => ⟨S512, .f32⟩
  | .hbm, ⟨55, _⟩ => ⟨S1x512, .f32⟩
  | .hbm, ⟨56, _⟩ => ⟨S8192x512, .f32⟩
  | .hbm, ⟨57, _⟩ => ⟨S8192x512, .f32⟩
  | .hbm, ⟨58, _⟩ => ⟨S1x512, .f32⟩
  | .hbm, ⟨59, _⟩ => ⟨S8192x512, .f32⟩
  | .hbm, ⟨60, _⟩ => ⟨S8192x512, .f32⟩
  | .hbm, ⟨61, _⟩ => ⟨S1x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x1024, .f32⟩
  | .hbm, ⟨67, _⟩ => ⟨S8192x1792, .f32⟩
  | .hbm, ⟨68, _⟩ => ⟨S1792x64, .f32⟩
  | .hbm, ⟨69, _⟩ => ⟨S8192x64, .f32⟩
  | .hbm, ⟨70, _⟩ => ⟨S1x64, .f32⟩
  | .hbm, ⟨71, _⟩ => ⟨S8192x64, .f32⟩
  | .hbm, ⟨72, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_call1_cst : Ref sig .tc := ⟨.hbm, 26, rfl⟩
abbrev main_call1_v0 : Ref sig .tc := ⟨.hbm, 27, rfl⟩
abbrev main_call1_v1 : Ref sig .tc := ⟨.hbm, 28, rfl⟩
abbrev main_call1_cst_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_cst_1 : Ref sig .tc := ⟨.hbm, 36, rfl⟩
abbrev main_call1_v8 : Ref sig .tc := ⟨.hbm, 37, rfl⟩
abbrev main_call1_cst_2 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_cst_3 : Ref sig .tc := ⟨.hbm, 42, rfl⟩
abbrev main_call1_v12 : Ref sig .tc := ⟨.hbm, 43, rfl⟩
abbrev main_call1_cst_4 : Ref sig .tc := ⟨.hbm, 44, rfl⟩
abbrev main_call1_call0_v0 : Ref sig .tc := ⟨.hbm, 45, rfl⟩
abbrev main_call1_call0_v1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_cst_1 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩

abbrev nD : Nat := 1
abbrev τ : Topo := Topo.v7x

variable {F : FTy → Type} [FloatOps F]

class Facts₀ : Prop where
  transposes_S256x512_S512x256_1_0 : S256x512.Transposes [1, 0] S512x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  concatenates_S8192x256_S8192x256_S8192x512_d1 : Shape.Concatenates [S8192x256, S8192x256] S8192x512 1
  reducesTo_S8192x512_S512_d0 : S8192x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S8192x512_0_1 : S1x512.BroadcastsInDim S8192x512 (![0, 1] : Fin 2 → Fin S8192x512.rank)
  concatenates_S8192x512_S8192x512_S8192x1024_d1 : Shape.Concatenates [S8192x512, S8192x512] S8192x1024 1
  concatenates_S8192x256_S8192x512_S8192x1024_S8192x1792_d1 : Shape.Concatenates [S8192x256, S8192x512, S8192x1024] S8192x1792 1
  transposes_S64x1792_S1792x64_1_0 : S64x1792.Transposes [1, 0] S1792x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x8192_S8192x512_S8192x512_1_0_0_1_n_n_wf : DotDims.WF S8192x8192 S8192x512 S8192x512 [1] [0] [0] [1] [] []
  dot_S8192x1792_S1792x64_S8192x64_1_0_0_1_n_n_wf : DotDims.WF S8192x1792 S1792x64 S8192x64 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x1792_S1792x64_S8192x64_1_0_0_1_n_n : DotDims S8192x1792 S1792x64 S8192x64 where
  lhsContracting := [1]
  rhsContracting := [0]
  lhsNonContracting := [0]
  rhsNonContracting := [1]
  lhsBatch := []
  rhsBatch := []
  wf := dot_S8192x1792_S1792x64_S8192x64_1_0_0_1_n_n_wf

class Facts : Prop extends Facts₀ where

variable [Facts]
-- ==== Proof.K.R0.lean ====
/- REGION 0 of @main (custom_call 0: h = relu(x · W + b) on a grid of 8 row blocks), at a PARAMETER `V` — the
   TensorCore's buffer contents when the region is entered. Windows: 0 the rows of x (a block of 1024 × 512 per
   point), 1 the whole of W (512 × 256), 2 the whole of b (1 × 256), 3 the OUTPUT rows of h (a block of 1024 × 256
   per point). The body reads its three input buffers and overwrites the whole output buffer with one store, so what
   it leaves in the output buffer is a closed function of the three input blocks at the point (`out0_3`), and the
   region's invariant is the class's (the scoped rest and the generator register, untouched). Stated at any `F`. -/
import proofs.«109319_j33217277067916_2_alg».proof.Proof.Gen.Kernel.Launch
import proofs.«109319_j33217277067916_2_alg».proof.Proof.Gen.Kernel.Skeleton
import proofs.«109319_j33217277067916_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): where the window is not
    fetched its block index has not moved. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1 (the whole of W, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2 (the whole of b, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev r0_0 : Rect S1024x512 := Rect.unit (s := S1024x512) ![0, 0] S1024x512.size inb_S1024x512_S1024x512_0_0
abbrev r0_1 : Rect S512x256 := Rect.unit (s := S512x256) ![0, 0] S512x256.size inb_S512x256_S512x256_0_0
abbrev r0_2 : Rect S1x256 := Rect.unit (s := S1x256) ![0, 0] S1x256.size inb_S1x256_S1x256_0_0
abbrev r0_3 : Rect S1024x256 := Rect.unit (s := S1024x256) ![0, 0] S1024x256.size inb_S1024x256_S1024x256_0_0

/-! ## What the body leaves in the output window's buffer -/

/-- Window 3's staging buffer after the body, from the input windows' blocks: its one store as a piece, the payload
    the skeleton's (relu of the product of the rows' block with W plus b, at the program's roundings). -/
def out0_3 (x0 : Vec F S1024x512 .f32) (x1 : Vec F S512x256 .f32) (x2 : Vec F S1x256 .f32) : Vec F S1024x256 .f32 :=
  View.canon [⟨r0_3, k0_pay1 (View.ld x0 r0_0) (View.ld x1 r0_1) (View.ld x2 r0_2)⟩]

/-- The store's rectangle is the whole buffer, so it covers it. -/
theorem cover0_3 (p0 : Vec F S1024x256 .f32) (y : S1024x256.Idx) :
    ∃ pc ∈ ([⟨r0_3, p0⟩] : List (View.Piece (Elt F) S1024x256 .f32)), y ∈ pc.1.set :=
  View.cover_of_tiled [⟨r0_3, p0⟩] S1024x256.size (by rfl) y

/-! ## The body's triple -/

set_option maxHeartbeats 1000000 in
/-- The kernel body on whole staging memrefs, the inputs' at read contents `x0 x1 x2` and the output's at anything,
    runs to the continuation holding the inputs' as they were and the output's at `out0_3` of the inputs'. The grid
    coordinate `i` is not read. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S1024x256 .f32) (harg4 : arg4.IsWhole)
    (x0 : Vec F S1024x512 .f32) (x1 : Vec F S512x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the class's (the
    scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant is the class's at every point (the definition projected). -/
theorem Φ_eq0 (c : Dev nD) (j : Fin (cfg0.N + 1)) : (dat0 V c).Φ j = (Pipeline.ΦA spec0 c : sProp 𝕄) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The invariant at the region's two ends -/

/-- Entering: the class's invariant is the proof data's at the first point. -/
theorem hin0 (c : Dev nD) : (Pipeline.ΦA spec0 c : sProp 𝕄) ⊢ (dat0 V c).Φ 0 := by
  rw [Φ_eq0]
/-- Leaving: the proof data's invariant after the last point is the class's. -/
theorem hout0 (c : Dev nD) : (dat0 V c).Φ (Fin.last cfg0.N) ⊢ (Pipeline.ΦA spec0 c : sProp 𝕄) := by
  rw [Φ_eq0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Base.lean ====
/-
  Region 1 (the first adjacency pass, z_raw = [A1·h | A2·h]): what its three control cases share.
  The grid is 8 × 16 with coordinates (i, kk); the two accumulators are zeroed where kk = 0, every point adds
  one 1024×512 by 512×256 product onto each, and where kk = 15 the two accumulators are stored side by side
  into the output block. Here: the two branch conditions in closed form over the grid, where the output window
  is idle, the staging and scratch memrefs, and the region invariant's scoped part with the two accumulators named.
-/
import proofs.«109319_j33217277067916_2_alg».proof.Proof.Gen.Kernel.Launch
import proofs.«109319_j33217277067916_2_alg».proof.Proof.Gen.Kernel.Skeleton
import proofs.«109319_j33217277067916_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The first branch is taken where the reduction coordinate kk is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The second branch is taken where kk is 15, the last block of the reduction. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from kk = 15 nothing is stored into the output block: the window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging and scratch memrefs -/

abbrev VO1_3 : View sig .tc .vmem S1024x512 .f32 := (Memref.whole cc1_stg3_0 : Memref sig .tc .vmem S1024x512 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
/-- The two accumulators: whole scoped buffers of the kernel's own. -/
abbrev scM1_0 : Memref sig .tc .vmem S1024x256 .f32 := Memref.whole cc1_scratch0
abbrev scM1_1 : Memref sig .tc .vmem S1024x256 .f32 := Memref.whole cc1_scratch1
abbrev VS1_0 : View sig .tc .vmem S1024x256 .f32 := scM1_0.view
abbrev VS1_1 : View sig .tc .vmem S1024x256 .f32 := scM1_1.view

/-- The region's scoped invariant with the two accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.Kernel.Hand

end
-- ==== Proof.K.R1RunA.lean ====
/-
  Region 1, the case kk = 0: the two accumulators are zeroed and the first products added; nothing is stored into
  the output block. The run of the body on whole staging memrefs, with the pieces each accumulator ends with.
-/
import proofs.«109319_j33217277067916_2_alg».proof.Proof.K.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case kk = 0. The inputs' memrefs at their contents, the output's at contents handed back untouched, the two
    accumulators at anything: the body runs to the continuation holding the inputs as they were and each accumulator
    with its pieces written. -/
noncomputable def kernelRun1_A (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i)
    (x0 : Vec F S1024x512 .f32) (x1 : Vec F S1024x512 .f32) (x2 : Vec F S8192x256 .f32) :
    Σ' (LS0 : List (View.Piece (Elt F) S1024x256 .f32)), { LS1 : List (View.Piece (Elt F) S1024x256 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__conv_kernel_plain i arg2 harg2 arg3 harg3 arg4 harg4 arg5 harg5 arg6 harg6 arg7 harg7) K } := by
  refine ⟨?_, ?_, fun xi3 E K => ?run⟩
  case run =>
    simp only [cc1__conv_kernel_plain_eq_skeleton]; unfold cc1__conv_kernel_plain_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.R1RunB.lean ====
/-
  Region 1, the case 0 < kk < 15: each accumulator, at what the point before left in it, has one more product
  added; nothing is stored into the output block.
-/
import proofs.«109319_j33217277067916_2_alg».proof.Proof.K.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case 0 < kk < 15. The inputs' memrefs at their contents, the output's at contents handed back untouched, the two
    accumulators at the contents the point before left: the body runs to the continuation holding the inputs as they
    were and each accumulator with its pieces written. -/
noncomputable def kernelRun1_B (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i)
    (x0 : Vec F S1024x512 .f32) (x1 : Vec F S1024x512 .f32) (x2 : Vec F S8192x256 .f32) (xs0 : Vec F S1024x256 .f32) (xs1 : Vec F S1024x256 .f32) :
    Σ' (LS0 : List (View.Piece (Elt F) S1024x256 .f32)), { LS1 : List (View.Piece (Elt F) S1024x256 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__conv_kernel_plain i arg2 harg2 arg3 harg3 arg4 harg4 arg5 harg5 arg6 harg6 arg7 harg7) K } := by
  refine ⟨?_, ?_, fun xi3 E K => ?run⟩
  case run =>
    simp only [cc1__conv_kernel_plain_eq_skeleton]; unfold cc1__conv_kernel_plain_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.R1RunC.lean ====
/-
  Region 1, the case kk = 15: each accumulator, at what the point before left in it, has the last product added,
  and the two are stored side by side into the output block (columns 0–255 and 256–511).
-/
import proofs.«109319_j33217277067916_2_alg».proof.Proof.K.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case kk = 15. The inputs' memrefs at their contents, the output's at anything, the two accumulators at the
    contents the point before left: the body runs to the continuation holding the inputs as they were, the output
    block and each accumulator with its pieces written. -/
noncomputable def kernelRun1_C (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i)
    (x0 : Vec F S1024x512 .f32) (x1 : Vec F S1024x512 .f32) (x2 : Vec F S8192x256 .f32) (xs0 : Vec F S1024x256 .f32) (xs1 : Vec F S1024x256 .f32) :
    Σ' (L3 : List (View.Piece (Elt F) S1024x512 .f32)) (LS0 : List (View.Piece (Elt F) S1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__conv_kernel_plain i arg2 harg2 arg3 harg3 arg4 harg4 arg5 harg5 arg6 harg6 arg7 harg7) K } := by
  refine ⟨?_, ?_, ?_, fun E K => ?run⟩
  case run =>
    simp only [cc1__conv_kernel_plain_eq_skeleton]; unfold cc1__conv_kernel_plain_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.K.R1Dat.lean ====
/-
  Region 1 (z_raw = [A1·h | A2·h]): the proof data of its pipeline at the contents V the region is entered with.
  After the body at a point the two accumulators hold: at kk = 0 the first products over zero; at kk > 0 the
  point's products added to what the point before left. At kk = 15 the output block is the two accumulators side
  by side; elsewhere the output window is idle. The region invariant carries both accumulators at those contents
  from one point to the next.
-/
import proofs.«109319_j33217277067916_2_alg».proof.Proof.K.R1RunA
import proofs.«109319_j33217277067916_2_alg».proof.Proof.K.R1RunB
import proofs.«109319_j33217277067916_2_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem not15_of_0 {n : ℕ} (h : n % 16 = 0) : ¬ n % 16 = 15 := by omega

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A_0 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x512 .f32) (x1 : Vec F S1024x512 .f32) (x2 : Vec F S8192x256 .f32) (y : S1024x256.Idx) :
    ∃ pc ∈ (kernelRun1_A c i arg2 harg2 arg3 harg3 arg4 harg4 arg5 harg5 arg6 harg6 arg7 harg7 hc0 hc1 x0 x1 x2).1, y ∈ pc.1.set :=
  View.cover_of_tiledL (kernelRun1_A c i arg2 harg2 arg3 harg3 arg4 harg4 arg5 harg5 arg6 harg6 arg7 harg7 hc0 hc1 x0 x1 x2).1 S1024x256.size (by sl_kernel_rfl) y
theorem scover1_A_1 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x512 .f32) (x1 : Vec F S1024x512 .f32) (x2 : Vec F S8192x256 .f32) (y : S1024x256.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S1024x256.size (by sl_kernel_rfl) y
/-- What the case kk = 0 leaves in the first accumulator: its pieces read back. -/
def sout1_A_0 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x512 .f32) (x1 : Vec F S1024x512 .f32) (x2 : Vec F S8192x256 .f32) : Vec F S1024x256 .f32 :=
  VS1_0.read (Elt F) (VS1_0.writes (Elt F) VS1_0.junk (kernelRun1_A c i arg2 harg2 arg3 harg3 arg4 harg4 arg5 harg5 arg6 harg6 arg7 harg7 hc0 hc1 x0 x1 x2).1)
def sout1_A_1 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x512 .f32) (x1 : Vec F S1024x512 .f32) (x2 : Vec F S8192x256 .f32) : Vec F S1024x256 .f32 :=
  VS1_1.read (Elt F) (VS1_1.writes (Elt F) VS1_1.junk (kernelRun1_A c i arg2 harg2 arg3 harg3 arg4 harg4 arg5 harg5 arg6 harg6 arg7 harg7 hc0 hc1 x0 x1 x2).2.1)

theorem scover1_B_0 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x512 .f32) (x1 : Vec F S1024x512 .f32) (x2 : Vec F S8192x256 .f32) (xs0 xs1 : Vec F S1024x256 .f32) (y : S1024x256.Idx) :
    ∃ pc ∈ (kernelRun1_B c i arg2 harg2 arg3 harg3 arg4 harg4 arg5 harg5 arg6 harg6 arg7 harg7 hc0 hc1 x0 x1 x2 xs0 xs1).1, y ∈ pc.1.set :=
  View.cover_of_tiledL (kernelRun1_B c i arg2 harg2 arg3 harg3 arg4 harg4 arg5 harg5 arg6 harg6 arg7 harg7 hc0 hc1 x0 x1 x2 xs0 xs1).1 S1024x256.size (by sl_kernel_rfl) y
theorem scover1_B_1 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x512 .f32) (x1 : Vec F S1024x512 .f32) (x2 : Vec F S8192x256 .f32) (xs0 xs1 : Vec F S1024x256 .f32) (y : S1024x256.Idx) :
    ∃ pc ∈ (kernelRun1_B c i arg2 harg2 arg3 harg3 arg4 harg4 arg5 harg5 arg6 harg6 arg7 harg7 hc0 hc1 x0 x1 x2 xs0 xs1).2.1, y ∈ pc.1.set :=
  View.cover_of_tiledL (kernelRun1_B c i arg2 harg2 arg3 harg3 arg4 harg4 arg5 harg5 arg6 harg6 arg7 harg7 hc0 hc1 x0 x1 x2 xs0 xs1).2.1 S1024x256.size (by sl_kernel_rfl) y
def sout1_B_0 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x512 .f32) (x1 : Vec F S1024x512 .f32) (x2 : Vec F S8192x256 .f32) (xs0 xs1 : Vec F S1024x256 .f32) : Vec F S1024x256 .f32 :=
  VS1_0.read (Elt F) (VS1_0.writes (Elt F) VS1_0.junk (kernelRun1_B c i arg2 harg2 arg3 harg3 arg4 harg4 arg5 harg5 arg6 harg6 arg7 harg7 hc0 hc1 x0 x1 x2 xs0 xs1).1)
def sout1_B_1 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x512 .f32) (x1 : Vec F S1024x512 .f32) (x2 : Vec F S8192x256 .f32) (xs0 xs1 : Vec F S1024x256 .f32) : Vec F S1024x256 .f32 :=
  VS1_1.read (Elt F) (VS1_1.writes (Elt F) VS1_1.junk (kernelRun1_B c i arg2 harg2 arg3 harg3 arg4 harg4 arg5 harg5 arg6 harg6 arg7 harg7 hc0 hc1 x0 x1 x2 xs0 xs1).2.1)

theorem cover1_C_3 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x512 .f32) (x1 : Vec F S1024x512 .f32) (x2 : Vec F S8192x256 .f32) (xs0 xs1 : Vec F S1024x256 .f32) (y : S1024x512.Idx) :
    ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S1024x256.size (by sl_kernel_rfl) y
theorem scover1_C_0 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x512 .f32) (x1 : Vec F S1024x512 .f32) (x2 : Vec F S8192x256 .f32) (xs0 xs1 : Vec F S1024x256 .f32) (y : S1024x256.Idx) :
    ∃ pc ∈ (kernelRun1_C c i arg2 harg2 arg3 harg3 arg4 harg4 arg5 harg5 arg6 harg6 arg7 harg7 hc0 hc1 x0 x1 x2 xs0 xs1).2.1, y ∈ pc.1.set :=
  View.cover_of_tiledL (kernelRun1_C c i arg2 harg2 arg3 harg3 arg4 harg4 arg5 harg5 arg6 harg6 arg7 harg7 hc0 hc1 x0 x1 x2 xs0 xs1).2.1 S1024x256.size (by sl_kernel_rfl) y
theorem scover1_C_1 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x512 .f32) (x1 : Vec F S1024x512 .f32) (x2 : Vec F S8192x256 .f32) (xs0 xs1 : Vec F S1024x256 .f32) (y : S1024x256.Idx) :
    ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL (kernelRun1_C c i arg2 harg2 arg3 harg3 arg4 harg4 arg5 harg5 arg6 harg6 arg7 harg7 hc0 hc1 x0 x1 x2 xs0 xs1).2.2.1 S1024x256.size (by sl_kernel_rfl) y
/-- What the case kk = 15 leaves in the output block: its two column pieces read back. -/
def out1_C_3 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x512 .f32) (x1 : Vec F S1024x512 .f32) (x2 : Vec F S8192x256 .f32) (xs0 xs1 : Vec F S1024x256 .f32) : Vec F S1024x512 .f32 :=
  VO1_3.read (Elt F) (VO1_3.writes (Elt F) VO1_3.junk (kernelRun1_C c i arg2 harg2 arg3 harg3 arg4 harg4 arg5 harg5 arg6 harg6 arg7 harg7 hc0 hc1 x0 x1 x2 xs0 xs1).1)
def sout1_C_0 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x512 .f32) (x1 : Vec F S1024x512 .f32) (x2 : Vec F S8192x256 .f32) (xs0 xs1 : Vec F S1024x256 .f32) : Vec F S1024x256 .f32 :=
  VS1_0.read (Elt F) (VS1_0.writes (Elt F) VS1_0.junk (kernelRun1_C c i arg2 harg2 arg3 harg3 arg4 harg4 arg5 harg5 arg6 harg6 arg7 harg7 hc0 hc1 x0 x1 x2 xs0 xs1).2.1)
def sout1_C_1 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x512 .f32) (x1 : Vec F S1024x512 .f32) (x2 : Vec F S8192x256 .f32) (xs0 xs1 : Vec F S1024x256 .f32) : Vec F S1024x256 .f32 :=
  VS1_1.read (Elt F) (VS1_1.writes (Elt F) VS1_1.junk (kernelRun1_C c i arg2 harg2 arg3 harg3 arg4 harg4 arg5 harg5 arg6 harg6 arg7 harg7 hc0 hc1 x0 x1 x2 xs0 xs1).2.2.1)

/-! ## What the output block and the accumulators hold after each point -/

/-- After the body at position n: the output block (a placeholder where the window is idle) and the two accumulators. -/
def outsAt1 (c : Dev nD) : (n : ℕ) → n < cfg1.N → Vec F S1024x512 .f32 × Vec F S1024x256 .f32 × Vec F S1024x256 .f32
  | 0, hn => (VO1_3.read (Elt F) VO1_3.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => not15_of_0 (Nat.zero_mod _) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => not15_of_0 (Nat.zero_mod _) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      (VO1_3.read (Elt F) VO1_3.junk, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => not15_of_0 h0 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => not15_of_0 h0 ((hcond1_1 ⟨n + 1, hn⟩).mp h)) (iblk1 V c 0 ⟨n + 1, hn⟩) (iblk1 V c 1 ⟨n + 1, hn⟩) (iblk1 V c 2 ⟨n + 1, hn⟩))
    else if h1 : (n + 1) % 16 = 15 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
    else
      (VO1_3.read (Elt F) VO1_3.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

theorem outsAt1_A (c : Dev nD) (t : Fin cfg1.N) (h0 : t.val % 16 = 0) :
    outsAt1 V c t.val t.isLt = (VO1_3.read (Elt F) VO1_3.junk, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => not15_of_0 h0 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => not15_of_0 h0 ((hcond1_1 t).mp h)) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt = (VO1_3.read (Elt F) VO1_3.junk, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-- The region invariant before position n: before the first point every scoped buffer at anything; afterwards the
    two accumulators at what the point before left, the other scoped buffers at anything. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.K.R1Body.lean ====
/-
  Region 1: the body obligation of its pipeline. At every grid point the body, entered with the invariant (the two
  accumulators at what the point before left, or anything before the first point) and the windows' staging buffers
  at their blocks, runs to the invariant of the next point and the buffers at what the proof data say: by cases on
  kk = 0, 0 < kk < 15, kk = 15, each closed by that case's run.
-/
import proofs.«109319_j33217277067916_2_alg».proof.Proof.K.R1Dat

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 16 = 0
  · -- kk = 0
    rw [Dat.leavesExact_idle (dat1 V c) 3 t (idleAt1_3 t (fun h => not15_of_0 h0 ((hcond1_1 t).mp h))) (noFlush1_3 t (fun h => not15_of_0 h0 ((hcond1_1 t).mp h)))]
    rw [outsAt1_A V c t h0]
    unfold sout1_A_0 sout1_A_1; (try dsimp only)
    by_cases hz : t.val = 0
    · rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => not15_of_0 h0 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ )
            · unfold owns; iexists _; isplitr
              swap; · iexact HS1
              ipureintro; exact View.read_writes_of_cover _ _ _ _ _ (scover1_A_1 c _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => not15_of_0 h0 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ )
            · unfold owns; iexists _; isplitr
              swap; · iexact HS1
              ipureintro; exact View.read_writes_of_cover _ _ _ _ _ (scover1_A_1 c _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · -- kk = 15
      rw [show (dat1 V c).leavesExact 3 t = owns (c : Thread nD τ) (ms1_3 t) fullShare ((dat1 V c).after 3 t) from by
            unfold Dat.leavesExact; rw [liveAt1_3 t ((hcond1_1 t).mpr h1)], after1_3]
      rw [outsAt1_C V c t h0 h1]
      unfold out1_C_3 sout1_C_0 sout1_C_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ )
            · unfold owns; iexists _; isplitr
              swap; · iexact HS1
              ipureintro; exact View.read_writes_of_cover _ _ _ _ _ (scover1_C_1 c _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ )
    · -- 0 < kk < 15
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ )
            · unfold owns; iexists _; isplitr
              swap; · iexact HS1
              ipureintro; exact View.read_writes_of_cover _ _ _ _ _ (scover1_B_1 c _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.K.R2Base.lean ====
/-
  Region 2 (the final pass: the second adjacency product, the normalisation and the output projection): what
  its three control cases share. The grid is 8 × 16 with coordinates (i, kk). Two 1024×512 accumulators are
  zeroed where kk = 0; every point adds onto each the product of one 1024×512 adjacency block with the
  normalised 512×512 slice of the features at rows 512·kk; where kk = 15 the epilogue combines the two
  accumulators, the block's own normalised rows and the earlier features through the four weight matrices and
  stores the 1024×64 output block. Here: the two branch conditions in closed form over the grid, where the
  output window is idle, the staging and scratch memrefs, and the region invariant's scoped part with the two
  accumulators named.
-/
import proofs.«109319_j33217277067916_2_alg».proof.Proof.Gen.Kernel.Launch
import proofs.«109319_j33217277067916_2_alg».proof.Proof.Gen.Kernel.Skeleton
import proofs.«109319_j33217277067916_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The first branch (zero the accumulators) is taken where the reduction coordinate kk is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)

/-- The second branch (the epilogue) is taken where kk is 15, the last block of the reduction. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl
theorem liveAt2_9 : ∀ t : Fin cfg2.N, cfg2.idle 9 (grid2.coords t) = false := fun _ => rfl
theorem liveAt2_10 : ∀ t : Fin cfg2.N, cfg2.idle 10 (grid2.coords t) = false := fun _ => rfl
/-- Away from kk = 15 nothing is stored into the output block: the window is idle and not written back. -/
theorem idleAt2_11 : ∀ t : Fin cfg2.N, ¬cond2_1 (grid2.coords t) → cfg2.idle 11 (grid2.coords t) = true := by decide +kernel
theorem noFlush2_11 : ∀ t : Fin cfg2.N, ¬cond2_1 (grid2.coords t) → (cfg2.win 11).flush t = false := by decide +kernel
theorem liveAt2_11 : ∀ t : Fin cfg2.N, cond2_1 (grid2.coords t) → cfg2.idle 11 (grid2.coords t) = false := by decide +kernel

/-! ## The staging and scratch memrefs -/

/-- One staging buffer of the output window, through which its contents are stated. -/
abbrev VO2_11 : View sig .tc .vmem S1024x64 .f32 := (Memref.whole cc2_stg11_0 : Memref sig .tc .vmem S1024x64 .f32).view
abbrev ms2_0 (t : Fin cfg2.N) : Memref sig .tc .vmem S1024x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8192x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S256x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S512x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S512x64 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S512x64 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x64 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1024x64 .f32 := win2_11.stage (cfg2.slots t 11)
abbrev hs2_11 (t : Fin cfg2.N) : (ms2_11 t).IsWhole := hstage2_11 ((cfg2.slots t 11).cast nbuf2_11)
/-- The two accumulators: whole scoped buffers of the kernel's own. -/
abbrev scM2_0 : Memref sig .tc .vmem S1024x512 .f32 := Memref.whole cc2_scratch0
abbrev scM2_1 : Memref sig .tc .vmem S1024x512 .f32 := Memref.whole cc2_scratch1
abbrev VS2_0 : View sig .tc .vmem S1024x512 .f32 := scM2_0.view
abbrev VS2_1 : View sig .tc .vmem S1024x512 .f32 := scM2_1.view

/-- The core's scoped buffers that no window of this call stages, split at the two accumulators. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f) ∗ (∃ f : Buf Val ((c : Thread nD τ).loc cc2_scratch1), ((c : Thread nD τ).loc cc2_scratch1) ↦{fullShare} f))
          ∗ Pipeline.scopedRestBut (Ix := Ix) (Name := Name) (U := U) (Lvl := Lvl) (Val := Val) spec2 c [cc2_scratch0, cc2_scratch1]) :=
  Pipeline.scopedRest_split_of_list spec2 c [cc2_scratch0, cc2_scratch1] (by decide) (by decide)

/-- The region's scoped invariant with the two accumulators as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Hand

end
-- ==== Proof.K.R2RunA.lean ====
/-
  Region 2, the body's run in case A of its control (see the definition's comment).
-/
import proofs.«109319_j33217277067916_2_alg».proof.Proof.K.R2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where kk = 0: the accumulators are zeroed, then the point's two products are added; nothing is stored into the output block.
    On whole memrefs, the inputs' at their contents, the body runs to the continuation holding the inputs' as they
    were and each accumulator (and, where kk = 15, the output block) with its stores written, as pieces, last first. -/
noncomputable def kernelRun2_A (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x256 .f32) (harg7 : arg7.IsWhole) (arg8 : Memref sig .tc .vmem S256x64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S1x64 .f32) (harg12 : arg12.IsWhole) (arg13 : Memref sig .tc .vmem S1024x64 .f32) (harg13 : arg13.IsWhole) (arg14 : Memref sig .tc .vmem S1024x512 .f32) (harg14 : arg14.IsWhole) (arg15 : Memref sig .tc .vmem S1024x512 .f32) (harg15 : arg15.IsWhole) (hc0 : cond2_0 i) (hc1 : ¬cond2_1 i)
    (x0 : Vec F S1024x512 .f32) (x1 : Vec F S1024x512 .f32) (x2 : Vec F S8192x512 .f32) (x3 : Vec F S1x512 .f32) (x4 : Vec F S1x512 .f32) (x5 : Vec F S1024x256 .f32) (x6 : Vec F S256x64 .f32) (x7 : Vec F S512x64 .f32) (x8 : Vec F S512x64 .f32) (x9 : Vec F S512x64 .f32) (x10 : Vec F S1x64 .f32) :
    Σ' (L11 : List (View.Piece (Elt F) S1024x64 .f32)) (LS0 : List (View.Piece (Elt F) S1024x512 .f32)), { LS1 : List (View.Piece (Elt F) S1024x512 .f32) //
      ∀ (xi11 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc2__conv_final_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, fun xi11 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_unfold [cc2__conv_final_kernel]
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _; iexact HS1

end Cert.Kernel.Hand

end
-- ==== Proof.K.R2RunB.lean ====
/-
  Region 2, the body's run in case B of its control (see the definition's comment).
-/
import proofs.«109319_j33217277067916_2_alg».proof.Proof.K.R2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where 0 < kk < 15: the point's two products are added onto what the point before left in the accumulators; nothing is stored into the output block.
    On whole memrefs, the inputs' at their contents, the body runs to the continuation holding the inputs' as they
    were and each accumulator (and, where kk = 15, the output block) with its stores written, as pieces, last first. -/
noncomputable def kernelRun2_B (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x256 .f32) (harg7 : arg7.IsWhole) (arg8 : Memref sig .tc .vmem S256x64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S1x64 .f32) (harg12 : arg12.IsWhole) (arg13 : Memref sig .tc .vmem S1024x64 .f32) (harg13 : arg13.IsWhole) (arg14 : Memref sig .tc .vmem S1024x512 .f32) (harg14 : arg14.IsWhole) (arg15 : Memref sig .tc .vmem S1024x512 .f32) (harg15 : arg15.IsWhole) (hc0 : ¬cond2_0 i) (hc1 : ¬cond2_1 i)
    (x0 : Vec F S1024x512 .f32) (x1 : Vec F S1024x512 .f32) (x2 : Vec F S8192x512 .f32) (x3 : Vec F S1x512 .f32) (x4 : Vec F S1x512 .f32) (x5 : Vec F S1024x256 .f32) (x6 : Vec F S256x64 .f32) (x7 : Vec F S512x64 .f32) (x8 : Vec F S512x64 .f32) (x9 : Vec F S512x64 .f32) (x10 : Vec F S1x64 .f32) (xs0 : Vec F S1024x512 .f32) (xs1 : Vec F S1024x512 .f32) :
    Σ' (L11 : List (View.Piece (Elt F) S1024x64 .f32)) (LS0 : List (View.Piece (Elt F) S1024x512 .f32)), { LS1 : List (View.Piece (Elt F) S1024x512 .f32) //
      ∀ (xi11 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc2__conv_final_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, fun xi11 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1
    sl_unfold [cc2__conv_final_kernel]
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _; iexact HS1

end Cert.Kernel.Hand

end
-- ==== Proof.K.R2RunC.lean ====
/-
  Region 2, the body's run in case C of its control (see the definition's comment).
-/
import proofs.«109319_j33217277067916_2_alg».proof.Proof.K.R2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where kk = 15: the point's two products are added onto what the point before left, then the epilogue reads both accumulators and stores the whole output block.
    On whole memrefs, the inputs' at their contents, the body runs to the continuation holding the inputs' as they
    were and each accumulator (and, where kk = 15, the output block) with its stores written, as pieces, last first. -/
noncomputable def kernelRun2_C (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x256 .f32) (harg7 : arg7.IsWhole) (arg8 : Memref sig .tc .vmem S256x64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S1x64 .f32) (harg12 : arg12.IsWhole) (arg13 : Memref sig .tc .vmem S1024x64 .f32) (harg13 : arg13.IsWhole) (arg14 : Memref sig .tc .vmem S1024x512 .f32) (harg14 : arg14.IsWhole) (arg15 : Memref sig .tc .vmem S1024x512 .f32) (harg15 : arg15.IsWhole) (hc0 : ¬cond2_0 i) (hc1 : cond2_1 i)
    (x0 : Vec F S1024x512 .f32) (x1 : Vec F S1024x512 .f32) (x2 : Vec F S8192x512 .f32) (x3 : Vec F S1x512 .f32) (x4 : Vec F S1x512 .f32) (x5 : Vec F S1024x256 .f32) (x6 : Vec F S256x64 .f32) (x7 : Vec F S512x64 .f32) (x8 : Vec F S512x64 .f32) (x9 : Vec F S512x64 .f32) (x10 : Vec F S1x64 .f32) (xs0 : Vec F S1024x512 .f32) (xs1 : Vec F S1024x512 .f32) :
    Σ' (L11 : List (View.Piece (Elt F) S1024x64 .f32)) (LS0 : List (View.Piece (Elt F) S1024x512 .f32)), { LS1 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc2__conv_final_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0; obtain rfl := harg15.eq_unread hfs1
    sl_unfold [cc2__conv_final_kernel]
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [HS0]; · iexists _; iexact HS0
    iexists _; iexact HS1

end Cert.Kernel.Hand

end
-- ==== Proof.K.R2Blk.lean ====
/-
  Region 2: the windows' blocks read off the arrays as the region finds them, and that each input window's
  current staging buffer holds its block at every point, fetched there or not.
-/
import proofs.«109319_j33217277067916_2_alg».proof.Proof.K.R2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point: an input the body leaves in place,
    never idle, its blocks uncut; unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point: an input the body leaves in place,
    never idle, its blocks uncut; unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point: an input the body leaves in place,
    never idle, its blocks uncut; unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point: an input the body leaves in place,
    never idle, its blocks uncut; unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point: an input the body leaves in place,
    never idle, its blocks uncut; unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point: an input the body leaves in place,
    never idle, its blocks uncut; unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point: an input the body leaves in place,
    never idle, its blocks uncut; unfetched, the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point: an input the body leaves in place,
    never idle, its blocks uncut; unfetched, the block index has not moved. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point: an input the body leaves in place,
    never idle, its blocks uncut; unfetched, the block index has not moved. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point: an input the body leaves in place,
    never idle, its blocks uncut; unfetched, the block index has not moved. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's current staging buffer holds its block at every point: an input the body leaves in place,
    never idle, its blocks uncut; unfetched, the block index has not moved. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

end Cert.Kernel.Hand

end
-- ==== Proof.K.R2Dat.lean ====
/-
  Region 2: the proof data of its pipeline at the contents V the region is entered with.
  After the body at a point the two accumulators hold: where kk = 0 the point's two products over zero; where
  kk > 0 the point's products added to what the point before left. Where kk = 15 the output block is what the
  epilogue stores; elsewhere the output window is idle. The region invariant carries both accumulators at those
  contents from one point to the next.
-/
import proofs.«109319_j33217277067916_2_alg».proof.Proof.K.R2RunA
import proofs.«109319_j33217277067916_2_alg».proof.Proof.K.R2RunB
import proofs.«109319_j33217277067916_2_alg».proof.Proof.K.R2RunC
import proofs.«109319_j33217277067916_2_alg».proof.Proof.K.R2Blk

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The body's run at a point of the grid, on the point's staging memrefs and input blocks -/

/-- The run where kk = 0, at point t. -/
def runA2 (c : Dev nD) (t : Fin cfg2.N) (h0 : t.val % 16 = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) ((hcond2_0 t).mpr h0) (fun h => absurd ((hcond2_1 t).mp h) (by omega)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
/-- The run where 0 < kk < 15, at point t, over the accumulators' contents xs0, xs1. -/
def runB2 (c : Dev nD) (t : Fin cfg2.N) (h0 : ¬t.val % 16 = 0) (h1 : ¬t.val % 16 = 15) (xs0 xs1 : Vec F S1024x512 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) xs0 xs1
/-- The run where kk = 15, at point t, over the accumulators' contents xs0, xs1. -/
def runC2 (c : Dev nD) (t : Fin cfg2.N) (h0 : ¬t.val % 16 = 0) (h1 : t.val % 16 = 15) (xs0 xs1 : Vec F S1024x512 .f32) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) xs0 xs1

/-! ## The stores of each case cover what they are stored into -/

theorem scoverA2_0 (c : Dev nD) (t : Fin cfg2.N) (h0 : t.val % 16 = 0) (y : S1024x512.Idx) : ∃ pc ∈ (runA2 V c t h0).2.1, y ∈ pc.1.set :=
  View.cover_of_tiledL (runA2 V c t h0).2.1 S1024x512.size (by sl_kernel_rfl) y
theorem scoverA2_1 (c : Dev nD) (t : Fin cfg2.N) (h0 : t.val % 16 = 0) (y : S1024x512.Idx) : ∃ pc ∈ (runA2 V c t h0).2.2.1, y ∈ pc.1.set :=
  View.cover_of_tiledL (runA2 V c t h0).2.2.1 S1024x512.size (by sl_kernel_rfl) y
theorem scoverB2_0 (c : Dev nD) (t : Fin cfg2.N) (h0 : ¬t.val % 16 = 0) (h1 : ¬t.val % 16 = 15) (xs0 xs1 : Vec F S1024x512 .f32) (y : S1024x512.Idx) : ∃ pc ∈ (runB2 V c t h0 h1 xs0 xs1).2.1, y ∈ pc.1.set :=
  View.cover_of_tiledL (runB2 V c t h0 h1 xs0 xs1).2.1 S1024x512.size (by sl_kernel_rfl) y
theorem scoverB2_1 (c : Dev nD) (t : Fin cfg2.N) (h0 : ¬t.val % 16 = 0) (h1 : ¬t.val % 16 = 15) (xs0 xs1 : Vec F S1024x512 .f32) (y : S1024x512.Idx) : ∃ pc ∈ (runB2 V c t h0 h1 xs0 xs1).2.2.1, y ∈ pc.1.set :=
  View.cover_of_tiledL (runB2 V c t h0 h1 xs0 xs1).2.2.1 S1024x512.size (by sl_kernel_rfl) y
theorem coverC2_11 (c : Dev nD) (t : Fin cfg2.N) (h0 : ¬t.val % 16 = 0) (h1 : t.val % 16 = 15) (xs0 xs1 : Vec F S1024x512 .f32) (y : S1024x64.Idx) : ∃ pc ∈ (runC2 V c t h0 h1 xs0 xs1).1, y ∈ pc.1.set :=
  View.cover_of_tiledL (runC2 V c t h0 h1 xs0 xs1).1 S1024x64.size (by sl_kernel_rfl) y
theorem scoverC2_0 (c : Dev nD) (t : Fin cfg2.N) (h0 : ¬t.val % 16 = 0) (h1 : t.val % 16 = 15) (xs0 xs1 : Vec F S1024x512 .f32) (y : S1024x512.Idx) : ∃ pc ∈ (runC2 V c t h0 h1 xs0 xs1).2.1, y ∈ pc.1.set :=
  View.cover_of_tiledL (runC2 V c t h0 h1 xs0 xs1).2.1 S1024x512.size (by sl_kernel_rfl) y
theorem scoverC2_1 (c : Dev nD) (t : Fin cfg2.N) (h0 : ¬t.val % 16 = 0) (h1 : t.val % 16 = 15) (xs0 xs1 : Vec F S1024x512 .f32) (y : S1024x512.Idx) : ∃ pc ∈ (runC2 V c t h0 h1 xs0 xs1).2.2.1, y ∈ pc.1.set :=
  View.cover_of_tiledL (runC2 V c t h0 h1 xs0 xs1).2.2.1 S1024x512.size (by sl_kernel_rfl) y

/-! ## What each case leaves: the output block (a placeholder where the window is idle) and the two accumulators -/

/-- Where kk = 0. -/
def outA2 (c : Dev nD) (t : Fin cfg2.N) (h0 : t.val % 16 = 0) : Vec F S1024x64 .f32 × Vec F S1024x512 .f32 × Vec F S1024x512 .f32 :=
  (VO2_11.read (Elt F) VO2_11.junk,
   VS2_0.read (Elt F) (VS2_0.writes (Elt F) VS2_0.junk (runA2 V c t h0).2.1),
   VS2_1.read (Elt F) (VS2_1.writes (Elt F) VS2_1.junk (runA2 V c t h0).2.2.1))
/-- Where 0 < kk < 15, over what the point before left in the accumulators. -/
def outB2 (c : Dev nD) (t : Fin cfg2.N) (h0 : ¬t.val % 16 = 0) (h1 : ¬t.val % 16 = 15) (xs0 xs1 : Vec F S1024x512 .f32) : Vec F S1024x64 .f32 × Vec F S1024x512 .f32 × Vec F S1024x512 .f32 :=
  (VO2_11.read (Elt F) VO2_11.junk,
   VS2_0.read (Elt F) (VS2_0.writes (Elt F) VS2_0.junk (runB2 V c t h0 h1 xs0 xs1).2.1),
   VS2_1.read (Elt F) (VS2_1.writes (Elt F) VS2_1.junk (runB2 V c t h0 h1 xs0 xs1).2.2.1))
/-- Where kk = 15, over what the point before left in the accumulators. -/
def outC2 (c : Dev nD) (t : Fin cfg2.N) (h0 : ¬t.val % 16 = 0) (h1 : t.val % 16 = 15) (xs0 xs1 : Vec F S1024x512 .f32) : Vec F S1024x64 .f32 × Vec F S1024x512 .f32 × Vec F S1024x512 .f32 :=
  (VO2_11.read (Elt F) (VO2_11.writes (Elt F) VO2_11.junk (runC2 V c t h0 h1 xs0 xs1).1),
   VS2_0.read (Elt F) (VS2_0.writes (Elt F) VS2_0.junk (runC2 V c t h0 h1 xs0 xs1).2.1),
   VS2_1.read (Elt F) (VS2_1.writes (Elt F) VS2_1.junk (runC2 V c t h0 h1 xs0 xs1).2.2.1))

/-! ## What the output block and the accumulators hold after each point -/

/-- After the body at position n: the case the closed forms select at n, run over what position n - 1 left in
    the two accumulators. -/
def outsAt2 (c : Dev nD) : (n : ℕ) → n < cfg2.N → Vec F S1024x64 .f32 × Vec F S1024x512 .f32 × Vec F S1024x512 .f32
  | 0, hn => outA2 V c ⟨0, hn⟩ (Nat.zero_mod _)
  | n + 1, hn =>
    if h0 : (n + 1) % 16 = 0 then outA2 V c ⟨n + 1, hn⟩ h0
    else if h1 : (n + 1) % 16 = 15 then outC2 V c ⟨n + 1, hn⟩ h0 h1 (outsAt2 c n (Nat.lt_of_succ_lt hn)).2.1 (outsAt2 c n (Nat.lt_of_succ_lt hn)).2.2
    else outB2 V c ⟨n + 1, hn⟩ h0 h1 (outsAt2 c n (Nat.lt_of_succ_lt hn)).2.1 (outsAt2 c n (Nat.lt_of_succ_lt hn)).2.2

theorem outsAt2_A (c : Dev nD) (t : Fin cfg2.N) (h0 : t.val % 16 = 0) : outsAt2 V c t.val t.isLt = outA2 V c t h0 := by
  obtain ⟨n, hn⟩ := t
  cases n with
  | zero => exact rfl
  | succ n => exact (dif_pos h0).trans rfl

theorem outsAt2_B (c : Dev nD) (t : Fin cfg2.N) (h0 : ¬t.val % 16 = 0) (h1 : ¬t.val % 16 = 15) :
    outsAt2 V c t.val t.isLt = outB2 V c t h0 h1 (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 16 = 0) (h1 : t.val % 16 = 15) :
    outsAt2 V c t.val t.isLt = outC2 V c t h0 h1 (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-- The region invariant before position n: before the first point every scoped buffer at anything; afterwards the
    two accumulators at what the point before left, the other scoped buffers at anything. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2))
      ∗ Pipeline.scopedRestBut (Ix := Unit) (Name := ℕ) (U := UR sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The arrays as the region finds them; after the body each input's buffer at its block and the output's at
    what the point's case leaves; the invariant carrying the two accumulators; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d

end Cert.Kernel.Hand

end
-- ==== Proof.K.R2Body.lean ====
/-
  Region 2: the body obligation of its pipeline. At every point the inputs' staging buffers hold their blocks;
  the closed forms of the two branch conditions say which of the three cases the point is in, and that case's run
  applies: the invariant hands it the two accumulators (at anything before the first point, then at what the point
  before left) and takes them back at this point's contents; the output block is stored where kk = 15 and left
  untouched elsewhere.
-/
import proofs.«109319_j33217277067916_2_alg».proof.Proof.K.R2Dat

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t)

set_option maxHeartbeats 6400000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
        unfold Dat.leavesExact; rw [liveAt2_0 t], after2_0]
  rw [show (dat2 V c).leavesExact 1 t = owns (c : Thread nD τ) (ms2_1 t) fullShare ((dat2 V c).after 1 t) from by
        unfold Dat.leavesExact; rw [liveAt2_1 t], after2_1]
  rw [show (dat2 V c).leavesExact 2 t = owns (c : Thread nD τ) (ms2_2 t) fullShare ((dat2 V c).after 2 t) from by
        unfold Dat.leavesExact; rw [liveAt2_2 t], after2_2]
  rw [show (dat2 V c).leavesExact 3 t = owns (c : Thread nD τ) (ms2_3 t) fullShare ((dat2 V c).after 3 t) from by
        unfold Dat.leavesExact; rw [liveAt2_3 t], after2_3]
  rw [show (dat2 V c).leavesExact 4 t = owns (c : Thread nD τ) (ms2_4 t) fullShare ((dat2 V c).after 4 t) from by
        unfold Dat.leavesExact; rw [liveAt2_4 t], after2_4]
  rw [show (dat2 V c).leavesExact 5 t = owns (c : Thread nD τ) (ms2_5 t) fullShare ((dat2 V c).after 5 t) from by
        unfold Dat.leavesExact; rw [liveAt2_5 t], after2_5]
  rw [show (dat2 V c).leavesExact 6 t = owns (c : Thread nD τ) (ms2_6 t) fullShare ((dat2 V c).after 6 t) from by
        unfold Dat.leavesExact; rw [liveAt2_6 t], after2_6]
  rw [show (dat2 V c).leavesExact 7 t = owns (c : Thread nD τ) (ms2_7 t) fullShare ((dat2 V c).after 7 t) from by
        unfold Dat.leavesExact; rw [liveAt2_7 t], after2_7]
  rw [show (dat2 V c).leavesExact 8 t = owns (c : Thread nD τ) (ms2_8 t) fullShare ((dat2 V c).after 8 t) from by
        unfold Dat.leavesExact; rw [liveAt2_8 t], after2_8]
  rw [show (dat2 V c).leavesExact 9 t = owns (c : Thread nD τ) (ms2_9 t) fullShare ((dat2 V c).after 9 t) from by
        unfold Dat.leavesExact; rw [liveAt2_9 t], after2_9]
  rw [show (dat2 V c).leavesExact 10 t = owns (c : Thread nD τ) (ms2_10 t) fullShare ((dat2 V c).after 10 t) from by
        unfold Dat.leavesExact; rw [liveAt2_10 t], after2_10]
  by_cases h0 : t.val % 16 = 0
  · -- kk = 0
    rw [Dat.leavesExact_idle (dat2 V c) 11 t (idleAt2_11 t (fun h => absurd ((hcond2_1 t).mp h) (by omega))) (noFlush2_11 t (fun h => absurd ((hcond2_1 t).mp h) (by omega)))]
    rw [outsAt2_A V c t h0]
    unfold outA2; (try dsimp only)
    by_cases hz : t.val = 0
    · rw [PhiS2_castSucc V c t, PhiS2_zero V c _ _ hz, PhiA2_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA2 V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverA2_0 V c t h0)
            · unfold owns; iexists _; isplitr
              swap; · iexact HS1
              ipureintro; exact View.read_writes_of_cover _ _ _ _ _ (scoverA2_1 V c t h0)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA2 V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      isplitl [HS1]; · iexists _; iexact HS1
      iintro ⟨H0, H1, H2, H3, H4, H5, H6, H7, H8, H9, H10, H11, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverA2_0 V c t h0)
            · unfold owns; iexists _; isplitr
              swap; · iexact HS1
              ipureintro; exact View.read_writes_of_cover _ _ _ _ _ (scoverA2_1 V c t h0)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
  · have hz : t.val ≠ 0 := fun e => h0 (by rw [e])
    by_cases h1 : t.val % 16 = 15
    · -- kk = 15
      rw [show (dat2 V c).leavesExact 11 t = owns (c : Thread nD τ) (ms2_11 t) fullShare ((dat2 V c).after 11 t) from by
            unfold Dat.leavesExact; rw [liveAt2_11 t ((hcond2_1 t).mpr h1)], after2_11]
      rw [outsAt2_C V c t h0 h1]
      unfold outC2; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC2 V c t h0 h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, ⟨%e11, H11⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC2_0 V c t h0 h1 _ _)
            · unfold owns; iexists _; isplitr
              swap; · iexact HS1
              ipureintro; exact View.read_writes_of_cover _ _ _ _ _ (scoverC2_1 V c t h0 h1 _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (coverC2_11 V c t h0 h1 _ _)
    · -- 0 < kk < 15
      rw [Dat.leavesExact_idle (dat2 V c) 11 t (idleAt2_11 t (fun h => h1 ((hcond2_1 t).mp h))) (noFlush2_11 t (fun h => h1 ((hcond2_1 t).mp h)))]
      rw [outsAt2_B V c t h0 h1]
      unfold outB2; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB2 V c t h0 h1 _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB2_0 V c t h0 h1 _ _)
            · unfold owns; iexists _; isplitr
              swap; · iexact HS1
              ipureintro; exact View.read_writes_of_cover _ _ _ _ _ (scoverB2_1 V c t h0 h1 _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's form back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Cert.Kernel.Hand

end
-- ==== Proof.K.Run.lean ====
/-
  The whole run of the program: three kernel regions among stretches of host operations. The contents of every
  unscoped buffer at each boundary are a fold from the launch memory — a host stretch's operations applied in order,
  a region's arrays replaced by what its write-backs leave —, and every weakly fair execution terminates with every
  unscoped buffer at the last boundary's contents.
-/
import proofs.«109319_j33217277067916_2_alg».proof.Proof.K.R0
import proofs.«109319_j33217277067916_2_alg».proof.Proof.K.R1Body
import proofs.«109319_j33217277067916_2_alg».proof.Proof.K.R2Body
import proofs.«109319_j33217277067916_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- An input window's array leaves the region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- An input window's array leaves the region as it entered. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)
abbrev V6 : (c : Dev nD) → (b : Ref sig .tc) → Buf (Elt F) ((c : Thread nD τ).loc b) := fun c b => W6 m c b

/-- At region 2's exit: its arrays at what the pipeline leaves, every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)
/-- An input window's array leaves the region as it entered. -/
theorem W7_in (c : Dev nD) (w : Fin cfg2.W) (hw : (cfg2.win w).isOut = false) :
    W7 m c (Proc.devRef .tc (Pipeline.arrRef spec2 w)) = W6 m c (Proc.devRef .tc (Pipeline.arrRef spec2 w)) :=
  (W7_arr m c w).trans (((dat2 (V6 m) c).arrAt_in w hw _).trans (A_eq2 (V6 m) c w))

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V6 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at the boundary's contents, left at the next
    boundary's; its arrays split out of the unscoped buffers and put back at what the pipeline leaves. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (show (pdats m 0 c).Φ (Fin.last _) ⊢ (Pipeline.ΦA spec0 c : sProp 𝕄) from hout0 (V1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's; its arrays split out of the unscoped buffers and put back at what the pipeline leaves. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (show (pdats m 1 c).Φ (Fin.last _) ⊢ (Pipeline.ΦA spec1 c : sProp 𝕄) from hout1 (V2 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary's contents, left at the next
    boundary's; its arrays split out of the unscoped buffers and put back at what the pipeline leaves. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h2 : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (show (pdats m 2 c).Φ (Fin.last _) ⊢ (Pipeline.ΦA spec2 c : sProp 𝕄) from hout2 (V6 m) c).trans h2
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .region (reg2 m) ]

set_option backward.isDefEq.respectTransparency.types false in
/-- Every weakly fair execution of the program from memory m with zero counters terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Hand

end
-- ==== Proof.K.RunArgs.lean ====
/-
  No host operation writes an argument array and no region changes one (a region reads an argument through an
  input window or bypasses it): at the last boundary every argument array holds its launch contents.
-/
import proofs.«109319_j33217277067916_2_alg».proof.Proof.K.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem W7_main_arg0 (c : Dev nD) : W7 m c (Proc.devRef .tc main_arg0) = m ((c : Thread nD τ).loc main_arg0) :=
  (W7_of_ne m c main_arg0 (by decide)).trans <|
    (StableHlo.after_of_writes_sub hostOps2_2 _ hostOps2_2_writes (r := main_arg0) (by decide)).trans <|
    (StableHlo.after_of_writes_sub hostOps2_1 _ hostOps2_1_writes (r := main_arg0) (by decide)).trans <|
    (StableHlo.after_of_writes_sub hostOps2 _ hostOps2_writes (r := main_arg0) (by decide)).trans <|
    (W3_of_ne m c main_arg0 (by decide)).trans <|
    (W2_in m c 0 rfl).trans <|
    (StableHlo.after_of_writes_sub hostOps0 _ hostOps0_writes (r := main_arg0) (by decide)).trans rfl

theorem W7_main_arg1 (c : Dev nD) : W7 m c (Proc.devRef .tc main_arg1) = m ((c : Thread nD τ).loc main_arg1) :=
  (W7_in m c 0 rfl).trans <|
    (StableHlo.after_of_writes_sub hostOps2_2 _ hostOps2_2_writes (r := main_arg1) (by decide)).trans <|
    (StableHlo.after_of_writes_sub hostOps2_1 _ hostOps2_1_writes (r := main_arg1) (by decide)).trans <|
    (StableHlo.after_of_writes_sub hostOps2 _ hostOps2_writes (r := main_arg1) (by decide)).trans <|
    (W3_in m c 0 rfl).trans <|
    (W2_of_ne m c main_arg1 (by decide)).trans <|
    (StableHlo.after_of_writes_sub hostOps0 _ hostOps0_writes (r := main_arg1) (by decide)).trans rfl

theorem W7_main_arg2 (c : Dev nD) : W7 m c (Proc.devRef .tc main_arg2) = m ((c : Thread nD τ).loc main_arg2) :=
  (W7_in m c 1 rfl).trans <|
    (StableHlo.after_of_writes_sub hostOps2_2 _ hostOps2_2_writes (r := main_arg2) (by decide)).trans <|
    (StableHlo.after_of_writes_sub hostOps2_1 _ hostOps2_1_writes (r := main_arg2) (by decide)).trans <|
    (StableHlo.after_of_writes_sub hostOps2 _ hostOps2_writes (r := main_arg2) (by decide)).trans <|
    (W3_in m c 1 rfl).trans <|
    (W2_of_ne m c main_arg2 (by decide)).trans <|
    (StableHlo.after_of_writes_sub hostOps0 _ hostOps0_writes (r := main_arg2) (by decide)).trans rfl

theorem W7_main_arg3 (c : Dev nD) : W7 m c (Proc.devRef .tc main_arg3) = m ((c : Thread nD τ).loc main_arg3) :=
  (W7_of_ne m c main_arg3 (by decide)).trans <|
    (StableHlo.after_of_writes_sub hostOps2_2 _ hostOps2_2_writes (r := main_arg3) (by decide)).trans <|
    (StableHlo.after_of_writes_sub hostOps2_1 _ hostOps2_1_writes (r := main_arg3) (by decide)).trans <|
    (StableHlo.after_of_writes_sub hostOps2 _ hostOps2_writes (r := main_arg3) (by decide)).trans <|
    (W3_of_ne m c main_arg3 (by decide)).trans <|
    (W2_of_ne m c main_arg3 (by decide)).trans <|
    (StableHlo.after_of_writes_sub hostOps0 _ hostOps0_writes (r := main_arg3) (by decide)).trans rfl

theorem W7_main_arg4 (c : Dev nD) : W7 m c (Proc.devRef .tc main_arg4) = m ((c : Thread nD τ).loc main_arg4) :=
  (W7_of_ne m c main_arg4 (by decide)).trans <|
    (StableHlo.after_of_writes_sub hostOps2_2 _ hostOps2_2_writes (r := main_arg4) (by decide)).trans <|
    (StableHlo.after_of_writes_sub hostOps2_1 _ hostOps2_1_writes (r := main_arg4) (by decide)).trans <|
    (StableHlo.after_of_writes_sub hostOps2 _ hostOps2_writes (r := main_arg4) (by decide)).trans <|
    (W3_of_ne m c main_arg4 (by decide)).trans <|
    (W2_of_ne m c main_arg4 (by decide)).trans <|
    (StableHlo.after_of_writes_sub hostOps0 _ hostOps0_writes (r := main_arg4) (by decide)).trans rfl

theorem W7_main_arg5 (c : Dev nD) : W7 m c (Proc.devRef .tc main_arg5) = m ((c : Thread nD τ).loc main_arg5) :=
  (W7_of_ne m c main_arg5 (by decide)).trans <|
    (StableHlo.after_of_writes_sub hostOps2_2 _ hostOps2_2_writes (r := main_arg5) (by decide)).trans <|
    (StableHlo.after_of_writes_sub hostOps2_1 _ hostOps2_1_writes (r := main_arg5) (by decide)).trans <|
    (StableHlo.after_of_writes_sub hostOps2 _ hostOps2_writes (r := main_arg5) (by decide)).trans <|
    (W3_of_ne m c main_arg5 (by decide)).trans <|
    (W2_of_ne m c main_arg5 (by decide)).trans <|
    (StableHlo.after_of_writes_sub hostOps0 _ hostOps0_writes (r := main_arg5) (by decide)).trans rfl

theorem W7_main_arg6 (c : Dev nD) : W7 m c (Proc.devRef .tc main_arg6) = m ((c : Thread nD τ).loc main_arg6) :=
  (W7_of_ne m c main_arg6 (by decide)).trans <|
    (StableHlo.after_of_writes_sub hostOps2_2 _ hostOps2_2_writes (r := main_arg6) (by decide)).trans <|
    (StableHlo.after_of_writes_sub hostOps2_1 _ hostOps2_1_writes (r := main_arg6) (by decide)).trans <|
    (StableHlo.after_of_writes_sub hostOps2 _ hostOps2_writes (r := main_arg6) (by decide)).trans <|
    (W3_of_ne m c main_arg6 (by decide)).trans <|
    (W2_of_ne m c main_arg6 (by decide)).trans <|
    (StableHlo.after_of_writes_sub hostOps0 _ hostOps0_writes (r := main_arg6) (by decide)).trans rfl

theorem W7_main_arg7 (c : Dev nD) : W7 m c (Proc.devRef .tc main_arg7) = m ((c : Thread nD τ).loc main_arg7) :=
  (W7_of_ne m c main_arg7 (by decide)).trans <|
    (StableHlo.after_of_writes_sub hostOps2_2 _ hostOps2_2_writes (r := main_arg7) (by decide)).trans <|
    (StableHlo.after_of_writes_sub hostOps2_1 _ hostOps2_1_writes (r := main_arg7) (by decide)).trans <|
    (StableHlo.after_of_writes_sub hostOps2 _ hostOps2_writes (r := main_arg7) (by decide)).trans <|
    (W3_of_ne m c main_arg7 (by decide)).trans <|
    (W2_of_ne m c main_arg7 (by decide)).trans <|
    (StableHlo.after_of_writes_sub hostOps0 _ hostOps0_writes (r := main_arg7) (by decide)).trans rfl

theorem W7_main_arg8 (c : Dev nD) : W7 m c (Proc.devRef .tc main_arg8) = m ((c : Thread nD τ).loc main_arg8) :=
  (W7_of_ne m c main_arg8 (by decide)).trans <|
    (StableHlo.after_of_writes_sub hostOps2_2 _ hostOps2_2_writes (r := main_arg8) (by decide)).trans <|
    (StableHlo.after_of_writes_sub hostOps2_1 _ hostOps2_1_writes (r := main_arg8) (by decide)).trans <|
    (StableHlo.after_of_writes_sub hostOps2 _ hostOps2_writes (r := main_arg8) (by decide)).trans <|
    (W3_of_ne m c main_arg8 (by decide)).trans <|
    (W2_of_ne m c main_arg8 (by decide)).trans <|
    (StableHlo.after_of_writes_sub hostOps0 _ hostOps0_writes (r := main_arg8) (by decide)).trans rfl

/-- The frame claim's post from the run's: every argument array as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c)⟩) (run_all m ρ)

end Cert.Kernel.Hand

end
-- ==== Proof.KI.R0.lean ====
/- REGION 0 of @main (custom_call 0: h = relu(x · W + b) on a grid of 8 row blocks), at a PARAMETER `V` — the
   TensorCore's buffer contents when the region is entered. Windows: 0 the rows of x (a block of 1024 × 512 per
   point), 1 the whole of W (512 × 256), 2 the whole of b (1 × 256), 3 the OUTPUT rows of h (a block of 1024 × 256
   per point). The body reads its three input buffers and overwrites the whole output buffer with one store, so what
   it leaves in the output buffer is a closed function of the three input blocks at the point (`out0_3`), and the
   region's invariant is the class's (the scoped rest and the generator register, untouched). Stated at any `F`. -/
import proofs.«109319_j33217277067916_2_alg».proof.Proof.Gen.KernelIdeal.Launch
import proofs.«109319_j33217277067916_2_alg».proof.Proof.Gen.KernelIdeal.Skeleton
import proofs.«109319_j33217277067916_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): where the window is not
    fetched its block index has not moved. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1 (the whole of W, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same of input window 2 (the whole of b, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev r0_0 : Rect S1024x512 := Rect.unit (s := S1024x512) ![0, 0] S1024x512.size inb_S1024x512_S1024x512_0_0
abbrev r0_1 : Rect S512x256 := Rect.unit (s := S512x256) ![0, 0] S512x256.size inb_S512x256_S512x256_0_0
abbrev r0_2 : Rect S1x256 := Rect.unit (s := S1x256) ![0, 0] S1x256.size inb_S1x256_S1x256_0_0
abbrev r0_3 : Rect S1024x256 := Rect.unit (s := S1024x256) ![0, 0] S1024x256.size inb_S1024x256_S1024x256_0_0

/-! ## What the body leaves in the output window's buffer -/

/-- Window 3's staging buffer after the body, from the input windows' blocks: its one store as a piece, the payload
    the skeleton's (relu of the product of the rows' block with W plus b, at the program's roundings). -/
def out0_3 (x0 : Vec F S1024x512 .f32) (x1 : Vec F S512x256 .f32) (x2 : Vec F S1x256 .f32) : Vec F S1024x256 .f32 :=
  View.canon [⟨r0_3, k0_pay1 (View.ld x0 r0_0) (View.ld x1 r0_1) (View.ld x2 r0_2)⟩]

/-- The store's rectangle is the whole buffer, so it covers it. -/
theorem cover0_3 (p0 : Vec F S1024x256 .f32) (y : S1024x256.Idx) :
    ∃ pc ∈ ([⟨r0_3, p0⟩] : List (View.Piece (Elt F) S1024x256 .f32)), y ∈ pc.1.set :=
  View.cover_of_tiled [⟨r0_3, p0⟩] S1024x256.size (by rfl) y

/-! ## The body's triple -/

set_option maxHeartbeats 1000000 in
/-- The kernel body on whole staging memrefs, the inputs' at read contents `x0 x1 x2` and the output's at anything,
    runs to the continuation holding the inputs' as they were and the output's at `out0_3` of the inputs'. The grid
    coordinate `i` is not read. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S1024x256 .f32) (harg4 : arg4.IsWhole)
    (x0 : Vec F S1024x512 .f32) (x1 : Vec F S512x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the class's (the
    scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant is the class's at every point (the definition projected). -/
theorem Φ_eq0 (c : Dev nD) (j : Fin (cfg0.N + 1)) : (dat0 V c).Φ j = (Pipeline.ΦA spec0 c : sProp 𝕄) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The invariant at the region's two ends -/

/-- Entering: the class's invariant is the proof data's at the first point. -/
theorem hin0 (c : Dev nD) : (Pipeline.ΦA spec0 c : sProp 𝕄) ⊢ (dat0 V c).Φ 0 := by
  rw [Φ_eq0]
/-- Leaving: the proof data's invariant after the last point is the class's. -/
theorem hout0 (c : Dev nD) : (dat0 V c).Φ (Fin.last cfg0.N) ⊢ (Pipeline.ΦA spec0 c : sProp 𝕄) := by
  rw [Φ_eq0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Base.lean ====
/-
  Region 1 (the first adjacency pass, z_raw = [A1·h | A2·h]): what its three control cases share.
  The grid is 8 × 16 with coordinates (i, kk); the two accumulators are zeroed where kk = 0, every point adds
  one 1024×512 by 512×256 product onto each, and where kk = 15 the two accumulators are stored side by side
  into the output block. Here: the two branch conditions in closed form over the grid, where the output window
  is idle, the staging and scratch memrefs, and the region invariant's scoped part with the two accumulators named.
-/
import proofs.«109319_j33217277067916_2_alg».proof.Proof.Gen.KernelIdeal.Launch
import proofs.«109319_j33217277067916_2_alg».proof.Proof.Gen.KernelIdeal.Skeleton
import proofs.«109319_j33217277067916_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The first branch is taken where the reduction coordinate kk is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The second branch is taken where kk is 15, the last block of the reduction. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from kk = 15 nothing is stored into the output block: the window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging and scratch memrefs -/

abbrev VO1_3 : View sig .tc .vmem S1024x512 .f32 := (Memref.whole cc1_stg3_0 : Memref sig .tc .vmem S1024x512 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
/-- The two accumulators: whole scoped buffers of the kernel's own. -/
abbrev scM1_0 : Memref sig .tc .vmem S1024x256 .f32 := Memref.whole cc1_scratch0
abbrev scM1_1 : Memref sig .tc .vmem S1024x256 .f32 := Memref.whole cc1_scratch1
abbrev VS1_0 : View sig .tc .vmem S1024x256 .f32 := scM1_0.view
abbrev VS1_1 : View sig .tc .vmem S1024x256 .f32 := scM1_1.view

/-- The region's scoped invariant with the two accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.KernelIdeal.Hand

end
-- ==== Proof.KI.R1RunA.lean ====
/-
  Region 1, the case kk = 0: the two accumulators are zeroed and the first products added; nothing is stored into
  the output block. The run of the body on whole staging memrefs, with the pieces each accumulator ends with.
-/
import proofs.«109319_j33217277067916_2_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case kk = 0. The inputs' memrefs at their contents, the output's at contents handed back untouched, the two
    accumulators at anything: the body runs to the continuation holding the inputs as they were and each accumulator
    with its pieces written. -/
noncomputable def kernelRun1_A (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i)
    (x0 : Vec F S1024x512 .f32) (x1 : Vec F S1024x512 .f32) (x2 : Vec F S8192x256 .f32) :
    Σ' (LS0 : List (View.Piece (Elt F) S1024x256 .f32)), { LS1 : List (View.Piece (Elt F) S1024x256 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__conv_kernel_plain i arg2 harg2 arg3 harg3 arg4 harg4 arg5 harg5 arg6 harg6 arg7 harg7) K } := by
  refine ⟨?_, ?_, fun xi3 E K => ?run⟩
  case run =>
    simp only [cc1__conv_kernel_plain_eq_skeleton]; unfold cc1__conv_kernel_plain_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.R1RunB.lean ====
/-
  Region 1, the case 0 < kk < 15: each accumulator, at what the point before left in it, has one more product
  added; nothing is stored into the output block.
-/
import proofs.«109319_j33217277067916_2_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case 0 < kk < 15. The inputs' memrefs at their contents, the output's at contents handed back untouched, the two
    accumulators at the contents the point before left: the body runs to the continuation holding the inputs as they
    were and each accumulator with its pieces written. -/
noncomputable def kernelRun1_B (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i)
    (x0 : Vec F S1024x512 .f32) (x1 : Vec F S1024x512 .f32) (x2 : Vec F S8192x256 .f32) (xs0 : Vec F S1024x256 .f32) (xs1 : Vec F S1024x256 .f32) :
    Σ' (LS0 : List (View.Piece (Elt F) S1024x256 .f32)), { LS1 : List (View.Piece (Elt F) S1024x256 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__conv_kernel_plain i arg2 harg2 arg3 harg3 arg4 harg4 arg5 harg5 arg6 harg6 arg7 harg7) K } := by
  refine ⟨?_, ?_, fun xi3 E K => ?run⟩
  case run =>
    simp only [cc1__conv_kernel_plain_eq_skeleton]; unfold cc1__conv_kernel_plain_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.R1RunC.lean ====
/-
  Region 1, the case kk = 15: each accumulator, at what the point before left in it, has the last product added,
  and the two are stored side by side into the output block (columns 0–255 and 256–511).
-/
import proofs.«109319_j33217277067916_2_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case kk = 15. The inputs' memrefs at their contents, the output's at anything, the two accumulators at the
    contents the point before left: the body runs to the continuation holding the inputs as they were, the output
    block and each accumulator with its pieces written. -/
noncomputable def kernelRun1_C (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i)
    (x0 : Vec F S1024x512 .f32) (x1 : Vec F S1024x512 .f32) (x2 : Vec F S8192x256 .f32) (xs0 : Vec F S1024x256 .f32) (xs1 : Vec F S1024x256 .f32) :
    Σ' (L3 : List (View.Piece (Elt F) S1024x512 .f32)) (LS0 : List (View.Piece (Elt F) S1024x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__conv_kernel_plain i arg2 harg2 arg3 harg3 arg4 harg4 arg5 harg5 arg6 harg6 arg7 harg7) K } := by
  refine ⟨?_, ?_, ?_, fun E K => ?run⟩
  case run =>
    simp only [cc1__conv_kernel_plain_eq_skeleton]; unfold cc1__conv_kernel_plain_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.KI.R1Dat.lean ====
/-
  Region 1 (z_raw = [A1·h | A2·h]): the proof data of its pipeline at the contents V the region is entered with.
  After the body at a point the two accumulators hold: at kk = 0 the first products over zero; at kk > 0 the
  point's products added to what the point before left. At kk = 15 the output block is the two accumulators side
  by side; elsewhere the output window is idle. The region invariant carries both accumulators at those contents
  from one point to the next.
-/
import proofs.«109319_j33217277067916_2_alg».proof.Proof.KI.R1RunA
import proofs.«109319_j33217277067916_2_alg».proof.Proof.KI.R1RunB
import proofs.«109319_j33217277067916_2_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem not15_of_0 {n : ℕ} (h : n % 16 = 0) : ¬ n % 16 = 15 := by omega

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A_0 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x512 .f32) (x1 : Vec F S1024x512 .f32) (x2 : Vec F S8192x256 .f32) (y : S1024x256.Idx) :
    ∃ pc ∈ (kernelRun1_A c i arg2 harg2 arg3 harg3 arg4 harg4 arg5 harg5 arg6 harg6 arg7 harg7 hc0 hc1 x0 x1 x2).1, y ∈ pc.1.set :=
  View.cover_of_tiledL (kernelRun1_A c i arg2 harg2 arg3 harg3 arg4 harg4 arg5 harg5 arg6 harg6 arg7 harg7 hc0 hc1 x0 x1 x2).1 S1024x256.size (by sl_kernel_rfl) y
theorem scover1_A_1 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x512 .f32) (x1 : Vec F S1024x512 .f32) (x2 : Vec F S8192x256 .f32) (y : S1024x256.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S1024x256.size (by sl_kernel_rfl) y
/-- What the case kk = 0 leaves in the first accumulator: its pieces read back. -/
def sout1_A_0 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x512 .f32) (x1 : Vec F S1024x512 .f32) (x2 : Vec F S8192x256 .f32) : Vec F S1024x256 .f32 :=
  VS1_0.read (Elt F) (VS1_0.writes (Elt F) VS1_0.junk (kernelRun1_A c i arg2 harg2 arg3 harg3 arg4 harg4 arg5 harg5 arg6 harg6 arg7 harg7 hc0 hc1 x0 x1 x2).1)
def sout1_A_1 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x512 .f32) (x1 : Vec F S1024x512 .f32) (x2 : Vec F S8192x256 .f32) : Vec F S1024x256 .f32 :=
  VS1_1.read (Elt F) (VS1_1.writes (Elt F) VS1_1.junk (kernelRun1_A c i arg2 harg2 arg3 harg3 arg4 harg4 arg5 harg5 arg6 harg6 arg7 harg7 hc0 hc1 x0 x1 x2).2.1)

theorem scover1_B_0 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x512 .f32) (x1 : Vec F S1024x512 .f32) (x2 : Vec F S8192x256 .f32) (xs0 xs1 : Vec F S1024x256 .f32) (y : S1024x256.Idx) :
    ∃ pc ∈ (kernelRun1_B c i arg2 harg2 arg3 harg3 arg4 harg4 arg5 harg5 arg6 harg6 arg7 harg7 hc0 hc1 x0 x1 x2 xs0 xs1).1, y ∈ pc.1.set :=
  View.cover_of_tiledL (kernelRun1_B c i arg2 harg2 arg3 harg3 arg4 harg4 arg5 harg5 arg6 harg6 arg7 harg7 hc0 hc1 x0 x1 x2 xs0 xs1).1 S1024x256.size (by sl_kernel_rfl) y
theorem scover1_B_1 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x512 .f32) (x1 : Vec F S1024x512 .f32) (x2 : Vec F S8192x256 .f32) (xs0 xs1 : Vec F S1024x256 .f32) (y : S1024x256.Idx) :
    ∃ pc ∈ (kernelRun1_B c i arg2 harg2 arg3 harg3 arg4 harg4 arg5 harg5 arg6 harg6 arg7 harg7 hc0 hc1 x0 x1 x2 xs0 xs1).2.1, y ∈ pc.1.set :=
  View.cover_of_tiledL (kernelRun1_B c i arg2 harg2 arg3 harg3 arg4 harg4 arg5 harg5 arg6 harg6 arg7 harg7 hc0 hc1 x0 x1 x2 xs0 xs1).2.1 S1024x256.size (by sl_kernel_rfl) y
def sout1_B_0 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x512 .f32) (x1 : Vec F S1024x512 .f32) (x2 : Vec F S8192x256 .f32) (xs0 xs1 : Vec F S1024x256 .f32) : Vec F S1024x256 .f32 :=
  VS1_0.read (Elt F) (VS1_0.writes (Elt F) VS1_0.junk (kernelRun1_B c i arg2 harg2 arg3 harg3 arg4 harg4 arg5 harg5 arg6 harg6 arg7 harg7 hc0 hc1 x0 x1 x2 xs0 xs1).1)
def sout1_B_1 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x512 .f32) (x1 : Vec F S1024x512 .f32) (x2 : Vec F S8192x256 .f32) (xs0 xs1 : Vec F S1024x256 .f32) : Vec F S1024x256 .f32 :=
  VS1_1.read (Elt F) (VS1_1.writes (Elt F) VS1_1.junk (kernelRun1_B c i arg2 harg2 arg3 harg3 arg4 harg4 arg5 harg5 arg6 harg6 arg7 harg7 hc0 hc1 x0 x1 x2 xs0 xs1).2.1)

theorem cover1_C_3 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x512 .f32) (x1 : Vec F S1024x512 .f32) (x2 : Vec F S8192x256 .f32) (xs0 xs1 : Vec F S1024x256 .f32) (y : S1024x512.Idx) :
    ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S1024x256.size (by sl_kernel_rfl) y
theorem scover1_C_0 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x512 .f32) (x1 : Vec F S1024x512 .f32) (x2 : Vec F S8192x256 .f32) (xs0 xs1 : Vec F S1024x256 .f32) (y : S1024x256.Idx) :
    ∃ pc ∈ (kernelRun1_C c i arg2 harg2 arg3 harg3 arg4 harg4 arg5 harg5 arg6 harg6 arg7 harg7 hc0 hc1 x0 x1 x2 xs0 xs1).2.1, y ∈ pc.1.set :=
  View.cover_of_tiledL (kernelRun1_C c i arg2 harg2 arg3 harg3 arg4 harg4 arg5 harg5 arg6 harg6 arg7 harg7 hc0 hc1 x0 x1 x2 xs0 xs1).2.1 S1024x256.size (by sl_kernel_rfl) y
theorem scover1_C_1 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x512 .f32) (x1 : Vec F S1024x512 .f32) (x2 : Vec F S8192x256 .f32) (xs0 xs1 : Vec F S1024x256 .f32) (y : S1024x256.Idx) :
    ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL (kernelRun1_C c i arg2 harg2 arg3 harg3 arg4 harg4 arg5 harg5 arg6 harg6 arg7 harg7 hc0 hc1 x0 x1 x2 xs0 xs1).2.2.1 S1024x256.size (by sl_kernel_rfl) y
/-- What the case kk = 15 leaves in the output block: its two column pieces read back. -/
def out1_C_3 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x512 .f32) (x1 : Vec F S1024x512 .f32) (x2 : Vec F S8192x256 .f32) (xs0 xs1 : Vec F S1024x256 .f32) : Vec F S1024x512 .f32 :=
  VO1_3.read (Elt F) (VO1_3.writes (Elt F) VO1_3.junk (kernelRun1_C c i arg2 harg2 arg3 harg3 arg4 harg4 arg5 harg5 arg6 harg6 arg7 harg7 hc0 hc1 x0 x1 x2 xs0 xs1).1)
def sout1_C_0 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x512 .f32) (x1 : Vec F S1024x512 .f32) (x2 : Vec F S8192x256 .f32) (xs0 xs1 : Vec F S1024x256 .f32) : Vec F S1024x256 .f32 :=
  VS1_0.read (Elt F) (VS1_0.writes (Elt F) VS1_0.junk (kernelRun1_C c i arg2 harg2 arg3 harg3 arg4 harg4 arg5 harg5 arg6 harg6 arg7 harg7 hc0 hc1 x0 x1 x2 xs0 xs1).2.1)
def sout1_C_1 (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x512 .f32) (x1 : Vec F S1024x512 .f32) (x2 : Vec F S8192x256 .f32) (xs0 xs1 : Vec F S1024x256 .f32) : Vec F S1024x256 .f32 :=
  VS1_1.read (Elt F) (VS1_1.writes (Elt F) VS1_1.junk (kernelRun1_C c i arg2 harg2 arg3 harg3 arg4 harg4 arg5 harg5 arg6 harg6 arg7 harg7 hc0 hc1 x0 x1 x2 xs0 xs1).2.2.1)

/-! ## What the output block and the accumulators hold after each point -/

/-- After the body at position n: the output block (a placeholder where the window is idle) and the two accumulators. -/
def outsAt1 (c : Dev nD) : (n : ℕ) → n < cfg1.N → Vec F S1024x512 .f32 × Vec F S1024x256 .f32 × Vec F S1024x256 .f32
  | 0, hn => (VO1_3.read (Elt F) VO1_3.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => not15_of_0 (Nat.zero_mod _) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => not15_of_0 (Nat.zero_mod _) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      (VO1_3.read (Elt F) VO1_3.junk, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => not15_of_0 h0 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => not15_of_0 h0 ((hcond1_1 ⟨n + 1, hn⟩).mp h)) (iblk1 V c 0 ⟨n + 1, hn⟩) (iblk1 V c 1 ⟨n + 1, hn⟩) (iblk1 V c 2 ⟨n + 1, hn⟩))
    else if h1 : (n + 1) % 16 = 15 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
    else
      (VO1_3.read (Elt F) VO1_3.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

theorem outsAt1_A (c : Dev nD) (t : Fin cfg1.N) (h0 : t.val % 16 = 0) :
    outsAt1 V c t.val t.isLt = (VO1_3.read (Elt F) VO1_3.junk, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => not15_of_0 h0 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => not15_of_0 h0 ((hcond1_1 t).mp h)) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt = (VO1_3.read (Elt F) VO1_3.junk, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-- The region invariant before position n: before the first point every scoped buffer at anything; afterwards the
    two accumulators at what the point before left, the other scoped buffers at anything. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.KI.R1Body.lean ====
/-
  Region 1: the body obligation of its pipeline. At every grid point the body, entered with the invariant (the two
  accumulators at what the point before left, or anything before the first point) and the windows' staging buffers
  at their blocks, runs to the invariant of the next point and the buffers at what the proof data say: by cases on
  kk = 0, 0 < kk < 15, kk = 15, each closed by that case's run.
-/
import proofs.«109319_j33217277067916_2_alg».proof.Proof.KI.R1Dat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 16 = 0
  · -- kk = 0
    rw [Dat.leavesExact_idle (dat1 V c) 3 t (idleAt1_3 t (fun h => not15_of_0 h0 ((hcond1_1 t).mp h))) (noFlush1_3 t (fun h => not15_of_0 h0 ((hcond1_1 t).mp h)))]
    rw [outsAt1_A V c t h0]
    unfold sout1_A_0 sout1_A_1; (try dsimp only)
    by_cases hz : t.val = 0
    · rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => not15_of_0 h0 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ )
            · unfold owns; iexists _; isplitr
              swap; · iexact HS1
              ipureintro; exact View.read_writes_of_cover _ _ _ _ _ (scover1_A_1 c _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => not15_of_0 h0 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ )
            · unfold owns; iexists _; isplitr
              swap; · iexact HS1
              ipureintro; exact View.read_writes_of_cover _ _ _ _ _ (scover1_A_1 c _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · -- kk = 15
      rw [show (dat1 V c).leavesExact 3 t = owns (c : Thread nD τ) (ms1_3 t) fullShare ((dat1 V c).after 3 t) from by
            unfold Dat.leavesExact; rw [liveAt1_3 t ((hcond1_1 t).mpr h1)], after1_3]
      rw [outsAt1_C V c t h0 h1]
      unfold out1_C_3 sout1_C_0 sout1_C_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ )
            · unfold owns; iexists _; isplitr
              swap; · iexact HS1
              ipureintro; exact View.read_writes_of_cover _ _ _ _ _ (scover1_C_1 c _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ )
    · -- 0 < kk < 15
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ )
            · unfold owns; iexists _; isplitr
              swap; · iexact HS1
              ipureintro; exact View.read_writes_of_cover _ _ _ _ _ (scover1_B_1 c _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KI.R2Base.lean ====
/-
  Region 2 (the final pass: the second adjacency product, the normalisation and the output projection): what
  its three control cases share. The grid is 8 × 16 with coordinates (i, kk). Two 1024×512 accumulators are
  zeroed where kk = 0; every point adds onto each the product of one 1024×512 adjacency block with the
  normalised 512×512 slice of the features at rows 512·kk; where kk = 15 the epilogue combines the two
  accumulators, the block's own normalised rows and the earlier features through the four weight matrices and
  stores the 1024×64 output block. Here: the two branch conditions in closed form over the grid, where the
  output window is idle, the staging and scratch memrefs, and the region invariant's scoped part with the two
  accumulators named.
-/
import proofs.«109319_j33217277067916_2_alg».proof.Proof.Gen.KernelIdeal.Launch
import proofs.«109319_j33217277067916_2_alg».proof.Proof.Gen.KernelIdeal.Skeleton
import proofs.«109319_j33217277067916_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The first branch (zero the accumulators) is taken where the reduction coordinate kk is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)

/-- The second branch (the epilogue) is taken where kk is 15, the last block of the reduction. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl
theorem liveAt2_9 : ∀ t : Fin cfg2.N, cfg2.idle 9 (grid2.coords t) = false := fun _ => rfl
theorem liveAt2_10 : ∀ t : Fin cfg2.N, cfg2.idle 10 (grid2.coords t) = false := fun _ => rfl
/-- Away from kk = 15 nothing is stored into the output block: the window is idle and not written back. -/
theorem idleAt2_11 : ∀ t : Fin cfg2.N, ¬cond2_1 (grid2.coords t) → cfg2.idle 11 (grid2.coords t) = true := by decide +kernel
theorem noFlush2_11 : ∀ t : Fin cfg2.N, ¬cond2_1 (grid2.coords t) → (cfg2.win 11).flush t = false := by decide +kernel
theorem liveAt2_11 : ∀ t : Fin cfg2.N, cond2_1 (grid2.coords t) → cfg2.idle 11 (grid2.coords t) = false := by decide +kernel

/-! ## The staging and scratch memrefs -/

/-- One staging buffer of the output window, through which its contents are stated. -/
abbrev VO2_11 : View sig .tc .vmem S1024x64 .f32 := (Memref.whole cc2_stg11_0 : Memref sig .tc .vmem S1024x64 .f32).view
abbrev ms2_0 (t : Fin cfg2.N) : Memref sig .tc .vmem S1024x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8192x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S256x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S512x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S512x64 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S512x64 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x64 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1024x64 .f32 := win2_11.stage (cfg2.slots t 11)
abbrev hs2_11 (t : Fin cfg2.N) : (ms2_11 t).IsWhole := hstage2_11 ((cfg2.slots t 11).cast nbuf2_11)
/-- The two accumulators: whole scoped buffers of the kernel's own. -/
abbrev scM2_0 : Memref sig .tc .vmem S1024x512 .f32 := Memref.whole cc2_scratch0
abbrev scM2_1 : Memref sig .tc .vmem S1024x512 .f32 := Memref.whole cc2_scratch1
abbrev VS2_0 : View sig .tc .vmem S1024x512 .f32 := scM2_0.view
abbrev VS2_1 : View sig .tc .vmem S1024x512 .f32 := scM2_1.view

/-- The core's scoped buffers that no window of this call stages, split at the two accumulators. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f) ∗ (∃ f : Buf Val ((c : Thread nD τ).loc cc2_scratch1), ((c : Thread nD τ).loc cc2_scratch1) ↦{fullShare} f))
          ∗ Pipeline.scopedRestBut (Ix := Ix) (Name := Name) (U := U) (Lvl := Lvl) (Val := Val) spec2 c [cc2_scratch0, cc2_scratch1]) :=
  Pipeline.scopedRest_split_of_list spec2 c [cc2_scratch0, cc2_scratch1] (by decide) (by decide)

/-- The region's scoped invariant with the two accumulators as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Hand

end
-- ==== Proof.KI.R2RunA.lean ====
/-
  Region 2, the body's run in case A of its control (see the definition's comment).
-/
import proofs.«109319_j33217277067916_2_alg».proof.Proof.KI.R2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where kk = 0: the accumulators are zeroed, then the point's two products are added; nothing is stored into the output block.
    On whole memrefs, the inputs' at their contents, the body runs to the continuation holding the inputs' as they
    were and each accumulator (and, where kk = 15, the output block) with its stores written, as pieces, last first. -/
noncomputable def kernelRun2_A (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x256 .f32) (harg7 : arg7.IsWhole) (arg8 : Memref sig .tc .vmem S256x64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S1x64 .f32) (harg12 : arg12.IsWhole) (arg13 : Memref sig .tc .vmem S1024x64 .f32) (harg13 : arg13.IsWhole) (arg14 : Memref sig .tc .vmem S1024x512 .f32) (harg14 : arg14.IsWhole) (arg15 : Memref sig .tc .vmem S1024x512 .f32) (harg15 : arg15.IsWhole) (hc0 : cond2_0 i) (hc1 : ¬cond2_1 i)
    (x0 : Vec F S1024x512 .f32) (x1 : Vec F S1024x512 .f32) (x2 : Vec F S8192x512 .f32) (x3 : Vec F S1x512 .f32) (x4 : Vec F S1x512 .f32) (x5 : Vec F S1024x256 .f32) (x6 : Vec F S256x64 .f32) (x7 : Vec F S512x64 .f32) (x8 : Vec F S512x64 .f32) (x9 : Vec F S512x64 .f32) (x10 : Vec F S1x64 .f32) :
    Σ' (L11 : List (View.Piece (Elt F) S1024x64 .f32)) (LS0 : List (View.Piece (Elt F) S1024x512 .f32)), { LS1 : List (View.Piece (Elt F) S1024x512 .f32) //
      ∀ (xi11 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc2__conv_final_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, fun xi11 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_unfold [cc2__conv_final_kernel]
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _; iexact HS1

end Cert.KernelIdeal.Hand

end
-- ==== Proof.KI.R2RunB.lean ====
/-
  Region 2, the body's run in case B of its control (see the definition's comment).
-/
import proofs.«109319_j33217277067916_2_alg».proof.Proof.KI.R2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where 0 < kk < 15: the point's two products are added onto what the point before left in the accumulators; nothing is stored into the output block.
    On whole memrefs, the inputs' at their contents, the body runs to the continuation holding the inputs' as they
    were and each accumulator (and, where kk = 15, the output block) with its stores written, as pieces, last first. -/
noncomputable def kernelRun2_B (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x256 .f32) (harg7 : arg7.IsWhole) (arg8 : Memref sig .tc .vmem S256x64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S1x64 .f32) (harg12 : arg12.IsWhole) (arg13 : Memref sig .tc .vmem S1024x64 .f32) (harg13 : arg13.IsWhole) (arg14 : Memref sig .tc .vmem S1024x512 .f32) (harg14 : arg14.IsWhole) (arg15 : Memref sig .tc .vmem S1024x512 .f32) (harg15 : arg15.IsWhole) (hc0 : ¬cond2_0 i) (hc1 : ¬cond2_1 i)
    (x0 : Vec F S1024x512 .f32) (x1 : Vec F S1024x512 .f32) (x2 : Vec F S8192x512 .f32) (x3 : Vec F S1x512 .f32) (x4 : Vec F S1x512 .f32) (x5 : Vec F S1024x256 .f32) (x6 : Vec F S256x64 .f32) (x7 : Vec F S512x64 .f32) (x8 : Vec F S512x64 .f32) (x9 : Vec F S512x64 .f32) (x10 : Vec F S1x64 .f32) (xs0 : Vec F S1024x512 .f32) (xs1 : Vec F S1024x512 .f32) :
    Σ' (L11 : List (View.Piece (Elt F) S1024x64 .f32)) (LS0 : List (View.Piece (Elt F) S1024x512 .f32)), { LS1 : List (View.Piece (Elt F) S1024x512 .f32) //
      ∀ (xi11 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc2__conv_final_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, fun xi11 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1
    sl_unfold [cc2__conv_final_kernel]
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _; iexact HS1

end Cert.KernelIdeal.Hand

end
-- ==== Proof.KI.R2RunC.lean ====
/-
  Region 2, the body's run in case C of its control (see the definition's comment).
-/
import proofs.«109319_j33217277067916_2_alg».proof.Proof.KI.R2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where kk = 15: the point's two products are added onto what the point before left, then the epilogue reads both accumulators and stores the whole output block.
    On whole memrefs, the inputs' at their contents, the body runs to the continuation holding the inputs' as they
    were and each accumulator (and, where kk = 15, the output block) with its stores written, as pieces, last first. -/
noncomputable def kernelRun2_C (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x256 .f32) (harg7 : arg7.IsWhole) (arg8 : Memref sig .tc .vmem S256x64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S1x64 .f32) (harg12 : arg12.IsWhole) (arg13 : Memref sig .tc .vmem S1024x64 .f32) (harg13 : arg13.IsWhole) (arg14 : Memref sig .tc .vmem S1024x512 .f32) (harg14 : arg14.IsWhole) (arg15 : Memref sig .tc .vmem S1024x512 .f32) (harg15 : arg15.IsWhole) (hc0 : ¬cond2_0 i) (hc1 : cond2_1 i)
    (x0 : Vec F S1024x512 .f32) (x1 : Vec F S1024x512 .f32) (x2 : Vec F S8192x512 .f32) (x3 : Vec F S1x512 .f32) (x4 : Vec F S1x512 .f32) (x5 : Vec F S1024x256 .f32) (x6 : Vec F S256x64 .f32) (x7 : Vec F S512x64 .f32) (x8 : Vec F S512x64 .f32) (x9 : Vec F S512x64 .f32) (x10 : Vec F S1x64 .f32) (xs0 : Vec F S1024x512 .f32) (xs1 : Vec F S1024x512 .f32) :
    Σ' (L11 : List (View.Piece (Elt F) S1024x64 .f32)) (LS0 : List (View.Piece (Elt F) S1024x512 .f32)), { LS1 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc2__conv_final_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0; obtain rfl := harg15.eq_unread hfs1
    sl_unfold [cc2__conv_final_kernel]
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [HS0]; · iexists _; iexact HS0
    iexists _; iexact HS1

end Cert.KernelIdeal.Hand

end
-- ==== Proof.KI.R2Blk.lean ====
/-
  Region 2: the windows' blocks read off the arrays as the region finds them, and that each input window's
  current staging buffer holds its block at every point, fetched there or not.
-/
import proofs.«109319_j33217277067916_2_alg».proof.Proof.KI.R2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point: an input the body leaves in place,
    never idle, its blocks uncut; unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point: an input the body leaves in place,
    never idle, its blocks uncut; unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point: an input the body leaves in place,
    never idle, its blocks uncut; unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point: an input the body leaves in place,
    never idle, its blocks uncut; unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point: an input the body leaves in place,
    never idle, its blocks uncut; unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point: an input the body leaves in place,
    never idle, its blocks uncut; unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point: an input the body leaves in place,
    never idle, its blocks uncut; unfetched, the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point: an input the body leaves in place,
    never idle, its blocks uncut; unfetched, the block index has not moved. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point: an input the body leaves in place,
    never idle, its blocks uncut; unfetched, the block index has not moved. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point: an input the body leaves in place,
    never idle, its blocks uncut; unfetched, the block index has not moved. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's current staging buffer holds its block at every point: an input the body leaves in place,
    never idle, its blocks uncut; unfetched, the block index has not moved. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

end Cert.KernelIdeal.Hand

end
-- ==== Proof.KI.R2Dat.lean ====
/-
  Region 2: the proof data of its pipeline at the contents V the region is entered with.
  After the body at a point the two accumulators hold: where kk = 0 the point's two products over zero; where
  kk > 0 the point's products added to what the point before left. Where kk = 15 the output block is what the
  epilogue stores; elsewhere the output window is idle. The region invariant carries both accumulators at those
  contents from one point to the next.
-/
import proofs.«109319_j33217277067916_2_alg».proof.Proof.KI.R2RunA
import proofs.«109319_j33217277067916_2_alg».proof.Proof.KI.R2RunB
import proofs.«109319_j33217277067916_2_alg».proof.Proof.KI.R2RunC
import proofs.«109319_j33217277067916_2_alg».proof.Proof.KI.R2Blk

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The body's run at a point of the grid, on the point's staging memrefs and input blocks -/

/-- The run where kk = 0, at point t. -/
def runA2 (c : Dev nD) (t : Fin cfg2.N) (h0 : t.val % 16 = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) ((hcond2_0 t).mpr h0) (fun h => absurd ((hcond2_1 t).mp h) (by omega)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
/-- The run where 0 < kk < 15, at point t, over the accumulators' contents xs0, xs1. -/
def runB2 (c : Dev nD) (t : Fin cfg2.N) (h0 : ¬t.val % 16 = 0) (h1 : ¬t.val % 16 = 15) (xs0 xs1 : Vec F S1024x512 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) xs0 xs1
/-- The run where kk = 15, at point t, over the accumulators' contents xs0, xs1. -/
def runC2 (c : Dev nD) (t : Fin cfg2.N) (h0 : ¬t.val % 16 = 0) (h1 : t.val % 16 = 15) (xs0 xs1 : Vec F S1024x512 .f32) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) xs0 xs1

/-! ## The stores of each case cover what they are stored into -/

theorem scoverA2_0 (c : Dev nD) (t : Fin cfg2.N) (h0 : t.val % 16 = 0) (y : S1024x512.Idx) : ∃ pc ∈ (runA2 V c t h0).2.1, y ∈ pc.1.set :=
  View.cover_of_tiledL (runA2 V c t h0).2.1 S1024x512.size (by sl_kernel_rfl) y
theorem scoverA2_1 (c : Dev nD) (t : Fin cfg2.N) (h0 : t.val % 16 = 0) (y : S1024x512.Idx) : ∃ pc ∈ (runA2 V c t h0).2.2.1, y ∈ pc.1.set :=
  View.cover_of_tiledL (runA2 V c t h0).2.2.1 S1024x512.size (by sl_kernel_rfl) y
theorem scoverB2_0 (c : Dev nD) (t : Fin cfg2.N) (h0 : ¬t.val % 16 = 0) (h1 : ¬t.val % 16 = 15) (xs0 xs1 : Vec F S1024x512 .f32) (y : S1024x512.Idx) : ∃ pc ∈ (runB2 V c t h0 h1 xs0 xs1).2.1, y ∈ pc.1.set :=
  View.cover_of_tiledL (runB2 V c t h0 h1 xs0 xs1).2.1 S1024x512.size (by sl_kernel_rfl) y
theorem scoverB2_1 (c : Dev nD) (t : Fin cfg2.N) (h0 : ¬t.val % 16 = 0) (h1 : ¬t.val % 16 = 15) (xs0 xs1 : Vec F S1024x512 .f32) (y : S1024x512.Idx) : ∃ pc ∈ (runB2 V c t h0 h1 xs0 xs1).2.2.1, y ∈ pc.1.set :=
  View.cover_of_tiledL (runB2 V c t h0 h1 xs0 xs1).2.2.1 S1024x512.size (by sl_kernel_rfl) y
theorem coverC2_11 (c : Dev nD) (t : Fin cfg2.N) (h0 : ¬t.val % 16 = 0) (h1 : t.val % 16 = 15) (xs0 xs1 : Vec F S1024x512 .f32) (y : S1024x64.Idx) : ∃ pc ∈ (runC2 V c t h0 h1 xs0 xs1).1, y ∈ pc.1.set :=
  View.cover_of_tiledL (runC2 V c t h0 h1 xs0 xs1).1 S1024x64.size (by sl_kernel_rfl) y
theorem scoverC2_0 (c : Dev nD) (t : Fin cfg2.N) (h0 : ¬t.val % 16 = 0) (h1 : t.val % 16 = 15) (xs0 xs1 : Vec F S1024x512 .f32) (y : S1024x512.Idx) : ∃ pc ∈ (runC2 V c t h0 h1 xs0 xs1).2.1, y ∈ pc.1.set :=
  View.cover_of_tiledL (runC2 V c t h0 h1 xs0 xs1).2.1 S1024x512.size (by sl_kernel_rfl) y
theorem scoverC2_1 (c : Dev nD) (t : Fin cfg2.N) (h0 : ¬t.val % 16 = 0) (h1 : t.val % 16 = 15) (xs0 xs1 : Vec F S1024x512 .f32) (y : S1024x512.Idx) : ∃ pc ∈ (runC2 V c t h0 h1 xs0 xs1).2.2.1, y ∈ pc.1.set :=
  View.cover_of_tiledL (runC2 V c t h0 h1 xs0 xs1).2.2.1 S1024x512.size (by sl_kernel_rfl) y

/-! ## What each case leaves: the output block (a placeholder where the window is idle) and the two accumulators -/

/-- Where kk = 0. -/
def outA2 (c : Dev nD) (t : Fin cfg2.N) (h0 : t.val % 16 = 0) : Vec F S1024x64 .f32 × Vec F S1024x512 .f32 × Vec F S1024x512 .f32 :=
  (VO2_11.read (Elt F) VO2_11.junk,
   VS2_0.read (Elt F) (VS2_0.writes (Elt F) VS2_0.junk (runA2 V c t h0).2.1),
   VS2_1.read (Elt F) (VS2_1.writes (Elt F) VS2_1.junk (runA2 V c t h0).2.2.1))
/-- Where 0 < kk < 15, over what the point before left in the accumulators. -/
def outB2 (c : Dev nD) (t : Fin cfg2.N) (h0 : ¬t.val % 16 = 0) (h1 : ¬t.val % 16 = 15) (xs0 xs1 : Vec F S1024x512 .f32) : Vec F S1024x64 .f32 × Vec F S1024x512 .f32 × Vec F S1024x512 .f32 :=
  (VO2_11.read (Elt F) VO2_11.junk,
   VS2_0.read (Elt F) (VS2_0.writes (Elt F) VS2_0.junk (runB2 V c t h0 h1 xs0 xs1).2.1),
   VS2_1.read (Elt F) (VS2_1.writes (Elt F) VS2_1.junk (runB2 V c t h0 h1 xs0 xs1).2.2.1))
/-- Where kk = 15, over what the point before left in the accumulators. -/
def outC2 (c : Dev nD) (t : Fin cfg2.N) (h0 : ¬t.val % 16 = 0) (h1 : t.val % 16 = 15) (xs0 xs1 : Vec F S1024x512 .f32) : Vec F S1024x64 .f32 × Vec F S1024x512 .f32 × Vec F S1024x512 .f32 :=
  (VO2_11.read (Elt F) (VO2_11.writes (Elt F) VO2_11.junk (runC2 V c t h0 h1 xs0 xs1).1),
   VS2_0.read (Elt F) (VS2_0.writes (Elt F) VS2_0.junk (runC2 V c t h0 h1 xs0 xs1).2.1),
   VS2_1.read (Elt F) (VS2_1.writes (Elt F) VS2_1.junk (runC2 V c t h0 h1 xs0 xs1).2.2.1))

/-! ## What the output block and the accumulators hold after each point -/

/-- After the body at position n: the case the closed forms select at n, run over what position n - 1 left in
    the two accumulators. -/
def outsAt2 (c : Dev nD) : (n : ℕ) → n < cfg2.N → Vec F S1024x64 .f32 × Vec F S1024x512 .f32 × Vec F S1024x512 .f32
  | 0, hn => outA2 V c ⟨0, hn⟩ (Nat.zero_mod _)
  | n + 1, hn =>
    if h0 : (n + 1) % 16 = 0 then outA2 V c ⟨n + 1, hn⟩ h0
    else if h1 : (n + 1) % 16 = 15 then outC2 V c ⟨n + 1, hn⟩ h0 h1 (outsAt2 c n (Nat.lt_of_succ_lt hn)).2.1 (outsAt2 c n (Nat.lt_of_succ_lt hn)).2.2
    else outB2 V c ⟨n + 1, hn⟩ h0 h1 (outsAt2 c n (Nat.lt_of_succ_lt hn)).2.1 (outsAt2 c n (Nat.lt_of_succ_lt hn)).2.2

theorem outsAt2_A (c : Dev nD) (t : Fin cfg2.N) (h0 : t.val % 16 = 0) : outsAt2 V c t.val t.isLt = outA2 V c t h0 := by
  obtain ⟨n, hn⟩ := t
  cases n with
  | zero => exact rfl
  | succ n => exact (dif_pos h0).trans rfl

theorem outsAt2_B (c : Dev nD) (t : Fin cfg2.N) (h0 : ¬t.val % 16 = 0) (h1 : ¬t.val % 16 = 15) :
    outsAt2 V c t.val t.isLt = outB2 V c t h0 h1 (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 16 = 0) (h1 : t.val % 16 = 15) :
    outsAt2 V c t.val t.isLt = outC2 V c t h0 h1 (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-- The region invariant before position n: before the first point every scoped buffer at anything; afterwards the
    two accumulators at what the point before left, the other scoped buffers at anything. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2))
      ∗ Pipeline.scopedRestBut (Ix := Unit) (Name := ℕ) (U := UR sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The arrays as the region finds them; after the body each input's buffer at its block and the output's at
    what the point's case leaves; the invariant carrying the two accumulators; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d

end Cert.KernelIdeal.Hand

end
-- ==== Proof.KI.R2Body.lean ====
/-
  Region 2: the body obligation of its pipeline. At every point the inputs' staging buffers hold their blocks;
  the closed forms of the two branch conditions say which of the three cases the point is in, and that case's run
  applies: the invariant hands it the two accumulators (at anything before the first point, then at what the point
  before left) and takes them back at this point's contents; the output block is stored where kk = 15 and left
  untouched elsewhere.
-/
import proofs.«109319_j33217277067916_2_alg».proof.Proof.KI.R2Dat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t)

set_option maxHeartbeats 6400000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
        unfold Dat.leavesExact; rw [liveAt2_0 t], after2_0]
  rw [show (dat2 V c).leavesExact 1 t = owns (c : Thread nD τ) (ms2_1 t) fullShare ((dat2 V c).after 1 t) from by
        unfold Dat.leavesExact; rw [liveAt2_1 t], after2_1]
  rw [show (dat2 V c).leavesExact 2 t = owns (c : Thread nD τ) (ms2_2 t) fullShare ((dat2 V c).after 2 t) from by
        unfold Dat.leavesExact; rw [liveAt2_2 t], after2_2]
  rw [show (dat2 V c).leavesExact 3 t = owns (c : Thread nD τ) (ms2_3 t) fullShare ((dat2 V c).after 3 t) from by
        unfold Dat.leavesExact; rw [liveAt2_3 t], after2_3]
  rw [show (dat2 V c).leavesExact 4 t = owns (c : Thread nD τ) (ms2_4 t) fullShare ((dat2 V c).after 4 t) from by
        unfold Dat.leavesExact; rw [liveAt2_4 t], after2_4]
  rw [show (dat2 V c).leavesExact 5 t = owns (c : Thread nD τ) (ms2_5 t) fullShare ((dat2 V c).after 5 t) from by
        unfold Dat.leavesExact; rw [liveAt2_5 t], after2_5]
  rw [show (dat2 V c).leavesExact 6 t = owns (c : Thread nD τ) (ms2_6 t) fullShare ((dat2 V c).after 6 t) from by
        unfold Dat.leavesExact; rw [liveAt2_6 t], after2_6]
  rw [show (dat2 V c).leavesExact 7 t = owns (c : Thread nD τ) (ms2_7 t) fullShare ((dat2 V c).after 7 t) from by
        unfold Dat.leavesExact; rw [liveAt2_7 t], after2_7]
  rw [show (dat2 V c).leavesExact 8 t = owns (c : Thread nD τ) (ms2_8 t) fullShare ((dat2 V c).after 8 t) from by
        unfold Dat.leavesExact; rw [liveAt2_8 t], after2_8]
  rw [show (dat2 V c).leavesExact 9 t = owns (c : Thread nD τ) (ms2_9 t) fullShare ((dat2 V c).after 9 t) from by
        unfold Dat.leavesExact; rw [liveAt2_9 t], after2_9]
  rw [show (dat2 V c).leavesExact 10 t = owns (c : Thread nD τ) (ms2_10 t) fullShare ((dat2 V c).after 10 t) from by
        unfold Dat.leavesExact; rw [liveAt2_10 t], after2_10]
  by_cases h0 : t.val % 16 = 0
  · -- kk = 0
    rw [Dat.leavesExact_idle (dat2 V c) 11 t (idleAt2_11 t (fun h => absurd ((hcond2_1 t).mp h) (by omega))) (noFlush2_11 t (fun h => absurd ((hcond2_1 t).mp h) (by omega)))]
    rw [outsAt2_A V c t h0]
    unfold outA2; (try dsimp only)
    by_cases hz : t.val = 0
    · rw [PhiS2_castSucc V c t, PhiS2_zero V c _ _ hz, PhiA2_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA2 V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverA2_0 V c t h0)
            · unfold owns; iexists _; isplitr
              swap; · iexact HS1
              ipureintro; exact View.read_writes_of_cover _ _ _ _ _ (scoverA2_1 V c t h0)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA2 V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      isplitl [HS1]; · iexists _; iexact HS1
      iintro ⟨H0, H1, H2, H3, H4, H5, H6, H7, H8, H9, H10, H11, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverA2_0 V c t h0)
            · unfold owns; iexists _; isplitr
              swap; · iexact HS1
              ipureintro; exact View.read_writes_of_cover _ _ _ _ _ (scoverA2_1 V c t h0)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
  · have hz : t.val ≠ 0 := fun e => h0 (by rw [e])
    by_cases h1 : t.val % 16 = 15
    · -- kk = 15
      rw [show (dat2 V c).leavesExact 11 t = owns (c : Thread nD τ) (ms2_11 t) fullShare ((dat2 V c).after 11 t) from by
            unfold Dat.leavesExact; rw [liveAt2_11 t ((hcond2_1 t).mpr h1)], after2_11]
      rw [outsAt2_C V c t h0 h1]
      unfold outC2; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC2 V c t h0 h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, ⟨%e11, H11⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverC2_0 V c t h0 h1 _ _)
            · unfold owns; iexists _; isplitr
              swap; · iexact HS1
              ipureintro; exact View.read_writes_of_cover _ _ _ _ _ (scoverC2_1 V c t h0 h1 _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (coverC2_11 V c t h0 h1 _ _)
    · -- 0 < kk < 15
      rw [Dat.leavesExact_idle (dat2 V c) 11 t (idleAt2_11 t (fun h => h1 ((hcond2_1 t).mp h))) (noFlush2_11 t (fun h => h1 ((hcond2_1 t).mp h)))]
      rw [outsAt2_B V c t h0 h1]
      unfold outB2; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB2 V c t h0 h1 _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scoverB2_0 V c t h0 h1 _ _)
            · unfold owns; iexists _; isplitr
              swap; · iexact HS1
              ipureintro; exact View.read_writes_of_cover _ _ _ _ _ (scoverB2_1 V c t h0 h1 _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's form back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Cert.KernelIdeal.Hand

end
-- ==== Proof.KI.Run.lean ====
/-
  The whole run of the program: three kernel regions among stretches of host operations. The contents of every
  unscoped buffer at each boundary are a fold from the launch memory — a host stretch's operations applied in order,
  a region's arrays replaced by what its write-backs leave —, and every weakly fair execution terminates with every
  unscoped buffer at the last boundary's contents.
-/
import proofs.«109319_j33217277067916_2_alg».proof.Proof.KI.R0
import proofs.«109319_j33217277067916_2_alg».proof.Proof.KI.R1Body
import proofs.«109319_j33217277067916_2_alg».proof.Proof.KI.R2Body
import proofs.«109319_j33217277067916_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- An input window's array leaves the region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- An input window's array leaves the region as it entered. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)
abbrev V6 : (c : Dev nD) → (b : Ref sig .tc) → Buf (Elt F) ((c : Thread nD τ).loc b) := fun c b => W6 m c b

/-- At region 2's exit: its arrays at what the pipeline leaves, every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)
/-- An input window's array leaves the region as it entered. -/
theorem W7_in (c : Dev nD) (w : Fin cfg2.W) (hw : (cfg2.win w).isOut = false) :
    W7 m c (Proc.devRef .tc (Pipeline.arrRef spec2 w)) = W6 m c (Proc.devRef .tc (Pipeline.arrRef spec2 w)) :=
  (W7_arr m c w).trans (((dat2 (V6 m) c).arrAt_in w hw _).trans (A_eq2 (V6 m) c w))

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V6 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at the boundary's contents, left at the next
    boundary's; its arrays split out of the unscoped buffers and put back at what the pipeline leaves. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (show (pdats m 0 c).Φ (Fin.last _) ⊢ (Pipeline.ΦA spec0 c : sProp 𝕄) from hout0 (V1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's; its arrays split out of the unscoped buffers and put back at what the pipeline leaves. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (show (pdats m 1 c).Φ (Fin.last _) ⊢ (Pipeline.ΦA spec1 c : sProp 𝕄) from hout1 (V2 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary's contents, left at the next
    boundary's; its arrays split out of the unscoped buffers and put back at what the pipeline leaves. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h2 : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (show (pdats m 2 c).Φ (Fin.last _) ⊢ (Pipeline.ΦA spec2 c : sProp 𝕄) from hout2 (V6 m) c).trans h2
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .region (reg2 m) ]

set_option backward.isDefEq.respectTransparency.types false in
/-- Every weakly fair execution of the program from memory m with zero counters terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Hand

end
-- ==== Proof.KI.RunArgs.lean ====
/-
  No host operation writes an argument array and no region changes one (a region reads an argument through an
  input window or bypasses it): at the last boundary every argument array holds its launch contents.
-/
import proofs.«109319_j33217277067916_2_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem W7_main_arg0 (c : Dev nD) : W7 m c (Proc.devRef .tc main_arg0) = m ((c : Thread nD τ).loc main_arg0) :=
  (W7_of_ne m c main_arg0 (by decide)).trans <|
    (StableHlo.after_of_writes_sub hostOps2_2 _ hostOps2_2_writes (r := main_arg0) (by decide)).trans <|
    (StableHlo.after_of_writes_sub hostOps2_1 _ hostOps2_1_writes (r := main_arg0) (by decide)).trans <|
    (StableHlo.after_of_writes_sub hostOps2 _ hostOps2_writes (r := main_arg0) (by decide)).trans <|
    (W3_of_ne m c main_arg0 (by decide)).trans <|
    (W2_in m c 0 rfl).trans <|
    (StableHlo.after_of_writes_sub hostOps0 _ hostOps0_writes (r := main_arg0) (by decide)).trans rfl

theorem W7_main_arg1 (c : Dev nD) : W7 m c (Proc.devRef .tc main_arg1) = m ((c : Thread nD τ).loc main_arg1) :=
  (W7_in m c 0 rfl).trans <|
    (StableHlo.after_of_writes_sub hostOps2_2 _ hostOps2_2_writes (r := main_arg1) (by decide)).trans <|
    (StableHlo.after_of_writes_sub hostOps2_1 _ hostOps2_1_writes (r := main_arg1) (by decide)).trans <|
    (StableHlo.after_of_writes_sub hostOps2 _ hostOps2_writes (r := main_arg1) (by decide)).trans <|
    (W3_in m c 0 rfl).trans <|
    (W2_of_ne m c main_arg1 (by decide)).trans <|
    (StableHlo.after_of_writes_sub hostOps0 _ hostOps0_writes (r := main_arg1) (by decide)).trans rfl

theorem W7_main_arg2 (c : Dev nD) : W7 m c (Proc.devRef .tc main_arg2) = m ((c : Thread nD τ).loc main_arg2) :=
  (W7_in m c 1 rfl).trans <|
    (StableHlo.after_of_writes_sub hostOps2_2 _ hostOps2_2_writes (r := main_arg2) (by decide)).trans <|
    (StableHlo.after_of_writes_sub hostOps2_1 _ hostOps2_1_writes (r := main_arg2) (by decide)).trans <|
    (StableHlo.after_of_writes_sub hostOps2 _ hostOps2_writes (r := main_arg2) (by decide)).trans <|
    (W3_in m c 1 rfl).trans <|
    (W2_of_ne m c main_arg2 (by decide)).trans <|
    (StableHlo.after_of_writes_sub hostOps0 _ hostOps0_writes (r := main_arg2) (by decide)).trans rfl

theorem W7_main_arg3 (c : Dev nD) : W7 m c (Proc.devRef .tc main_arg3) = m ((c : Thread nD τ).loc main_arg3) :=
  (W7_of_ne m c main_arg3 (by decide)).trans <|
    (StableHlo.after_of_writes_sub hostOps2_2 _ hostOps2_2_writes (r := main_arg3) (by decide)).trans <|
    (StableHlo.after_of_writes_sub hostOps2_1 _ hostOps2_1_writes (r := main_arg3) (by decide)).trans <|
    (StableHlo.after_of_writes_sub hostOps2 _ hostOps2_writes (r := main_arg3) (by decide)).trans <|
    (W3_of_ne m c main_arg3 (by decide)).trans <|
    (W2_of_ne m c main_arg3 (by decide)).trans <|
    (StableHlo.after_of_writes_sub hostOps0 _ hostOps0_writes (r := main_arg3) (by decide)).trans rfl

theorem W7_main_arg4 (c : Dev nD) : W7 m c (Proc.devRef .tc main_arg4) = m ((c : Thread nD τ).loc main_arg4) :=
  (W7_of_ne m c main_arg4 (by decide)).trans <|
    (StableHlo.after_of_writes_sub hostOps2_2 _ hostOps2_2_writes (r := main_arg4) (by decide)).trans <|
    (StableHlo.after_of_writes_sub hostOps2_1 _ hostOps2_1_writes (r := main_arg4) (by decide)).trans <|
    (StableHlo.after_of_writes_sub hostOps2 _ hostOps2_writes (r := main_arg4) (by decide)).trans <|
    (W3_of_ne m c main_arg4 (by decide)).trans <|
    (W2_of_ne m c main_arg4 (by decide)).trans <|
    (StableHlo.after_of_writes_sub hostOps0 _ hostOps0_writes (r := main_arg4) (by decide)).trans rfl

theorem W7_main_arg5 (c : Dev nD) : W7 m c (Proc.devRef .tc main_arg5) = m ((c : Thread nD τ).loc main_arg5) :=
  (W7_of_ne m c main_arg5 (by decide)).trans <|
    (StableHlo.after_of_writes_sub hostOps2_2 _ hostOps2_2_writes (r := main_arg5) (by decide)).trans <|
    (StableHlo.after_of_writes_sub hostOps2_1 _ hostOps2_1_writes (r := main_arg5) (by decide)).trans <|
    (StableHlo.after_of_writes_sub hostOps2 _ hostOps2_writes (r := main_arg5) (by decide)).trans <|
    (W3_of_ne m c main_arg5 (by decide)).trans <|
    (W2_of_ne m c main_arg5 (by decide)).trans <|
    (StableHlo.after_of_writes_sub hostOps0 _ hostOps0_writes (r := main_arg5) (by decide)).trans rfl

theorem W7_main_arg6 (c : Dev nD) : W7 m c (Proc.devRef .tc main_arg6) = m ((c : Thread nD τ).loc main_arg6) :=
  (W7_of_ne m c main_arg6 (by decide)).trans <|
    (StableHlo.after_of_writes_sub hostOps2_2 _ hostOps2_2_writes (r := main_arg6) (by decide)).trans <|
    (StableHlo.after_of_writes_sub hostOps2_1 _ hostOps2_1_writes (r := main_arg6) (by decide)).trans <|
    (StableHlo.after_of_writes_sub hostOps2 _ hostOps2_writes (r := main_arg6) (by decide)).trans <|
    (W3_of_ne m c main_arg6 (by decide)).trans <|
    (W2_of_ne m c main_arg6 (by decide)).trans <|
    (StableHlo.after_of_writes_sub hostOps0 _ hostOps0_writes (r := main_arg6) (by decide)).trans rfl

theorem W7_main_arg7 (c : Dev nD) : W7 m c (Proc.devRef .tc main_arg7) = m ((c : Thread nD τ).loc main_arg7) :=
  (W7_of_ne m c main_arg7 (by decide)).trans <|
    (StableHlo.after_of_writes_sub hostOps2_2 _ hostOps2_2_writes (r := main_arg7) (by decide)).trans <|
    (StableHlo.after_of_writes_sub hostOps2_1 _ hostOps2_1_writes (r := main_arg7) (by decide)).trans <|
    (StableHlo.after_of_writes_sub hostOps2 _ hostOps2_writes (r := main_arg7) (by decide)).trans <|
    (W3_of_ne m c main_arg7 (by decide)).trans <|
    (W2_of_ne m c main_arg7 (by decide)).trans <|
    (StableHlo.after_of_writes_sub hostOps0 _ hostOps0_writes (r := main_arg7) (by decide)).trans rfl

theorem W7_main_arg8 (c : Dev nD) : W7 m c (Proc.devRef .tc main_arg8) = m ((c : Thread nD τ).loc main_arg8) :=
  (W7_of_ne m c main_arg8 (by decide)).trans <|
    (StableHlo.after_of_writes_sub hostOps2_2 _ hostOps2_2_writes (r := main_arg8) (by decide)).trans <|
    (StableHlo.after_of_writes_sub hostOps2_1 _ hostOps2_1_writes (r := main_arg8) (by decide)).trans <|
    (StableHlo.after_of_writes_sub hostOps2 _ hostOps2_writes (r := main_arg8) (by decide)).trans <|
    (W3_of_ne m c main_arg8 (by decide)).trans <|
    (W2_of_ne m c main_arg8 (by decide)).trans <|
    (StableHlo.after_of_writes_sub hostOps0 _ hostOps0_writes (r := main_arg8) (by decide)).trans rfl

/-- The frame claim's post from the run's: every argument array as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c),
     (h c _ (mem_uc main_arg8 (by decide))).trans (W7_main_arg8 m c)⟩) (run_all m ρ)

end Cert.KernelIdeal.Hand

end
-- ==== Proof.KI.R0Pay.lean ====
/- The product of a 1024 × 512 block with a 512 × 256 matrix read at an index, and the embedding body's payload read at
   an index, at the ideal values (the extended reals): no rounding is left, a format change is the identity, and the
   contraction's sum is over the one contracted coordinate. Pure: no program's run, only the payload's definition. -/
import proofs.«109319_j33217277067916_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- The dimension numbers of the [1024, 512] × [512, 256] product: rows × contraction times contraction × columns. -/
abbrev D0 : DotDims S1024x512 S512x256 S1024x256 := dot_S1024x512_S512x256_S1024x256_1_0_0_1_n_n

/-- At output index (p, q) and contraction coordinate k the left operand is read at (p, k). -/
theorem lhs0 (p : Fin 1024) (q : Fin 256) (k : Fin 512) :
    D0.lhsIdx (ix2 p q) ((contrEquiv1 D0 512 rfl rfl).symm k) = ix2 p k := by
  funext a; apply Fin.ext
  match a with
  | ⟨0, _⟩ => simp [DotDims.lhsIdx, D0, dot_S1024x512_S512x256_S1024x256_1_0_0_1_n_n]; rfl
  | ⟨1, _⟩ =>
    refine (D0.lhsIdx_val_of_single (cl := 1) rfl (ix2 p q) _).trans ?_
    exact contrEquiv1_symm_val D0 512 rfl rfl k

/-- At output index (p, q) and contraction coordinate k the right operand is read at (k, q). -/
theorem rhs0 (p : Fin 1024) (q : Fin 256) (k : Fin 512) :
    D0.rhsIdx (ix2 p q) ((contrEquiv1 D0 512 rfl rfl).symm k) = ix2 k q := by
  funext a; apply Fin.ext
  match a with
  | ⟨0, _⟩ =>
    refine (D0.rhsIdx_val_of_single (cr := 0) rfl (ix2 p q) _).trans ?_
    exact contrEquiv1_symm_val D0 512 rfl rfl k
  | ⟨1, _⟩ => simp [DotDims.rhsIdx, D0, dot_S1024x512_S512x256_S1024x256_1_0_0_1_n_n]; rfl

/-- The product into the zero accumulator, read at (p, q): the sum over k of lhs (p, k) · rhs (k, q). -/
theorem matmul0_apply {φ₁ φ₂ : FTy} (lhs : FVec Ideal S1024x512 φ₁) (rhs : FVec Ideal S512x256 φ₂) (p : Fin 1024) (q : Fin 256) :
    matmul dot_S1024x512_S512x256_S1024x256_1_0_0_1_n_n none lhs rhs (constant (F := Ideal) S1024x256 .f32 0x00000000#32) (ix2 p q)
      = ∑ k : Fin 512, lhs (ix2 p k) * rhs (ix2 k q) := by
  refine (Ideal.matmul_constant_zero_apply D0 none lhs rhs (ix2 p q)).trans ?_
  rw [← Equiv.sum_comp (contrEquiv1 D0 512 rfl rfl).symm]
  refine Finset.sum_congr rfl fun k _ => ?_
  rw [lhs0, rhs0]

/-- The same into any accumulator: the accumulator at (p, q) plus the sum. -/
theorem matmul0_acc_apply {φ₁ φ₂ : FTy} (lhs : FVec Ideal S1024x512 φ₁) (rhs : FVec Ideal S512x256 φ₂)
    (acc : FVec Ideal S1024x256 .f32) (p : Fin 1024) (q : Fin 256) :
    matmul dot_S1024x512_S512x256_S1024x256_1_0_0_1_n_n none lhs rhs acc (ix2 p q)
      = acc (ix2 p q) + ∑ k : Fin 512, lhs (ix2 p k) * rhs (ix2 k q) := by
  refine (Ideal.matmul_apply D0 none lhs rhs acc (ix2 p q)).trans ?_
  refine congrArg (acc (ix2 p q) + ·) ?_
  rw [← Equiv.sum_comp (contrEquiv1 D0 512 rfl rfl).symm]
  refine Finset.sum_congr rfl fun k _ => ?_
  rw [lhs0, rhs0]

/-- The embedding body's payload at (p, q): max (∑ₖ x (p, k) · W (k, q) + b (0, q)) 0. -/
theorem k0_pay1_apply (x0 : Vec Ideal S1024x512 .f32) (x1 : Vec Ideal S512x256 .f32) (x2 : Vec Ideal S1x256 .f32)
    (p : Fin 1024) (q : Fin 256) :
    k0_pay1 x0 x1 x2 (ix2 p q) = max ((∑ k : Fin 512, x0 (ix2 p k) * x1 (ix2 k q)) + x2 (ix2 (0 : Fin 1) q)) 0 := by
  unfold k0_pay1
  simp only [maximumf_apply, addf_apply, broadcast_apply]
  rw [matmul0_apply, broadcastTo_1b_ab_apply, shapeCast_self, shapeCast_self,
    show (FloatOps.ofBits (F := Ideal) FTy.f32 0x00000000#32) = (0 : EReal) from Ideal.ofBits_zero_f32]
  rfl

end Cert.KernelIdeal.Hand

end
-- ==== Proof.KI.R0Value.lean ====
/- REGION 0 of @main read at the ideal values (the extended reals): the output array after the region is
   relu (x · W + b) of the three arrays as the region finds them (`V`), index by index. Each point writes back the block
   of 1024 rows it computed, which is that block of the one function `G0` of the arrays; the eight blocks cover the array. -/
import proofs.«109319_j33217277067916_2_alg».proof.Proof.KI.R0
import proofs.«109319_j33217277067916_2_alg».proof.Proof.KI.R0Pay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the rows' window and the output's move together, one block of rows per
    point; W's and b's stay at their one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- h = relu (x · W + b), index by index, as one function of the three arrays. -/
def G0 (x : S8192x512.Idx → EReal) (w : S512x256.Idx → EReal) (b : S1x256.Idx → EReal) : S8192x256.Idx → EReal :=
  fun i => max ((∑ k : Fin 512, x (ix2 (i 0 : Fin 8192) k) * w (ix2 k (i 1 : Fin 256))) + b (ix2 (0 : Fin 1) (i 1 : Fin 256))) 0

theorem G0_apply (x : S8192x512.Idx → EReal) (w : S512x256.Idx → EReal) (b : S1x256.Idx → EReal) (r : Fin 8192) (j : Fin 256) :
    G0 x w b (ix2 r j) = max ((∑ k : Fin 512, x (ix2 r k) * w (ix2 k j)) + b (ix2 (0 : Fin 1) j)) 0 := rfl

/-- WHAT POINT `t` WRITES BACK is block `t` of `G0` of the arrays as the region finds them: the payload at a block index
    (p, q) is the sum over k of the rows' block at (p, k) times W at (k, q), plus b at (0, q), clipped below at 0; the
    rows' block at (p, k) is x at (1024 t + p, k), and the output's block index (p, q) is the array's (1024 t + p, q). -/
theorem flushed0_3_eq (c : Dev nD) (t : Fin cfg0.N) :
    (dat0 V c).flushed 3 t = ((cfg0.win 3).blk t).view.read (Elt Ideal) (G0 (V c main_arg0) (V c main_v0) (V c main_v1)) := by
  show (cfg0.win 3).cut (grid0.coords t) ((dat0 V c).after 3 t) = _
  rw [after0_3]
  unfold out0_3
  rw [View.canon_unit_zero hz0]
  simp only [View.ld_unit_zero (S := S1024x512) hz0, View.ld_unit_zero (S := S512x256) hz0, View.ld_unit_zero (S := S1x256) hz0]
  obtain ⟨e00, e01, e10, e11, e20, e21, e30, e31⟩ := idx_facts0 t
  have ht : t.val < 8 := by have := t.isLt; have hN : cfg0.N = 8 := N_0; omega
  refine funext fun (y : S1024x256.Idx) => ?_
  obtain ⟨p, q, rfl⟩ : ∃ (p : Fin 1024) (q : Fin 256), y = ix2 p q := ⟨y 0, y 1, eq_ix2 y⟩
  show k0_pay1 (iblk0 V c 0 t) (iblk0 V c 1 t) (iblk0 V c 2 t) (ix2 p q)
    = G0 (V c main_arg0) (V c main_v0) (V c main_v1) (((cfg0.win 3).blk t).view.emb (ix2 p q))
  refine (k0_pay1_apply _ _ _ p q).trans ?_
  have hemb : ((cfg0.win 3).blk t).view.emb (ix2 p q) = ix2 (⟨t.val * 1024 + p.val, by omega⟩ : Fin 8192) q := by
    funext a; apply Fin.ext
    match a with
    | ⟨0, _⟩ => show win0_3.index t (0 : Fin 2) * 1024 + 1 * p.val = t.val * 1024 + p.val; omega
    | ⟨1, _⟩ => show win0_3.index t (1 : Fin 2) * 256 + 1 * q.val = q.val; omega
  refine Eq.trans ?_ (congrArg (G0 (V c main_arg0) (V c main_v0) (V c main_v1)) hemb).symm
  rw [G0_apply]
  have h0 : ∀ k : Fin 512, iblk0 V c 0 t (ix2 p k) = V c main_arg0 (ix2 (⟨t.val * 1024 + p.val, by omega⟩ : Fin 8192) k) := fun k => by
    show V c main_arg0 (((cfg0.win 0).blk t).view.emb (ix2 p k)) = _
    refine congrArg (V c main_arg0) ?_
    funext a; apply Fin.ext
    match a with
    | ⟨0, _⟩ => show win0_0.index t (0 : Fin 2) * 1024 + 1 * p.val = t.val * 1024 + p.val; omega
    | ⟨1, _⟩ => show win0_0.index t (1 : Fin 2) * 512 + 1 * k.val = k.val; omega
  have h1 : ∀ k : Fin 512, iblk0 V c 1 t (ix2 k q) = V c main_v0 (ix2 k q) := fun k => by
    show V c main_v0 (((cfg0.win 1).blk t).view.emb (ix2 k q)) = _
    refine congrArg (V c main_v0) ?_
    funext a; apply Fin.ext
    match a with
    | ⟨0, _⟩ => show win0_1.index t (0 : Fin 2) * 512 + 1 * k.val = k.val; omega
    | ⟨1, _⟩ => show win0_1.index t (1 : Fin 2) * 256 + 1 * q.val = q.val; omega
  have h2 : iblk0 V c 2 t (ix2 (0 : Fin 1) q) = V c main_v1 (ix2 (0 : Fin 1) q) := by
    show V c main_v1 (((cfg0.win 2).blk t).view.emb (ix2 (0 : Fin 1) q)) = _
    refine congrArg (V c main_v1) ?_
    funext a; apply Fin.ext
    match a with
    | ⟨0, _⟩ => show win0_2.index t (0 : Fin 2) * 1 + 1 * 0 = 0; omega
    | ⟨1, _⟩ => show win0_2.index t (1 : Fin 2) * 256 + 1 * q.val = q.val; omega
  rw [h2]
  refine congrArg (fun s => max (s + V c main_v1 (ix2 (0 : Fin 1) q)) 0) ?_
  exact Finset.sum_congr rfl fun k _ => by rw [h0 k, h1 k]

/-- An index of the output array is in point `t`'s block iff each coordinate is in the block's range on its axis. -/
theorem mem_blk0_3 (t : Fin cfg0.N) (i : S8192x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v2).slice (win0_3.rect t)).set ↔ _
  rw [View.set_slice_whole, Rect.mem_set_unit]
  exact Iff.rfl

/-- Every index of the output array is in some point's block: row r is in the block of point r / 1024. -/
theorem cover0_3_arr (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  have hN : cfg0.N = 8 := N_0
  refine ⟨⟨(i 0).val / 1024, by omega⟩, flush0_3 _, ?_⟩
  rw [mem_blk0_3]
  obtain ⟨-, -, -, -, -, -, e30, e31⟩ := idx_facts0 ⟨(i 0).val / 1024, by omega⟩
  intro a
  match a with
  | ⟨0, _⟩ =>
    show win0_3.index _ (0 : Fin 2) * 1024 ≤ (i 0).val ∧ (i 0).val < win0_3.index _ (0 : Fin 2) * 1024 + 1024
    rw [e30]; show (i 0).val / 1024 * 1024 ≤ (i 0).val ∧ (i 0).val < (i 0).val / 1024 * 1024 + 1024; omega
  | ⟨1, _⟩ =>
    show win0_3.index _ (1 : Fin 2) * 256 ≤ (i 1).val ∧ (i 1).val < win0_3.index _ (1 : Fin 2) * 256 + 256
    rw [e31]; omega

/-- THE OUTPUT ARRAY after the region: relu (x · W + b) of the arrays as the region finds them. -/
theorem arr0_eq (c : Dev nD) : (dat0 V c).arrAt 3 cfg0.N = G0 (V c main_arg0) (V c main_v0) (V c main_v1) :=
  (dat0 V c).arrAt_eq_of_cover 3 (G0 (V c main_arg0) (V c main_v0) (V c main_v1)) (fun t _ => flushed0_3_eq V c t) cover0_3_arr

/-- The three arrays the region reads and the one it leaves, typed as functions of their indices. -/
abbrev xArr0 (c : Dev nD) : S8192x512.Idx → EReal := V c main_arg0
abbrev wArr0 (c : Dev nD) : S512x256.Idx → EReal := V c main_v0
abbrev bArr0 (c : Dev nD) : S1x256.Idx → EReal := V c main_v1
abbrev hArr0 (c : Dev nD) : S8192x256.Idx → EReal := (dat0 V c).arrAt 3 cfg0.N

/-- The same, index by index: h (r, j) = max (∑ₖ x (r, k) · W (k, j) + b (0, j)) 0. -/
theorem arr0_apply (c : Dev nD) (r : Fin 8192) (j : Fin 256) :
    hArr0 V c (ix2 r j)
      = max ((∑ k : Fin 512, xArr0 V c (ix2 r k) * wArr0 V c (ix2 k j)) + bArr0 V c (ix2 (0 : Fin 1) j)) 0 :=
  (congrFun (arr0_eq V c) (ix2 r j)).trans (G0_apply _ _ _ r j)

/-- An input window's array is never written: it stays as the region found it. -/
theorem arr0_in (c : Dev nD) (w : Fin cfg0.W) (hw : w ≠ 3) (n : ℕ) : (dat0 V c).arrAt w n = V c (Pipeline.arrRef spec0 w) := by
  have hin : (cfg0.win w).isOut = false := by
    match w with
    | ⟨0, _⟩ => rfl
    | ⟨1, _⟩ => rfl
    | ⟨2, _⟩ => rfl
    | ⟨3, _⟩ => exact absurd rfl hw
  exact ((dat0 V c).arrAt_in w hin n).trans (A_eq0 V c w)

end Cert.KernelIdeal.Hand
end
-- ==== Proof.KI.Host0.lean ====
/- The first host stretch of @main (a transpose and a reshape) read at an index, at the ideal values, from ANY contents
   `W0` of the buffers before it: the weights the embedding region reads are the weight argument transposed, its bias row
   is the bias argument as one row, and the stretch leaves every other buffer as it was. -/
import proofs.«109319_j33217277067916_2_alg».proof.Proof.Gen.KernelIdeal.Launch
import Idealize.ShloMosaic.Lib.StableHlo.Run
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.ShloMosaic.StableHlo Idealize.SL.Sem

-- the buffers' contents before the first host stretch
variable (W0 : Valuation τ sig (Elt Ideal))

/-- After the first host stretch `main_v0` holds the transpose of `main_arg3`. -/
theorem host0_v0 :
    (StableHlo.after (hostOps0 (F := Ideal)) W0 (Proc.devRef .tc main_v0) : S512x256.Idx → EReal)
      = transpose S512x256 [1, 0] (W0 (Proc.devRef .tc main_arg3) : S256x512.Idx → EReal) transposes_S256x512_S512x256_1_0 := by
  dsimp only [hostOps0]; after_results

/-- Read at an index: W (k, j) is the weight argument at (j, k). -/
theorem host0_v0_apply (k : Fin 512) (j : Fin 256) :
    (StableHlo.after (hostOps0 (F := Ideal)) W0 (Proc.devRef .tc main_v0) : S512x256.Idx → EReal) (ix2 k j)
      = (W0 (Proc.devRef .tc main_arg3) : S256x512.Idx → EReal) (ix2 j k) := by
  rw [host0_v0]; exact transpose_ix2_apply _ _ k j

/-- After the first host stretch `main_v1` holds `main_arg4` as one row. -/
theorem host0_v1 :
    (StableHlo.after (hostOps0 (F := Ideal)) W0 (Proc.devRef .tc main_v1) : S1x256.Idx → EReal)
      = shapeCast S1x256 (W0 (Proc.devRef .tc main_arg4) : S256.Idx → EReal) shapeCasts_S256_S1x256 := by
  dsimp only [hostOps0]; after_results; rfl

/-- Read at an index: b (0, j) is the bias argument at j. -/
theorem host0_v1_apply (u : Fin 1) (j : Fin 256) :
    (StableHlo.after (hostOps0 (F := Ideal)) W0 (Proc.devRef .tc main_v1) : S1x256.Idx → EReal) (ix2 u j)
      = (W0 (Proc.devRef .tc main_arg4) : S256.Idx → EReal) (ix1 j) := by
  rw [host0_v1]; exact shapeCast_a_1a_apply _ _ u j

/-- The stretch writes `main_v0` and `main_v1` only: every other buffer keeps its contents. -/
theorem host0_arg0 : StableHlo.after (hostOps0 (F := Ideal)) W0 (Proc.devRef .tc main_arg0) = W0 (Proc.devRef .tc main_arg0) := by
  dsimp only [hostOps0]; after_results
theorem host0_arg1 : StableHlo.after (hostOps0 (F := Ideal)) W0 (Proc.devRef .tc main_arg1) = W0 (Proc.devRef .tc main_arg1) := by
  dsimp only [hostOps0]; after_results
theorem host0_arg2 : StableHlo.after (hostOps0 (F := Ideal)) W0 (Proc.devRef .tc main_arg2) = W0 (Proc.devRef .tc main_arg2) := by
  dsimp only [hostOps0]; after_results

end Cert.KernelIdeal.Hand
end
-- ==== Proof.KI.R1Pieces.lean ====
/-
  Region 1: what each case leaves in the two accumulators and in the output block, as terms of the point's input
  blocks and of what the point before left: each accumulator is its previous contents (zero at kk = 0) plus the
  product of the point's adjacency block with the point's 512 rows of the feature matrix; at kk = 15 the output
  block is the first accumulator in columns 0–255 and the second in columns 256–511.
-/
import proofs.«109319_j33217277067916_2_alg».proof.Proof.KI.R1Dat
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl

/-- The 512 rows of the resident feature matrix the point multiplies by: rows 512·kk … 512·kk + 511. -/
def feat1 (i : grid1.Coords) (x2 : Vec F S8192x256 .f32) : Vec F S512x256 .f32 :=
  View.ld x2 (Rect.unit (s := S8192x256) (k1_off1 i) S512x256.size (k1_off1_inb i))

theorem soutA0_eq (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x512 .f32) (x1 : Vec F S1024x512 .f32) (x2 : Vec F S8192x256 .f32) :
    sout1_A_0 c i arg2 harg2 arg3 harg3 arg4 harg4 arg5 harg5 arg6 harg6 arg7 harg7 hc0 hc1 x0 x1 x2 = k1_pay4 (feat1 i x2) x0 (k1_pay1 (F := F)) := by
  unfold sout1_A_0
  rw [View.read_writes_eq_canon _ _ _ (scover1_A_0 c i arg2 harg2 arg3 harg3 arg4 harg4 arg5 harg5 arg6 harg6 arg7 harg7 hc0 hc1 x0 x1 x2)]
  unfold kernelRun1_A
  dsimp only
  sl_unfold_run_names
  rw [View.canon_cons_unit_zero hz2, View.readCov_unit_zero (S := S1024x256) _ hz2]
  simp only [View.readAt_eq_ld, harg2.read_unread, harg3.read_unread, harg4.read_unread, harg6.read_unread, harg7.read_unread, View.ld_unit_zero (S := S1024x512) hz2, View.ld_unit_zero (S := S1024x256) hz2]
  rfl

theorem soutA1_eq (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : cond1_0 i) (hc1 : ¬cond1_1 i) (x0 : Vec F S1024x512 .f32) (x1 : Vec F S1024x512 .f32) (x2 : Vec F S8192x256 .f32) :
    sout1_A_1 c i arg2 harg2 arg3 harg3 arg4 harg4 arg5 harg5 arg6 harg6 arg7 harg7 hc0 hc1 x0 x1 x2 = k1_pay5 (feat1 i x2) x1 (k1_pay2 (F := F)) := by
  unfold sout1_A_1
  rw [View.read_writes_eq_canon _ _ _ (scover1_A_1 c i arg2 harg2 arg3 harg3 arg4 harg4 arg5 harg5 arg6 harg6 arg7 harg7 hc0 hc1 x0 x1 x2)]
  unfold kernelRun1_A
  dsimp only
  sl_unfold_run_names
  rw [View.canon_cons_unit_zero hz2, View.readCov_unit_zero (S := S1024x256) _ hz2]
  simp only [View.readAt_eq_ld, harg2.read_unread, harg3.read_unread, harg4.read_unread, harg6.read_unread, harg7.read_unread, View.ld_unit_zero (S := S1024x512) hz2, View.ld_unit_zero (S := S1024x256) hz2]
  rfl

theorem soutB0_eq (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x512 .f32) (x1 : Vec F S1024x512 .f32) (x2 : Vec F S8192x256 .f32) (xs0 xs1 : Vec F S1024x256 .f32) :
    sout1_B_0 c i arg2 harg2 arg3 harg3 arg4 harg4 arg5 harg5 arg6 harg6 arg7 harg7 hc0 hc1 x0 x1 x2 xs0 xs1 = k1_pay4 (feat1 i x2) x0 xs0 := by
  unfold sout1_B_0
  rw [View.read_writes_eq_canon _ _ _ (scover1_B_0 c i arg2 harg2 arg3 harg3 arg4 harg4 arg5 harg5 arg6 harg6 arg7 harg7 hc0 hc1 x0 x1 x2 xs0 xs1)]
  unfold kernelRun1_B
  dsimp only
  sl_unfold_run_names
  rw [View.canon_unit_zero hz2]
  simp only [View.readAt_eq_ld, harg2.read_unread, harg3.read_unread, harg4.read_unread, harg6.read_unread, harg7.read_unread, View.ld_unit_zero (S := S1024x512) hz2, View.ld_unit_zero (S := S1024x256) hz2]
  rfl

theorem soutB1_eq (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : ¬cond1_1 i) (x0 : Vec F S1024x512 .f32) (x1 : Vec F S1024x512 .f32) (x2 : Vec F S8192x256 .f32) (xs0 xs1 : Vec F S1024x256 .f32) :
    sout1_B_1 c i arg2 harg2 arg3 harg3 arg4 harg4 arg5 harg5 arg6 harg6 arg7 harg7 hc0 hc1 x0 x1 x2 xs0 xs1 = k1_pay5 (feat1 i x2) x1 xs1 := by
  unfold sout1_B_1
  rw [View.read_writes_eq_canon _ _ _ (scover1_B_1 c i arg2 harg2 arg3 harg3 arg4 harg4 arg5 harg5 arg6 harg6 arg7 harg7 hc0 hc1 x0 x1 x2 xs0 xs1)]
  unfold kernelRun1_B
  dsimp only
  sl_unfold_run_names
  rw [View.canon_unit_zero hz2]
  simp only [View.readAt_eq_ld, harg2.read_unread, harg3.read_unread, harg4.read_unread, harg6.read_unread, harg7.read_unread, View.ld_unit_zero (S := S1024x512) hz2, View.ld_unit_zero (S := S1024x256) hz2]
  rfl

theorem soutC0_eq (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x512 .f32) (x1 : Vec F S1024x512 .f32) (x2 : Vec F S8192x256 .f32) (xs0 xs1 : Vec F S1024x256 .f32) :
    sout1_C_0 c i arg2 harg2 arg3 harg3 arg4 harg4 arg5 harg5 arg6 harg6 arg7 harg7 hc0 hc1 x0 x1 x2 xs0 xs1 = k1_pay4 (feat1 i x2) x0 xs0 := by
  unfold sout1_C_0
  rw [View.read_writes_eq_canon _ _ _ (scover1_C_0 c i arg2 harg2 arg3 harg3 arg4 harg4 arg5 harg5 arg6 harg6 arg7 harg7 hc0 hc1 x0 x1 x2 xs0 xs1)]
  unfold kernelRun1_C
  dsimp only
  sl_unfold_run_names
  rw [View.canon_unit_zero hz2]
  simp only [View.readAt_eq_ld, harg2.read_unread, harg3.read_unread, harg4.read_unread, harg6.read_unread, harg7.read_unread, View.ld_unit_zero (S := S1024x512) hz2, View.ld_unit_zero (S := S1024x256) hz2]
  rfl

theorem soutC1_eq (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x512 .f32) (x1 : Vec F S1024x512 .f32) (x2 : Vec F S8192x256 .f32) (xs0 xs1 : Vec F S1024x256 .f32) :
    sout1_C_1 c i arg2 harg2 arg3 harg3 arg4 harg4 arg5 harg5 arg6 harg6 arg7 harg7 hc0 hc1 x0 x1 x2 xs0 xs1 = k1_pay5 (feat1 i x2) x1 xs1 := by
  unfold sout1_C_1
  rw [View.read_writes_eq_canon _ _ _ (scover1_C_1 c i arg2 harg2 arg3 harg3 arg4 harg4 arg5 harg5 arg6 harg6 arg7 harg7 hc0 hc1 x0 x1 x2 xs0 xs1)]
  unfold kernelRun1_C
  dsimp only
  sl_unfold_run_names
  rw [View.canon_unit_zero hz2]
  simp only [View.readAt_eq_ld, harg2.read_unread, harg3.read_unread, harg4.read_unread, harg6.read_unread, harg7.read_unread, View.ld_unit_zero (S := S1024x512) hz2, View.ld_unit_zero (S := S1024x256) hz2]
  rfl

/-- The output block at kk = 15: the second accumulator's final contents in the right half, the first's in the left. -/
theorem outC3_eq (c : Dev nD) (i : grid1.Coords) (arg2 : Memref sig .tc .vmem S1024x512 .f32) (harg2 : arg2.IsWhole) (arg3 : Memref sig .tc .vmem S1024x512 .f32) (harg3 : arg3.IsWhole) (arg4 : Memref sig .tc .vmem S8192x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x256 .f32) (harg7 : arg7.IsWhole) (hc0 : ¬cond1_0 i) (hc1 : cond1_1 i) (x0 : Vec F S1024x512 .f32) (x1 : Vec F S1024x512 .f32) (x2 : Vec F S8192x256 .f32) (xs0 xs1 : Vec F S1024x256 .f32) :
    out1_C_3 c i arg2 harg2 arg3 harg3 arg4 harg4 arg5 harg5 arg6 harg6 arg7 harg7 hc0 hc1 x0 x1 x2 xs0 xs1
      = View.canon [(⟨Rect.unit (s := S1024x512) ![0, 256] S1024x256.size inb_S1024x512_S1024x256_0_256, k1_pay5 (feat1 i x2) x1 xs1⟩ : View.Piece (Elt F) S1024x512 .f32),
          ⟨Rect.unit (s := S1024x512) ![0, 0] S1024x256.size inb_S1024x512_S1024x256_0_0, k1_pay4 (feat1 i x2) x0 xs0⟩] := by
  unfold out1_C_3
  rw [View.read_writes_eq_canon _ _ _ (cover1_C_3 c i arg2 harg2 arg3 harg3 arg4 harg4 arg5 harg5 arg6 harg6 arg7 harg7 hc0 hc1 x0 x1 x2 xs0 xs1)]
  unfold kernelRun1_C
  dsimp only
  sl_unfold_run_names
  simp only [View.readCov_unit_zero (S := S1024x256) _ hz2, View.readAt_eq_ld, harg2.read_unread, harg3.read_unread, harg4.read_unread, harg6.read_unread, harg7.read_unread, View.ld_unit_zero (S := S1024x512) hz2, View.ld_unit_zero (S := S1024x256) hz2]
  rfl

end Cert.KernelIdeal.Hand

end
-- ==== Proof.KI.R1Pay.lean ====
/- The accumulating payloads of the first adjacency pass read at an index, at the ideal values: the previous
   accumulator entry plus the sum over the 512 contracted columns of adjacency entry times feature entry; the zero
   fill is zero. -/
import proofs.«109319_j33217277067916_2_alg».proof.Proof.KI.R0Pay

noncomputable section

namespace Cert.KernelIdeal.Hand

open Cert.KernelIdeal Cert.KernelIdeal.Gen
open Idealize.ShloMosaic Idealize.ShloMosaic.ValueIdx
open scoped BigOperators

theorem k1_pay1_apply (p : Fin 1024) (q : Fin 256) : k1_pay1 (F := Ideal) (ix2 p q) = 0 := by
  unfold k1_pay1
  rw [shapeCast_self]
  simp only [broadcast_apply]
  exact Ideal.ofBits_zero_f32

theorem k1_pay2_apply (p : Fin 1024) (q : Fin 256) : k1_pay2 (F := Ideal) (ix2 p q) = 0 := by
  unfold k1_pay2
  rw [shapeCast_self]
  simp only [broadcast_apply]
  exact Ideal.ofBits_zero_f32

theorem k1_pay4_apply (v6 : Vec Ideal S512x256 .f32) (v9 : Vec Ideal S1024x512 .f32) (v13 : Vec Ideal S1024x256 .f32)
    (p : Fin 1024) (q : Fin 256) :
    k1_pay4 v6 v9 v13 (ix2 p q) = v13 (ix2 p q) + ∑ k : Fin 512, v9 (ix2 p k) * v6 (ix2 k q) := by
  unfold k1_pay4 k1_pay3
  rw [shapeCast_self]
  simp only [addf_apply]
  rw [matmul0_apply, shapeCast_self]
  rfl

theorem k1_pay5_apply (v6 : Vec Ideal S512x256 .f32) (v11 : Vec Ideal S1024x512 .f32) (v19 : Vec Ideal S1024x256 .f32)
    (p : Fin 1024) (q : Fin 256) :
    k1_pay5 v6 v11 v19 (ix2 p q) = v19 (ix2 p q) + ∑ k : Fin 512, v11 (ix2 p k) * v6 (ix2 k q) := by
  unfold k1_pay5 k1_pay3
  rw [shapeCast_self]
  simp only [addf_apply]
  rw [matmul0_apply, shapeCast_self]
  rfl

end Cert.KernelIdeal.Hand

end
-- ==== Proof.Spec.Blocks.lean ====
/- A sum over 8192 indices taken as 16 consecutive blocks of 512, and the running accumulator that adds one
   block at a time starting from an initial value. Sums in the extended reals reassociate unconditionally. -/
import Mathlib

noncomputable section

namespace Cert.Spec

open scoped BigOperators

/-- The running accumulator: start at `a`, then add block `0`, block `1`, … -/
def accFrom (a : EReal) (B : ℕ → EReal) : ℕ → EReal
  | 0 => a
  | n + 1 => accFrom a B n + B n

@[simp] theorem accFrom_zero (a : EReal) (B : ℕ → EReal) : accFrom a B 0 = a := rfl

theorem accFrom_succ (a : EReal) (B : ℕ → EReal) (n : ℕ) : accFrom a B (n + 1) = accFrom a B n + B n := rfl

/-- After `n` steps the accumulator holds the initial value plus the first `n` blocks. -/
theorem accFrom_eq (a : EReal) (B : ℕ → EReal) (n : ℕ) :
    accFrom a B n = a + ∑ b ∈ Finset.range n, B b := by
  induction n with
  | zero => simp
  | succ n ih => rw [accFrom_succ, ih, Finset.sum_range_succ, add_assoc]

/-- From `0`: just the first `n` blocks. -/
theorem accFrom_zero_eq (B : ℕ → EReal) (n : ℕ) :
    accFrom 0 B n = ∑ b : Fin n, B b.val := by
  rw [accFrom_eq, zero_add, Finset.sum_range]

/-- `m` blocks of `n` consecutive indices exhaust `Fin N` when `N = m * n`. -/
theorem sum_blocks_gen (m n N : ℕ) (hN : N = m * n) (f : Fin N → EReal)
    (hlt : ∀ (b : Fin m) (k : Fin n), n * b.val + k.val < N) :
    (∑ b : Fin m, ∑ k : Fin n, f ⟨n * b.val + k.val, hlt b k⟩) = ∑ k : Fin N, f k := by
  subst hN
  rw [← Finset.sum_product', Finset.univ_product_univ]
  refine Fintype.sum_equiv finProdFinEquiv _ _ (fun p => ?_)
  refine congrArg f (Fin.ext ?_)
  show n * p.1.val + p.2.val = p.2.val + n * p.1.val
  exact add_comm _ _

/-- 8192 indices as 16 blocks of 512. -/
theorem sum_blocks (f : Fin 8192 → EReal) :
    (∑ b : Fin 16, ∑ k : Fin 512, f ⟨512 * b.val + k.val, by omega⟩) = ∑ k : Fin 8192, f k :=
  sum_blocks_gen 16 512 8192 (by norm_num) f (fun b k => by omega)

/-- The accumulator after 16 blocks of 512, started from `0`: the whole sum. The blocks are given as any
    sequence `B` that agrees with the 512-term partial sums of `f` on the first 16 places. -/
theorem accFrom_blocks (f : Fin 8192 → EReal) (B : ℕ → EReal)
    (hB : ∀ b : Fin 16, B b.val = ∑ k : Fin 512, f ⟨512 * b.val + k.val, by omega⟩) :
    accFrom 0 B 16 = ∑ k : Fin 8192, f k := by
  rw [accFrom_zero_eq, ← sum_blocks f]
  exact Finset.sum_congr rfl fun b _ => hB b

/-- The same when the first block is stored rather than added to `0`. -/
theorem accFrom_blocks_first (f : Fin 8192 → EReal) (B : ℕ → EReal)
    (hB : ∀ b : Fin 16, B b.val = ∑ k : Fin 512, f ⟨512 * b.val + k.val, by omega⟩) :
    accFrom (B 0) (fun n => B (n + 1)) 15 = ∑ k : Fin 8192, f k := by
  rw [← accFrom_blocks f B hB, accFrom_eq, accFrom_eq, zero_add, Finset.sum_range_succ' B 15, add_comm]

end Cert.Spec

end
-- ==== Proof.KI.R1Acc.lean ====
/-
  Region 1 at the ideal values: what the two accumulators hold after each grid point. With (i, kk) the point's
  coordinates, row p and column q of the first accumulator hold the sum over the blocks b ≤ kk of
  ∑ₖ A1 (1024·i + p, 512·b + k) · H (512·b + k, q), built up one block per point from zero; the second likewise
  with A2. Here A1, A2 are the adjacency arrays and H the feature array as the region finds them.
-/
import proofs.«109319_j33217277067916_2_alg».proof.Proof.KI.R1Pieces
import proofs.«109319_j33217277067916_2_alg».proof.Proof.KI.R1Pay
import proofs.«109319_j33217277067916_2_alg».proof.Proof.Spec.Blocks

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The printed index maps and the slice offset, decided over the grid: the adjacency blocks sit at (i, kk), the
    feature matrix is one block, the output block at (i, 0), and the body's slice starts at row 512·kk. -/
theorem idx1_facts : ∀ t : Fin cfg1.N,
    win1_0.index t (0 : Fin 2) = t.val / 16 ∧ win1_0.index t (1 : Fin 2) = t.val % 16
    ∧ win1_1.index t (0 : Fin 2) = t.val / 16 ∧ win1_1.index t (1 : Fin 2) = t.val % 16
    ∧ win1_2.index t (0 : Fin 2) = 0 ∧ win1_2.index t (1 : Fin 2) = 0
    ∧ win1_3.index t (0 : Fin 2) = t.val / 16 ∧ win1_3.index t (1 : Fin 2) = 0
    ∧ k1_off1 (grid1.coords t) (0 : Fin 2) = 512 * (t.val % 16) ∧ k1_off1 (grid1.coords t) (1 : Fin 2) = 0 :=
  (by decide +kernel : ∀ t : Fin grid1.N, _)

/-- The first adjacency block at a point is rows 1024·i … and columns 512·kk … of A1. -/
theorem iblk1_0_apply (c : Dev nD) (t : Fin cfg1.N) (p : Fin 1024) (k : Fin 512) (r kk : Fin 8192)
    (hr : r.val = 1024 * (t.val / 16) + p.val) (hk : kk.val = 512 * (t.val % 16) + k.val) :
    (iblk1 V c 0 t : Vec Ideal S1024x512 .f32) (ix2 p k) = (V c main_arg1 : S8192x8192.Idx → EReal) (ix2 r kk) := by
  obtain ⟨e0, e1, -⟩ := idx1_facts t
  unfold iblk1
  rw [View.read_apply]
  show (V c main_arg1 : S8192x8192.Idx → EReal) _ = _
  refine congrArg _ ?_
  funext a; apply Fin.ext
  match a with
  | ⟨0, _⟩ => show win1_0.index t 0 * 1024 + 1 * p.val = r.val; rw [e0, hr]; omega
  | ⟨1, _⟩ => show win1_0.index t 1 * 512 + 1 * k.val = kk.val; rw [e1, hk]; omega

theorem iblk1_1_apply (c : Dev nD) (t : Fin cfg1.N) (p : Fin 1024) (k : Fin 512) (r kk : Fin 8192)
    (hr : r.val = 1024 * (t.val / 16) + p.val) (hk : kk.val = 512 * (t.val % 16) + k.val) :
    (iblk1 V c 1 t : Vec Ideal S1024x512 .f32) (ix2 p k) = (V c main_arg2 : S8192x8192.Idx → EReal) (ix2 r kk) := by
  obtain ⟨-, -, e0, e1, -⟩ := idx1_facts t
  unfold iblk1
  rw [View.read_apply]
  show (V c main_arg2 : S8192x8192.Idx → EReal) _ = _
  refine congrArg _ ?_
  funext a; apply Fin.ext
  match a with
  | ⟨0, _⟩ => show win1_1.index t 0 * 1024 + 1 * p.val = r.val; rw [e0, hr]; omega
  | ⟨1, _⟩ => show win1_1.index t 1 * 512 + 1 * k.val = kk.val; rw [e1, hk]; omega

/-- The 512 rows the point slices out of the resident feature matrix are rows 512·kk … of H. -/
theorem feat1_apply (c : Dev nD) (t : Fin cfg1.N) (k : Fin 512) (q : Fin 256) (kk : Fin 8192)
    (hk : kk.val = 512 * (t.val % 16) + k.val) :
    feat1 (grid1.coords t) (iblk1 V c 2 t) (ix2 k q) = (V c main_v2 : S8192x256.Idx → EReal) (ix2 kk q) := by
  obtain ⟨-, -, -, -, e0, e1, -, -, o0, o1⟩ := idx1_facts t
  unfold feat1 iblk1
  show ((cfg1.win 2).blk t).view.read (Elt Ideal) (V c (Pipeline.arrRef spec1 2)) ((Rect.unit (s := S8192x256) (k1_off1 (grid1.coords t)) S512x256.size (k1_off1_inb (grid1.coords t))).idx (ix2 k q)) = _
  rw [View.read_apply]
  show (V c main_v2 : S8192x256.Idx → EReal) _ = _
  refine congrArg _ ?_
  funext a; apply Fin.ext
  match a with
  | ⟨0, _⟩ => show win1_2.index t 0 * 8192 + 1 * (k1_off1 (grid1.coords t) 0 + 1 * k.val) = kk.val; rw [e0, o0, hk]; omega
  | ⟨1, _⟩ => show win1_2.index t 1 * 256 + 1 * (k1_off1 (grid1.coords t) 1 + 1 * q.val) = q.val; rw [e1, o1]; omega

end Cert.KernelIdeal.Hand

end
-- ==== Proof.KI.R1Inv.lean ====
/-
  Region 1 at the ideal values: the accumulation, point by point. After the point with coordinates (i, kk) the
  first accumulator at (p, q) is zero plus the block sums b = 0 … kk of ∑ₖ A1 (1024·i + p, 512·b + k) · H (512·b + k, q),
  added in that order; the second likewise with A2.
-/
import proofs.«109319_j33217277067916_2_alg».proof.Proof.KI.R1Acc

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The arrays as the region finds them, typed as functions into the extended reals. -/
abbrev A1arr (c : Dev nD) : S8192x8192.Idx → EReal := V c main_arg1
abbrev A2arr (c : Dev nD) : S8192x8192.Idx → EReal := V c main_arg2
abbrev Harr (c : Dev nD) : S8192x256.Idx → EReal := V c main_v2

/-- The point's input blocks and feature slice, typed as functions into the extended reals. -/
abbrev x0At (c : Dev nD) (t : Fin cfg1.N) : S1024x512.Idx → EReal := iblk1 V c 0 t
abbrev x1At (c : Dev nD) (t : Fin cfg1.N) : S1024x512.Idx → EReal := iblk1 V c 1 t
abbrev featAt (c : Dev nD) (t : Fin cfg1.N) : S512x256.Idx → EReal := feat1 (grid1.coords t) (iblk1 V c 2 t)

/-- Block b of the contraction for row 1024·i + p and column q. -/
def B1 (A : S8192x8192.Idx → EReal) (H : S8192x256.Idx → EReal) (i : ℕ) (p : Fin 1024) (q : Fin 256) (b : ℕ) : EReal :=
  if h : i < 8 ∧ b < 16 then
    ∑ k : Fin 512, A (ix2 (⟨1024 * i + p.val, by have := p.isLt; have := h.1; omega⟩ : Fin 8192) (⟨512 * b + k.val, by have := k.isLt; have := h.2; omega⟩ : Fin 8192))
      * H (ix2 (⟨512 * b + k.val, by have := k.isLt; have := h.2; omega⟩ : Fin 8192) q)
  else 0

theorem blk0_sum (c : Dev nD) (t : Fin cfg1.N) (p : Fin 1024) (q : Fin 256) :
    (∑ k : Fin 512, x0At V c t (ix2 p k) * featAt V c t (ix2 k q))
      = B1 (A1arr V c) (Harr V c) (t.val / 16) p q (t.val % 16) := by
  have hN : t.val < 128 := lt_of_lt_of_eq t.isLt (show cfg1.N = 128 from N_1)
  unfold B1
  rw [dif_pos ⟨by omega, by omega⟩]
  refine Finset.sum_congr rfl fun k _ => ?_
  exact congrArg₂ (· * ·) (iblk1_0_apply V c t p k _ _ rfl rfl) (feat1_apply V c t k q _ rfl)

theorem blk1_sum (c : Dev nD) (t : Fin cfg1.N) (p : Fin 1024) (q : Fin 256) :
    (∑ k : Fin 512, x1At V c t (ix2 p k) * featAt V c t (ix2 k q))
      = B1 (A2arr V c) (Harr V c) (t.val / 16) p q (t.val % 16) := by
  have hN : t.val < 128 := lt_of_lt_of_eq t.isLt (show cfg1.N = 128 from N_1)
  unfold B1
  rw [dif_pos ⟨by omega, by omega⟩]
  refine Finset.sum_congr rfl fun k _ => ?_
  exact congrArg₂ (· * ·) (iblk1_1_apply V c t p k _ _ rfl rfl) (feat1_apply V c t k q _ rfl)

/-- At kk = 0 the first accumulator is the first product over the zero fill. -/
theorem s0_first (c : Dev nD) (t : Fin cfg1.N) (h0 : t.val % 16 = 0) :
    (outsAt1 V c t.val t.isLt).2.1 = k1_pay4 (feat1 (grid1.coords t) (iblk1 V c 2 t)) (iblk1 V c 0 t) (k1_pay1 (F := Ideal)) := by
  rw [outsAt1_A V c t h0]
  dsimp only
  exact soutA0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => absurd ((hcond1_1 t).mp h) (by omega)) (iblk1 V c 0 t) (iblk1 V c 1 t) (iblk1 V c 2 t)
theorem s1_first (c : Dev nD) (t : Fin cfg1.N) (h0 : t.val % 16 = 0) :
    (outsAt1 V c t.val t.isLt).2.2 = k1_pay5 (feat1 (grid1.coords t) (iblk1 V c 2 t)) (iblk1 V c 1 t) (k1_pay2 (F := Ideal)) := by
  rw [outsAt1_A V c t h0]
  dsimp only
  exact soutA1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => absurd ((hcond1_1 t).mp h) (by omega)) (iblk1 V c 0 t) (iblk1 V c 1 t) (iblk1 V c 2 t)

/-- At kk > 0 the first accumulator is what the point before left plus the point's product. -/
theorem s0_step (c : Dev nD) (t : Fin cfg1.N) (h0 : ¬t.val % 16 = 0) :
    (outsAt1 V c t.val t.isLt).2.1 = k1_pay4 (feat1 (grid1.coords t) (iblk1 V c 2 t)) (iblk1 V c 0 t)
      (outsAt1 V c (t.val - 1) (Nat.lt_of_le_of_lt (Nat.sub_le _ _) t.isLt)).2.1 := by
  by_cases h1 : t.val % 16 = 15
  · rw [outsAt1_C V c t h0 h1]
    dsimp only
    exact soutC0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2
  · rw [outsAt1_B V c t h0 h1]
    dsimp only
    exact soutB0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2
theorem s1_step (c : Dev nD) (t : Fin cfg1.N) (h0 : ¬t.val % 16 = 0) :
    (outsAt1 V c t.val t.isLt).2.2 = k1_pay5 (feat1 (grid1.coords t) (iblk1 V c 2 t)) (iblk1 V c 1 t)
      (outsAt1 V c (t.val - 1) (Nat.lt_of_le_of_lt (Nat.sub_le _ _) t.isLt)).2.2 := by
  by_cases h1 : t.val % 16 = 15
  · rw [outsAt1_C V c t h0 h1]
    dsimp only
    exact soutC1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2
  · rw [outsAt1_B V c t h0 h1]
    dsimp only
    exact soutB1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-- THE ACCUMULATION, first accumulator. -/
theorem s0_inv (c : Dev nD) : ∀ (n : ℕ) (hn : n < cfg1.N) (p : Fin 1024) (q : Fin 256),
    (outsAt1 V c n hn).2.1 (ix2 p q) = Cert.Spec.accFrom 0 (B1 (A1arr V c) (Harr V c) (n / 16) p q) (n % 16 + 1)
  | 0, hn, p, q => by
    have e := s0_first V c ⟨0, hn⟩ (Nat.zero_mod _)
    rw [show (outsAt1 V c 0 hn).2.1 = _ from e, k1_pay4_apply, k1_pay1_apply, blk0_sum V c ⟨0, hn⟩ p q]
    rfl
  | n + 1, hn, p, q => by
    by_cases h0 : (n + 1) % 16 = 0
    · have e := s0_first V c ⟨n + 1, hn⟩ h0
      rw [show (outsAt1 V c (n + 1) hn).2.1 = _ from e, k1_pay4_apply, k1_pay1_apply, blk0_sum V c ⟨n + 1, hn⟩ p q]
      show (0 : EReal) + B1 _ _ ((n + 1) / 16) p q ((n + 1) % 16) = _
      rw [h0]; rfl
    · have e := s0_step V c ⟨n + 1, hn⟩ h0
      have ih := s0_inv c n (Nat.lt_of_succ_lt hn) p q
      have e1 : (n + 1) / 16 = n / 16 := by omega
      have e2 : (n + 1) % 16 = n % 16 + 1 := by omega
      rw [show (outsAt1 V c (n + 1) hn).2.1 = _ from e, k1_pay4_apply, blk0_sum V c ⟨n + 1, hn⟩ p q]
      show (outsAt1 V c n _).2.1 (ix2 p q) + B1 _ _ ((n + 1) / 16) p q ((n + 1) % 16) = _
      rw [ih, e1, e2]; rfl

/-- THE ACCUMULATION, second accumulator. -/
theorem s1_inv (c : Dev nD) : ∀ (n : ℕ) (hn : n < cfg1.N) (p : Fin 1024) (q : Fin 256),
    (outsAt1 V c n hn).2.2 (ix2 p q) = Cert.Spec.accFrom 0 (B1 (A2arr V c) (Harr V c) (n / 16) p q) (n % 16 + 1)
  | 0, hn, p, q => by
    have e := s1_first V c ⟨0, hn⟩ (Nat.zero_mod _)
    rw [show (outsAt1 V c 0 hn).2.2 = _ from e, k1_pay5_apply, k1_pay2_apply, blk1_sum V c ⟨0, hn⟩ p q]
    rfl
  | n + 1, hn, p, q => by
    by_cases h0 : (n + 1) % 16 = 0
    · have e := s1_first V c ⟨n + 1, hn⟩ h0
      rw [show (outsAt1 V c (n + 1) hn).2.2 = _ from e, k1_pay5_apply, k1_pay2_apply, blk1_sum V c ⟨n + 1, hn⟩ p q]
      show (0 : EReal) + B1 _ _ ((n + 1) / 16) p q ((n + 1) % 16) = _
      rw [h0]; rfl
    · have e := s1_step V c ⟨n + 1, hn⟩ h0
      have ih := s1_inv c n (Nat.lt_of_succ_lt hn) p q
      have e1 : (n + 1) / 16 = n / 16 := by omega
      have e2 : (n + 1) % 16 = n % 16 + 1 := by omega
      rw [show (outsAt1 V c (n + 1) hn).2.2 = _ from e, k1_pay5_apply, blk1_sum V c ⟨n + 1, hn⟩ p q]
      show (outsAt1 V c n _).2.2 (ix2 p q) + B1 _ _ ((n + 1) / 16) p q ((n + 1) % 16) = _
      rw [ih, e1, e2]; rfl

end Cert.KernelIdeal.Hand

end
-- ==== Proof.Spec.Defs.lean ====
/- The mathematical specification of the two programs, over the extended reals: each quantity is a
   function of literal `Fin` coordinates. No program is imported here.

   `h` is the embedding `relu (x Weᵀ + be)`; `zraw` the two neighbourhood products side by side;
   `mean`, `var` the column statistics over the 8192 rows (the sum starts from `0` and is divided by the
   literal `8192`); `rs` the reciprocal square root of `var + eps`. `zRef` normalises as
   `((z - mean) * rs) * γ + β`; `zKer` as `z * scale + shift` with `scale = γ * rs` and
   `shift = β - mean * scale`. `az` is a neighbourhood product of the normalised features; `jk` the
   concatenation `[h | z | A1 z | A2 z]` along 1792 columns; `outRef` the final projection of the
   concatenation; `outKer` the same projection as four partial products added left to right. -/
import Mathlib
import Idealize.ShloMosaic.PureOps.Ideal

noncomputable section

namespace Cert.Spec

open Idealize.ShloMosaic
open scoped BigOperators

/-- The literal `8192.0`. -/
def E8192 : EReal := Ideal.ofBits .f32 0x46000000#32

/-- The literal `9.99999974e-6`. -/
def Eeps : EReal := Ideal.ofBits .f32 0x3727C5AC#32

def h (x : Fin 8192 → Fin 512 → EReal) (We : Fin 256 → Fin 512 → EReal) (be : Fin 256 → EReal)
    (i : Fin 8192) (j : Fin 256) : EReal :=
  max ((∑ k : Fin 512, x i k * We j k) + be j) 0

def zraw (A1 A2 : Fin 8192 → Fin 8192 → EReal) (hh : Fin 8192 → Fin 256 → EReal)
    (i : Fin 8192) (j : Fin 512) : EReal :=
  if hj : j.val < 256 then ∑ k : Fin 8192, A1 i k * hh k ⟨j.val, hj⟩
  else ∑ k : Fin 8192, A2 i k * hh k ⟨j.val - 256, by omega⟩

def mean (zr : Fin 8192 → Fin 512 → EReal) (j : Fin 512) : EReal :=
  Ideal.div (0 + ∑ i : Fin 8192, zr i j) E8192

def var (zr : Fin 8192 → Fin 512 → EReal) (j : Fin 512) : EReal :=
  Ideal.div (0 + ∑ i : Fin 8192, (zr i j - mean zr j) * (zr i j - mean zr j)) E8192

def rs (zr : Fin 8192 → Fin 512 → EReal) (j : Fin 512) : EReal :=
  Ideal.rsqrt (var zr j + Eeps)

def zRef (zr : Fin 8192 → Fin 512 → EReal) (γ β : Fin 512 → EReal) (i : Fin 8192) (j : Fin 512) : EReal :=
  ((zr i j - mean zr j) * rs zr j) * γ j + β j

def scale (zr : Fin 8192 → Fin 512 → EReal) (γ : Fin 512 → EReal) (j : Fin 512) : EReal :=
  γ j * rs zr j

def shift (zr : Fin 8192 → Fin 512 → EReal) (γ β : Fin 512 → EReal) (j : Fin 512) : EReal :=
  β j - mean zr j * scale zr γ j

def zKer (zr : Fin 8192 → Fin 512 → EReal) (γ β : Fin 512 → EReal) (i : Fin 8192) (j : Fin 512) : EReal :=
  zr i j * scale zr γ j + shift zr γ β j

def az (A : Fin 8192 → Fin 8192 → EReal) (z : Fin 8192 → Fin 512 → EReal) (i : Fin 8192) (j : Fin 512) : EReal :=
  ∑ k : Fin 8192, A i k * z k j

def jk (hh : Fin 8192 → Fin 256 → EReal) (z : Fin 8192 → Fin 512 → EReal)
    (A1 A2 : Fin 8192 → Fin 8192 → EReal) (i : Fin 8192) (k : Fin 1792) : EReal :=
  if h1 : k.val < 256 then hh i ⟨k.val, h1⟩
  else if h2 : k.val < 768 then z i ⟨k.val - 256, by omega⟩
  else if h3 : k.val < 1280 then az A1 z i ⟨k.val - 768, by omega⟩
  else az A2 z i ⟨k.val - 1280, by omega⟩

def outRef (hh : Fin 8192 → Fin 256 → EReal) (z : Fin 8192 → Fin 512 → EReal)
    (A1 A2 : Fin 8192 → Fin 8192 → EReal) (Wf : Fin 64 → Fin 1792 → EReal) (bf : Fin 64 → EReal)
    (i : Fin 8192) (o : Fin 64) : EReal :=
  (∑ k : Fin 1792, jk hh z A1 A2 i k * Wf o k) + bf o

def outKer (hh : Fin 8192 → Fin 256 → EReal) (z : Fin 8192 → Fin 512 → EReal)
    (A1 A2 : Fin 8192 → Fin 8192 → EReal) (Wf : Fin 64 → Fin 1792 → EReal) (bf : Fin 64 → EReal)
    (i : Fin 8192) (o : Fin 64) : EReal :=
  ((((∑ k : Fin 256, hh i k * Wf o ⟨k.val, by omega⟩)
      + ∑ k : Fin 512, z i k * Wf o ⟨256 + k.val, by omega⟩)
      + ∑ k : Fin 512, az A1 z i k * Wf o ⟨768 + k.val, by omega⟩)
      + ∑ k : Fin 512, az A2 z i k * Wf o ⟨1280 + k.val, by omega⟩)
      + bf o

end Cert.Spec

end
-- ==== Proof.KI.R1Value.lean ====
/-
  Region 1 at the ideal values: the array it leaves. At the points with kk = 15 the accumulators hold the whole
  contractions ∑ₖ A (r, k) · H (k, q) over all 8192 columns (sixteen blocks of 512 added from zero), and the block
  written back there is the first accumulator in columns 0–255 and the second in columns 256–511: so the output
  array ends as [A1·H | A2·H], index by index.
-/
import proofs.«109319_j33217277067916_2_alg».proof.Proof.KI.R1Inv
import proofs.«109319_j33217277067916_2_alg».proof.Proof.Spec.Defs

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- What the output array ends holding: entry (r, j) is ∑ₖ A1 (r, k) · H (k, j) for j < 256 and
    ∑ₖ A2 (r, k) · H (k, j − 256) otherwise. -/
def G1 (A1 A2 : S8192x8192.Idx → EReal) (H : S8192x256.Idx → EReal) : S8192x512.Idx → EReal := fun i =>
  Cert.Spec.zraw (fun a b => A1 (ix2 a b)) (fun a b => A2 (ix2 a b)) (fun a b => H (ix2 a b)) (i 0) (i 1)

theorem G1_left (A1 A2 : S8192x8192.Idx → EReal) (H : S8192x256.Idx → EReal) (r : Fin 8192) (j : Fin 512) (hj : j.val < 256) :
    G1 A1 A2 H (ix2 r j) = ∑ k : Fin 8192, A1 (ix2 r k) * H (ix2 k ⟨j.val, hj⟩) := by
  show Cert.Spec.zraw _ _ _ r j = _
  unfold Cert.Spec.zraw; rw [dif_pos hj]
theorem G1_right (A1 A2 : S8192x8192.Idx → EReal) (H : S8192x256.Idx → EReal) (r : Fin 8192) (j : Fin 512) (hj : ¬j.val < 256) :
    G1 A1 A2 H (ix2 r j) = ∑ k : Fin 8192, A2 (ix2 r k) * H (ix2 k ⟨j.val - 256, by have := j.isLt; omega⟩) := by
  show Cert.Spec.zraw _ _ _ r j = _
  unfold Cert.Spec.zraw; rw [dif_neg hj]

/-- At kk = 15 the first accumulator holds the whole contraction with A1. -/
theorem rowBound (t : Fin cfg1.N) (p : Fin 1024) : 1024 * (t.val / 16) + p.val < 8192 := by
  have hN : t.val < 128 := lt_of_lt_of_eq t.isLt (show cfg1.N = 128 from N_1)
  have := p.isLt; omega

theorem s0_last (c : Dev nD) (t : Fin cfg1.N) (h1 : t.val % 16 = 15) (p : Fin 1024) (q : Fin 256) :
    (outsAt1 V c t.val t.isLt).2.1 (ix2 p q) = ∑ k : Fin 8192, A1arr V c (ix2 (⟨1024 * (t.val / 16) + p.val, rowBound t p⟩ : Fin 8192) k) * Harr V c (ix2 k q) := by
  have hN : t.val < 128 := lt_of_lt_of_eq t.isLt (show cfg1.N = 128 from N_1)
  rw [s0_inv V c t.val t.isLt p q, h1]
  refine Cert.Spec.accFrom_blocks (fun k => A1arr V c (ix2 _ k) * Harr V c (ix2 k q)) _ fun b => ?_
  unfold B1
  rw [dif_pos ⟨by omega, b.isLt⟩]
theorem s1_last (c : Dev nD) (t : Fin cfg1.N) (h1 : t.val % 16 = 15) (p : Fin 1024) (q : Fin 256) :
    (outsAt1 V c t.val t.isLt).2.2 (ix2 p q) = ∑ k : Fin 8192, A2arr V c (ix2 (⟨1024 * (t.val / 16) + p.val, rowBound t p⟩ : Fin 8192) k) * Harr V c (ix2 k q) := by
  have hN : t.val < 128 := lt_of_lt_of_eq t.isLt (show cfg1.N = 128 from N_1)
  rw [s1_inv V c t.val t.isLt p q, h1]
  refine Cert.Spec.accFrom_blocks (fun k => A2arr V c (ix2 _ k) * Harr V c (ix2 k q)) _ fun b => ?_
  unfold B1
  rw [dif_pos ⟨by omega, b.isLt⟩]

/-- Two 1024×256 arrays side by side as one 1024×512 array. -/
def sideBySide (s0 s1 : S1024x256.Idx → EReal) : S1024x512.Idx → EReal := fun y =>
  if h : (y 1).val < 256 then s0 (ix2 (y 0) (⟨(y 1).val, h⟩ : Fin 256))
  else s1 (ix2 (y 0) (⟨(y 1).val - 256, by have := (y 1).isLt; change (y 1).val < 512 at this; omega⟩ : Fin 256))

/-- Stores of s1 into columns 256–511 and of s0 into columns 0–255 of a 1024×512 buffer leave the two side by side. -/
theorem canon_two_halves (s0 s1 : S1024x256.Idx → EReal) (y : S1024x512.Idx) :
    View.canon [(⟨Rect.unit (s := S1024x512) ![0, 256] S1024x256.size inb_S1024x512_S1024x256_0_256, s1⟩ : View.Piece (Elt Ideal) S1024x512 .f32),
      ⟨Rect.unit (s := S1024x512) ![0, 0] S1024x256.size inb_S1024x512_S1024x256_0_0, s0⟩] y = sideBySide s0 s1 y := by
  refine View.canon_apply_of_pieces (Val := Elt Ideal) (S := S1024x512) (e := .f32) (sideBySide s0 s1) _ ?_ y ?_
  · intro pc hpc x
    rcases List.mem_cons.mp hpc with rfl | hpc
    · obtain ⟨a, b, rfl⟩ : ∃ (a : Fin 1024) (b : Fin 256), x = ix2 a b := ⟨x 0, x 1, eq_ix2 x⟩
      show s1 (ix2 a b) = sideBySide s0 s1 _
      unfold sideBySide
      have h1 : ¬(((Rect.unit (s := S1024x512) ![0, 256] S1024x256.size inb_S1024x512_S1024x256_0_256).emb (ix2 a b)) 1).val < 256 := by
        show ¬(256 + 1 * b.val < 256); omega
      rw [dif_neg h1]
      refine congrArg s1 ?_
      funext d; apply Fin.ext
      match d with
      | ⟨0, _⟩ => show a.val = 0 + 1 * a.val; omega
      | ⟨1, _⟩ => show b.val = 256 + 1 * b.val - 256; omega
    · rcases List.mem_cons.mp hpc with rfl | hpc
      · obtain ⟨a, b, rfl⟩ : ∃ (a : Fin 1024) (b : Fin 256), x = ix2 a b := ⟨x 0, x 1, eq_ix2 x⟩
        show s0 (ix2 a b) = sideBySide s0 s1 _
        unfold sideBySide
        have h1 : (((Rect.unit (s := S1024x512) ![0, 0] S1024x256.size inb_S1024x512_S1024x256_0_0).emb (ix2 a b)) 1).val < 256 := by
          show 0 + 1 * b.val < 256; have := b.isLt; omega
        rw [dif_pos h1]
        refine congrArg s0 ?_
        funext d; apply Fin.ext
        match d with
        | ⟨0, _⟩ => show a.val = 0 + 1 * a.val; omega
        | ⟨1, _⟩ => show b.val = 0 + 1 * b.val; omega
      · exact absurd hpc (List.not_mem_nil)
  · have hy0 : (y 0).val < 1024 := (y 0).isLt
    have hy1 : (y 1).val < 512 := (y 1).isLt
    by_cases h : (y 1).val < 256
    · refine ⟨_, List.mem_cons_of_mem _ List.mem_cons_self, ?_⟩
      rw [Rect.mem_set_unit]
      intro a
      match a with
      | ⟨0, _⟩ => show 0 ≤ (y 0).val ∧ (y 0).val < 0 + 1024; omega
      | ⟨1, _⟩ => show 0 ≤ (y 1).val ∧ (y 1).val < 0 + 256; omega
    · refine ⟨_, List.mem_cons_self, ?_⟩
      rw [Rect.mem_set_unit]
      intro a
      match a with
      | ⟨0, _⟩ => show 0 ≤ (y 0).val ∧ (y 0).val < 0 + 1024; omega
      | ⟨1, _⟩ => show 256 ≤ (y 1).val ∧ (y 1).val < 256 + 256; omega

/-- The output block at kk = 15, entry by entry: the accumulators' final contents side by side. -/
theorem out_last (c : Dev nD) (t : Fin cfg1.N) (h1 : t.val % 16 = 15) (p : Fin 1024) (j : Fin 512) :
    (outsAt1 V c t.val t.isLt).1 (ix2 p j)
      = if hj : j.val < 256 then (outsAt1 V c t.val t.isLt).2.1 (ix2 p ⟨j.val, hj⟩)
        else (outsAt1 V c t.val t.isLt).2.2 (ix2 p ⟨j.val - 256, by have := j.isLt; omega⟩) := by
  have h0 : ¬t.val % 16 = 0 := by omega
  rw [outsAt1_C V c t h0 h1]
  dsimp only
  rw [outC3_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, soutC0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, soutC1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2]
  exact canon_two_halves _ _ (ix2 p j)

/-- WHAT A POINT WITH kk = 15 WRITES BACK is its block of [A1·H | A2·H]. -/
theorem flushed1_3_eq (c : Dev nD) (t : Fin cfg1.N) (hf : (cfg1.win 3).flush t = true) :
    (dat1 V c).flushed 3 t = ((cfg1.win 3).blk t).view.read (Elt Ideal) (G1 (A1arr V c) (A2arr V c) (Harr V c)) := by
  have h1 : t.val % 16 = 15 := (flush1_3 t).mp hf
  have hN : t.val < 128 := lt_of_lt_of_eq t.isLt (show cfg1.N = 128 from N_1)
  obtain ⟨-, -, -, -, -, -, e0, e1, -⟩ := idx1_facts t
  show (cfg1.win 3).cut (grid1.coords t) ((dat1 V c).after 3 t) = _
  rw [after1_3]
  funext y
  obtain ⟨p, j, rfl⟩ : ∃ (p : Fin 1024) (j : Fin 512), y = ix2 p j := ⟨y 0, y 1, eq_ix2 y⟩
  rw [View.read_apply]
  have hemb : ((cfg1.win 3).blk t).view.emb (ix2 p j) = ix2 (⟨1024 * (t.val / 16) + p.val, rowBound t p⟩ : Fin 8192) j := by
    funext a; apply Fin.ext
    match a with
    | ⟨0, _⟩ => show win1_3.index t 0 * 1024 + 1 * p.val = 1024 * (t.val / 16) + p.val; rw [e0]; omega
    | ⟨1, _⟩ => show win1_3.index t 1 * 512 + 1 * j.val = j.val; rw [e1]; omega
  show (outsAt1 V c t.val t.isLt).1 (ix2 p j) = G1 (A1arr V c) (A2arr V c) (Harr V c) (((cfg1.win 3).blk t).view.emb (ix2 p j))
  rw [hemb, out_last V c t h1 p j]
  by_cases hj : j.val < 256
  · rw [dif_pos hj, G1_left _ _ _ _ _ hj, s0_last V c t h1 p ⟨j.val, hj⟩]
  · rw [dif_neg hj, G1_right _ _ _ _ _ hj, s1_last V c t h1 p ⟨j.val - 256, by have := j.isLt; omega⟩]

theorem mem_blk1_3 (t : Fin cfg1.N) (i : S8192x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v3).slice (win1_3.rect t)).set ↔ _
  rw [View.set_slice_whole, Rect.mem_set_unit]
  exact Iff.rfl

/-- Every entry of the output array is in the block of the point (i, 15) with i its row tile. -/
theorem cover1_3_arr (i : S8192x512.Idx) : ∃ t : Fin cfg1.N, (cfg1.win 3).flush t = true ∧ i ∈ ((cfg1.win 3).blk t).view.set := by
  have hi0 : (i 0).val < 8192 := (i 0).isLt
  have hi1 : (i 1).val < 512 := (i 1).isLt
  have hN : cfg1.N = 128 := N_1
  let t : Fin cfg1.N := ⟨16 * ((i 0).val / 1024) + 15, by rw [hN]; omega⟩
  have ht : t.val = 16 * ((i 0).val / 1024) + 15 := rfl
  obtain ⟨-, -, -, -, -, -, e0, e1, -⟩ := idx1_facts t
  refine ⟨t, (flush1_3 t).mpr (by rw [ht]; omega), ?_⟩
  rw [mem_blk1_3]
  intro a
  match a with
  | ⟨0, _⟩ => show win1_3.index t 0 * 1024 ≤ (i 0).val ∧ (i 0).val < win1_3.index t 0 * 1024 + 1024; rw [e0, ht]; omega
  | ⟨1, _⟩ => show win1_3.index t 1 * 512 ≤ (i 1).val ∧ (i 1).val < win1_3.index t 1 * 512 + 512; rw [e1]; omega

/-- THE ARRAY after the region: [A1·H | A2·H] of the arrays the region is entered with. -/
theorem arr1_eq (c : Dev nD) : (dat1 V c).arrAt 3 cfg1.N = G1 (A1arr V c) (A2arr V c) (Harr V c) :=
  (dat1 V c).arrAt_eq_of_cover 3 (G1 (A1arr V c) (A2arr V c) (Harr V c)) (flushed1_3_eq V c) cover1_3_arr

end Cert.KernelIdeal.Hand

end
-- ==== Proof.Spec.Cur.lean ====
/- Adapters between an array over a literal shape's index set and its curried form over literal `Fin` types. -/
import Mathlib
import Idealize.ShloMosaic.Lib.ValueIdx

namespace Cert.Spec

open Idealize.ShloMosaic

/-- A rank-2 array read at its two coordinates. -/
def cur2 {α : Type} {n0 n1 : Nat} (a : (⟨2, ![n0, n1]⟩ : Shape).Idx → α) (i : Fin n0) (j : Fin n1) : α :=
  a (ValueIdx.ix2 i j)

/-- A rank-1 array read at its coordinate. -/
def cur1 {α : Type} {n : Nat} (a : (⟨1, ![n]⟩ : Shape).Idx → α) (i : Fin n) : α :=
  a (ValueIdx.ix1 i)

theorem cur2_apply {α : Type} {n0 n1 : Nat} (a : (⟨2, ![n0, n1]⟩ : Shape).Idx → α) (i : Fin n0) (j : Fin n1) :
    cur2 a i j = a (ValueIdx.ix2 i j) := rfl

theorem cur1_apply {α : Type} {n : Nat} (a : (⟨1, ![n]⟩ : Shape).Idx → α) (i : Fin n) :
    cur1 a i = a (ValueIdx.ix1 i) := rfl

end Cert.Spec
-- ==== Proof.KI.Comp1.lean ====
/-
  The first two regions composed, at the ideal values: at region 1's exit the embedding array holds the
  specification's `h` of the launch arrays and the neighbourhood array its `zraw`, index by index; the arguments
  the later stretches read are still the launch's.
-/
import proofs.«109319_j33217277067916_2_alg».proof.Proof.KI.RunArgs
import proofs.«109319_j33217277067916_2_alg».proof.Proof.KI.R0Value
import proofs.«109319_j33217277067916_2_alg».proof.Proof.KI.Host0
import proofs.«109319_j33217277067916_2_alg».proof.Proof.KI.R1Value
import proofs.«109319_j33217277067916_2_alg».proof.Proof.Spec.Defs
import proofs.«109319_j33217277067916_2_alg».proof.Proof.Spec.Cur

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open Cert.Spec (cur1 cur2)
open scoped BigOperators

variable (m : (ℓ : Loc nD τ sig) → Buf (Elt Ideal) ℓ)

/-! ## The launch arrays, typed as functions into the extended reals -/

abbrev a0 (c : Dev nD) : S8192x512.Idx → EReal := m ((c : Thread nD τ).loc main_arg0)
abbrev a1 (c : Dev nD) : S8192x8192.Idx → EReal := m ((c : Thread nD τ).loc main_arg1)
abbrev a2 (c : Dev nD) : S8192x8192.Idx → EReal := m ((c : Thread nD τ).loc main_arg2)
abbrev a3 (c : Dev nD) : S256x512.Idx → EReal := m ((c : Thread nD τ).loc main_arg3)
abbrev a4 (c : Dev nD) : S256.Idx → EReal := m ((c : Thread nD τ).loc main_arg4)
abbrev a5 (c : Dev nD) : S512.Idx → EReal := m ((c : Thread nD τ).loc main_arg5)
abbrev a6 (c : Dev nD) : S512.Idx → EReal := m ((c : Thread nD τ).loc main_arg6)
abbrev a7 (c : Dev nD) : S64x1792.Idx → EReal := m ((c : Thread nD τ).loc main_arg7)
abbrev a8 (c : Dev nD) : S64.Idx → EReal := m ((c : Thread nD τ).loc main_arg8)

/-- The embedding array at region 0's exit, and the neighbourhood array at region 1's. -/
abbrev hv2 (c : Dev nD) : S8192x256.Idx → EReal := V2 m c main_v2
abbrev zv3 (c : Dev nD) : S8192x512.Idx → EReal := V3 m c main_v3

/-! ## At region 0's exit -/

/-- An argument neither the first host stretch nor region 0 writes is the launch's. -/
theorem V2_arg1 (c : Dev nD) : V2 m c main_arg1 = m ((c : Thread nD τ).loc main_arg1) :=
  (W2_of_ne m c main_arg1 (by decide)).trans <|
    (StableHlo.after_of_writes_sub hostOps0 _ hostOps0_writes (r := main_arg1) (by decide)).trans rfl

theorem V2_arg2 (c : Dev nD) : V2 m c main_arg2 = m ((c : Thread nD τ).loc main_arg2) :=
  (W2_of_ne m c main_arg2 (by decide)).trans <|
    (StableHlo.after_of_writes_sub hostOps0 _ hostOps0_writes (r := main_arg2) (by decide)).trans rfl

/-- The embedding array after region 0 is the function `G0` of the arrays the region is entered with. -/
theorem hv2_eq (c : Dev nD) : hv2 m c = G0 (V1 m c main_arg0) (V1 m c main_v0) (V1 m c main_v1) :=
  (W2_arr m c 3).trans (arr0_eq (V1 m) c)

/-- The embedding array after region 0 is the specification's `h` of the launch arrays: the weights the region reads
    are the weight argument transposed, its bias row the bias argument, its rows the first argument. -/
theorem V2_v2_apply (c : Dev nD) (r : Fin 8192) (j : Fin 256) :
    (hv2 m c) (ix2 r j) = Cert.Spec.h (cur2 (a0 m c)) (cur2 (a3 m c)) (cur1 (a4 m c)) r j := by
  rw [hv2_eq m c, G0_apply]
  unfold Cert.Spec.h
  have hb : bArr0 (V1 m) c (ix2 (0 : Fin 1) j) = cur1 (a4 m c) j :=
    host0_v1_apply (W0 m c) 0 j
  have hs : ∀ k : Fin 512,
      xArr0 (V1 m) c (ix2 r k) * wArr0 (V1 m) c (ix2 k j) = cur2 (a0 m c) r k * cur2 (a3 m c) j k := fun k =>
    congrArg₂ (fun (x y : EReal) => x * y) (congrFun (host0_arg0 (W0 m c)) (ix2 r k)) (host0_v0_apply (W0 m c) k j)
  exact congrArg₂ (fun (s b : EReal) => max (s + b) 0) (Finset.sum_congr rfl fun k _ => hs k) hb

/-! ## At region 1's exit -/

/-- The neighbourhood array after region 1 is the function `G1` of the arrays the region is entered with. -/
theorem zv3_eq (c : Dev nD) : zv3 m c = G1 (A1arr (V2 m) c) (A2arr (V2 m) c) (Harr (V2 m) c) :=
  (W3_arr m c 3).trans (arr1_eq (V2 m) c)

/-- The neighbourhood array after region 1 is the specification's `zraw` of the launch arrays. -/
theorem V3_v3_apply (c : Dev nD) (r : Fin 8192) (j : Fin 512) :
    (zv3 m c) (ix2 r j)
      = Cert.Spec.zraw (cur2 (a1 m c)) (cur2 (a2 m c))
          (Cert.Spec.h (cur2 (a0 m c)) (cur2 (a3 m c)) (cur1 (a4 m c))) r j := by
  have h1 : (fun (a : Fin 8192) (b : Fin 8192) => A1arr (V2 m) c (ix2 a b)) = cur2 (a1 m c) :=
    funext fun a => funext fun b => congrFun (V2_arg1 m c) (ix2 a b)
  have h2 : (fun (a : Fin 8192) (b : Fin 8192) => A2arr (V2 m) c (ix2 a b)) = cur2 (a2 m c) :=
    funext fun a => funext fun b => congrFun (V2_arg2 m c) (ix2 a b)
  have h3 : (fun (a : Fin 8192) (b : Fin 256) => Harr (V2 m) c (ix2 a b))
      = Cert.Spec.h (cur2 (a0 m c)) (cur2 (a3 m c)) (cur1 (a4 m c)) :=
    funext fun a => funext fun b => V2_v2_apply m c a b
  rw [zv3_eq m c]
  show Cert.Spec.zraw (fun a b => A1arr (V2 m) c (ix2 a b)) (fun a b => A2arr (V2 m) c (ix2 a b))
    (fun a b => Harr (V2 m) c (ix2 a b)) r j = _
  rw [h1, h2, h3]

/-- Region 1 reads the two adjacency arguments and the embedding array through input windows: they leave as entered. -/
theorem V3_arg1 (c : Dev nD) : V3 m c main_arg1 = m ((c : Thread nD τ).loc main_arg1) :=
  (W3_in m c 0 rfl).trans (V2_arg1 m c)

theorem V3_arg2 (c : Dev nD) : V3 m c main_arg2 = m ((c : Thread nD τ).loc main_arg2) :=
  (W3_in m c 1 rfl).trans (V2_arg2 m c)

theorem V3_v2 (c : Dev nD) : V3 m c main_v2 = V2 m c main_v2 :=
  W3_in m c 2 rfl

/-- The embedding array at region 1's exit is still the specification's `h`. -/
theorem V3_v2_apply (c : Dev nD) (r : Fin 8192) (j : Fin 256) :
    (V3 m c main_v2 : S8192x256.Idx → EReal) (ix2 r j)
      = Cert.Spec.h (cur2 (a0 m c)) (cur2 (a3 m c)) (cur1 (a4 m c)) r j :=
  (congrFun (V3_v2 m c) (ix2 r j)).trans (V2_v2_apply m c r j)

/-- An argument no operation or region so far touches is the launch's. -/
theorem V3_arg5 (c : Dev nD) : V3 m c main_arg5 = m ((c : Thread nD τ).loc main_arg5) :=
  (W3_of_ne m c main_arg5 (by decide)).trans <|
    (W2_of_ne m c main_arg5 (by decide)).trans <|
    (StableHlo.after_of_writes_sub hostOps0 _ hostOps0_writes (r := main_arg5) (by decide)).trans rfl

/-- An argument no operation or region so far touches is the launch's. -/
theorem V3_arg6 (c : Dev nD) : V3 m c main_arg6 = m ((c : Thread nD τ).loc main_arg6) :=
  (W3_of_ne m c main_arg6 (by decide)).trans <|
    (W2_of_ne m c main_arg6 (by decide)).trans <|
    (StableHlo.after_of_writes_sub hostOps0 _ hostOps0_writes (r := main_arg6) (by decide)).trans rfl

/-- An argument no operation or region so far touches is the launch's. -/
theorem V3_arg7 (c : Dev nD) : V3 m c main_arg7 = m ((c : Thread nD τ).loc main_arg7) :=
  (W3_of_ne m c main_arg7 (by decide)).trans <|
    (W2_of_ne m c main_arg7 (by decide)).trans <|
    (StableHlo.after_of_writes_sub hostOps0 _ hostOps0_writes (r := main_arg7) (by decide)).trans rfl

/-- An argument no operation or region so far touches is the launch's. -/
theorem V3_arg8 (c : Dev nD) : V3 m c main_arg8 = m ((c : Thread nD τ).loc main_arg8) :=
  (W3_of_ne m c main_arg8 (by decide)).trans <|
    (W2_of_ne m c main_arg8 (by decide)).trans <|
    (StableHlo.after_of_writes_sub hostOps0 _ hostOps0_writes (r := main_arg8) (by decide)).trans rfl

end Cert.KernelIdeal.Hand

end
-- ==== Proof.Spec.Finite.lean ====
/- Finiteness: an extended real is FINITE when it is (the coercion of) a real number,
   `IsReal v := ∃ r : ℝ, v = (r : EReal)`. Finite inputs give a finite embedding `h`, finite `zraw`, a finite
   `mean`, a finite and nonnegative `var`, hence `var + eps` a positive real and `rs` a real. The two float
   literals are evaluated here once: `8192` and the dyadic `10995116 / 2^40`. -/
import proofs.«109319_j33217277067916_2_alg».proof.Proof.Spec.Defs

noncomputable section

namespace Cert.Spec

open Idealize.ShloMosaic
open scoped BigOperators

/-! ### The literals -/

/-- The pattern `0x46000000` denotes `2^13 = 8192`. -/
theorem E8192_eq : E8192 = ((8192 : ℝ) : EReal) := by
  unfold E8192
  simp [Ideal.ofBits, Ideal.ieee, -EReal.coe_mul]
  norm_num

/-- The real the pattern `0x3727C5AC` denotes: `(2^23 + 2606508) * 2^(110 - 127 - 23) = 10995116 / 2^40`. -/
def epsR : ℝ := 10995116 / 1099511627776

theorem epsR_pos : 0 < epsR := by unfold epsR; norm_num

theorem Eeps_eq : Eeps = ((epsR : ℝ) : EReal) := by
  unfold Eeps epsR
  simp [Ideal.ofBits, Ideal.ieee, -EReal.coe_mul]
  norm_num

/-! ### Finite extended reals -/

/-- An extended real that is a real number. -/
def IsReal (v : EReal) : Prop := ∃ r : ℝ, v = (r : EReal)

theorem isReal_coe (r : ℝ) : IsReal (r : EReal) := ⟨r, rfl⟩

theorem isReal_zero : IsReal 0 := ⟨0, EReal.coe_zero.symm⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.max {a b : EReal} (ha : IsReal a) (hb : IsReal b) : IsReal (max a b) := by
  rcases max_choice a b with h | h
  · rw [h]; exact ha
  · rw [h]; exact hb

theorem isReal_sum {ι : Type*} (s : Finset ι) (g : ι → EReal) (hg : ∀ i ∈ s, IsReal (g i)) :
    IsReal (∑ i ∈ s, g i) :=
  Finset.sum_induction g IsReal (fun _ _ ha hb => ha.add hb) isReal_zero hg

theorem IsReal.ne_top {a : EReal} (ha : IsReal a) : a ≠ ⊤ := by
  obtain ⟨x, rfl⟩ := ha; exact EReal.coe_ne_top x

theorem IsReal.ne_bot {a : EReal} (ha : IsReal a) : a ≠ ⊥ := by
  obtain ⟨x, rfl⟩ := ha; exact EReal.coe_ne_bot x

/-- An extended real that is neither infinity is a real. -/
theorem isReal_of_ne {a : EReal} (ht : a ≠ ⊤) (hb : a ≠ ⊥) : IsReal a := by
  induction a using EReal.rec with
  | bot => exact absurd rfl hb
  | top => exact absurd rfl ht
  | coe r => exact ⟨r, rfl⟩

/-- The coercion of a finite real sum is the sum of the coercions. -/
theorem coe_sum {ι : Type*} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

/-! ### The embedding and the neighbourhood products -/

theorem h_isReal {x : Fin 8192 → Fin 512 → EReal} {We : Fin 256 → Fin 512 → EReal} {be : Fin 256 → EReal}
    (hx : ∀ i k, IsReal (x i k)) (hW : ∀ j k, IsReal (We j k)) (hb : ∀ j, IsReal (be j))
    (i : Fin 8192) (j : Fin 256) : IsReal (h x We be i j) := by
  unfold h
  exact ((isReal_sum _ _ fun k _ => (hx i k).mul (hW j k)).add (hb j)).max isReal_zero

theorem zraw_isReal {A1 A2 : Fin 8192 → Fin 8192 → EReal} {hh : Fin 8192 → Fin 256 → EReal}
    (hA1 : ∀ i k, IsReal (A1 i k)) (hA2 : ∀ i k, IsReal (A2 i k)) (hhh : ∀ i j, IsReal (hh i j))
    (i : Fin 8192) (j : Fin 512) : IsReal (zraw A1 A2 hh i j) := by
  unfold zraw
  split
  · exact isReal_sum _ _ fun k _ => (hA1 i k).mul (hhh k _)
  · exact isReal_sum _ _ fun k _ => (hA2 i k).mul (hhh k _)

/-! ### The column statistics of a real array -/

/-- The mean of a real array's column. -/
def meanR (r : Fin 8192 → Fin 512 → ℝ) (j : Fin 512) : ℝ := (∑ i : Fin 8192, r i j) * (1 / 8192)

/-- The (biased) variance of a real array's column. -/
def varR (r : Fin 8192 → Fin 512 → ℝ) (j : Fin 512) : ℝ :=
  (∑ i : Fin 8192, (r i j - meanR r j) * (r i j - meanR r j)) * (1 / 8192)

theorem varR_nonneg (r : Fin 8192 → Fin 512 → ℝ) (j : Fin 512) : 0 ≤ varR r j := by
  unfold varR
  exact mul_nonneg (Finset.sum_nonneg fun i _ => mul_self_nonneg _) (by norm_num)

theorem mean_coe (r : Fin 8192 → Fin 512 → ℝ) (j : Fin 512) :
    mean (fun i j => (r i j : EReal)) j = ((meanR r j : ℝ) : EReal) := by
  unfold mean meanR
  rw [E8192_eq, Ideal.div_coe (by norm_num), zero_add, ← coe_sum, ← EReal.coe_mul]

theorem var_coe (r : Fin 8192 → Fin 512 → ℝ) (j : Fin 512) :
    var (fun i j => (r i j : EReal)) j = ((varR r j : ℝ) : EReal) := by
  unfold var varR
  rw [E8192_eq, Ideal.div_coe (by norm_num), zero_add, mean_coe]
  simp only [← EReal.coe_sub, ← EReal.coe_mul]
  rw [← coe_sum, ← EReal.coe_mul]

theorem rs_coe (r : Fin 8192 → Fin 512 → ℝ) (j : Fin 512) :
    rs (fun i j => (r i j : EReal)) j = (((Real.sqrt (varR r j + epsR))⁻¹ : ℝ) : EReal) := by
  have hpos : 0 < varR r j + epsR := add_pos_of_nonneg_of_pos (varR_nonneg r j) epsR_pos
  unfold rs
  rw [var_coe, Eeps_eq, ← EReal.coe_add, Ideal.rsqrt_coe, if_neg (not_lt.mpr hpos.le), if_neg hpos.ne']

/-! ### The same for a finite extended-real array -/

variable {zr : Fin 8192 → Fin 512 → EReal}

/-- A finite array is the coercion of a real array. -/
theorem exists_real_array (hz : ∀ i j, IsReal (zr i j)) :
    ∃ r : Fin 8192 → Fin 512 → ℝ, zr = fun i j => (r i j : EReal) := by
  choose r hr using hz
  exact ⟨r, funext fun i => funext fun j => hr i j⟩

theorem mean_isReal (hz : ∀ i j, IsReal (zr i j)) (j : Fin 512) : IsReal (mean zr j) := by
  obtain ⟨r, rfl⟩ := exists_real_array hz
  exact ⟨_, mean_coe r j⟩

theorem var_isReal (hz : ∀ i j, IsReal (zr i j)) (j : Fin 512) : IsReal (var zr j) := by
  obtain ⟨r, rfl⟩ := exists_real_array hz
  exact ⟨_, var_coe r j⟩

theorem var_nonneg (hz : ∀ i j, IsReal (zr i j)) (j : Fin 512) : 0 ≤ var zr j := by
  obtain ⟨r, rfl⟩ := exists_real_array hz
  rw [var_coe]
  exact_mod_cast varR_nonneg r j

/-- `var + eps` is a positive real. -/
theorem var_add_eps (hz : ∀ i j, IsReal (zr i j)) (j : Fin 512) :
    ∃ v : ℝ, 0 < v ∧ var zr j + Eeps = (v : EReal) := by
  obtain ⟨r, rfl⟩ := exists_real_array hz
  exact ⟨varR r j + epsR, add_pos_of_nonneg_of_pos (varR_nonneg r j) epsR_pos, by
    rw [var_coe, Eeps_eq, ← EReal.coe_add]⟩

theorem rs_isReal (hz : ∀ i j, IsReal (zr i j)) (j : Fin 512) : IsReal (rs zr j) := by
  obtain ⟨r, rfl⟩ := exists_real_array hz
  exact ⟨_, rs_coe r j⟩

end Cert.Spec

end
-- ==== Proof.KI.Host2Ops.lean ====
/- The host operations between the two convolution regions, read at an index at the ideal values (the extended reals):
   a column sum is the initial value plus the sum down the column; a scalar broadcast reads the scalar; a vector laid
   along a row reads the vector; a row laid down the rows reads the row. Then the variance function's chain of
   operations as pure functions of the array `x` and of the integer scalar `c` it subtracts from the count, and that
   chain read at a column: with `c = 0` the count is 8192 > 0, so the guarded result is the (biased) variance. -/
import proofs.«109319_j33217277067916_2_alg».proof.Proof.Gen.KernelIdeal
import proofs.«109319_j33217277067916_2_alg».proof.Proof.Spec.Finite
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-! ## Single operations at an index -/

/-- A column sum read at an index: the initial value plus the sum down the column. -/
theorem colsum_apply (x : FVec Ideal S8192x512 .f32) (init : S_.Idx → EReal) (j : Fin 512) :
    Host.reduceAdd x init reducesTo_S8192x512_S512_d0 h_S_ (ix1 j) = init (Shape.Idx.first h_S_) + ∑ i : Fin 8192, x (ix2 i j) := by
  unfold Host.reduceAdd
  rw [Ideal.hostReduceAdd_def]
  refine (Ideal.hostReduceAdd_single reducesTo_S8192x512_S512_d0 (by decide : S8192x512.Reduces [0] S512) x _ (ix1 j)).trans ?_
  refine congrArg (init (Shape.Idx.first h_S_) + ·) (Finset.sum_congr rfl fun k _ => congrArg x ?_)
  funext a; apply Fin.ext
  match a with
  | ⟨0, _⟩ => rfl
  | ⟨1, _⟩ => rfl

theorem hostDivf_apply {s : Shape} {φ : FTy} (a b : FVec Ideal s φ) (i : s.Idx) : Host.divf a b i = Ideal.div (a i) (b i) := rfl
theorem hostRsqrt_apply {s : Shape} {φ : FTy} (a : FVec Ideal s φ) (i : s.Idx) : Host.rsqrt a i = Ideal.rsqrt (a i) := rfl

/-- A scalar broadcast to any shape reads the scalar. -/
theorem bcast0_apply {α : Type} {t : Shape} (h : S_.BroadcastsInDim t (![] : Fin 0 → Fin t.rank)) (x : S_.Idx → α) (i : t.Idx) (k : S_.Idx) :
    broadcastInDim t ![] h x i = x k :=
  broadcastInDim_apply _ h x i k (fun a => a.elim0)

/-- A vector laid along the one row of a [1, n] array reads, at (u, j), the vector at j. -/
theorem bcastRow_apply {α : Type} {n : ℕ} (h : (⟨1, ![n]⟩ : Shape).BroadcastsInDim ⟨2, ![1, n]⟩ ![1])
    (x : (⟨1, ![n]⟩ : Shape).Idx → α) (u : Fin 1) (j : Fin n) : broadcastInDim ⟨2, ![1, n]⟩ ![1] h x (ix2 u j) = x (ix1 j) := by
  refine broadcastInDim_apply ![1] h x (ix2 u j) (ix1 j) fun a => ?_
  match a with
  | ⟨0, _⟩ =>
    show j.val = if n = 1 then 0 else j.val
    split
    · have := j.isLt; omega
    · rfl

/-- The integer zero converted is the float zero. -/
theorem sitofp_zero32 : (FloatOps.sitofp (F := Ideal) .f32 (0#32 : BitVec 32) : EReal) = 0 := by
  show ((((0#32 : BitVec 32).toInt : ℤ) : ℝ) : EReal) = 0
  simp

/-- 8192 > 0. -/
theorem cmp_ogt_E8192 : Ideal.cmp .ogt Cert.Spec.E8192 0 = 1#1 := by
  have h : (0 : EReal) < Cert.Spec.E8192 := by
    rw [Cert.Spec.E8192_eq]; exact_mod_cast (by norm_num : (0 : ℝ) < 8192)
  unfold Ideal.cmp
  simp [h]

/-! ## The variance function's chain, as pure functions -/

section VarChain
variable (x : S8192x512.Idx → EReal) (c : S_.Idx → BitVec 32)

def vc_v0 : S512.Idx → EReal := Host.reduceAdd (F := Ideal) x (constant (F := Ideal) S_ .f32 0x00000000#32) reducesTo_S8192x512_S512_d0 h_S_
def vc_v1 : S1x512.Idx → EReal := broadcastInDim S1x512 ![1] bcast_S512_S1x512_1 (vc_v0 x)
def vc_v2 : S1x512.Idx → EReal := broadcastInDim S1x512 ![] bcast_S_S1x512 (constant (F := Ideal) S_ .f32 0x46000000#32)
def vc_v3 : S1x512.Idx → EReal := Host.divf (F := Ideal) (φ := .f32) (vc_v1 x) vc_v2
def vc_v4 : S8192x512.Idx → EReal := broadcastInDim S8192x512 ![0, 1] bcast_S1x512_S8192x512_0_1 (vc_v3 x)
def vc_v5 : S8192x512.Idx → EReal := subf (F := Ideal) (φ := .f32) x (vc_v4 x)
def vc_v6 : S8192x512.Idx → EReal := mulf (F := Ideal) (φ := .f32) (vc_v5 x) (vc_v5 x)
def vc_v7 : S_.Idx → EReal := sitofp (F := Ideal) .f32 c
def vc_v8 : S_.Idx → EReal := subf (F := Ideal) (φ := .f32) (constant (F := Ideal) S_ .f32 0x46000000#32) (vc_v7 c)
def vc_v9 : S512.Idx → EReal := Host.reduceAdd (F := Ideal) (φ := .f32) (vc_v6 x) (constant (F := Ideal) S_ .f32 0x00000000#32) reducesTo_S8192x512_S512_d0 h_S_
def vc_v10 : S512.Idx → EReal := broadcastInDim S512 ![] bcast_S_S512 (vc_v8 c)
def vc_v11 : S512.Idx → EReal := Host.divf (F := Ideal) (φ := .f32) (vc_v9 x) (vc_v10 c)
def vc_v12 : S_.Idx → BitVec 1 := cmpf (F := Ideal) (φ := .f32) .ogt (vc_v8 c) (constant (F := Ideal) S_ .f32 0x00000000#32)
def vc_nan : S512.Idx → EReal := broadcastInDim S512 ![] bcast_S_S512 (id (constant (F := Ideal) S_ .f32 0x7FC00000#32))
/-- The chain's result: the quotient where the count is positive, the not-a-number literal elsewhere. -/
def vc_out : S512.Idx → EReal := select (broadcastInDim S512 ![] bcast_S_S512 (vc_v12 c)) (vc_v11 x c) vc_nan

/-- The array as a function of its two coordinates. -/
abbrev asFn2 : Fin 8192 → Fin 512 → EReal := fun i j => x (ix2 i j)

/-- The chain's mean row at (u, j) is the column's mean. -/
theorem vc_v3_apply (u : Fin 1) (j : Fin 512) : vc_v3 x (ix2 u j) = Cert.Spec.mean (asFn2 x) j := by
  unfold vc_v3 vc_v2 vc_v1 vc_v0
  rw [hostDivf_apply, bcastRow_apply, colsum_apply, bcast0_apply _ _ _ (Shape.Idx.first h_S_), constant_apply, constant_apply,
    Ideal.ofBits_zero_f32]
  rfl

/-- The centred array at (i, j). -/
theorem vc_v5_apply (i : Fin 8192) (j : Fin 512) : vc_v5 x (ix2 i j) = x (ix2 i j) - Cert.Spec.mean (asFn2 x) j := by
  unfold vc_v5 vc_v4
  rw [subf_apply, broadcastInDim_oneRow_apply, vc_v3_apply]

/-- With the integer scalar zero the count is the literal 8192. -/
theorem vc_v8_apply (hc : c = constantI S_ 32 0#32) (k : S_.Idx) : vc_v8 c k = Cert.Spec.E8192 := by
  subst hc
  unfold vc_v8 vc_v7
  rw [subf_apply, constant_apply, sitofp_apply, constantI_apply, sitofp_zero32, sub_zero]
  rfl

/-- THE CHAIN READ AT A COLUMN: the (biased) variance of the column. -/
theorem vc_out_apply (hc : c = constantI S_ 32 0#32) (j : Fin 512) : vc_out x c (ix1 j) = Cert.Spec.var (asFn2 x) j := by
  unfold vc_out
  rw [select_apply, bcast0_apply _ _ _ (Shape.Idx.first h_S_)]
  have hp : vc_v12 c (Shape.Idx.first h_S_) = 1#1 := by
    unfold vc_v12
    rw [cmpf_apply, vc_v8_apply c hc, constant_apply, Ideal.ofBits_zero_f32]
    exact cmp_ogt_E8192
  rw [hp, select_one]
  unfold vc_v11 vc_v10 vc_v9 vc_v6
  rw [hostDivf_apply, bcast0_apply _ _ _ (Shape.Idx.first h_S_), vc_v8_apply c hc, colsum_apply, constant_apply, Ideal.ofBits_zero_f32]
  unfold Cert.Spec.var
  refine congrArg (fun s => Ideal.div (0 + s) Cert.Spec.E8192) (Finset.sum_congr rfl fun i _ => ?_)
  rw [mulf_apply, vc_v5_apply]

end VarChain

/-! ## The scale and the shift, as pure functions -/

section ScaleShift
variable (g b v6 v7 : S512.Idx → EReal)

/-- scale = γ · rsqrt (var + eps). -/
def sc_v11 : S512.Idx → EReal :=
  mulf (F := Ideal) (φ := .f32) g (Host.rsqrt (F := Ideal) (φ := .f32)
    (addf (F := Ideal) (φ := .f32) v7 (broadcastInDim S512 ![] bcast_S_S512 (constant (F := Ideal) S_ .f32 0x3727C5AC#32))))
/-- shift = β − mean · scale. -/
def sc_v13 : S512.Idx → EReal :=
  subf (F := Ideal) (φ := .f32) b (mulf (F := Ideal) (φ := .f32) v6 (sc_v11 g v7))

theorem sc_v11_apply (j : Fin 512) : sc_v11 g v7 (ix1 j) = g (ix1 j) * Ideal.rsqrt (v7 (ix1 j) + Cert.Spec.Eeps) := by
  unfold sc_v11
  rw [mulf_apply, hostRsqrt_apply, addf_apply, bcast0_apply _ _ _ (Shape.Idx.first h_S_), constant_apply]
  rfl

theorem sc_v13_apply (j : Fin 512) :
    sc_v13 g b v6 v7 (ix1 j) = b (ix1 j) - v6 (ix1 j) * (g (ix1 j) * Ideal.rsqrt (v7 (ix1 j) + Cert.Spec.Eeps)) := by
  unfold sc_v13
  rw [subf_apply, mulf_apply, sc_v11_apply]

end ScaleShift

/-- A vector as a function of its coordinate. -/
abbrev asFn1 (g : S512.Idx → EReal) : Fin 512 → EReal := fun j => g (ix1 j)

end Cert.KernelIdeal.Hand

end
-- ==== Proof.KI.Host2.lean ====
/- The host stretch between the two convolution regions read at an index, at the ideal values, from ANY contents `W`
   of the buffers before it: three lists of operations in order (the column sums and the mean; the variance function;
   the scale, the shift and the four transposed column slices of the final weights). The scale row the last region reads
   is γ · rsqrt (var + eps) of the array the first convolution region left, its shift row is β − mean · scale, each
   weight block is a slice of the final weight argument transposed, the bias row is the bias argument as one row. -/
import proofs.«109319_j33217277067916_2_alg».proof.Proof.Gen.KernelIdeal.Launch
import proofs.«109319_j33217277067916_2_alg».proof.Proof.Gen.KernelIdeal.Regions
import proofs.«109319_j33217277067916_2_alg».proof.Proof.KI.Host2Ops
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.ShloMosaic.StableHlo Idealize.SL.Sem
open scoped BigOperators

/-! ## The first list: the column sums and the mean -/

section A
variable (Wa : Valuation τ sig (Elt Ideal))

theorem hostA_v6 :
    (StableHlo.after (hostOps2 (F := Ideal)) Wa (Proc.devRef .tc main_v6) : S512.Idx → EReal)
      = Host.divf (F := Ideal) (φ := .f32)
          (Host.reduceAdd (F := Ideal) (φ := .f32) (Wa (Proc.devRef .tc main_v3)) (constant (F := Ideal) S_ .f32 0x00000000#32) reducesTo_S8192x512_S512_d0 h_S_)
          (broadcastInDim S512 ![] bcast_S_S512 (constant (F := Ideal) S_ .f32 0x46000000#32)) := by
  dsimp only [hostOps2]; after_results

/-- The mean buffer at j is the mean of column j of the array the list finds in `main_v3`. -/
theorem hostA_v6_apply (j : Fin 512) :
    (StableHlo.after (hostOps2 (F := Ideal)) Wa (Proc.devRef .tc main_v6) : S512.Idx → EReal) (ix1 j)
      = Cert.Spec.mean (asFn2 (Wa (Proc.devRef .tc main_v3))) j := by
  rw [hostA_v6, hostDivf_apply, colsum_apply, bcast0_apply _ _ _ (Shape.Idx.first h_S_), constant_apply, constant_apply,
    Ideal.ofBits_zero_f32]
  rfl

/-- The integer scalar the variance function subtracts from the count is zero. -/
theorem hostA_c :
    (StableHlo.after (hostOps2 (F := Ideal)) Wa (Proc.devRef .tc main_c) : S_.Idx → BitVec 32) = constantI S_ 32 0#32 := by
  dsimp only [hostOps2]; after_results

/-- The list leaves every buffer it does not write as it was. -/
theorem hostA_keep (r : Ref sig .tc) (h : r ∉ hostOps2_W) :
    StableHlo.after (hostOps2 (F := Ideal)) Wa (Proc.devRef .tc r) = Wa (Proc.devRef .tc r) :=
  StableHlo.after_of_writes_sub hostOps2 Wa hostOps2_writes h
end A

/-! ## The second list: the variance function -/

section B
variable (Wb : Valuation τ sig (Elt Ideal))

set_option maxHeartbeats 1000000 in
/-- The variance buffer is the chain of Host2Ops of the array in `main_v3` and the integer scalar in `main_c`. -/
theorem hostB_v7 :
    (StableHlo.after (hostOps2_1 (F := Ideal)) Wb (Proc.devRef .tc main_v7) : S512.Idx → EReal)
      = vc_out (Wb (Proc.devRef .tc main_v3)) (Wb (Proc.devRef .tc main_c)) := by
  dsimp only [hostOps2_1]; after_results; rfl

theorem hostB_keep (r : Ref sig .tc) (h : r ∉ hostOps2_1_W) :
    StableHlo.after (hostOps2_1 (F := Ideal)) Wb (Proc.devRef .tc r) = Wb (Proc.devRef .tc r) :=
  StableHlo.after_of_writes_sub hostOps2_1 Wb hostOps2_1_writes h
end B

/-! ## The third list: the scale, the shift, the weight blocks, the bias row -/

section C
variable (Wc : Valuation τ sig (Elt Ideal))

theorem hostC_v14 :
    (StableHlo.after (hostOps2_2 (F := Ideal)) Wc (Proc.devRef .tc main_v14) : S1x512.Idx → EReal)
      = shapeCast S1x512 (sc_v11 (Wc (Proc.devRef .tc main_arg5)) (Wc (Proc.devRef .tc main_v7))) shapeCasts_S512_S1x512 := by
  dsimp only [hostOps2_2]; after_results; rfl

theorem hostC_v15 :
    (StableHlo.after (hostOps2_2 (F := Ideal)) Wc (Proc.devRef .tc main_v15) : S1x512.Idx → EReal)
      = shapeCast S1x512 (sc_v13 (Wc (Proc.devRef .tc main_arg5)) (Wc (Proc.devRef .tc main_arg6)) (Wc (Proc.devRef .tc main_v6)) (Wc (Proc.devRef .tc main_v7))) shapeCasts_S512_S1x512 := by
  dsimp only [hostOps2_2]; after_results; rfl

theorem hostC_v17 :
    (StableHlo.after (hostOps2_2 (F := Ideal)) Wc (Proc.devRef .tc main_v17) : S256x64.Idx → EReal)
      = transpose S256x64 [1, 0] (extractStridedSlice S64x256 ![0, 0] (Wc (Proc.devRef .tc main_arg7) : S64x1792.Idx → EReal) slices_S64x1792_S64x256_0_0) transposes_S64x256_S256x64_1_0 := by
  dsimp only [hostOps2_2]; after_results
theorem hostC_v19 :
    (StableHlo.after (hostOps2_2 (F := Ideal)) Wc (Proc.devRef .tc main_v19) : S512x64.Idx → EReal)
      = transpose S512x64 [1, 0] (extractStridedSlice S64x512 ![0, 256] (Wc (Proc.devRef .tc main_arg7) : S64x1792.Idx → EReal) slices_S64x1792_S64x512_0_256) transposes_S64x512_S512x64_1_0 := by
  dsimp only [hostOps2_2]; after_results
theorem hostC_v21 :
    (StableHlo.after (hostOps2_2 (F := Ideal)) Wc (Proc.devRef .tc main_v21) : S512x64.Idx → EReal)
      = transpose S512x64 [1, 0] (extractStridedSlice S64x512 ![0, 768] (Wc (Proc.devRef .tc main_arg7) : S64x1792.Idx → EReal) slices_S64x1792_S64x512_0_768) transposes_S64x512_S512x64_1_0 := by
  dsimp only [hostOps2_2]; after_results
theorem hostC_v23 :
    (StableHlo.after (hostOps2_2 (F := Ideal)) Wc (Proc.devRef .tc main_v23) : S512x64.Idx → EReal)
      = transpose S512x64 [1, 0] (extractStridedSlice S64x512 ![0, 1280] (Wc (Proc.devRef .tc main_arg7) : S64x1792.Idx → EReal) slices_S64x1792_S64x512_0_1280) transposes_S64x512_S512x64_1_0 := by
  dsimp only [hostOps2_2]; after_results
theorem hostC_v24 :
    (StableHlo.after (hostOps2_2 (F := Ideal)) Wc (Proc.devRef .tc main_v24) : S1x64.Idx → EReal)
      = shapeCast S1x64 (Wc (Proc.devRef .tc main_arg8) : S64.Idx → EReal) shapeCasts_S64_S1x64 := by
  dsimp only [hostOps2_2]; after_results; rfl

theorem hostC_keep (r : Ref sig .tc) (h : r ∉ hostOps2_2_W) :
    StableHlo.after (hostOps2_2 (F := Ideal)) Wc (Proc.devRef .tc r) = Wc (Proc.devRef .tc r) :=
  StableHlo.after_of_writes_sub hostOps2_2 Wc hostOps2_2_writes h
end C

/-! ## The three lists in order -/

variable (W : Valuation τ sig (Elt Ideal))

/-- The buffers after the first, the second, the third list. -/
abbrev H4 : Valuation τ sig (Elt Ideal) := StableHlo.after (hostOps2 (F := Ideal)) W
abbrev H5 : Valuation τ sig (Elt Ideal) := StableHlo.after (hostOps2_1 (F := Ideal)) (H4 W)
abbrev H6 : Valuation τ sig (Elt Ideal) := StableHlo.after (hostOps2_2 (F := Ideal)) (H5 W)

/-- What the stretch reads: the array the first convolution region left, and the two affine parameters. -/
abbrev zr2 : Fin 8192 → Fin 512 → EReal := asFn2 (W (Proc.devRef .tc main_v3))
abbrev γ2 : Fin 512 → EReal := asFn1 (W (Proc.devRef .tc main_arg5))
abbrev β2 : Fin 512 → EReal := asFn1 (W (Proc.devRef .tc main_arg6))

/-- A buffer none of the three lists writes is as the stretch found it. -/
theorem host2_keep (r : Ref sig .tc) (h4 : r ∉ hostOps2_W) (h5 : r ∉ hostOps2_1_W) (h6 : r ∉ hostOps2_2_W) :
    H6 W (Proc.devRef .tc r) = W (Proc.devRef .tc r) :=
  (hostC_keep (H5 W) r h6).trans ((hostB_keep (H4 W) r h5).trans (hostA_keep W r h4))

/-- The variance buffer the third list reads, at j: the variance of column j. -/
theorem host2_v7_apply (j : Fin 512) :
    (H5 W (Proc.devRef .tc main_v7) : S512.Idx → EReal) (ix1 j) = Cert.Spec.var (zr2 W) j := by
  have h3 : H4 W (Proc.devRef .tc main_v3) = W (Proc.devRef .tc main_v3) := hostA_keep W main_v3 (by decide)
  rw [show (H5 W (Proc.devRef .tc main_v7) : S512.Idx → EReal) = vc_out (H4 W (Proc.devRef .tc main_v3)) (H4 W (Proc.devRef .tc main_c)) from hostB_v7 (H4 W)]
  rw [vc_out_apply _ _ (hostA_c W) j, h3]

/-- The mean buffer the third list reads, at j: the mean of column j. -/
theorem host2_v6_apply (j : Fin 512) :
    (H5 W (Proc.devRef .tc main_v6) : S512.Idx → EReal) (ix1 j) = Cert.Spec.mean (zr2 W) j := by
  rw [show H5 W (Proc.devRef .tc main_v6) = H4 W (Proc.devRef .tc main_v6) from hostB_keep (H4 W) main_v6 (by decide)]
  exact hostA_v6_apply W j

theorem host2_arg5 : H5 W (Proc.devRef .tc main_arg5) = W (Proc.devRef .tc main_arg5) :=
  (hostB_keep (H4 W) main_arg5 (by decide)).trans (hostA_keep W main_arg5 (by decide))
theorem host2_arg6 : H5 W (Proc.devRef .tc main_arg6) = W (Proc.devRef .tc main_arg6) :=
  (hostB_keep (H4 W) main_arg6 (by decide)).trans (hostA_keep W main_arg6 (by decide))
theorem host2_arg7 : H5 W (Proc.devRef .tc main_arg7) = W (Proc.devRef .tc main_arg7) :=
  (hostB_keep (H4 W) main_arg7 (by decide)).trans (hostA_keep W main_arg7 (by decide))
theorem host2_arg8 : H5 W (Proc.devRef .tc main_arg8) = W (Proc.devRef .tc main_arg8) :=
  (hostB_keep (H4 W) main_arg8 (by decide)).trans (hostA_keep W main_arg8 (by decide))

/-- THE SCALE ROW at (u, j): γ j · rsqrt (var j + eps). -/
theorem host2_v14_apply (u : Fin 1) (j : Fin 512) :
    (H6 W (Proc.devRef .tc main_v14) : S1x512.Idx → EReal) (ix2 u j) = Cert.Spec.scale (zr2 W) (γ2 W) j := by
  rw [show (H6 W (Proc.devRef .tc main_v14) : S1x512.Idx → EReal) = _ from hostC_v14 (H5 W)]
  rw [shapeCast_a_1a_apply, sc_v11_apply, host2_v7_apply, host2_arg5]
  rfl

/-- THE SHIFT ROW at (u, j): β j − mean j · scale j. -/
theorem host2_v15_apply (u : Fin 1) (j : Fin 512) :
    (H6 W (Proc.devRef .tc main_v15) : S1x512.Idx → EReal) (ix2 u j) = Cert.Spec.shift (zr2 W) (γ2 W) (β2 W) j := by
  rw [show (H6 W (Proc.devRef .tc main_v15) : S1x512.Idx → EReal) = _ from hostC_v15 (H5 W)]
  rw [shapeCast_a_1a_apply, sc_v13_apply, host2_v7_apply, host2_v6_apply, host2_arg5, host2_arg6]
  rfl

/-- THE WEIGHT BLOCKS: block (k, o) is the final weight argument at (o, offset + k). -/
theorem host2_v17_apply (k : Fin 256) (o : Fin 64) :
    (H6 W (Proc.devRef .tc main_v17) : S256x64.Idx → EReal) (ix2 k o)
      = (W (Proc.devRef .tc main_arg7) : S64x1792.Idx → EReal) (ix2 o (⟨k.val, by omega⟩ : Fin 1792)) := by
  rw [show (H6 W (Proc.devRef .tc main_v17) : S256x64.Idx → EReal) = _ from hostC_v17 (H5 W)]
  rw [transpose_ix2_apply, host2_arg7]
  exact slice2_axis1_apply 0 _ _ o k _ (by show k.val = 0 + k.val; omega)
theorem host2_v19_apply (k : Fin 512) (o : Fin 64) :
    (H6 W (Proc.devRef .tc main_v19) : S512x64.Idx → EReal) (ix2 k o)
      = (W (Proc.devRef .tc main_arg7) : S64x1792.Idx → EReal) (ix2 o (⟨256 + k.val, by omega⟩ : Fin 1792)) := by
  rw [show (H6 W (Proc.devRef .tc main_v19) : S512x64.Idx → EReal) = _ from hostC_v19 (H5 W)]
  rw [transpose_ix2_apply, host2_arg7]
  exact slice2_axis1_apply 256 _ _ o k _ rfl
theorem host2_v21_apply (k : Fin 512) (o : Fin 64) :
    (H6 W (Proc.devRef .tc main_v21) : S512x64.Idx → EReal) (ix2 k o)
      = (W (Proc.devRef .tc main_arg7) : S64x1792.Idx → EReal) (ix2 o (⟨768 + k.val, by omega⟩ : Fin 1792)) := by
  rw [show (H6 W (Proc.devRef .tc main_v21) : S512x64.Idx → EReal) = _ from hostC_v21 (H5 W)]
  rw [transpose_ix2_apply, host2_arg7]
  exact slice2_axis1_apply 768 _ _ o k _ rfl
theorem host2_v23_apply (k : Fin 512) (o : Fin 64) :
    (H6 W (Proc.devRef .tc main_v23) : S512x64.Idx → EReal) (ix2 k o)
      = (W (Proc.devRef .tc main_arg7) : S64x1792.Idx → EReal) (ix2 o (⟨1280 + k.val, by omega⟩ : Fin 1792)) := by
  rw [show (H6 W (Proc.devRef .tc main_v23) : S512x64.Idx → EReal) = _ from hostC_v23 (H5 W)]
  rw [transpose_ix2_apply, host2_arg7]
  exact slice2_axis1_apply 1280 _ _ o k _ rfl

/-- THE BIAS ROW at (u, o): the final bias argument at o. -/
theorem host2_v24_apply (u : Fin 1) (o : Fin 64) :
    (H6 W (Proc.devRef .tc main_v24) : S1x64.Idx → EReal) (ix2 u o) = (W (Proc.devRef .tc main_arg8) : S64.Idx → EReal) (ix1 o) := by
  rw [show (H6 W (Proc.devRef .tc main_v24) : S1x64.Idx → EReal) = _ from hostC_v24 (H5 W)]
  rw [shapeCast_a_1a_apply, host2_arg8]

end Cert.KernelIdeal.Hand

end
-- ==== Proof.KI.Comp2.lean ====
/- The arrays the last region is entered with, in the specification's terms, at the ideal values: the stretch of host
   operations between the two convolution regions reads the neighbourhood array and the affine parameters as the first
   two regions left them, so its scale row is the specification's `scale` of `zraw`, its shift row the specification's
   `shift`, each weight block a column slice of the final weight argument transposed, the bias row the final bias
   argument; the embedding array, the neighbourhood array and the two adjacency arguments pass through unchanged. -/
import proofs.«109319_j33217277067916_2_alg».proof.Proof.KI.Comp1
import proofs.«109319_j33217277067916_2_alg».proof.Proof.KI.Host2

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen
open Cert.Spec (cur1 cur2)
open scoped BigOperators

variable (m : (ℓ : Loc nD τ sig) → Buf (Elt Ideal) ℓ)

/-! ## The specification's quantities of the launch arrays -/

/-- The embedding. -/
abbrev hh (c : Dev nD) : Fin 8192 → Fin 256 → EReal := Cert.Spec.h (cur2 (a0 m c)) (cur2 (a3 m c)) (cur1 (a4 m c))
/-- The two neighbourhood products side by side. -/
abbrev zr (c : Dev nD) : Fin 8192 → Fin 512 → EReal := Cert.Spec.zraw (cur2 (a1 m c)) (cur2 (a2 m c)) (hh m c)
/-- The affine parameters. -/
abbrev γS (c : Dev nD) : Fin 512 → EReal := cur1 (a5 m c)
abbrev βS (c : Dev nD) : Fin 512 → EReal := cur1 (a6 m c)

/-! ## The arrays at the last region's entry, typed as functions into the extended reals -/

abbrev e6_h (c : Dev nD) : S8192x256.Idx → EReal := V6 m c main_v2
abbrev e6_z (c : Dev nD) : S8192x512.Idx → EReal := V6 m c main_v3
abbrev e6_scale (c : Dev nD) : S1x512.Idx → EReal := V6 m c main_v14
abbrev e6_shift (c : Dev nD) : S1x512.Idx → EReal := V6 m c main_v15
abbrev e6_w17 (c : Dev nD) : S256x64.Idx → EReal := V6 m c main_v17
abbrev e6_w19 (c : Dev nD) : S512x64.Idx → EReal := V6 m c main_v19
abbrev e6_w21 (c : Dev nD) : S512x64.Idx → EReal := V6 m c main_v21
abbrev e6_w23 (c : Dev nD) : S512x64.Idx → EReal := V6 m c main_v23
abbrev e6_bias (c : Dev nD) : S1x64.Idx → EReal := V6 m c main_v24

/-! ## What the stretch reads is what the first two regions left -/

theorem zr2_W3 (c : Dev nD) : zr2 (W3 m c) = zr m c :=
  funext fun i => funext fun j => V3_v3_apply m c i j
theorem γ2_W3 (c : Dev nD) : γ2 (W3 m c) = γS m c :=
  funext fun j => congrFun (V3_arg5 m c) (ix1 j)
theorem β2_W3 (c : Dev nD) : β2 (W3 m c) = βS m c :=
  funext fun j => congrFun (V3_arg6 m c) (ix1 j)

/-! ## The arrays the stretch does not write -/

/-- The adjacency arguments are the launch's. -/
theorem V6_arg1 (c : Dev nD) : V6 m c main_arg1 = m ((c : Thread nD τ).loc main_arg1) :=
  (host2_keep (W3 m c) main_arg1 (by decide) (by decide) (by decide)).trans (V3_arg1 m c)
theorem V6_arg2 (c : Dev nD) : V6 m c main_arg2 = m ((c : Thread nD τ).loc main_arg2) :=
  (host2_keep (W3 m c) main_arg2 (by decide) (by decide) (by decide)).trans (V3_arg2 m c)

/-- The neighbourhood array is the specification's `zraw`. -/
theorem V6_v3_apply (c : Dev nD) (r : Fin 8192) (k : Fin 512) : e6_z m c (ix2 r k) = zr m c r k :=
  (congrFun (host2_keep (W3 m c) main_v3 (by decide) (by decide) (by decide)) (ix2 r k)).trans (V3_v3_apply m c r k)

/-- The embedding array is the specification's `h`. -/
theorem V6_v2_apply (c : Dev nD) (r : Fin 8192) (k : Fin 256) : e6_h m c (ix2 r k) = hh m c r k :=
  (congrFun (host2_keep (W3 m c) main_v2 (by decide) (by decide) (by decide)) (ix2 r k)).trans (V3_v2_apply m c r k)

/-! ## The arrays the stretch writes -/

/-- The scale row: γ · rsqrt (var zraw + eps). -/
theorem V6_v14_apply (c : Dev nD) (u : Fin 1) (j : Fin 512) :
    e6_scale m c (ix2 u j) = Cert.Spec.scale (zr m c) (γS m c) j :=
  (host2_v14_apply (W3 m c) u j).trans (by rw [zr2_W3, γ2_W3])

/-- The shift row: β − mean zraw · scale. -/
theorem V6_v15_apply (c : Dev nD) (u : Fin 1) (j : Fin 512) :
    e6_shift m c (ix2 u j) = Cert.Spec.shift (zr m c) (γS m c) (βS m c) j :=
  (host2_v15_apply (W3 m c) u j).trans (by rw [zr2_W3, γ2_W3, β2_W3])

/-- The four weight blocks: block (k, o) is the final weight argument at (o, offset + k). -/
theorem V6_v17_apply (c : Dev nD) (k : Fin 256) (o : Fin 64) :
    e6_w17 m c (ix2 k o) = a7 m c (ix2 o (⟨k.val, by omega⟩ : Fin 1792)) :=
  (host2_v17_apply (W3 m c) k o).trans (congrFun (V3_arg7 m c) _)
theorem V6_v19_apply (c : Dev nD) (k : Fin 512) (o : Fin 64) :
    e6_w19 m c (ix2 k o) = a7 m c (ix2 o (⟨256 + k.val, by omega⟩ : Fin 1792)) :=
  (host2_v19_apply (W3 m c) k o).trans (congrFun (V3_arg7 m c) _)
theorem V6_v21_apply (c : Dev nD) (k : Fin 512) (o : Fin 64) :
    e6_w21 m c (ix2 k o) = a7 m c (ix2 o (⟨768 + k.val, by omega⟩ : Fin 1792)) :=
  (host2_v21_apply (W3 m c) k o).trans (congrFun (V3_arg7 m c) _)
theorem V6_v23_apply (c : Dev nD) (k : Fin 512) (o : Fin 64) :
    e6_w23 m c (ix2 k o) = a7 m c (ix2 o (⟨1280 + k.val, by omega⟩ : Fin 1792)) :=
  (host2_v23_apply (W3 m c) k o).trans (congrFun (V3_arg7 m c) _)

/-- The bias row: the final bias argument. -/
theorem V6_v24_apply (c : Dev nD) (u : Fin 1) (o : Fin 64) : e6_bias m c (ix2 u o) = a8 m c (ix1 o) :=
  (host2_v24_apply (W3 m c) u o).trans (congrFun (V3_arg8 m c) _)

end Cert.KernelIdeal.Hand

end
-- ==== Proof.KI.R2Pieces.lean ====
/-
  Region 2: what each case leaves in the two accumulators and in the output block, as terms of the point's input
  blocks and of what the point before left. Each accumulator is its previous contents (zero where kk = 0) plus the
  product of the point's adjacency block with the normalised 512 rows of the features the point slices out; where
  kk = 15 the output block is the epilogue's value over the two accumulators as this point leaves them.
-/
import proofs.«109319_j33217277067916_2_alg».proof.Proof.KI.R2Dat
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hzz2 : (![0, 0] : Fin 2 → Nat) = fun _ => 0 := funext fun a => by fin_cases a <;> rfl

/-- The 512 rows of the resident features the point multiplies by: rows 512·kk … 512·kk + 511. -/
def feat2 (i : grid2.Coords) (x2 : Vec F S8192x512 .f32) : Vec F S512x512 .f32 :=
  View.ld x2 (Rect.unit (s := S8192x512) (k2_off1 i) S512x512.size (k2_off1_inb i))

/-- The 1024 rows of the resident features that are the output block's own: rows 1024·i … 1024·i + 1023. -/
def rows2 (i : grid2.Coords) (h : k2_cond2 i = 1#1) (x2 : Vec F S8192x512 .f32) : Vec F S1024x512 .f32 :=
  View.ld x2 (Rect.unit (s := S8192x512) (k2_off2 i) S1024x512.size (k2_off2_inb i h))

/-! ## On any whole memrefs -/

theorem pieceA_0 (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x256 .f32) (harg7 : arg7.IsWhole) (arg8 : Memref sig .tc .vmem S256x64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S1x64 .f32) (harg12 : arg12.IsWhole) (arg13 : Memref sig .tc .vmem S1024x64 .f32) (harg13 : arg13.IsWhole) (arg14 : Memref sig .tc .vmem S1024x512 .f32) (harg14 : arg14.IsWhole) (arg15 : Memref sig .tc .vmem S1024x512 .f32) (harg15 : arg15.IsWhole) (hc0 : cond2_0 i) (hc1 : ¬cond2_1 i) (x0 : Vec F S1024x512 .f32) (x1 : Vec F S1024x512 .f32) (x2 : Vec F S8192x512 .f32) (x3 : Vec F S1x512 .f32) (x4 : Vec F S1x512 .f32) (x5 : Vec F S1024x256 .f32) (x6 : Vec F S256x64 .f32) (x7 : Vec F S512x64 .f32) (x8 : Vec F S512x64 .f32) (x9 : Vec F S512x64 .f32) (x10 : Vec F S1x64 .f32) :
    VS2_0.read (Elt F) (VS2_0.writes (Elt F) VS2_0.junk (kernelRun2_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1) = k2_pay7 (feat2 i x2) x3 x4 x0 (k2_pay4 (F := F)) := by
  rw [View.read_writes_eq_canon _ _ _ (View.cover_of_tiledL (kernelRun2_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1 S1024x512.size (by sl_kernel_rfl))]
  unfold kernelRun2_A
  dsimp only
  sl_unfold_run_names
  rw [View.canon_cons_unit_zero hzz2, View.readCov_unit_zero (S := S1024x512) _ hzz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x512) hzz2, View.ld_unit_zero (S := S1x512) hzz2, View.ld_unit_zero (S := S1024x256) hzz2, View.ld_unit_zero (S := S256x64) hzz2, View.ld_unit_zero (S := S512x64) hzz2, View.ld_unit_zero (S := S1x64) hzz2, View.ld_unit_zero (S := S1024x64) hzz2]
  rfl

theorem pieceA_1 (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x256 .f32) (harg7 : arg7.IsWhole) (arg8 : Memref sig .tc .vmem S256x64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S1x64 .f32) (harg12 : arg12.IsWhole) (arg13 : Memref sig .tc .vmem S1024x64 .f32) (harg13 : arg13.IsWhole) (arg14 : Memref sig .tc .vmem S1024x512 .f32) (harg14 : arg14.IsWhole) (arg15 : Memref sig .tc .vmem S1024x512 .f32) (harg15 : arg15.IsWhole) (hc0 : cond2_0 i) (hc1 : ¬cond2_1 i) (x0 : Vec F S1024x512 .f32) (x1 : Vec F S1024x512 .f32) (x2 : Vec F S8192x512 .f32) (x3 : Vec F S1x512 .f32) (x4 : Vec F S1x512 .f32) (x5 : Vec F S1024x256 .f32) (x6 : Vec F S256x64 .f32) (x7 : Vec F S512x64 .f32) (x8 : Vec F S512x64 .f32) (x9 : Vec F S512x64 .f32) (x10 : Vec F S1x64 .f32) :
    VS2_1.read (Elt F) (VS2_1.writes (Elt F) VS2_1.junk (kernelRun2_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.2.1) = k2_pay8 (feat2 i x2) x3 x4 x1 (k2_pay5 (F := F)) := by
  rw [View.read_writes_eq_canon _ _ _ (View.cover_of_tiledL (kernelRun2_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.2.1 S1024x512.size (by sl_kernel_rfl))]
  unfold kernelRun2_A
  dsimp only
  sl_unfold_run_names
  rw [View.canon_cons_unit_zero hzz2, View.readCov_unit_zero (S := S1024x512) _ hzz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x512) hzz2, View.ld_unit_zero (S := S1x512) hzz2, View.ld_unit_zero (S := S1024x256) hzz2, View.ld_unit_zero (S := S256x64) hzz2, View.ld_unit_zero (S := S512x64) hzz2, View.ld_unit_zero (S := S1x64) hzz2, View.ld_unit_zero (S := S1024x64) hzz2]
  rfl

theorem pieceB_0 (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x256 .f32) (harg7 : arg7.IsWhole) (arg8 : Memref sig .tc .vmem S256x64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S1x64 .f32) (harg12 : arg12.IsWhole) (arg13 : Memref sig .tc .vmem S1024x64 .f32) (harg13 : arg13.IsWhole) (arg14 : Memref sig .tc .vmem S1024x512 .f32) (harg14 : arg14.IsWhole) (arg15 : Memref sig .tc .vmem S1024x512 .f32) (harg15 : arg15.IsWhole) (hc0 : ¬cond2_0 i) (hc1 : ¬cond2_1 i) (x0 : Vec F S1024x512 .f32) (x1 : Vec F S1024x512 .f32) (x2 : Vec F S8192x512 .f32) (x3 : Vec F S1x512 .f32) (x4 : Vec F S1x512 .f32) (x5 : Vec F S1024x256 .f32) (x6 : Vec F S256x64 .f32) (x7 : Vec F S512x64 .f32) (x8 : Vec F S512x64 .f32) (x9 : Vec F S512x64 .f32) (x10 : Vec F S1x64 .f32) (xs0 xs1 : Vec F S1024x512 .f32) :
    VS2_0.read (Elt F) (VS2_0.writes (Elt F) VS2_0.junk (kernelRun2_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1) = k2_pay7 (feat2 i x2) x3 x4 x0 xs0 := by
  rw [View.read_writes_eq_canon _ _ _ (View.cover_of_tiledL (kernelRun2_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1024x512.size (by sl_kernel_rfl))]
  unfold kernelRun2_B
  dsimp only
  sl_unfold_run_names
  rw [View.canon_unit_zero hzz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x512) hzz2, View.ld_unit_zero (S := S1x512) hzz2, View.ld_unit_zero (S := S1024x256) hzz2, View.ld_unit_zero (S := S256x64) hzz2, View.ld_unit_zero (S := S512x64) hzz2, View.ld_unit_zero (S := S1x64) hzz2, View.ld_unit_zero (S := S1024x64) hzz2]
  rfl

theorem pieceB_1 (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x256 .f32) (harg7 : arg7.IsWhole) (arg8 : Memref sig .tc .vmem S256x64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S1x64 .f32) (harg12 : arg12.IsWhole) (arg13 : Memref sig .tc .vmem S1024x64 .f32) (harg13 : arg13.IsWhole) (arg14 : Memref sig .tc .vmem S1024x512 .f32) (harg14 : arg14.IsWhole) (arg15 : Memref sig .tc .vmem S1024x512 .f32) (harg15 : arg15.IsWhole) (hc0 : ¬cond2_0 i) (hc1 : ¬cond2_1 i) (x0 : Vec F S1024x512 .f32) (x1 : Vec F S1024x512 .f32) (x2 : Vec F S8192x512 .f32) (x3 : Vec F S1x512 .f32) (x4 : Vec F S1x512 .f32) (x5 : Vec F S1024x256 .f32) (x6 : Vec F S256x64 .f32) (x7 : Vec F S512x64 .f32) (x8 : Vec F S512x64 .f32) (x9 : Vec F S512x64 .f32) (x10 : Vec F S1x64 .f32) (xs0 xs1 : Vec F S1024x512 .f32) :
    VS2_1.read (Elt F) (VS2_1.writes (Elt F) VS2_1.junk (kernelRun2_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1) = k2_pay8 (feat2 i x2) x3 x4 x1 xs1 := by
  rw [View.read_writes_eq_canon _ _ _ (View.cover_of_tiledL (kernelRun2_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1 S1024x512.size (by sl_kernel_rfl))]
  unfold kernelRun2_B
  dsimp only
  sl_unfold_run_names
  rw [View.canon_unit_zero hzz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x512) hzz2, View.ld_unit_zero (S := S1x512) hzz2, View.ld_unit_zero (S := S1024x256) hzz2, View.ld_unit_zero (S := S256x64) hzz2, View.ld_unit_zero (S := S512x64) hzz2, View.ld_unit_zero (S := S1x64) hzz2, View.ld_unit_zero (S := S1024x64) hzz2]
  rfl

theorem pieceC_0 (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x256 .f32) (harg7 : arg7.IsWhole) (arg8 : Memref sig .tc .vmem S256x64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S1x64 .f32) (harg12 : arg12.IsWhole) (arg13 : Memref sig .tc .vmem S1024x64 .f32) (harg13 : arg13.IsWhole) (arg14 : Memref sig .tc .vmem S1024x512 .f32) (harg14 : arg14.IsWhole) (arg15 : Memref sig .tc .vmem S1024x512 .f32) (harg15 : arg15.IsWhole) (hc0 : ¬cond2_0 i) (hc1 : cond2_1 i) (x0 : Vec F S1024x512 .f32) (x1 : Vec F S1024x512 .f32) (x2 : Vec F S8192x512 .f32) (x3 : Vec F S1x512 .f32) (x4 : Vec F S1x512 .f32) (x5 : Vec F S1024x256 .f32) (x6 : Vec F S256x64 .f32) (x7 : Vec F S512x64 .f32) (x8 : Vec F S512x64 .f32) (x9 : Vec F S512x64 .f32) (x10 : Vec F S1x64 .f32) (xs0 xs1 : Vec F S1024x512 .f32) :
    VS2_0.read (Elt F) (VS2_0.writes (Elt F) VS2_0.junk (kernelRun2_C (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1) = k2_pay7 (feat2 i x2) x3 x4 x0 xs0 := by
  rw [View.read_writes_eq_canon _ _ _ (View.cover_of_tiledL (kernelRun2_C (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1024x512.size (by sl_kernel_rfl))]
  unfold kernelRun2_C
  dsimp only
  sl_unfold_run_names
  rw [View.canon_unit_zero hzz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x512) hzz2, View.ld_unit_zero (S := S1x512) hzz2, View.ld_unit_zero (S := S1024x256) hzz2, View.ld_unit_zero (S := S256x64) hzz2, View.ld_unit_zero (S := S512x64) hzz2, View.ld_unit_zero (S := S1x64) hzz2, View.ld_unit_zero (S := S1024x64) hzz2]
  rfl

theorem pieceC_1 (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x256 .f32) (harg7 : arg7.IsWhole) (arg8 : Memref sig .tc .vmem S256x64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S1x64 .f32) (harg12 : arg12.IsWhole) (arg13 : Memref sig .tc .vmem S1024x64 .f32) (harg13 : arg13.IsWhole) (arg14 : Memref sig .tc .vmem S1024x512 .f32) (harg14 : arg14.IsWhole) (arg15 : Memref sig .tc .vmem S1024x512 .f32) (harg15 : arg15.IsWhole) (hc0 : ¬cond2_0 i) (hc1 : cond2_1 i) (x0 : Vec F S1024x512 .f32) (x1 : Vec F S1024x512 .f32) (x2 : Vec F S8192x512 .f32) (x3 : Vec F S1x512 .f32) (x4 : Vec F S1x512 .f32) (x5 : Vec F S1024x256 .f32) (x6 : Vec F S256x64 .f32) (x7 : Vec F S512x64 .f32) (x8 : Vec F S512x64 .f32) (x9 : Vec F S512x64 .f32) (x10 : Vec F S1x64 .f32) (xs0 xs1 : Vec F S1024x512 .f32) :
    VS2_1.read (Elt F) (VS2_1.writes (Elt F) VS2_1.junk (kernelRun2_C (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1) = k2_pay8 (feat2 i x2) x3 x4 x1 xs1 := by
  rw [View.read_writes_eq_canon _ _ _ (View.cover_of_tiledL (kernelRun2_C (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1 S1024x512.size (by sl_kernel_rfl))]
  unfold kernelRun2_C
  dsimp only
  sl_unfold_run_names
  rw [View.canon_unit_zero hzz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x512) hzz2, View.ld_unit_zero (S := S1x512) hzz2, View.ld_unit_zero (S := S1024x256) hzz2, View.ld_unit_zero (S := S256x64) hzz2, View.ld_unit_zero (S := S512x64) hzz2, View.ld_unit_zero (S := S1x64) hzz2, View.ld_unit_zero (S := S1024x64) hzz2]
  rfl

/-- The output block where kk = 15: the epilogue over the accumulators as this point's two steps leave them. -/
theorem pieceC_out (c : Dev nD) (i : grid2.Coords) (arg2 : Memref sig .tc .vmem S1024x512 .f32) (harg2 : arg2.IsWhole) (arg3 : Memref sig .tc .vmem S1024x512 .f32) (harg3 : arg3.IsWhole) (arg4 : Memref sig .tc .vmem S8192x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x256 .f32) (harg7 : arg7.IsWhole) (arg8 : Memref sig .tc .vmem S256x64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S1x64 .f32) (harg12 : arg12.IsWhole) (arg13 : Memref sig .tc .vmem S1024x64 .f32) (harg13 : arg13.IsWhole) (arg14 : Memref sig .tc .vmem S1024x512 .f32) (harg14 : arg14.IsWhole) (arg15 : Memref sig .tc .vmem S1024x512 .f32) (harg15 : arg15.IsWhole) (hc0 : ¬cond2_0 i) (hc1 : cond2_1 i) (x0 : Vec F S1024x512 .f32) (x1 : Vec F S1024x512 .f32) (x2 : Vec F S8192x512 .f32) (x3 : Vec F S1x512 .f32) (x4 : Vec F S1x512 .f32) (x5 : Vec F S1024x256 .f32) (x6 : Vec F S256x64 .f32) (x7 : Vec F S512x64 .f32) (x8 : Vec F S512x64 .f32) (x9 : Vec F S512x64 .f32) (x10 : Vec F S1x64 .f32) (xs0 xs1 : Vec F S1024x512 .f32) :
    VO2_11.read (Elt F) (VO2_11.writes (Elt F) VO2_11.junk (kernelRun2_C (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)
      = k2_pay1 (k2_pay2 x9) (k2_pay3 (rows2 i hc1 x2) x3 x4 x5 x6 x7 x8 (k2_pay7 (feat2 i x2) x3 x4 x0 xs0)) (k2_pay8 (feat2 i x2) x3 x4 x1 xs1) x10 := by
  rw [View.read_writes_eq_canon _ _ _ (View.cover_of_tiledL (kernelRun2_C (F := F) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1024x64.size (by sl_kernel_rfl))]
  unfold kernelRun2_C
  dsimp only
  sl_unfold_run_names
  rw [View.canon_unit_zero hzz2]
  simp only [View.readCov_unit_zero (S := S1024x512) _ hzz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x512) hzz2, View.ld_unit_zero (S := S1x512) hzz2, View.ld_unit_zero (S := S1024x256) hzz2, View.ld_unit_zero (S := S256x64) hzz2, View.ld_unit_zero (S := S512x64) hzz2, View.ld_unit_zero (S := S1x64) hzz2, View.ld_unit_zero (S := S1024x64) hzz2]
  rfl

end Cert.KernelIdeal.Hand

end
-- ==== Proof.KI.R2PiecesAt.lean ====
/-
  Region 2: what each case leaves, at a point of the grid: the statements of the pieces module read at the point's
  staging memrefs and input blocks.
-/
import proofs.«109319_j33217277067916_2_alg».proof.Proof.KI.R2Pieces

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
/-! ## At a point of the grid -/

variable (V : (c : Dev nD) → (b : Ref sig .tc) → Buf (Elt F) ((c : Thread nD τ).loc b))

/-- The windows' blocks at point t, each at its shape. -/
abbrev xb0 (c : Dev nD) (t : Fin cfg2.N) : Vec F S1024x512 .f32 := iblk2 V c 0 t
abbrev xb1 (c : Dev nD) (t : Fin cfg2.N) : Vec F S1024x512 .f32 := iblk2 V c 1 t
abbrev xb2 (c : Dev nD) (t : Fin cfg2.N) : Vec F S8192x512 .f32 := iblk2 V c 2 t
abbrev xb3 (c : Dev nD) (t : Fin cfg2.N) : Vec F S1x512 .f32 := iblk2 V c 3 t
abbrev xb4 (c : Dev nD) (t : Fin cfg2.N) : Vec F S1x512 .f32 := iblk2 V c 4 t
abbrev xb5 (c : Dev nD) (t : Fin cfg2.N) : Vec F S1024x256 .f32 := iblk2 V c 5 t
abbrev xb6 (c : Dev nD) (t : Fin cfg2.N) : Vec F S256x64 .f32 := iblk2 V c 6 t
abbrev xb7 (c : Dev nD) (t : Fin cfg2.N) : Vec F S512x64 .f32 := iblk2 V c 7 t
abbrev xb8 (c : Dev nD) (t : Fin cfg2.N) : Vec F S512x64 .f32 := iblk2 V c 8 t
abbrev xb9 (c : Dev nD) (t : Fin cfg2.N) : Vec F S512x64 .f32 := iblk2 V c 9 t
abbrev xb10 (c : Dev nD) (t : Fin cfg2.N) : Vec F S1x64 .f32 := iblk2 V c 10 t

/-- The normalised-to-be slice of the features at point t. -/
abbrev featAt2 (c : Dev nD) (t : Fin cfg2.N) : Vec F S512x512 .f32 := feat2 (grid2.coords t) (xb2 V c t)

set_option maxHeartbeats 1600000 in
theorem outA2_s0 (c : Dev nD) (t : Fin cfg2.N) (h0 : t.val % 16 = 0) :
    (outA2 V c t h0).2.1 = k2_pay7 (F := F) (featAt2 V c t) (xb3 V c t) (xb4 V c t) (xb0 V c t) (k2_pay4 (F := F)) := by
  unfold outA2 runA2
  dsimp only
  exact pieceA_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) ((hcond2_0 t).mpr h0) (fun h => absurd ((hcond2_1 t).mp h) (by omega)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
set_option maxHeartbeats 1600000 in
theorem outA2_s1 (c : Dev nD) (t : Fin cfg2.N) (h0 : t.val % 16 = 0) :
    (outA2 V c t h0).2.2 = k2_pay8 (F := F) (featAt2 V c t) (xb3 V c t) (xb4 V c t) (xb1 V c t) (k2_pay5 (F := F)) := by
  unfold outA2 runA2
  dsimp only
  exact pieceA_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) ((hcond2_0 t).mpr h0) (fun h => absurd ((hcond2_1 t).mp h) (by omega)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
set_option maxHeartbeats 1600000 in
theorem outB2_s0 (c : Dev nD) (t : Fin cfg2.N) (h0 : ¬t.val % 16 = 0) (h1 : ¬t.val % 16 = 15) (xs0 xs1 : Vec F S1024x512 .f32) :
    (outB2 V c t h0 h1 xs0 xs1).2.1 = k2_pay7 (F := F) (featAt2 V c t) (xb3 V c t) (xb4 V c t) (xb0 V c t) xs0 := by
  unfold outB2 runB2
  dsimp only
  exact pieceB_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) xs0 xs1
set_option maxHeartbeats 1600000 in
theorem outB2_s1 (c : Dev nD) (t : Fin cfg2.N) (h0 : ¬t.val % 16 = 0) (h1 : ¬t.val % 16 = 15) (xs0 xs1 : Vec F S1024x512 .f32) :
    (outB2 V c t h0 h1 xs0 xs1).2.2 = k2_pay8 (F := F) (featAt2 V c t) (xb3 V c t) (xb4 V c t) (xb1 V c t) xs1 := by
  unfold outB2 runB2
  dsimp only
  exact pieceB_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) xs0 xs1
set_option maxHeartbeats 1600000 in
theorem outC2_s0 (c : Dev nD) (t : Fin cfg2.N) (h0 : ¬t.val % 16 = 0) (h1 : t.val % 16 = 15) (xs0 xs1 : Vec F S1024x512 .f32) :
    (outC2 V c t h0 h1 xs0 xs1).2.1 = k2_pay7 (F := F) (featAt2 V c t) (xb3 V c t) (xb4 V c t) (xb0 V c t) xs0 := by
  unfold outC2 runC2
  dsimp only
  exact pieceC_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) xs0 xs1
set_option maxHeartbeats 1600000 in
theorem outC2_s1 (c : Dev nD) (t : Fin cfg2.N) (h0 : ¬t.val % 16 = 0) (h1 : t.val % 16 = 15) (xs0 xs1 : Vec F S1024x512 .f32) :
    (outC2 V c t h0 h1 xs0 xs1).2.2 = k2_pay8 (F := F) (featAt2 V c t) (xb3 V c t) (xb4 V c t) (xb1 V c t) xs1 := by
  unfold outC2 runC2
  dsimp only
  exact pieceC_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) xs0 xs1
set_option maxHeartbeats 1600000 in
theorem outC2_out (c : Dev nD) (t : Fin cfg2.N) (h0 : ¬t.val % 16 = 0) (h1 : t.val % 16 = 15) (xs0 xs1 : Vec F S1024x512 .f32) :
    (outC2 V c t h0 h1 xs0 xs1).1
      = k2_pay1 (F := F) (k2_pay2 (F := F) (xb9 V c t))
          (k2_pay3 (F := F) (rows2 (grid2.coords t) ((hcond2_1 t).mpr h1) (xb2 V c t)) (xb3 V c t) (xb4 V c t) (xb5 V c t) (xb6 V c t) (xb7 V c t) (xb8 V c t)
            (k2_pay7 (F := F) (featAt2 V c t) (xb3 V c t) (xb4 V c t) (xb0 V c t) xs0))
          (k2_pay8 (F := F) (featAt2 V c t) (xb3 V c t) (xb4 V c t) (xb1 V c t) xs1) (xb10 V c t) := by
  unfold outC2 runC2
  dsimp only
  exact pieceC_out c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) xs0 xs1

end Cert.KernelIdeal.Hand

end
-- ==== Proof.KI.R2Pay.lean ====
/- Region 2's payloads read at an index, at the ideal values (the extended reals): no rounding is left, a format change
   is the identity, and each contraction's sum is over the one contracted coordinate. The normalised features are
   z · scale + shift, column by column; each accumulator step adds one 1024 × 512 by 512 × 512 product; the epilogue is
   h · Wh + z · Wz + acc₁ · Wa + acc₂ · Wb + b, added in that order. Pure: no program's run, only the payloads' definitions. -/
import proofs.«109319_j33217277067916_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- The dimension numbers of the [1024, 512] × [512, 512] product: rows × contraction times contraction × columns. -/
abbrev DA : DotDims S1024x512 S512x512 S1024x512 := dot_S1024x512_S512x512_S1024x512_1_0_0_1_n_n

theorem lhsA (p : Fin 1024) (q : Fin 512) (k : Fin 512) :
    DA.lhsIdx (ix2 p q) ((contrEquiv1 DA 512 rfl rfl).symm k) = ix2 p k := by
  funext a; apply Fin.ext
  match a with
  | ⟨0, _⟩ => simp [DotDims.lhsIdx, DA, dot_S1024x512_S512x512_S1024x512_1_0_0_1_n_n]; rfl
  | ⟨1, _⟩ =>
    refine (DA.lhsIdx_val_of_single (cl := 1) rfl (ix2 p q) _).trans ?_
    exact contrEquiv1_symm_val DA 512 rfl rfl k

theorem rhsA (p : Fin 1024) (q : Fin 512) (k : Fin 512) :
    DA.rhsIdx (ix2 p q) ((contrEquiv1 DA 512 rfl rfl).symm k) = ix2 k q := by
  funext a; apply Fin.ext
  match a with
  | ⟨0, _⟩ =>
    refine (DA.rhsIdx_val_of_single (cr := 0) rfl (ix2 p q) _).trans ?_
    exact contrEquiv1_symm_val DA 512 rfl rfl k
  | ⟨1, _⟩ => simp [DotDims.rhsIdx, DA, dot_S1024x512_S512x512_S1024x512_1_0_0_1_n_n]; rfl

/-- The product into the zero accumulator, read at (p, q): the sum over k of lhs (p, k) · rhs (k, q). -/
theorem matmulA_apply {φ₁ φ₂ : FTy} (lhs : FVec Ideal S1024x512 φ₁) (rhs : FVec Ideal S512x512 φ₂) (p : Fin 1024) (q : Fin 512) :
    matmul dot_S1024x512_S512x512_S1024x512_1_0_0_1_n_n none lhs rhs (constant (F := Ideal) S1024x512 .f32 0x00000000#32) (ix2 p q)
      = ∑ k : Fin 512, lhs (ix2 p k) * rhs (ix2 k q) := by
  refine (Ideal.matmul_constant_zero_apply DA none lhs rhs (ix2 p q)).trans ?_
  rw [← Equiv.sum_comp (contrEquiv1 DA 512 rfl rfl).symm]
  refine Finset.sum_congr rfl fun k _ => ?_
  rw [lhsA, rhsA]

/-- The dimension numbers of the [1024, 256] × [256, 64] product: rows × contraction times contraction × columns. -/
abbrev DH : DotDims S1024x256 S256x64 S1024x64 := dot_S1024x256_S256x64_S1024x64_1_0_0_1_n_n

theorem lhsH (p : Fin 1024) (q : Fin 64) (k : Fin 256) :
    DH.lhsIdx (ix2 p q) ((contrEquiv1 DH 256 rfl rfl).symm k) = ix2 p k := by
  funext a; apply Fin.ext
  match a with
  | ⟨0, _⟩ => simp [DotDims.lhsIdx, DH, dot_S1024x256_S256x64_S1024x64_1_0_0_1_n_n]; rfl
  | ⟨1, _⟩ =>
    refine (DH.lhsIdx_val_of_single (cl := 1) rfl (ix2 p q) _).trans ?_
    exact contrEquiv1_symm_val DH 256 rfl rfl k

theorem rhsH (p : Fin 1024) (q : Fin 64) (k : Fin 256) :
    DH.rhsIdx (ix2 p q) ((contrEquiv1 DH 256 rfl rfl).symm k) = ix2 k q := by
  funext a; apply Fin.ext
  match a with
  | ⟨0, _⟩ =>
    refine (DH.rhsIdx_val_of_single (cr := 0) rfl (ix2 p q) _).trans ?_
    exact contrEquiv1_symm_val DH 256 rfl rfl k
  | ⟨1, _⟩ => simp [DotDims.rhsIdx, DH, dot_S1024x256_S256x64_S1024x64_1_0_0_1_n_n]; rfl

/-- The product into the zero accumulator, read at (p, q): the sum over k of lhs (p, k) · rhs (k, q). -/
theorem matmulH_apply {φ₁ φ₂ : FTy} (lhs : FVec Ideal S1024x256 φ₁) (rhs : FVec Ideal S256x64 φ₂) (p : Fin 1024) (q : Fin 64) :
    matmul dot_S1024x256_S256x64_S1024x64_1_0_0_1_n_n none lhs rhs (constant (F := Ideal) S1024x64 .f32 0x00000000#32) (ix2 p q)
      = ∑ k : Fin 256, lhs (ix2 p k) * rhs (ix2 k q) := by
  refine (Ideal.matmul_constant_zero_apply DH none lhs rhs (ix2 p q)).trans ?_
  rw [← Equiv.sum_comp (contrEquiv1 DH 256 rfl rfl).symm]
  refine Finset.sum_congr rfl fun k _ => ?_
  rw [lhsH, rhsH]

/-- The dimension numbers of the [1024, 512] × [512, 64] product: rows × contraction times contraction × columns. -/
abbrev DW : DotDims S1024x512 S512x64 S1024x64 := dot_S1024x512_S512x64_S1024x64_1_0_0_1_n_n

theorem lhsW (p : Fin 1024) (q : Fin 64) (k : Fin 512) :
    DW.lhsIdx (ix2 p q) ((contrEquiv1 DW 512 rfl rfl).symm k) = ix2 p k := by
  funext a; apply Fin.ext
  match a with
  | ⟨0, _⟩ => simp [DotDims.lhsIdx, DW, dot_S1024x512_S512x64_S1024x64_1_0_0_1_n_n]; rfl
  | ⟨1, _⟩ =>
    refine (DW.lhsIdx_val_of_single (cl := 1) rfl (ix2 p q) _).trans ?_
    exact contrEquiv1_symm_val DW 512 rfl rfl k

theorem rhsW (p : Fin 1024) (q : Fin 64) (k : Fin 512) :
    DW.rhsIdx (ix2 p q) ((contrEquiv1 DW 512 rfl rfl).symm k) = ix2 k q := by
  funext a; apply Fin.ext
  match a with
  | ⟨0, _⟩ =>
    refine (DW.rhsIdx_val_of_single (cr := 0) rfl (ix2 p q) _).trans ?_
    exact contrEquiv1_symm_val DW 512 rfl rfl k
  | ⟨1, _⟩ => simp [DotDims.rhsIdx, DW, dot_S1024x512_S512x64_S1024x64_1_0_0_1_n_n]; rfl

/-- The product into the zero accumulator, read at (p, q): the sum over k of lhs (p, k) · rhs (k, q). -/
theorem matmulW_apply {φ₁ φ₂ : FTy} (lhs : FVec Ideal S1024x512 φ₁) (rhs : FVec Ideal S512x64 φ₂) (p : Fin 1024) (q : Fin 64) :
    matmul dot_S1024x512_S512x64_S1024x64_1_0_0_1_n_n none lhs rhs (constant (F := Ideal) S1024x64 .f32 0x00000000#32) (ix2 p q)
      = ∑ k : Fin 512, lhs (ix2 p k) * rhs (ix2 k q) := by
  refine (Ideal.matmul_constant_zero_apply DW none lhs rhs (ix2 p q)).trans ?_
  rw [← Equiv.sum_comp (contrEquiv1 DW 512 rfl rfl).symm]
  refine Finset.sum_congr rfl fun k _ => ?_
  rw [lhsW, rhsW]

/-- The zero fill of the first accumulator. -/
theorem k2_pay4_apply (p : Fin 1024) (q : Fin 512) : k2_pay4 (F := Ideal) (ix2 p q) = 0 := by
  unfold k2_pay4
  rw [shapeCast_self]
  simp only [broadcast_apply]
  exact Ideal.ofBits_zero_f32

/-- The zero fill of the second accumulator. -/
theorem k2_pay5_apply (p : Fin 1024) (q : Fin 512) : k2_pay5 (F := Ideal) (ix2 p q) = 0 := by
  unfold k2_pay5
  rw [shapeCast_self]
  simp only [broadcast_apply]
  exact Ideal.ofBits_zero_f32

/-- The normalised slice of the features: entry (k, q) is z (k, q) · scale (0, q) + shift (0, q). -/
theorem k2_pay6_apply (v6 : Vec Ideal S512x512 .f32) (v8 : Vec Ideal S1x512 .f32) (v12 : Vec Ideal S1x512 .f32)
    (k : Fin 512) (q : Fin 512) :
    k2_pay6 v6 v8 v12 (ix2 k q) = v6 (ix2 k q) * v8 (ix2 (0 : Fin 1) q) + v12 (ix2 (0 : Fin 1) q) := by
  unfold k2_pay6
  simp only [truncf_apply, addf_apply, mulf_apply]
  rw [broadcastTo_1b_ab_apply, broadcastTo_1b_ab_apply, shapeCast_self, shapeCast_self, shapeCast_self]

/-- One step of the first accumulator: what it held plus the adjacency block times the normalised slice. -/
theorem k2_pay7_apply (v6 : Vec Ideal S512x512 .f32) (v8 : Vec Ideal S1x512 .f32) (v12 : Vec Ideal S1x512 .f32)
    (v17 : Vec Ideal S1024x512 .f32) (v21 : Vec Ideal S1024x512 .f32) (p : Fin 1024) (q : Fin 512) :
    k2_pay7 v6 v8 v12 v17 v21 (ix2 p q)
      = v21 (ix2 p q) + ∑ k : Fin 512, v17 (ix2 p k) * (v6 (ix2 k q) * v8 (ix2 (0 : Fin 1) q) + v12 (ix2 (0 : Fin 1) q)) := by
  unfold k2_pay7
  rw [shapeCast_self]
  simp only [addf_apply]
  rw [matmulA_apply]
  refine congrArg (v21 (ix2 p q) + ·) (Finset.sum_congr rfl fun k _ => ?_)
  rw [k2_pay6_apply]
  rfl

/-- One step of the second accumulator. -/
theorem k2_pay8_apply (v6 : Vec Ideal S512x512 .f32) (v8 : Vec Ideal S1x512 .f32) (v12 : Vec Ideal S1x512 .f32)
    (v19 : Vec Ideal S1024x512 .f32) (v27 : Vec Ideal S1024x512 .f32) (p : Fin 1024) (q : Fin 512) :
    k2_pay8 v6 v8 v12 v19 v27 (ix2 p q)
      = v27 (ix2 p q) + ∑ k : Fin 512, v19 (ix2 p k) * (v6 (ix2 k q) * v8 (ix2 (0 : Fin 1) q) + v12 (ix2 (0 : Fin 1) q)) := by
  unfold k2_pay8
  rw [shapeCast_self]
  simp only [addf_apply]
  rw [matmulA_apply]
  refine congrArg (v27 (ix2 p q) + ·) (Finset.sum_congr rfl fun k _ => ?_)
  rw [k2_pay6_apply]
  rfl

/-- The last weight matrix, format changed: itself. -/
theorem k2_pay2_apply (v62 : Vec Ideal S512x64 .f32) (k : Fin 512) (o : Fin 64) : k2_pay2 v62 (ix2 k o) = v62 (ix2 k o) := by
  unfold k2_pay2
  simp only [truncf_apply]
  rw [shapeCast_self]

/-- The epilogue's first three terms at (p, o): h · Wh, then the block's own normalised rows times Wz, then the
    first accumulator times Wa. -/
theorem k2_pay3_apply (v39 : Vec Ideal S1024x512 .f32) (v41 : Vec Ideal S1x512 .f32) (v45 : Vec Ideal S1x512 .f32)
    (v50 : Vec Ideal S1024x256 .f32) (v53 : Vec Ideal S256x64 .f32) (v56 : Vec Ideal S512x64 .f32) (v59 : Vec Ideal S512x64 .f32)
    (v68 : Vec Ideal S1024x512 .f32) (p : Fin 1024) (o : Fin 64) :
    k2_pay3 v39 v41 v45 v50 v53 v56 v59 v68 (ix2 p o)
      = ((∑ k : Fin 256, v50 (ix2 p k) * v53 (ix2 k o))
          + ∑ k : Fin 512, (v39 (ix2 p k) * v41 (ix2 (0 : Fin 1) k) + v45 (ix2 (0 : Fin 1) k)) * v56 (ix2 k o))
        + ∑ k : Fin 512, v68 (ix2 p k) * v59 (ix2 k o) := by
  unfold k2_pay3
  simp only [addf_apply]
  rw [matmulH_apply, matmulW_apply, matmulW_apply]
  simp only [truncf_apply, addf_apply, mulf_apply]
  simp only [broadcastTo_1b_ab_apply, shapeCast_self]

/-- The output block at (p, o): the first three terms, plus the second accumulator times Wb, plus the bias. -/
theorem k2_pay1_apply (v64 : FVec Ideal S512x64 .bf16) (v71 : FVec Ideal S1024x64 .f32) (v72 : Vec Ideal S1024x512 .f32)
    (v76 : Vec Ideal S1x64 .f32) (p : Fin 1024) (o : Fin 64) :
    k2_pay1 v64 v71 v72 v76 (ix2 p o)
      = (v71 (ix2 p o) + ∑ k : Fin 512, v72 (ix2 p k) * v64 (ix2 k o)) + v76 (ix2 (0 : Fin 1) o) := by
  unfold k2_pay1
  simp only [addf_apply]
  rw [matmulW_apply, broadcastTo_1b_ab_apply, shapeCast_self]
  rfl

end Cert.KernelIdeal.Hand

end
-- ==== Proof.KI.R2Acc.lean ====
/-
  Region 2 at the ideal values: the blocks the body reads, as entries of the arrays the region finds. With (i, kk)
  the point's coordinates (i = t / 16, kk = t % 16): the adjacency blocks are rows 1024·i … and columns 512·kk … of
  the two adjacency arrays; the slice the point multiplies by is rows 512·kk … of the resident features; the block's
  own rows are rows 1024·i … of them; the earlier features' block is rows 1024·i …; the scale, the shift, the
  four weight matrices and the bias are whole.
-/
import proofs.«109319_j33217277067916_2_alg».proof.Proof.KI.R2PiecesAt
import proofs.«109319_j33217277067916_2_alg».proof.Proof.KI.R2Pay

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The printed index maps and the two slice offsets, decided over the grid. -/
theorem idx2_facts : ∀ t : Fin cfg2.N,
    win2_0.index t (0 : Fin 2) = t.val / 16 ∧ win2_0.index t (1 : Fin 2) = t.val % 16
    ∧ win2_1.index t (0 : Fin 2) = t.val / 16 ∧ win2_1.index t (1 : Fin 2) = t.val % 16
    ∧ win2_2.index t (0 : Fin 2) = 0 ∧ win2_2.index t (1 : Fin 2) = 0
    ∧ win2_5.index t (0 : Fin 2) = t.val / 16 ∧ win2_5.index t (1 : Fin 2) = 0
    ∧ win2_11.index t (0 : Fin 2) = t.val / 16 ∧ win2_11.index t (1 : Fin 2) = 0
    ∧ k2_off1 (grid2.coords t) (0 : Fin 2) = 512 * (t.val % 16) ∧ k2_off1 (grid2.coords t) (1 : Fin 2) = 0
    ∧ k2_off2 (grid2.coords t) (0 : Fin 2) = 1024 * (t.val / 16) ∧ k2_off2 (grid2.coords t) (1 : Fin 2) = 0 :=
  (by decide +kernel : ∀ t : Fin grid2.N, _)

/-- The windows that hold a whole array have block index (0, 0) at every point. -/
theorem idx2_whole : ∀ t : Fin cfg2.N,
    win2_3.index t (0 : Fin 2) = 0 ∧ win2_3.index t (1 : Fin 2) = 0
    ∧ win2_4.index t (0 : Fin 2) = 0 ∧ win2_4.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0 :=
  (by decide +kernel : ∀ t : Fin grid2.N, _)

/-- The first adjacency block at a point is rows 1024·i … and columns 512·kk … of the first adjacency array. -/
theorem iblk2_0_apply (c : Dev nD) (t : Fin cfg2.N) (p : Fin 1024) (k : Fin 512) (r kk : Fin 8192)
    (hr : r.val = 1024 * (t.val / 16) + p.val) (hk : kk.val = 512 * (t.val % 16) + k.val) :
    xb0 V c t (ix2 p k) = (V c main_arg1 : S8192x8192.Idx → EReal) (ix2 r kk) := by
  obtain ⟨e0, e1, -⟩ := idx2_facts t
  unfold xb0 iblk2
  rw [View.read_apply]
  show (V c main_arg1 : S8192x8192.Idx → EReal) _ = _
  refine congrArg _ ?_
  funext a; apply Fin.ext
  match a with
  | ⟨0, _⟩ => show win2_0.index t 0 * 1024 + 1 * p.val = r.val; rw [e0, hr]; omega
  | ⟨1, _⟩ => show win2_0.index t 1 * 512 + 1 * k.val = kk.val; rw [e1, hk]; omega

/-- The second adjacency block likewise. -/
theorem iblk2_1_apply (c : Dev nD) (t : Fin cfg2.N) (p : Fin 1024) (k : Fin 512) (r kk : Fin 8192)
    (hr : r.val = 1024 * (t.val / 16) + p.val) (hk : kk.val = 512 * (t.val % 16) + k.val) :
    xb1 V c t (ix2 p k) = (V c main_arg2 : S8192x8192.Idx → EReal) (ix2 r kk) := by
  obtain ⟨-, -, e0, e1, -⟩ := idx2_facts t
  unfold xb1 iblk2
  rw [View.read_apply]
  show (V c main_arg2 : S8192x8192.Idx → EReal) _ = _
  refine congrArg _ ?_
  funext a; apply Fin.ext
  match a with
  | ⟨0, _⟩ => show win2_1.index t 0 * 1024 + 1 * p.val = r.val; rw [e0, hr]; omega
  | ⟨1, _⟩ => show win2_1.index t 1 * 512 + 1 * k.val = kk.val; rw [e1, hk]; omega

/-- The 512 rows the point slices out of the resident features are rows 512·kk … of the feature array. -/
theorem featAt2_apply (c : Dev nD) (t : Fin cfg2.N) (k : Fin 512) (q : Fin 512) (kk : Fin 8192)
    (hk : kk.val = 512 * (t.val % 16) + k.val) :
    featAt2 V c t (ix2 k q) = (V c main_v3 : S8192x512.Idx → EReal) (ix2 kk q) := by
  obtain ⟨-, -, -, -, e0, e1, -, -, -, -, o0, o1, -, -⟩ := idx2_facts t
  unfold featAt2 feat2 xb2 iblk2
  show ((cfg2.win 2).blk t).view.read (Elt Ideal) (V c (Pipeline.arrRef spec2 2)) ((Rect.unit (s := S8192x512) (k2_off1 (grid2.coords t)) S512x512.size (k2_off1_inb (grid2.coords t))).idx (ix2 k q)) = _
  rw [View.read_apply]
  show (V c main_v3 : S8192x512.Idx → EReal) _ = _
  refine congrArg _ ?_
  funext a; apply Fin.ext
  match a with
  | ⟨0, _⟩ => show win2_2.index t 0 * 8192 + 1 * (k2_off1 (grid2.coords t) 0 + 1 * k.val) = kk.val; rw [e0, o0, hk]; omega
  | ⟨1, _⟩ => show win2_2.index t 1 * 512 + 1 * (k2_off1 (grid2.coords t) 1 + 1 * q.val) = q.val; rw [e1, o1]; omega

/-- The block's own 1024 rows of the resident features are rows 1024·i … of the feature array. -/
theorem rows2_apply (c : Dev nD) (t : Fin cfg2.N) (h : k2_cond2 (grid2.coords t) = 1#1) (p : Fin 1024) (k : Fin 512) (r : Fin 8192)
    (hr : r.val = 1024 * (t.val / 16) + p.val) :
    rows2 (grid2.coords t) h (xb2 V c t) (ix2 p k) = (V c main_v3 : S8192x512.Idx → EReal) (ix2 r k) := by
  obtain ⟨-, -, -, -, e0, e1, -, -, -, -, -, -, o0, o1⟩ := idx2_facts t
  unfold rows2 xb2 iblk2
  show ((cfg2.win 2).blk t).view.read (Elt Ideal) (V c (Pipeline.arrRef spec2 2)) ((Rect.unit (s := S8192x512) (k2_off2 (grid2.coords t)) S1024x512.size (k2_off2_inb (grid2.coords t) h)).idx (ix2 p k)) = _
  rw [View.read_apply]
  show (V c main_v3 : S8192x512.Idx → EReal) _ = _
  refine congrArg _ ?_
  funext a; apply Fin.ext
  match a with
  | ⟨0, _⟩ => show win2_2.index t 0 * 8192 + 1 * (k2_off2 (grid2.coords t) 0 + 1 * p.val) = r.val; rw [e0, o0, hr]; omega
  | ⟨1, _⟩ => show win2_2.index t 1 * 512 + 1 * (k2_off2 (grid2.coords t) 1 + 1 * k.val) = k.val; rw [e1, o1]; omega

/-- The earlier features' block at a point is rows 1024·i … of their array. -/
theorem iblk2_5_apply (c : Dev nD) (t : Fin cfg2.N) (p : Fin 1024) (k : Fin 256) (r : Fin 8192)
    (hr : r.val = 1024 * (t.val / 16) + p.val) :
    xb5 V c t (ix2 p k) = (V c main_v2 : S8192x256.Idx → EReal) (ix2 r k) := by
  obtain ⟨-, -, -, -, -, -, e0, e1, -⟩ := idx2_facts t
  unfold xb5 iblk2
  rw [View.read_apply]
  show (V c main_v2 : S8192x256.Idx → EReal) _ = _
  refine congrArg _ ?_
  funext a; apply Fin.ext
  match a with
  | ⟨0, _⟩ => show win2_5.index t 0 * 1024 + 1 * p.val = r.val; rw [e0, hr]; omega
  | ⟨1, _⟩ => show win2_5.index t 1 * 256 + 1 * k.val = k.val; rw [e1]; omega

/-- Window 3 holds its whole array. -/
theorem iblk2_3_apply (c : Dev nD) (t : Fin cfg2.N) (p : Fin 1) (q : Fin 512) :
    xb3 V c t (ix2 p q) = (V c main_v14 : S1x512.Idx → EReal) (ix2 p q) := by
  obtain ⟨e0, e1, -⟩ := idx2_whole t
  unfold xb3 iblk2
  rw [View.read_apply]
  show (V c main_v14 : S1x512.Idx → EReal) _ = _
  refine congrArg _ ?_
  funext a; apply Fin.ext
  match a with
  | ⟨0, _⟩ => show win2_3.index t 0 * 1 + 1 * p.val = p.val; rw [e0]; omega
  | ⟨1, _⟩ => show win2_3.index t 1 * 512 + 1 * q.val = q.val; rw [e1]; omega

/-- Window 4 holds its whole array. -/
theorem iblk2_4_apply (c : Dev nD) (t : Fin cfg2.N) (p : Fin 1) (q : Fin 512) :
    xb4 V c t (ix2 p q) = (V c main_v15 : S1x512.Idx → EReal) (ix2 p q) := by
  obtain ⟨-, -, e0, e1, -⟩ := idx2_whole t
  unfold xb4 iblk2
  rw [View.read_apply]
  show (V c main_v15 : S1x512.Idx → EReal) _ = _
  refine congrArg _ ?_
  funext a; apply Fin.ext
  match a with
  | ⟨0, _⟩ => show win2_4.index t 0 * 1 + 1 * p.val = p.val; rw [e0]; omega
  | ⟨1, _⟩ => show win2_4.index t 1 * 512 + 1 * q.val = q.val; rw [e1]; omega

/-- Window 6 holds its whole array. -/
theorem iblk2_6_apply (c : Dev nD) (t : Fin cfg2.N) (p : Fin 256) (q : Fin 64) :
    xb6 V c t (ix2 p q) = (V c main_v17 : S256x64.Idx → EReal) (ix2 p q) := by
  obtain ⟨-, -, -, -, e0, e1, -⟩ := idx2_whole t
  unfold xb6 iblk2
  rw [View.read_apply]
  show (V c main_v17 : S256x64.Idx → EReal) _ = _
  refine congrArg _ ?_
  funext a; apply Fin.ext
  match a with
  | ⟨0, _⟩ => show win2_6.index t 0 * 256 + 1 * p.val = p.val; rw [e0]; omega
  | ⟨1, _⟩ => show win2_6.index t 1 * 64 + 1 * q.val = q.val; rw [e1]; omega

/-- Window 7 holds its whole array. -/
theorem iblk2_7_apply (c : Dev nD) (t : Fin cfg2.N) (p : Fin 512) (q : Fin 64) :
    xb7 V c t (ix2 p q) = (V c main_v19 : S512x64.Idx → EReal) (ix2 p q) := by
  obtain ⟨-, -, -, -, -, -, e0, e1, -⟩ := idx2_whole t
  unfold xb7 iblk2
  rw [View.read_apply]
  show (V c main_v19 : S512x64.Idx → EReal) _ = _
  refine congrArg _ ?_
  funext a; apply Fin.ext
  match a with
  | ⟨0, _⟩ => show win2_7.index t 0 * 512 + 1 * p.val = p.val; rw [e0]; omega
  | ⟨1, _⟩ => show win2_7.index t 1 * 64 + 1 * q.val = q.val; rw [e1]; omega

/-- Window 8 holds its whole array. -/
theorem iblk2_8_apply (c : Dev nD) (t : Fin cfg2.N) (p : Fin 512) (q : Fin 64) :
    xb8 V c t (ix2 p q) = (V c main_v21 : S512x64.Idx → EReal) (ix2 p q) := by
  obtain ⟨-, -, -, -, -, -, -, -, e0, e1, -⟩ := idx2_whole t
  unfold xb8 iblk2
  rw [View.read_apply]
  show (V c main_v21 : S512x64.Idx → EReal) _ = _
  refine congrArg _ ?_
  funext a; apply Fin.ext
  match a with
  | ⟨0, _⟩ => show win2_8.index t 0 * 512 + 1 * p.val = p.val; rw [e0]; omega
  | ⟨1, _⟩ => show win2_8.index t 1 * 64 + 1 * q.val = q.val; rw [e1]; omega

/-- Window 9 holds its whole array. -/
theorem iblk2_9_apply (c : Dev nD) (t : Fin cfg2.N) (p : Fin 512) (q : Fin 64) :
    xb9 V c t (ix2 p q) = (V c main_v23 : S512x64.Idx → EReal) (ix2 p q) := by
  obtain ⟨-, -, -, -, -, -, -, -, -, -, e0, e1, -⟩ := idx2_whole t
  unfold xb9 iblk2
  rw [View.read_apply]
  show (V c main_v23 : S512x64.Idx → EReal) _ = _
  refine congrArg _ ?_
  funext a; apply Fin.ext
  match a with
  | ⟨0, _⟩ => show win2_9.index t 0 * 512 + 1 * p.val = p.val; rw [e0]; omega
  | ⟨1, _⟩ => show win2_9.index t 1 * 64 + 1 * q.val = q.val; rw [e1]; omega

/-- Window 10 holds its whole array. -/
theorem iblk2_10_apply (c : Dev nD) (t : Fin cfg2.N) (p : Fin 1) (q : Fin 64) :
    xb10 V c t (ix2 p q) = (V c main_v24 : S1x64.Idx → EReal) (ix2 p q) := by
  obtain ⟨-, -, -, -, -, -, -, -, -, -, -, -, e0, e1⟩ := idx2_whole t
  unfold xb10 iblk2
  rw [View.read_apply]
  show (V c main_v24 : S1x64.Idx → EReal) _ = _
  refine congrArg _ ?_
  funext a; apply Fin.ext
  match a with
  | ⟨0, _⟩ => show win2_10.index t 0 * 1 + 1 * p.val = p.val; rw [e0]; omega
  | ⟨1, _⟩ => show win2_10.index t 1 * 64 + 1 * q.val = q.val; rw [e1]; omega

end Cert.KernelIdeal.Hand

end
-- ==== Proof.KI.R2Inv.lean ====
/-
  Region 2 at the ideal values: the accumulation, point by point. With z (r, k) = zraw (r, k) · scale (0, k) + shift (0, k)
  the normalised features, after the point with coordinates (i, kk) the first accumulator at (p, q) is zero plus the
  block sums b = 0 … kk of ∑ₖ A1 (1024·i + p, 512·b + k) · z (512·b + k, q), added in that order; the second
  likewise with A2.
-/
import proofs.«109319_j33217277067916_2_alg».proof.Proof.KI.R2Acc
import proofs.«109319_j33217277067916_2_alg».proof.Proof.KI.R2Pay
import proofs.«109319_j33217277067916_2_alg».proof.Proof.Spec.Blocks

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The arrays as the region finds them, typed as functions into the extended reals. -/
abbrev A1r2 (c : Dev nD) : S8192x8192.Idx → EReal := V c main_arg1
abbrev A2r2 (c : Dev nD) : S8192x8192.Idx → EReal := V c main_arg2
abbrev Zr2 (c : Dev nD) : S8192x512.Idx → EReal := V c main_v3
abbrev sc2 (c : Dev nD) : S1x512.Idx → EReal := V c main_v14
abbrev sh2 (c : Dev nD) : S1x512.Idx → EReal := V c main_v15

/-- The normalised features: z (r, k) = zraw (r, k) · scale (0, k) + shift (0, k). -/
def Zn2 (Zraw : S8192x512.Idx → EReal) (sc sh : S1x512.Idx → EReal) (r : Fin 8192) (k : Fin 512) : EReal :=
  Zraw (ix2 r k) * sc (ix2 (0 : Fin 1) k) + sh (ix2 (0 : Fin 1) k)

/-- Block b of the contraction for row 1024·i + p and column q. -/
def B2 (A : S8192x8192.Idx → EReal) (Z : Fin 8192 → Fin 512 → EReal) (i : ℕ) (p : Fin 1024) (q : Fin 512) (b : ℕ) : EReal :=
  if h : i < 8 ∧ b < 16 then
    ∑ k : Fin 512, A (ix2 (⟨1024 * i + p.val, by have := p.isLt; have := h.1; omega⟩ : Fin 8192) (⟨512 * b + k.val, by have := k.isLt; have := h.2; omega⟩ : Fin 8192))
      * Z (⟨512 * b + k.val, by have := k.isLt; have := h.2; omega⟩ : Fin 8192) q
  else 0

/-- Where kk = 0 accumulator 1 is the point's product over the zero fill. -/
theorem s2_0_first (c : Dev nD) (t : Fin cfg2.N) (h0 : t.val % 16 = 0) :
    (outsAt2 V c t.val t.isLt).2.1 = k2_pay7 (featAt2 V c t) (xb3 V c t) (xb4 V c t) (xb0 V c t) (k2_pay4 (F := Ideal)) := by
  rw [outsAt2_A V c t h0]
  exact outA2_s0 V c t h0

/-- Where kk > 0 it is what the point before left plus the point's product. -/
theorem s2_0_step (c : Dev nD) (t : Fin cfg2.N) (h0 : ¬t.val % 16 = 0) :
    (outsAt2 V c t.val t.isLt).2.1 = k2_pay7 (featAt2 V c t) (xb3 V c t) (xb4 V c t) (xb0 V c t) (outsAt2 V c (t.val - 1) (Nat.lt_of_le_of_lt (Nat.sub_le _ _) t.isLt)).2.1 := by
  by_cases h1 : t.val % 16 = 15
  · rw [outsAt2_C V c t h0 h1]
    exact outC2_s0 V c t h0 h1 _ _
  · rw [outsAt2_B V c t h0 h1]
    exact outB2_s0 V c t h0 h1 _ _

/-- The block sum of the point: the adjacency block's row p against column q of the normalised slice. -/
theorem blk2_0_sum (c : Dev nD) (t : Fin cfg2.N) (p : Fin 1024) (q : Fin 512) :
    (∑ k : Fin 512, xb0 V c t (ix2 p k) * (featAt2 V c t (ix2 k q) * xb3 V c t (ix2 (0 : Fin 1) q) + xb4 V c t (ix2 (0 : Fin 1) q)))
      = B2 (A1r2 V c) (Zn2 (Zr2 V c) (sc2 V c) (sh2 V c)) (t.val / 16) p q (t.val % 16) := by
  have hN : t.val < 128 := lt_of_lt_of_eq t.isLt (show cfg2.N = 128 from N_2)
  unfold B2
  rw [dif_pos ⟨by omega, by omega⟩]
  refine Finset.sum_congr rfl fun k _ => ?_
  have hp := p.isLt
  have hk := k.isLt
  rw [iblk2_0_apply V c t p k ⟨1024 * (t.val / 16) + p.val, by omega⟩ ⟨512 * (t.val % 16) + k.val, by omega⟩ rfl rfl,
    featAt2_apply V c t k q ⟨512 * (t.val % 16) + k.val, by omega⟩ rfl, iblk2_3_apply, iblk2_4_apply]
  rfl

/-- THE ACCUMULATION, accumulator 1. -/
theorem s2_0_inv (c : Dev nD) : ∀ (n : ℕ) (hn : n < cfg2.N) (p : Fin 1024) (q : Fin 512),
    (outsAt2 V c n hn).2.1 (ix2 p q) = Cert.Spec.accFrom 0 (B2 (A1r2 V c) (Zn2 (Zr2 V c) (sc2 V c) (sh2 V c)) (n / 16) p q) (n % 16 + 1)
  | 0, hn, p, q => by
    have e := s2_0_first V c ⟨0, hn⟩ (Nat.zero_mod _)
    rw [show (outsAt2 V c 0 hn).2.1 = _ from e, k2_pay7_apply, k2_pay4_apply, blk2_0_sum V c ⟨0, hn⟩ p q]
    rfl
  | n + 1, hn, p, q => by
    by_cases h0 : (n + 1) % 16 = 0
    · have e := s2_0_first V c ⟨n + 1, hn⟩ h0
      rw [show (outsAt2 V c (n + 1) hn).2.1 = _ from e, k2_pay7_apply, k2_pay4_apply, blk2_0_sum V c ⟨n + 1, hn⟩ p q]
      show (0 : EReal) + B2 _ _ ((n + 1) / 16) p q ((n + 1) % 16) = _
      rw [h0]; rfl
    · have e := s2_0_step V c ⟨n + 1, hn⟩ h0
      have ih := s2_0_inv c n (Nat.lt_of_succ_lt hn) p q
      have e1 : (n + 1) / 16 = n / 16 := by omega
      have e2 : (n + 1) % 16 = n % 16 + 1 := by omega
      rw [show (outsAt2 V c (n + 1) hn).2.1 = _ from e, k2_pay7_apply, blk2_0_sum V c ⟨n + 1, hn⟩ p q]
      show (outsAt2 V c n _).2.1 (ix2 p q) + B2 _ _ ((n + 1) / 16) p q ((n + 1) % 16) = _
      rw [ih, e1, e2]; rfl

/-- Where kk = 0 accumulator 2 is the point's product over the zero fill. -/
theorem s2_1_first (c : Dev nD) (t : Fin cfg2.N) (h0 : t.val % 16 = 0) :
    (outsAt2 V c t.val t.isLt).2.2 = k2_pay8 (featAt2 V c t) (xb3 V c t) (xb4 V c t) (xb1 V c t) (k2_pay5 (F := Ideal)) := by
  rw [outsAt2_A V c t h0]
  exact outA2_s1 V c t h0

/-- Where kk > 0 it is what the point before left plus the point's product. -/
theorem s2_1_step (c : Dev nD) (t : Fin cfg2.N) (h0 : ¬t.val % 16 = 0) :
    (outsAt2 V c t.val t.isLt).2.2 = k2_pay8 (featAt2 V c t) (xb3 V c t) (xb4 V c t) (xb1 V c t) (outsAt2 V c (t.val - 1) (Nat.lt_of_le_of_lt (Nat.sub_le _ _) t.isLt)).2.2 := by
  by_cases h1 : t.val % 16 = 15
  · rw [outsAt2_C V c t h0 h1]
    exact outC2_s1 V c t h0 h1 _ _
  · rw [outsAt2_B V c t h0 h1]
    exact outB2_s1 V c t h0 h1 _ _

/-- The block sum of the point: the adjacency block's row p against column q of the normalised slice. -/
theorem blk2_1_sum (c : Dev nD) (t : Fin cfg2.N) (p : Fin 1024) (q : Fin 512) :
    (∑ k : Fin 512, xb1 V c t (ix2 p k) * (featAt2 V c t (ix2 k q) * xb3 V c t (ix2 (0 : Fin 1) q) + xb4 V c t (ix2 (0 : Fin 1) q)))
      = B2 (A2r2 V c) (Zn2 (Zr2 V c) (sc2 V c) (sh2 V c)) (t.val / 16) p q (t.val % 16) := by
  have hN : t.val < 128 := lt_of_lt_of_eq t.isLt (show cfg2.N = 128 from N_2)
  unfold B2
  rw [dif_pos ⟨by omega, by omega⟩]
  refine Finset.sum_congr rfl fun k _ => ?_
  have hp := p.isLt
  have hk := k.isLt
  rw [iblk2_1_apply V c t p k ⟨1024 * (t.val / 16) + p.val, by omega⟩ ⟨512 * (t.val % 16) + k.val, by omega⟩ rfl rfl,
    featAt2_apply V c t k q ⟨512 * (t.val % 16) + k.val, by omega⟩ rfl, iblk2_3_apply, iblk2_4_apply]
  rfl

/-- THE ACCUMULATION, accumulator 2. -/
theorem s2_1_inv (c : Dev nD) : ∀ (n : ℕ) (hn : n < cfg2.N) (p : Fin 1024) (q : Fin 512),
    (outsAt2 V c n hn).2.2 (ix2 p q) = Cert.Spec.accFrom 0 (B2 (A2r2 V c) (Zn2 (Zr2 V c) (sc2 V c) (sh2 V c)) (n / 16) p q) (n % 16 + 1)
  | 0, hn, p, q => by
    have e := s2_1_first V c ⟨0, hn⟩ (Nat.zero_mod _)
    rw [show (outsAt2 V c 0 hn).2.2 = _ from e, k2_pay8_apply, k2_pay5_apply, blk2_1_sum V c ⟨0, hn⟩ p q]
    rfl
  | n + 1, hn, p, q => by
    by_cases h0 : (n + 1) % 16 = 0
    · have e := s2_1_first V c ⟨n + 1, hn⟩ h0
      rw [show (outsAt2 V c (n + 1) hn).2.2 = _ from e, k2_pay8_apply, k2_pay5_apply, blk2_1_sum V c ⟨n + 1, hn⟩ p q]
      show (0 : EReal) + B2 _ _ ((n + 1) / 16) p q ((n + 1) % 16) = _
      rw [h0]; rfl
    · have e := s2_1_step V c ⟨n + 1, hn⟩ h0
      have ih := s2_1_inv c n (Nat.lt_of_succ_lt hn) p q
      have e1 : (n + 1) / 16 = n / 16 := by omega
      have e2 : (n + 1) % 16 = n % 16 + 1 := by omega
      rw [show (outsAt2 V c (n + 1) hn).2.2 = _ from e, k2_pay8_apply, blk2_1_sum V c ⟨n + 1, hn⟩ p q]
      show (outsAt2 V c n _).2.2 (ix2 p q) + B2 _ _ ((n + 1) / 16) p q ((n + 1) % 16) = _
      rw [ih, e1, e2]; rfl

end Cert.KernelIdeal.Hand

end
-- ==== Proof.KI.R2Value.lean ====
/-
  Region 2 at the ideal values: the output array after the region. With z = zraw · scale + shift the normalised
  features, entry (r, o) is h (r, ·) · Wh (·, o) + z (r, ·) · Wz (·, o) + (A1 z) (r, ·) · Wa (·, o) + (A2 z) (r, ·) · Wb (·, o)
  + b (0, o), the four products added in that order and the bias last. Each point with kk = 15 writes back the
  block of 1024 rows it computed, which is that block of this one function of the arrays; the eight blocks cover
  the array.
-/
import proofs.«109319_j33217277067916_2_alg».proof.Proof.KI.R2Inv
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The region's result, index by index, as one function of the eleven arrays it reads. -/
def G2 (A1 A2 : S8192x8192.Idx → EReal) (Zraw : S8192x512.Idx → EReal) (sc sh : S1x512.Idx → EReal) (H : S8192x256.Idx → EReal)
    (Wh : S256x64.Idx → EReal) (Wz Wa Wb : S512x64.Idx → EReal) (bf : S1x64.Idx → EReal) : S8192x64.Idx → EReal :=
  fun i => ((((∑ k : Fin 256, H (ix2 (i 0 : Fin 8192) k) * Wh (ix2 k (i 1 : Fin 64)))
      + ∑ k : Fin 512, Zn2 Zraw sc sh (i 0 : Fin 8192) k * Wz (ix2 k (i 1 : Fin 64)))
      + ∑ k : Fin 512, (∑ kk : Fin 8192, A1 (ix2 (i 0 : Fin 8192) kk) * Zn2 Zraw sc sh kk k) * Wa (ix2 k (i 1 : Fin 64)))
      + ∑ k : Fin 512, (∑ kk : Fin 8192, A2 (ix2 (i 0 : Fin 8192) kk) * Zn2 Zraw sc sh kk k) * Wb (ix2 k (i 1 : Fin 64)))
      + bf (ix2 (0 : Fin 1) (i 1 : Fin 64))

theorem G2_apply (A1 A2 : S8192x8192.Idx → EReal) (Zraw : S8192x512.Idx → EReal) (sc sh : S1x512.Idx → EReal) (H : S8192x256.Idx → EReal)
    (Wh : S256x64.Idx → EReal) (Wz Wa Wb : S512x64.Idx → EReal) (bf : S1x64.Idx → EReal) (r : Fin 8192) (o : Fin 64) :
    G2 A1 A2 Zraw sc sh H Wh Wz Wa Wb bf (ix2 r o)
      = ((((∑ k : Fin 256, H (ix2 r k) * Wh (ix2 k o))
        + ∑ k : Fin 512, Zn2 Zraw sc sh r k * Wz (ix2 k o))
        + ∑ k : Fin 512, (∑ kk : Fin 8192, A1 (ix2 r kk) * Zn2 Zraw sc sh kk k) * Wa (ix2 k o))
        + ∑ k : Fin 512, (∑ kk : Fin 8192, A2 (ix2 r kk) * Zn2 Zraw sc sh kk k) * Wb (ix2 k o))
        + bf (ix2 (0 : Fin 1) o) := rfl

/-- Where kk = 15 accumulator 1 holds the whole contraction: row 1024·i + p of the adjacency array against column q
    of the normalised features. -/
theorem s2_0_full (c : Dev nD) (t : Fin cfg2.N) (h1 : t.val % 16 = 15) (p : Fin 1024) (q : Fin 512) (r : Fin 8192)
    (hr : r.val = 1024 * (t.val / 16) + p.val) :
    (outsAt2 V c t.val t.isLt).2.1 (ix2 p q) = ∑ kk : Fin 8192, A1r2 V c (ix2 r kk) * Zn2 (Zr2 V c) (sc2 V c) (sh2 V c) kk q := by
  have hN : t.val < 128 := lt_of_lt_of_eq t.isLt (show cfg2.N = 128 from N_2)
  rw [s2_0_inv V c t.val t.isLt p q, h1]
  show Cert.Spec.accFrom 0 _ 16 = _
  refine Cert.Spec.accFrom_blocks (fun kk => A1r2 V c (ix2 r kk) * Zn2 (Zr2 V c) (sc2 V c) (sh2 V c) kk q) _ (fun b => ?_)
  unfold B2
  rw [dif_pos ⟨by omega, b.isLt⟩]
  refine Finset.sum_congr rfl fun k _ => ?_
  have e : (⟨1024 * (t.val / 16) + p.val, by have := p.isLt; omega⟩ : Fin 8192) = r := Fin.ext hr.symm
  rw [e]

/-- Where kk = 15 accumulator 2 holds the whole contraction: row 1024·i + p of the adjacency array against column q
    of the normalised features. -/
theorem s2_1_full (c : Dev nD) (t : Fin cfg2.N) (h1 : t.val % 16 = 15) (p : Fin 1024) (q : Fin 512) (r : Fin 8192)
    (hr : r.val = 1024 * (t.val / 16) + p.val) :
    (outsAt2 V c t.val t.isLt).2.2 (ix2 p q) = ∑ kk : Fin 8192, A2r2 V c (ix2 r kk) * Zn2 (Zr2 V c) (sc2 V c) (sh2 V c) kk q := by
  have hN : t.val < 128 := lt_of_lt_of_eq t.isLt (show cfg2.N = 128 from N_2)
  rw [s2_1_inv V c t.val t.isLt p q, h1]
  show Cert.Spec.accFrom 0 _ 16 = _
  refine Cert.Spec.accFrom_blocks (fun kk => A2r2 V c (ix2 r kk) * Zn2 (Zr2 V c) (sc2 V c) (sh2 V c) kk q) _ (fun b => ?_)
  unfold B2
  rw [dif_pos ⟨by omega, b.isLt⟩]
  refine Finset.sum_congr rfl fun k _ => ?_
  have e : (⟨1024 * (t.val / 16) + p.val, by have := p.isLt; omega⟩ : Fin 8192) = r := Fin.ext hr.symm
  rw [e]

/-- Where kk = 15 the output block is the epilogue over the two accumulators as this point leaves them. -/
theorem out2_at (c : Dev nD) (t : Fin cfg2.N) (h0 : ¬t.val % 16 = 0) (h1 : t.val % 16 = 15) :
    (outsAt2 V c t.val t.isLt).1
      = k2_pay1 (F := Ideal) (k2_pay2 (F := Ideal) (xb9 V c t))
          (k2_pay3 (F := Ideal) (rows2 (grid2.coords t) ((hcond2_1 t).mpr h1) (xb2 V c t)) (xb3 V c t) (xb4 V c t) (xb5 V c t) (xb6 V c t) (xb7 V c t) (xb8 V c t) (outsAt2 V c t.val t.isLt).2.1)
          (outsAt2 V c t.val t.isLt).2.2 (xb10 V c t) := by
  rw [s2_0_step V c t h0, s2_1_step V c t h0, outsAt2_C V c t h0 h1]
  exact outC2_out V c t h0 h1 _ _

/-- WHAT A POINT WITH kk = 15 WRITES BACK is its block of the one function of the arrays. -/
theorem flushed2_11_eq (c : Dev nD) (t : Fin cfg2.N) (hf : (cfg2.win 11).flush t = true) :
    (dat2 V c).flushed 11 t = ((cfg2.win 11).blk t).view.read (Elt Ideal) (G2 (V c main_arg1) (V c main_arg2) (V c main_v3) (V c main_v14) (V c main_v15) (V c main_v2) (V c main_v17) (V c main_v19) (V c main_v21) (V c main_v23) (V c main_v24)) := by
  have h1 : t.val % 16 = 15 := (flush2_11 t).mp hf
  have h0 : ¬t.val % 16 = 0 := by omega
  have hN : t.val < 128 := lt_of_lt_of_eq t.isLt (show cfg2.N = 128 from N_2)
  show (cfg2.win 11).cut (grid2.coords t) ((dat2 V c).after 11 t) = _
  rw [after2_11, out2_at V c t h0 h1]
  obtain ⟨-, -, -, -, -, -, -, -, e0, e1, -⟩ := idx2_facts t
  refine funext fun (y : S1024x64.Idx) => ?_
  obtain ⟨p, o, rfl⟩ : ∃ (p : Fin 1024) (o : Fin 64), y = ix2 p o := ⟨y 0, y 1, eq_ix2 y⟩
  show k2_pay1 (F := Ideal) (k2_pay2 (F := Ideal) (xb9 V c t))
          (k2_pay3 (F := Ideal) (rows2 (grid2.coords t) ((hcond2_1 t).mpr h1) (xb2 V c t)) (xb3 V c t) (xb4 V c t) (xb5 V c t) (xb6 V c t) (xb7 V c t) (xb8 V c t) (outsAt2 V c t.val t.isLt).2.1)
          (outsAt2 V c t.val t.isLt).2.2 (xb10 V c t) (ix2 p o)
    = G2 (V c main_arg1) (V c main_arg2) (V c main_v3) (V c main_v14) (V c main_v15) (V c main_v2) (V c main_v17) (V c main_v19) (V c main_v21) (V c main_v23) (V c main_v24) (((cfg2.win 11).blk t).view.emb (ix2 p o))
  have hp := p.isLt
  refine (k2_pay1_apply _ _ _ _ p o).trans ?_
  rw [k2_pay3_apply]
  have hemb : ((cfg2.win 11).blk t).view.emb (ix2 p o) = ix2 (⟨1024 * (t.val / 16) + p.val, by omega⟩ : Fin 8192) o := by
    funext a; apply Fin.ext
    match a with
    | ⟨0, _⟩ => show win2_11.index t (0 : Fin 2) * 1024 + 1 * p.val = 1024 * (t.val / 16) + p.val; rw [e0]; omega
    | ⟨1, _⟩ => show win2_11.index t (1 : Fin 2) * 64 + 1 * o.val = o.val; rw [e1]; omega
  refine Eq.trans ?_ (congrArg (G2 (V c main_arg1) (V c main_arg2) (V c main_v3) (V c main_v14) (V c main_v15) (V c main_v2) (V c main_v17) (V c main_v19) (V c main_v21) (V c main_v23) (V c main_v24)) hemb).symm
  rw [G2_apply]
  refine congrArg₂ (· + ·) (congrArg₂ (· + ·) (congrArg₂ (· + ·) (congrArg₂ (· + ·) ?tH ?tZ) ?tA) ?tB) ?tbf
  case tH => exact Finset.sum_congr rfl fun k _ => by rw [iblk2_5_apply V c t p k ⟨1024 * (t.val / 16) + p.val, by omega⟩ rfl, iblk2_6_apply]
  case tZ => exact Finset.sum_congr rfl fun k _ => by rw [rows2_apply V c t ((hcond2_1 t).mpr h1) p k ⟨1024 * (t.val / 16) + p.val, by omega⟩ rfl, iblk2_3_apply, iblk2_4_apply, iblk2_7_apply]; rfl
  case tA => exact Finset.sum_congr rfl fun k _ => by rw [s2_0_full V c t h1 p k ⟨1024 * (t.val / 16) + p.val, by omega⟩ rfl, iblk2_8_apply]
  case tB => exact Finset.sum_congr rfl fun k _ => by rw [s2_1_full V c t h1 p k ⟨1024 * (t.val / 16) + p.val, by omega⟩ rfl, k2_pay2_apply, iblk2_9_apply]
  case tbf => exact iblk2_10_apply V c t 0 o

/-- An index of the output array is in point t's block iff each coordinate is in the block's range on its axis. -/
theorem mem_blk2_11 (t : Fin cfg2.N) (i : S8192x64.Idx) :
    i ∈ ((cfg2.win 11).blk t).view.set ↔ ∀ a : Fin 2, win2_11.index t a * S1024x64.size a ≤ (i a).val ∧ (i a).val < win2_11.index t a * S1024x64.size a + S1024x64.size a := by
  show i ∈ ((View.whole main_v25).slice (win2_11.rect t)).set ↔ _
  rw [View.set_slice_whole, Rect.mem_set_unit]
  exact Iff.rfl

/-- Every index of the output array is in the block of a point that writes back: row r is in the block of the
    point (r / 1024, 15). -/
theorem cover2_11_arr (i : S8192x64.Idx) :
    ∃ t : Fin cfg2.N, (cfg2.win 11).flush t = true ∧ i ∈ ((cfg2.win 11).blk t).view.set := by
  have hi0 : (i 0).val < 8192 := (i 0).isLt
  have hi1 : (i 1).val < 64 := (i 1).isLt
  have hN : cfg2.N = 128 := N_2
  refine ⟨⟨16 * ((i 0).val / 1024) + 15, by omega⟩, (flush2_11 _).mpr (by show (16 * ((i 0).val / 1024) + 15) % 16 = 15; omega), ?_⟩
  rw [mem_blk2_11]
  obtain ⟨-, -, -, -, -, -, -, -, e0, e1, -⟩ := idx2_facts ⟨16 * ((i 0).val / 1024) + 15, by omega⟩
  intro a
  match a with
  | ⟨0, _⟩ =>
    show win2_11.index _ (0 : Fin 2) * 1024 ≤ (i 0).val ∧ (i 0).val < win2_11.index _ (0 : Fin 2) * 1024 + 1024
    rw [e0]; show (16 * ((i 0).val / 1024) + 15) / 16 * 1024 ≤ (i 0).val ∧ (i 0).val < (16 * ((i 0).val / 1024) + 15) / 16 * 1024 + 1024; omega
  | ⟨1, _⟩ =>
    show win2_11.index _ (1 : Fin 2) * 64 ≤ (i 1).val ∧ (i 1).val < win2_11.index _ (1 : Fin 2) * 64 + 64
    rw [e1]; omega

/-- THE OUTPUT ARRAY after the region. -/
theorem arr2_eq (c : Dev nD) : (dat2 V c).arrAt 11 cfg2.N = G2 (V c main_arg1) (V c main_arg2) (V c main_v3) (V c main_v14) (V c main_v15) (V c main_v2) (V c main_v17) (V c main_v19) (V c main_v21) (V c main_v23) (V c main_v24) :=
  (dat2 V c).arrAt_eq_of_cover 11 (G2 (V c main_arg1) (V c main_arg2) (V c main_v3) (V c main_v14) (V c main_v15) (V c main_v2) (V c main_v17) (V c main_v19) (V c main_v21) (V c main_v23) (V c main_v24)) (fun t hf => flushed2_11_eq V c t hf) cover2_11_arr

/-- An input window's array is never written: it stays as the region found it. -/
theorem arr2_in (c : Dev nD) (w : Fin cfg2.W) (hw : w ≠ 11) (n : ℕ) : (dat2 V c).arrAt w n = V c (Pipeline.arrRef spec2 w) := by
  have hin : (cfg2.win w).isOut = false := by
    match w with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
    | ⟨9, _⟩ => rfl
    | ⟨10, _⟩ => rfl
    | ⟨11, _⟩ => exact absurd rfl hw
  exact ((dat2 V c).arrAt_in w hin n).trans (A_eq2 V c w)

end Cert.KernelIdeal.Hand

end
-- ==== Proof.KI.Comp3.lean ====
/- The whole kernel program at the ideal values: the output array after the last region is the specification's `outKer`
   of the launch arrays — the embedding `h`, the normalised features `zKer` of `zraw`, the two adjacency arguments, the
   final weights and bias. The last region's result is one function of the eleven arrays it is entered with; each of
   those is, index by index, the specification's quantity of the launch arrays. -/
import proofs.«109319_j33217277067916_2_alg».proof.Proof.KI.Comp2
import proofs.«109319_j33217277067916_2_alg».proof.Proof.KI.R2Value

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen
open Cert.Spec (cur1 cur2)
open scoped BigOperators

variable (m : (ℓ : Loc nD τ sig) → Buf (Elt Ideal) ℓ)

/-- The program's output array at the last boundary. -/
abbrev kout (c : Dev nD) : S8192x64.Idx → EReal := W7 m c (Proc.devRef .tc main_v25)

/-- It is the last region's one function of the arrays the region is entered with. -/
theorem kout_eq (c : Dev nD) :
    kout m c = G2 (V6 m c main_arg1) (V6 m c main_arg2) (e6_z m c) (e6_scale m c) (e6_shift m c) (e6_h m c)
      (e6_w17 m c) (e6_w19 m c) (e6_w21 m c) (e6_w23 m c) (e6_bias m c) :=
  (W7_arr m c 11).trans (arr2_eq (V6 m) c)

/-- The normalised features the region computes are the specification's `zKer` of `zraw`:
    zraw · scale + shift, with the scale and the shift rows of the host stretch before it. -/
theorem zn_eq (c : Dev nD) (r : Fin 8192) (k : Fin 512) :
    Zn2 (e6_z m c) (e6_scale m c) (e6_shift m c) r k = Cert.Spec.zKer (zr m c) (γS m c) (βS m c) r k := by
  unfold Zn2 Cert.Spec.zKer
  rw [V6_v3_apply, V6_v14_apply, V6_v15_apply]

/-- THE OUTPUT, index by index: the specification's `outKer` of the launch arrays. -/
theorem kout_apply (c : Dev nD) (r : Fin 8192) (o : Fin 64) :
    kout m c (ix2 r o)
      = Cert.Spec.outKer (Cert.Spec.h (cur2 (a0 m c)) (cur2 (a3 m c)) (cur1 (a4 m c)))
          (Cert.Spec.zKer (Cert.Spec.zraw (cur2 (a1 m c)) (cur2 (a2 m c)) (Cert.Spec.h (cur2 (a0 m c)) (cur2 (a3 m c)) (cur1 (a4 m c))))
            (cur1 (a5 m c)) (cur1 (a6 m c)))
          (cur2 (a1 m c)) (cur2 (a2 m c)) (cur2 (a7 m c)) (cur1 (a8 m c)) r o := by
  rw [kout_eq, G2_apply]
  show _ = Cert.Spec.outKer (hh m c) (Cert.Spec.zKer (zr m c) (γS m c) (βS m c)) (cur2 (a1 m c)) (cur2 (a2 m c)) (cur2 (a7 m c)) (cur1 (a8 m c)) r o
  unfold Cert.Spec.outKer Cert.Spec.az
  refine congrArg₂ (fun (x y : EReal) => x + y) (congrArg₂ (fun (x y : EReal) => x + y) (congrArg₂ (fun (x y : EReal) => x + y)
    (congrArg₂ (fun (x y : EReal) => x + y) ?gH ?gZ) ?gA) ?gB) ?gbf
  case gH =>
    exact Finset.sum_congr rfl fun k _ => congrArg₂ (fun (x y : EReal) => x * y) (V6_v2_apply m c r k) (V6_v17_apply m c k o)
  case gZ =>
    exact Finset.sum_congr rfl fun k _ => congrArg₂ (fun (x y : EReal) => x * y) (zn_eq m c r k) (V6_v19_apply m c k o)
  case gA =>
    exact Finset.sum_congr rfl fun k _ => congrArg₂ (fun (x y : EReal) => x * y)
      (Finset.sum_congr rfl fun kk _ => congrArg₂ (fun (x y : EReal) => x * y) (congrFun (V6_arg1 m c) (ix2 r kk)) (zn_eq m c kk k))
      (V6_v21_apply m c k o)
  case gB =>
    exact Finset.sum_congr rfl fun k _ => congrArg₂ (fun (x y : EReal) => x * y)
      (Finset.sum_congr rfl fun kk _ => congrArg₂ (fun (x y : EReal) => x * y) (congrFun (V6_arg2 m c) (ix2 r kk)) (zn_eq m c kk k))
      (V6_v23_apply m c k o)
  case gbf => exact V6_v24_apply m c 0 o

end Cert.KernelIdeal.Hand

end
-- ==== Proof.Ref.Stages.lean ====
/- The idealized reference program's result as ONE pure term of its nine argument arrays, built from named
   stages: each stage is the composition of the program's host operations that computes one of its
   intermediate arrays. Generic in the float instance. -/
import proofs.«109319_j33217277067916_2_alg».proof.ReferenceIdeal
import proofs.«109319_j33217277067916_2_alg».proof.Proof.Gen.ReferenceIdeal
import Idealize.ShloMosaic.Lib.StableHlo

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result as one pure term: the stages -/

/-- relu(x · w_embedᵀ + b_embed): the value of `main_v5`. -/
def hR (a0 : (⟨S8192x512, .f32⟩ : BufTy).Contents (Elt F)) (a3 : (⟨S256x512, .f32⟩ : BufTy).Contents (Elt F)) (a4 : (⟨S256, .f32⟩ : BufTy).Contents (Elt F)) : (⟨S8192x256, .f32⟩ : BufTy).Contents (Elt F) :=
  maximumf
    (addf (Host.dotGeneral dot_S8192x512_S512x256_S8192x256_1_0_0_1_n_n none a0 (transpose S512x256 [1, 0] a3 transposes_S256x512_S512x256_1_0))
      (broadcastInDim S8192x256 ![0, 1] bcast_S1x256_S8192x256_0_1 (broadcastInDim S1x256 ![1] bcast_S256_S1x256_1 a4)))
    (broadcastInDim S8192x256 ![] bcast_S_S8192x256 (constant S_ .f32 0x00000000#32))

/-- concat(A₁ · h, A₂ · h) along the columns: the value of `main_v8`. -/
def zrawR (a1 a2 : (⟨S8192x8192, .f32⟩ : BufTy).Contents (Elt F)) (hv : (⟨S8192x256, .f32⟩ : BufTy).Contents (Elt F)) : (⟨S8192x512, .f32⟩ : BufTy).Contents (Elt F) :=
  concatenate S8192x512 1 [⟨S8192x256, Host.dotGeneral dot_S8192x8192_S8192x256_S8192x256_1_0_0_1_n_n none a1 hv⟩, ⟨S8192x256, Host.dotGeneral dot_S8192x8192_S8192x256_S8192x256_1_0_0_1_n_n none a2 hv⟩]
    concatenates_S8192x256_S8192x256_S8192x512_d1

/-- The column sums divided by 8192: the value of `main_v11`. -/
def meanR (zr : (⟨S8192x512, .f32⟩ : BufTy).Contents (Elt F)) : (⟨S512, .f32⟩ : BufTy).Contents (Elt F) :=
  Host.divf (Host.reduceAdd zr (constant S_ .f32 0x00000000#32) reducesTo_S8192x512_S512_d0 h_S_)
    (broadcastInDim S512 ![] bcast_S_S512 (constant S_ .f32 0x46000000#32))

/-- The divisor of the variance, 8192 − (the correction 0 converted to a float): @_var's `%8`. -/
def varDenR : (⟨S_, .f32⟩ : BufTy).Contents (Elt F) :=
  subf (constant S_ .f32 0x46000000#32) (sitofp .f32 (constantI S_ 32 0#32))

/-- The centred squares' column sums over that divisor: @_var's `%11`. -/
def varQuotR (zr : (⟨S8192x512, .f32⟩ : BufTy).Contents (Elt F)) : (⟨S512, .f32⟩ : BufTy).Contents (Elt F) :=
  Host.divf
    (Host.reduceAdd
      (mulf
        (subf zr (broadcastInDim S8192x512 ![0, 1] bcast_S1x512_S8192x512_0_1
          (Host.divf (broadcastInDim S1x512 ![1] bcast_S512_S1x512_1
              (Host.reduceAdd zr (constant S_ .f32 0x00000000#32) reducesTo_S8192x512_S512_d0 h_S_))
            (broadcastInDim S1x512 ![] bcast_S_S1x512 (constant S_ .f32 0x46000000#32)))))
        (subf zr (broadcastInDim S8192x512 ![0, 1] bcast_S1x512_S8192x512_0_1
          (Host.divf (broadcastInDim S1x512 ![1] bcast_S512_S1x512_1
              (Host.reduceAdd zr (constant S_ .f32 0x00000000#32) reducesTo_S8192x512_S512_d0 h_S_))
            (broadcastInDim S1x512 ![] bcast_S_S1x512 (constant S_ .f32 0x46000000#32))))))
      (constant S_ .f32 0x00000000#32) reducesTo_S8192x512_S512_d0 h_S_)
    (broadcastInDim S512 ![] bcast_S_S512 varDenR)

/-- The variance as the program computes it, the select on the divisor's sign included: the value of `main_v12`. -/
def varR (zr : (⟨S8192x512, .f32⟩ : BufTy).Contents (Elt F)) : (⟨S512, .f32⟩ : BufTy).Contents (Elt F) :=
  select (broadcastInDim S512 ![] bcast_S_S512 (cmpf .ogt (varDenR (F := F)) (constant S_ .f32 0x00000000#32)))
    (varQuotR zr)
    (broadcastInDim S512 ![] bcast_S_S512 (id (constant S_ .f32 0x7FC00000#32 : (⟨S_, .f32⟩ : BufTy).Contents (Elt F))))

/-- The normalised, scaled and shifted array: the value of `main_v27`. -/
def zR (zr : (⟨S8192x512, .f32⟩ : BufTy).Contents (Elt F)) (a5 a6 : (⟨S512, .f32⟩ : BufTy).Contents (Elt F)) : (⟨S8192x512, .f32⟩ : BufTy).Contents (Elt F) :=
  addf
    (mulf
      (mulf
        (subf zr (broadcastInDim S8192x512 ![0, 1] bcast_S1x512_S8192x512_0_1 (broadcastInDim S1x512 ![1] bcast_S512_S1x512_1 (meanR zr))))
        (broadcastInDim S8192x512 ![0, 1] bcast_S1x512_S8192x512_0_1 (broadcastInDim S1x512 ![1] bcast_S512_S1x512_1
          (Host.rsqrt (addf (varR zr) (broadcastInDim S512 ![] bcast_S_S512 (constant S_ .f32 0x3727C5AC#32)))))))
      (broadcastInDim S8192x512 ![0, 1] bcast_S1x512_S8192x512_0_1 (broadcastInDim S1x512 ![1] bcast_S512_S1x512_1 a5)))
    (broadcastInDim S8192x512 ![0, 1] bcast_S1x512_S8192x512_0_1 (broadcastInDim S1x512 ![1] bcast_S512_S1x512_1 a6))

/-- concat(A₁ · z, A₂ · z) along the columns: the value of `main_v30`. -/
def z2R (zv : (⟨S8192x512, .f32⟩ : BufTy).Contents (Elt F)) (a1 a2 : (⟨S8192x8192, .f32⟩ : BufTy).Contents (Elt F)) : (⟨S8192x1024, .f32⟩ : BufTy).Contents (Elt F) :=
  concatenate S8192x1024 1 [⟨S8192x512, Host.dotGeneral dot_S8192x8192_S8192x512_S8192x512_1_0_0_1_n_n none a1 zv⟩, ⟨S8192x512, Host.dotGeneral dot_S8192x8192_S8192x512_S8192x512_1_0_0_1_n_n none a2 zv⟩]
    concatenates_S8192x512_S8192x512_S8192x1024_d1

/-- concat(h, z, z₂) along the columns: the value of `main_v31`. -/
def jkR (hv : (⟨S8192x256, .f32⟩ : BufTy).Contents (Elt F)) (zv : (⟨S8192x512, .f32⟩ : BufTy).Contents (Elt F)) (a1 a2 : (⟨S8192x8192, .f32⟩ : BufTy).Contents (Elt F)) : (⟨S8192x1792, .f32⟩ : BufTy).Contents (Elt F) :=
  concatenate S8192x1792 1 [⟨S8192x256, hv⟩, ⟨S8192x512, zv⟩, ⟨S8192x1024, z2R zv a1 a2⟩]
    concatenates_S8192x256_S8192x512_S8192x1024_S8192x1792_d1

/-- jk · w_finᵀ + b_fin: the value of `main_v36`. -/
def outR (hv : (⟨S8192x256, .f32⟩ : BufTy).Contents (Elt F)) (zv : (⟨S8192x512, .f32⟩ : BufTy).Contents (Elt F)) (a1 a2 : (⟨S8192x8192, .f32⟩ : BufTy).Contents (Elt F)) (a7 : (⟨S64x1792, .f32⟩ : BufTy).Contents (Elt F)) (a8 : (⟨S64, .f32⟩ : BufTy).Contents (Elt F)) : (⟨S8192x64, .f32⟩ : BufTy).Contents (Elt F) :=
  addf
    (Host.dotGeneral dot_S8192x1792_S1792x64_S8192x64_1_0_0_1_n_n none (jkR hv zv a1 a2) (transpose S1792x64 [1, 0] a7 transposes_S64x1792_S1792x64_1_0))
    (broadcastInDim S8192x64 ![0, 1] bcast_S1x64_S8192x64_0_1 (broadcastInDim S1x64 ![1] bcast_S64_S1x64_1 a8))

/-- The program's result as one pure term of its nine arguments. -/
def out (a0 : (⟨S8192x512, .f32⟩ : BufTy).Contents (Elt F)) (a1 a2 : (⟨S8192x8192, .f32⟩ : BufTy).Contents (Elt F)) (a3 : (⟨S256x512, .f32⟩ : BufTy).Contents (Elt F)) (a4 : (⟨S256, .f32⟩ : BufTy).Contents (Elt F)) (a5 a6 : (⟨S512, .f32⟩ : BufTy).Contents (Elt F))
    (a7 : (⟨S64x1792, .f32⟩ : BufTy).Contents (Elt F)) (a8 : (⟨S64, .f32⟩ : BufTy).Contents (Elt F)) : (⟨S8192x64, .f32⟩ : BufTy).Contents (Elt F) :=
  outR (hR a0 a3 a4) (zR (zrawR a1 a2 (hR a0 a3 a4)) a5 a6) a1 a2 a7 a8

end Cert.ReferenceIdeal.RefRun

end
-- ==== Proof.Ref.Ops.lean ====
/- The idealized reference program's @main as the LIST of its 64 host operations, the three module-local
   calls inlined at their buffer records; the list is @main, scopes nothing, and stays inside the
   TensorCore's buffers. -/
import proofs.«109319_j33217277067916_2_alg».proof.ReferenceIdeal
import proofs.«109319_j33217277067916_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- @main's 64 operations, in order: its own thirty-nine, @relu's three in the place of its call, @_var's
    nineteen and (inside it) @_where's three in the place of theirs. -/
abbrev ops : List (HloOp τ sig (Elt F)) :=
  [ unary main_arg3 main_v0 ((transpose S512x256 [1, 0] · transposes_S256x512_S512x256_1_0) : (⟨S256x512, .f32⟩ : BufTy).Contents (Elt F) → (⟨S512x256, .f32⟩ : BufTy).Contents (Elt F)),
    binary main_arg0 main_v0 main_v1 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg4 main_v2 (broadcastInDim S1x256 ![1] bcast_S256_S1x256_1 : (⟨S256, .f32⟩ : BufTy).Contents (Elt F) → (⟨S1x256, .f32⟩ : BufTy).Contents (Elt F)),
    unary main_v2 main_v3 (broadcastInDim S8192x256 ![0, 1] bcast_S1x256_S8192x256_0_1 : (⟨S1x256, .f32⟩ : BufTy).Contents (Elt F) → (⟨S8192x256, .f32⟩ : BufTy).Contents (Elt F)),
    binary main_v1 main_v3 main_v4 (addf : (⟨S8192x256, .f32⟩ : BufTy).Contents (Elt F) → (⟨S8192x256, .f32⟩ : BufTy).Contents (Elt F) → (⟨S8192x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x256, .f32⟩) main_call0_v0) (broadcastInDim S8192x256 ![] bcast_S_S8192x256),
    TRef.binary (TRef.of (T := ⟨S8192x256, .f32⟩) main_v4) (TRef.of (T := ⟨S8192x256, .f32⟩) main_call0_v0) (TRef.of (T := ⟨S8192x256, .f32⟩) main_v5) maximumf,
    binary main_arg1 main_v5 main_v6 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_arg2 main_v5 main_v7 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_v6 main_v7 main_v8 ((fun a b => concatenate S8192x512 1 [⟨S8192x256, a⟩, ⟨S8192x256, b⟩] concatenates_S8192x256_S8192x256_S8192x512_d1) : (⟨S8192x256, .f32⟩ : BufTy).Contents (Elt F) → (⟨S8192x256, .f32⟩ : BufTy).Contents (Elt F) → (⟨S8192x512, .f32⟩ : BufTy).Contents (Elt F)),
    nullary main_cst (constant S_ .f32 0x00000000#32),
    binary main_v8 main_cst main_v9 ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)),
    nullary main_cst_0 (constant S_ .f32 0x46000000#32),
    unary main_cst_0 main_v10 (broadcastInDim S512 ![] bcast_S_S512 : (⟨S_, .f32⟩ : BufTy).Contents (Elt F) → (⟨S512, .f32⟩ : BufTy).Contents (Elt F)),
    binary main_v9 main_v10 main_v11 (Host.divf : (⟨S512, .f32⟩ : BufTy).Contents (Elt F) → (⟨S512, .f32⟩ : BufTy).Contents (Elt F) → (⟨S512, .f32⟩ : BufTy).Contents (Elt F)),
    nullary main_c (constantI S_ 32 0#32),
    TRef.nullary (TRef.of (T := ⟨S_, .f32⟩) main_call1_cst) (constant S_ .f32 0x00000000#32),
    TRef.binary (TRef.of (T := ⟨S8192x512, .f32⟩) main_v8) (TRef.of (T := ⟨S_, .f32⟩) main_call1_cst) (TRef.of (T := ⟨S512, .f32⟩) main_call1_v0) (fun x v => Host.reduceAdd x v reducesTo_S8192x512_S512_d0 h_S_),
    TRef.unary (TRef.of (T := ⟨S512, .f32⟩) main_call1_v0) (TRef.of (T := ⟨S1x512, .f32⟩) main_call1_v1) (broadcastInDim S1x512 ![1] bcast_S512_S1x512_1),
    TRef.nullary (TRef.of (T := ⟨S_, .f32⟩) main_call1_cst_0) (constant S_ .f32 0x46000000#32),
    TRef.unary (TRef.of (T := ⟨S_, .f32⟩) main_call1_cst_0) (TRef.of (T := ⟨S1x512, .f32⟩) main_call1_v2) (broadcastInDim S1x512 ![] bcast_S_S1x512),
    TRef.binary (TRef.of (T := ⟨S1x512, .f32⟩) main_call1_v1) (TRef.of (T := ⟨S1x512, .f32⟩) main_call1_v2) (TRef.of (T := ⟨S1x512, .f32⟩) main_call1_v3) Host.divf,
    TRef.unary (TRef.of (T := ⟨S1x512, .f32⟩) main_call1_v3) (TRef.of (T := ⟨S8192x512, .f32⟩) main_call1_v4) (broadcastInDim S8192x512 ![0, 1] bcast_S1x512_S8192x512_0_1),
    TRef.binary (TRef.of (T := ⟨S8192x512, .f32⟩) main_v8) (TRef.of (T := ⟨S8192x512, .f32⟩) main_call1_v4) (TRef.of (T := ⟨S8192x512, .f32⟩) main_call1_v5) subf,
    TRef.binary (TRef.of (T := ⟨S8192x512, .f32⟩) main_call1_v5) (TRef.of (T := ⟨S8192x512, .f32⟩) main_call1_v5) (TRef.of (T := ⟨S8192x512, .f32⟩) main_call1_v6) mulf,
    TRef.unary (TRef.of (T := ⟨S_, .i32⟩) main_c) (TRef.of (T := ⟨S_, .f32⟩) main_call1_v7) (sitofp .f32),
    TRef.nullary (TRef.of (T := ⟨S_, .f32⟩) main_call1_cst_1) (constant S_ .f32 0x46000000#32),
    TRef.binary (TRef.of (T := ⟨S_, .f32⟩) main_call1_cst_1) (TRef.of (T := ⟨S_, .f32⟩) main_call1_v7) (TRef.of (T := ⟨S_, .f32⟩) main_call1_v8) subf,
    TRef.nullary (TRef.of (T := ⟨S_, .f32⟩) main_call1_cst_2) (constant S_ .f32 0x00000000#32),
    TRef.binary (TRef.of (T := ⟨S8192x512, .f32⟩) main_call1_v6) (TRef.of (T := ⟨S_, .f32⟩) main_call1_cst_2) (TRef.of (T := ⟨S512, .f32⟩) main_call1_v9) (fun x v => Host.reduceAdd x v reducesTo_S8192x512_S512_d0 h_S_),
    TRef.unary (TRef.of (T := ⟨S_, .f32⟩) main_call1_v8) (TRef.of (T := ⟨S512, .f32⟩) main_call1_v10) (broadcastInDim S512 ![] bcast_S_S512),
    TRef.binary (TRef.of (T := ⟨S512, .f32⟩) main_call1_v9) (TRef.of (T := ⟨S512, .f32⟩) main_call1_v10) (TRef.of (T := ⟨S512, .f32⟩) main_call1_v11) Host.divf,
    TRef.nullary (TRef.of (T := ⟨S_, .f32⟩) main_call1_cst_3) (constant S_ .f32 0x00000000#32),
    TRef.binary (TRef.of (T := ⟨S_, .f32⟩) main_call1_v8) (TRef.of (T := ⟨S_, .f32⟩) main_call1_cst_3) (TRef.of (T := ⟨S_, .i1⟩) main_call1_v12) (cmpf .ogt),
    TRef.nullary (TRef.of (T := ⟨S_, .f32⟩) main_call1_cst_4) (constant S_ .f32 0x7FC00000#32),
    TRef.unary (TRef.of (T := ⟨S_, .f32⟩) main_call1_cst_4) (TRef.of (T := ⟨S_, .f32⟩) main_call1_call0_v0) id,
    TRef.unary (TRef.of (T := ⟨S_, .f32⟩) main_call1_call0_v0) (TRef.of (T := ⟨S512, .f32⟩) main_call1_call0_v1) (broadcastInDim S512 ![] bcast_S_S512),
    TRef.ternary (TRef.of (T := ⟨S_, .i1⟩) main_call1_v12) (TRef.of (T := ⟨S512, .f32⟩) main_call1_v11) (TRef.of (T := ⟨S512, .f32⟩) main_call1_call0_v1) (TRef.of (T := ⟨S512, .f32⟩) main_v12) (fun p a b => select (broadcastInDim S512 ![] bcast_S_S512 p) a b),
    unary main_v11 main_v13 (broadcastInDim S1x512 ![1] bcast_S512_S1x512_1 : (⟨S512, .f32⟩ : BufTy).Contents (Elt F) → (⟨S1x512, .f32⟩ : BufTy).Contents (Elt F)),
    unary main_v13 main_v14 (broadcastInDim S8192x512 ![0, 1] bcast_S1x512_S8192x512_0_1 : (⟨S1x512, .f32⟩ : BufTy).Contents (Elt F) → (⟨S8192x512, .f32⟩ : BufTy).Contents (Elt F)),
    binary main_v8 main_v14 main_v15 (subf : (⟨S8192x512, .f32⟩ : BufTy).Contents (Elt F) → (⟨S8192x512, .f32⟩ : BufTy).Contents (Elt F) → (⟨S8192x512, .f32⟩ : BufTy).Contents (Elt F)),
    nullary main_cst_1 (constant S_ .f32 0x3727C5AC#32),
    unary main_cst_1 main_v16 (broadcastInDim S512 ![] bcast_S_S512 : (⟨S_, .f32⟩ : BufTy).Contents (Elt F) → (⟨S512, .f32⟩ : BufTy).Contents (Elt F)),
    binary main_v12 main_v16 main_v17 (addf : (⟨S512, .f32⟩ : BufTy).Contents (Elt F) → (⟨S512, .f32⟩ : BufTy).Contents (Elt F) → (⟨S512, .f32⟩ : BufTy).Contents (Elt F)),
    unary main_v17 main_v18 (Host.rsqrt : (⟨S512, .f32⟩ : BufTy).Contents (Elt F) → (⟨S512, .f32⟩ : BufTy).Contents (Elt F)),
    unary main_v18 main_v19 (broadcastInDim S1x512 ![1] bcast_S512_S1x512_1 : (⟨S512, .f32⟩ : BufTy).Contents (Elt F) → (⟨S1x512, .f32⟩ : BufTy).Contents (Elt F)),
    unary main_v19 main_v20 (broadcastInDim S8192x512 ![0, 1] bcast_S1x512_S8192x512_0_1 : (⟨S1x512, .f32⟩ : BufTy).Contents (Elt F) → (⟨S8192x512, .f32⟩ : BufTy).Contents (Elt F)),
    binary main_v15 main_v20 main_v21 (mulf : (⟨S8192x512, .f32⟩ : BufTy).Contents (Elt F) → (⟨S8192x512, .f32⟩ : BufTy).Contents (Elt F) → (⟨S8192x512, .f32⟩ : BufTy).Contents (Elt F)),
    unary main_arg5 main_v22 (broadcastInDim S1x512 ![1] bcast_S512_S1x512_1 : (⟨S512, .f32⟩ : BufTy).Contents (Elt F) → (⟨S1x512, .f32⟩ : BufTy).Contents (Elt F)),
    unary main_v22 main_v23 (broadcastInDim S8192x512 ![0, 1] bcast_S1x512_S8192x512_0_1 : (⟨S1x512, .f32⟩ : BufTy).Contents (Elt F) → (⟨S8192x512, .f32⟩ : BufTy).Contents (Elt F)),
    binary main_v21 main_v23 main_v24 (mulf : (⟨S8192x512, .f32⟩ : BufTy).Contents (Elt F) → (⟨S8192x512, .f32⟩ : BufTy).Contents (Elt F) → (⟨S8192x512, .f32⟩ : BufTy).Contents (Elt F)),
    unary main_arg6 main_v25 (broadcastInDim S1x512 ![1] bcast_S512_S1x512_1 : (⟨S512, .f32⟩ : BufTy).Contents (Elt F) → (⟨S1x512, .f32⟩ : BufTy).Contents (Elt F)),
    unary main_v25 main_v26 (broadcastInDim S8192x512 ![0, 1] bcast_S1x512_S8192x512_0_1 : (⟨S1x512, .f32⟩ : BufTy).Contents (Elt F) → (⟨S8192x512, .f32⟩ : BufTy).Contents (Elt F)),
    binary main_v24 main_v26 main_v27 (addf : (⟨S8192x512, .f32⟩ : BufTy).Contents (Elt F) → (⟨S8192x512, .f32⟩ : BufTy).Contents (Elt F) → (⟨S8192x512, .f32⟩ : BufTy).Contents (Elt F)),
    binary main_arg1 main_v27 main_v28 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)),
    binary main_arg2 main_v27 main_v29 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)),
    binary main_v28 main_v29 main_v30 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    nary ![main_v5, main_v27, main_v30] main_v31 (fun u => concatenate S8192x1792 1 [⟨S8192x256, u 0⟩, ⟨S8192x512, u 1⟩, ⟨S8192x1024, u 2⟩] concatenates_S8192x256_S8192x512_S8192x1024_S8192x1792_d1),
    unary main_arg7 main_v32 ((transpose S1792x64 [1, 0] · transposes_S64x1792_S1792x64_1_0) : (⟨S64x1792, .f32⟩ : BufTy).Contents (Elt F) → (⟨S1792x64, .f32⟩ : BufTy).Contents (Elt F)),
    binary main_v31 main_v32 main_v33 ((fun l r => Host.dotGeneral dot_S8192x1792_S1792x64_S8192x64_1_0_0_1_n_n none l r) : (⟨S8192x1792, .f32⟩ : BufTy).Contents (Elt F) → (⟨S1792x64, .f32⟩ : BufTy).Contents (Elt F) → (⟨S8192x64, .f32⟩ : BufTy).Contents (Elt F)),
    unary main_arg8 main_v34 (broadcastInDim S1x64 ![1] bcast_S64_S1x64_1 : (⟨S64, .f32⟩ : BufTy).Contents (Elt F) → (⟨S1x64, .f32⟩ : BufTy).Contents (Elt F)),
    unary main_v34 main_v35 (broadcastInDim S8192x64 ![0, 1] bcast_S1x64_S8192x64_0_1 : (⟨S1x64, .f32⟩ : BufTy).Contents (Elt F) → (⟨S8192x64, .f32⟩ : BufTy).Contents (Elt F)),
    binary main_v33 main_v35 main_v36 (addf : (⟨S8192x64, .f32⟩ : BufTy).Contents (Elt F) → (⟨S8192x64, .f32⟩ : BufTy).Contents (Elt F) → (⟨S8192x64, .f32⟩ : BufTy).Contents (Elt F)) ]

set_option maxRecDepth 8192 in
set_option maxHeartbeats 4000000 in
/-- @main is that straight line: the callees' bodies unfold at their calls. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨
    unary_bufs_sub .., binary_bufs_sub .., unary_bufs_sub .., unary_bufs_sub .., binary_bufs_sub .., nullary_bufs_sub ..,
    unary_bufs_sub .., binary_bufs_sub .., binary_bufs_sub .., binary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., binary_bufs_sub .., binary_bufs_sub .., nary_bufs_sub .., unary_bufs_sub ..,
    binary_bufs_sub .., unary_bufs_sub .., unary_bufs_sub .., binary_bufs_sub ..⟩

end Cert.ReferenceIdeal.RefRun

end
-- ==== Proof.Ref.Run.lean ====
/- The run of the idealized reference program read back: every weakly fair execution terminates with the
   result buffer at the stages' composed term of the nine argument arrays, and the arguments unchanged.
   The list of operations is cut into seven stretches, one per stage; each stretch's result is read off its own
   short fold, and a buffer a stretch does not write is carried through it. -/
import proofs.«109319_j33217277067916_2_alg».proof.Proof.Ref.Stages
import proofs.«109319_j33217277067916_2_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Three more stages, over the arrays the later operations read from their buffers -/

/-- The normalisation over a given mean and variance: `zR` is it at the array's own. -/
def normR (zr : (⟨S8192x512, .f32⟩ : BufTy).Contents (Elt F)) (mv vv a5 a6 : (⟨S512, .f32⟩ : BufTy).Contents (Elt F)) : (⟨S8192x512, .f32⟩ : BufTy).Contents (Elt F) :=
  addf
    (mulf
      (mulf
        (subf zr (broadcastInDim S8192x512 ![0, 1] bcast_S1x512_S8192x512_0_1 (broadcastInDim S1x512 ![1] bcast_S512_S1x512_1 mv)))
        (broadcastInDim S8192x512 ![0, 1] bcast_S1x512_S8192x512_0_1 (broadcastInDim S1x512 ![1] bcast_S512_S1x512_1 (Host.rsqrt (addf vv (broadcastInDim S512 ![] bcast_S_S512 (constant S_ .f32 0x3727C5AC#32)))))))
      (broadcastInDim S8192x512 ![0, 1] bcast_S1x512_S8192x512_0_1 (broadcastInDim S1x512 ![1] bcast_S512_S1x512_1 a5)))
    (broadcastInDim S8192x512 ![0, 1] bcast_S1x512_S8192x512_0_1 (broadcastInDim S1x512 ![1] bcast_S512_S1x512_1 a6))

theorem zR_eq (zr : (⟨S8192x512, .f32⟩ : BufTy).Contents (Elt F)) (a5 a6 : (⟨S512, .f32⟩ : BufTy).Contents (Elt F)) :
    zR zr a5 a6 = normR zr (meanR zr) (varR zr) a5 a6 := rfl

/-- The final projection over a given second-hop array: `outR` is it at `z2R`. -/
def outAuxR (hv : (⟨S8192x256, .f32⟩ : BufTy).Contents (Elt F)) (zv : (⟨S8192x512, .f32⟩ : BufTy).Contents (Elt F)) (z2v : (⟨S8192x1024, .f32⟩ : BufTy).Contents (Elt F)) (a7 : (⟨S64x1792, .f32⟩ : BufTy).Contents (Elt F)) (a8 : (⟨S64, .f32⟩ : BufTy).Contents (Elt F)) : (⟨S8192x64, .f32⟩ : BufTy).Contents (Elt F) :=
  addf
    (Host.dotGeneral dot_S8192x1792_S1792x64_S8192x64_1_0_0_1_n_n none
      (concatenate S8192x1792 1 [⟨S8192x256, hv⟩, ⟨S8192x512, zv⟩, ⟨S8192x1024, z2v⟩]
        concatenates_S8192x256_S8192x512_S8192x1024_S8192x1792_d1)
      (transpose S1792x64 [1, 0] a7 transposes_S64x1792_S1792x64_1_0))
    (broadcastInDim S8192x64 ![0, 1] bcast_S1x64_S8192x64_0_1 (broadcastInDim S1x64 ![1] bcast_S64_S1x64_1 a8))

theorem outR_eq (hv : (⟨S8192x256, .f32⟩ : BufTy).Contents (Elt F)) (zv : (⟨S8192x512, .f32⟩ : BufTy).Contents (Elt F)) (a1 a2 : (⟨S8192x8192, .f32⟩ : BufTy).Contents (Elt F)) (a7 : (⟨S64x1792, .f32⟩ : BufTy).Contents (Elt F)) (a8 : (⟨S64, .f32⟩ : BufTy).Contents (Elt F)) :
    outR hv zv a1 a2 a7 a8 = outAuxR hv zv (z2R zv a1 a2) a7 a8 := rfl

/-! ## The operations in seven stretches, one per stage -/

/-- The fold over two lists in turn is the fold over their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation whose one written buffer is in a list writes inside the list. -/
theorem writes_sub {W : List (Ref sig .tc)} {op : HloOp τ sig (Elt F)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- Operations 0 to 7: the stretch that computes `main_v5`. -/
abbrev seg1 : List (HloOp τ sig (Elt F)) :=
  [ unary main_arg3 main_v0 ((transpose S512x256 [1, 0] · transposes_S256x512_S512x256_1_0) : (⟨S256x512, .f32⟩ : BufTy).Contents (Elt F) → (⟨S512x256, .f32⟩ : BufTy).Contents (Elt F)),
    binary main_arg0 main_v0 main_v1 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg4 main_v2 (broadcastInDim S1x256 ![1] bcast_S256_S1x256_1 : (⟨S256, .f32⟩ : BufTy).Contents (Elt F) → (⟨S1x256, .f32⟩ : BufTy).Contents (Elt F)),
    unary main_v2 main_v3 (broadcastInDim S8192x256 ![0, 1] bcast_S1x256_S8192x256_0_1 : (⟨S1x256, .f32⟩ : BufTy).Contents (Elt F) → (⟨S8192x256, .f32⟩ : BufTy).Contents (Elt F)),
    binary main_v1 main_v3 main_v4 (addf : (⟨S8192x256, .f32⟩ : BufTy).Contents (Elt F) → (⟨S8192x256, .f32⟩ : BufTy).Contents (Elt F) → (⟨S8192x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x256, .f32⟩) main_call0_v0) (broadcastInDim S8192x256 ![] bcast_S_S8192x256),
    TRef.binary (TRef.of (T := ⟨S8192x256, .f32⟩) main_v4) (TRef.of (T := ⟨S8192x256, .f32⟩) main_call0_v0) (TRef.of (T := ⟨S8192x256, .f32⟩) main_v5) maximumf ]

/-- The buffers stretch 1 writes. -/
abbrev wr1 : List (Ref sig .tc) := [main_v0, main_v1, main_v2, main_v3, main_v4, main_call0_cst, main_call0_v0, main_v5]

theorem seg1_writes : (seg1 : List (HloOp τ sig (Elt F))).Forall fun op => op.writes ⊆ ((wr1).map (Proc.devRef (τ := τ) .tc)).toFinset :=
  ⟨writes_sub main_v0 rfl (by decide),
    writes_sub main_v1 rfl (by decide),
    writes_sub main_v2 rfl (by decide),
    writes_sub main_v3 rfl (by decide),
    writes_sub main_v4 rfl (by decide),
    writes_sub main_call0_cst rfl (by decide),
    writes_sub main_call0_v0 rfl (by decide),
    writes_sub main_v5 rfl (by decide)⟩

/-- A buffer stretch 1 does not write keeps its contents. -/
theorem seg1_frame (W : Valuation τ sig (Elt F)) {r : Ref sig .tc} (hr : r ∉ wr1) :
    after seg1 W (r : DevRef τ sig) = W (r : DevRef τ sig) :=
  after_of_writes_sub seg1 W seg1_writes hr

set_option maxRecDepth 8192 in
set_option maxHeartbeats 1000000 in
/-- Stretch 1's result is its stage of the buffers it reads. -/
theorem seg1_res (W : Valuation τ sig (Elt F)) :
    after seg1 W (main_v5 : DevRef τ sig) = hR (W (main_arg0 : DevRef τ sig)) (W (main_arg3 : DevRef τ sig)) (W (main_arg4 : DevRef τ sig)) := by
  simp (disch := decide) only [after_cons, after_nil,
      nullary_result', unary_result', binary_result', ternary_result', nary_result',
      nullary_result_ne', unary_result_ne', binary_result_ne', ternary_result_ne', nary_result_ne',
      Matrix.cons_val_zero, Matrix.cons_val_one, Matrix.cons_val_two, Matrix.head_cons, Matrix.tail_cons]
  rfl

/-- Operations 8 to 10: the stretch that computes `main_v8`. -/
abbrev seg2 : List (HloOp τ sig (Elt F)) :=
  [ binary main_arg1 main_v5 main_v6 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_arg2 main_v5 main_v7 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_v6 main_v7 main_v8 ((fun a b => concatenate S8192x512 1 [⟨S8192x256, a⟩, ⟨S8192x256, b⟩] concatenates_S8192x256_S8192x256_S8192x512_d1) : (⟨S8192x256, .f32⟩ : BufTy).Contents (Elt F) → (⟨S8192x256, .f32⟩ : BufTy).Contents (Elt F) → (⟨S8192x512, .f32⟩ : BufTy).Contents (Elt F)) ]

/-- The buffers stretch 2 writes. -/
abbrev wr2 : List (Ref sig .tc) := [main_v6, main_v7, main_v8]

theorem seg2_writes : (seg2 : List (HloOp τ sig (Elt F))).Forall fun op => op.writes ⊆ ((wr2).map (Proc.devRef (τ := τ) .tc)).toFinset :=
  ⟨writes_sub main_v6 rfl (by decide),
    writes_sub main_v7 rfl (by decide),
    writes_sub main_v8 rfl (by decide)⟩

/-- A buffer stretch 2 does not write keeps its contents. -/
theorem seg2_frame (W : Valuation τ sig (Elt F)) {r : Ref sig .tc} (hr : r ∉ wr2) :
    after seg2 W (r : DevRef τ sig) = W (r : DevRef τ sig) :=
  after_of_writes_sub seg2 W seg2_writes hr

set_option maxRecDepth 8192 in
set_option maxHeartbeats 1000000 in
/-- Stretch 2's result is its stage of the buffers it reads. -/
theorem seg2_res (W : Valuation τ sig (Elt F)) :
    after seg2 W (main_v8 : DevRef τ sig) = zrawR (W (main_arg1 : DevRef τ sig)) (W (main_arg2 : DevRef τ sig)) (W (main_v5 : DevRef τ sig)) := by
  simp (disch := decide) only [after_cons, after_nil,
      nullary_result', unary_result', binary_result', ternary_result', nary_result',
      nullary_result_ne', unary_result_ne', binary_result_ne', ternary_result_ne', nary_result_ne',
      Matrix.cons_val_zero, Matrix.cons_val_one, Matrix.cons_val_two, Matrix.head_cons, Matrix.tail_cons]
  rfl

/-- Operations 11 to 15: the stretch that computes `main_v11`. -/
abbrev seg3 : List (HloOp τ sig (Elt F)) :=
  [ nullary main_cst (constant S_ .f32 0x00000000#32),
    binary main_v8 main_cst main_v9 ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)),
    nullary main_cst_0 (constant S_ .f32 0x46000000#32),
    unary main_cst_0 main_v10 (broadcastInDim S512 ![] bcast_S_S512 : (⟨S_, .f32⟩ : BufTy).Contents (Elt F) → (⟨S512, .f32⟩ : BufTy).Contents (Elt F)),
    binary main_v9 main_v10 main_v11 (Host.divf : (⟨S512, .f32⟩ : BufTy).Contents (Elt F) → (⟨S512, .f32⟩ : BufTy).Contents (Elt F) → (⟨S512, .f32⟩ : BufTy).Contents (Elt F)) ]

/-- The buffers stretch 3 writes. -/
abbrev wr3 : List (Ref sig .tc) := [main_cst, main_v9, main_cst_0, main_v10, main_v11]

theorem seg3_writes : (seg3 : List (HloOp τ sig (Elt F))).Forall fun op => op.writes ⊆ ((wr3).map (Proc.devRef (τ := τ) .tc)).toFinset :=
  ⟨writes_sub main_cst rfl (by decide),
    writes_sub main_v9 rfl (by decide),
    writes_sub main_cst_0 rfl (by decide),
    writes_sub main_v10 rfl (by decide),
    writes_sub main_v11 rfl (by decide)⟩

/-- A buffer stretch 3 does not write keeps its contents. -/
theorem seg3_frame (W : Valuation τ sig (Elt F)) {r : Ref sig .tc} (hr : r ∉ wr3) :
    after seg3 W (r : DevRef τ sig) = W (r : DevRef τ sig) :=
  after_of_writes_sub seg3 W seg3_writes hr

set_option maxRecDepth 8192 in
set_option maxHeartbeats 1000000 in
/-- Stretch 3's result is its stage of the buffers it reads. -/
theorem seg3_res (W : Valuation τ sig (Elt F)) :
    after seg3 W (main_v11 : DevRef τ sig) = meanR (W (main_v8 : DevRef τ sig)) := by
  simp (disch := decide) only [after_cons, after_nil,
      nullary_result', unary_result', binary_result', ternary_result', nary_result',
      nullary_result_ne', unary_result_ne', binary_result_ne', ternary_result_ne', nary_result_ne',
      Matrix.cons_val_zero, Matrix.cons_val_one, Matrix.cons_val_two, Matrix.head_cons, Matrix.tail_cons]
  rfl

/-- Operations 16 to 38: the stretch that computes `main_v12`. -/
abbrev seg4 : List (HloOp τ sig (Elt F)) :=
  [ nullary main_c (constantI S_ 32 0#32),
    TRef.nullary (TRef.of (T := ⟨S_, .f32⟩) main_call1_cst) (constant S_ .f32 0x00000000#32),
    TRef.binary (TRef.of (T := ⟨S8192x512, .f32⟩) main_v8) (TRef.of (T := ⟨S_, .f32⟩) main_call1_cst) (TRef.of (T := ⟨S512, .f32⟩) main_call1_v0) (fun x v => Host.reduceAdd x v reducesTo_S8192x512_S512_d0 h_S_),
    TRef.unary (TRef.of (T := ⟨S512, .f32⟩) main_call1_v0) (TRef.of (T := ⟨S1x512, .f32⟩) main_call1_v1) (broadcastInDim S1x512 ![1] bcast_S512_S1x512_1),
    TRef.nullary (TRef.of (T := ⟨S_, .f32⟩) main_call1_cst_0) (constant S_ .f32 0x46000000#32),
    TRef.unary (TRef.of (T := ⟨S_, .f32⟩) main_call1_cst_0) (TRef.of (T := ⟨S1x512, .f32⟩) main_call1_v2) (broadcastInDim S1x512 ![] bcast_S_S1x512),
    TRef.binary (TRef.of (T := ⟨S1x512, .f32⟩) main_call1_v1) (TRef.of (T := ⟨S1x512, .f32⟩) main_call1_v2) (TRef.of (T := ⟨S1x512, .f32⟩) main_call1_v3) Host.divf,
    TRef.unary (TRef.of (T := ⟨S1x512, .f32⟩) main_call1_v3) (TRef.of (T := ⟨S8192x512, .f32⟩) main_call1_v4) (broadcastInDim S8192x512 ![0, 1] bcast_S1x512_S8192x512_0_1),
    TRef.binary (TRef.of (T := ⟨S8192x512, .f32⟩) main_v8) (TRef.of (T := ⟨S8192x512, .f32⟩) main_call1_v4) (TRef.of (T := ⟨S8192x512, .f32⟩) main_call1_v5) subf,
    TRef.binary (TRef.of (T := ⟨S8192x512, .f32⟩) main_call1_v5) (TRef.of (T := ⟨S8192x512, .f32⟩) main_call1_v5) (TRef.of (T := ⟨S8192x512, .f32⟩) main_call1_v6) mulf,
    TRef.unary (TRef.of (T := ⟨S_, .i32⟩) main_c) (TRef.of (T := ⟨S_, .f32⟩) main_call1_v7) (sitofp .f32),
    TRef.nullary (TRef.of (T := ⟨S_, .f32⟩) main_call1_cst_1) (constant S_ .f32 0x46000000#32),
    TRef.binary (TRef.of (T := ⟨S_, .f32⟩) main_call1_cst_1) (TRef.of (T := ⟨S_, .f32⟩) main_call1_v7) (TRef.of (T := ⟨S_, .f32⟩) main_call1_v8) subf,
    TRef.nullary (TRef.of (T := ⟨S_, .f32⟩) main_call1_cst_2) (constant S_ .f32 0x00000000#32),
    TRef.binary (TRef.of (T := ⟨S8192x512, .f32⟩) main_call1_v6) (TRef.of (T := ⟨S_, .f32⟩) main_call1_cst_2) (TRef.of (T := ⟨S512, .f32⟩) main_call1_v9) (fun x v => Host.reduceAdd x v reducesTo_S8192x512_S512_d0 h_S_),
    TRef.unary (TRef.of (T := ⟨S_, .f32⟩) main_call1_v8) (TRef.of (T := ⟨S512, .f32⟩) main_call1_v10) (broadcastInDim S512 ![] bcast_S_S512),
    TRef.binary (TRef.of (T := ⟨S512, .f32⟩) main_call1_v9) (TRef.of (T := ⟨S512, .f32⟩) main_call1_v10) (TRef.of (T := ⟨S512, .f32⟩) main_call1_v11) Host.divf,
    TRef.nullary (TRef.of (T := ⟨S_, .f32⟩) main_call1_cst_3) (constant S_ .f32 0x00000000#32),
    TRef.binary (TRef.of (T := ⟨S_, .f32⟩) main_call1_v8) (TRef.of (T := ⟨S_, .f32⟩) main_call1_cst_3) (TRef.of (T := ⟨S_, .i1⟩) main_call1_v12) (cmpf .ogt),
    TRef.nullary (TRef.of (T := ⟨S_, .f32⟩) main_call1_cst_4) (constant S_ .f32 0x7FC00000#32),
    TRef.unary (TRef.of (T := ⟨S_, .f32⟩) main_call1_cst_4) (TRef.of (T := ⟨S_, .f32⟩) main_call1_call0_v0) id,
    TRef.unary (TRef.of (T := ⟨S_, .f32⟩) main_call1_call0_v0) (TRef.of (T := ⟨S512, .f32⟩) main_call1_call0_v1) (broadcastInDim S512 ![] bcast_S_S512),
    TRef.ternary (TRef.of (T := ⟨S_, .i1⟩) main_call1_v12) (TRef.of (T := ⟨S512, .f32⟩) main_call1_v11) (TRef.of (T := ⟨S512, .f32⟩) main_call1_call0_v1) (TRef.of (T := ⟨S512, .f32⟩) main_v12) (fun p a b => select (broadcastInDim S512 ![] bcast_S_S512 p) a b) ]

/-- The buffers stretch 4 writes. -/
abbrev wr4 : List (Ref sig .tc) := [main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v12]

theorem seg4_writes : (seg4 : List (HloOp τ sig (Elt F))).Forall fun op => op.writes ⊆ ((wr4).map (Proc.devRef (τ := τ) .tc)).toFinset :=
  ⟨writes_sub main_c rfl (by decide),
    writes_sub main_call1_cst rfl (by decide),
    writes_sub main_call1_v0 rfl (by decide),
    writes_sub main_call1_v1 rfl (by decide),
    writes_sub main_call1_cst_0 rfl (by decide),
    writes_sub main_call1_v2 rfl (by decide),
    writes_sub main_call1_v3 rfl (by decide),
    writes_sub main_call1_v4 rfl (by decide),
    writes_sub main_call1_v5 rfl (by decide),
    writes_sub main_call1_v6 rfl (by decide),
    writes_sub main_call1_v7 rfl (by decide),
    writes_sub main_call1_cst_1 rfl (by decide),
    writes_sub main_call1_v8 rfl (by decide),
    writes_sub main_call1_cst_2 rfl (by decide),
    writes_sub main_call1_v9 rfl (by decide),
    writes_sub main_call1_v10 rfl (by decide),
    writes_sub main_call1_v11 rfl (by decide),
    writes_sub main_call1_cst_3 rfl (by decide),
    writes_sub main_call1_v12 rfl (by decide),
    writes_sub main_call1_cst_4 rfl (by decide),
    writes_sub main_call1_call0_v0 rfl (by decide),
    writes_sub main_call1_call0_v1 rfl (by decide),
    writes_sub main_v12 rfl (by decide)⟩

/-- A buffer stretch 4 does not write keeps its contents. -/
theorem seg4_frame (W : Valuation τ sig (Elt F)) {r : Ref sig .tc} (hr : r ∉ wr4) :
    after seg4 W (r : DevRef τ sig) = W (r : DevRef τ sig) :=
  after_of_writes_sub seg4 W seg4_writes hr

set_option maxRecDepth 8192 in
set_option maxHeartbeats 1000000 in
/-- Stretch 4's result is its stage of the buffers it reads. -/
theorem seg4_res (W : Valuation τ sig (Elt F)) :
    after seg4 W (main_v12 : DevRef τ sig) = varR (W (main_v8 : DevRef τ sig)) := by
  simp (disch := decide) only [after_cons, after_nil,
      nullary_result', unary_result', binary_result', ternary_result', nary_result',
      nullary_result_ne', unary_result_ne', binary_result_ne', ternary_result_ne', nary_result_ne',
      Matrix.cons_val_zero, Matrix.cons_val_one, Matrix.cons_val_two, Matrix.head_cons, Matrix.tail_cons]
  rfl

/-- Operations 39 to 54: the stretch that computes `main_v27`. -/
abbrev seg5 : List (HloOp τ sig (Elt F)) :=
  [ unary main_v11 main_v13 (broadcastInDim S1x512 ![1] bcast_S512_S1x512_1 : (⟨S512, .f32⟩ : BufTy).Contents (Elt F) → (⟨S1x512, .f32⟩ : BufTy).Contents (Elt F)),
    unary main_v13 main_v14 (broadcastInDim S8192x512 ![0, 1] bcast_S1x512_S8192x512_0_1 : (⟨S1x512, .f32⟩ : BufTy).Contents (Elt F) → (⟨S8192x512, .f32⟩ : BufTy).Contents (Elt F)),
    binary main_v8 main_v14 main_v15 (subf : (⟨S8192x512, .f32⟩ : BufTy).Contents (Elt F) → (⟨S8192x512, .f32⟩ : BufTy).Contents (Elt F) → (⟨S8192x512, .f32⟩ : BufTy).Contents (Elt F)),
    nullary main_cst_1 (constant S_ .f32 0x3727C5AC#32),
    unary main_cst_1 main_v16 (broadcastInDim S512 ![] bcast_S_S512 : (⟨S_, .f32⟩ : BufTy).Contents (Elt F) → (⟨S512, .f32⟩ : BufTy).Contents (Elt F)),
    binary main_v12 main_v16 main_v17 (addf : (⟨S512, .f32⟩ : BufTy).Contents (Elt F) → (⟨S512, .f32⟩ : BufTy).Contents (Elt F) → (⟨S512, .f32⟩ : BufTy).Contents (Elt F)),
    unary main_v17 main_v18 (Host.rsqrt : (⟨S512, .f32⟩ : BufTy).Contents (Elt F) → (⟨S512, .f32⟩ : BufTy).Contents (Elt F)),
    unary main_v18 main_v19 (broadcastInDim S1x512 ![1] bcast_S512_S1x512_1 : (⟨S512, .f32⟩ : BufTy).Contents (Elt F) → (⟨S1x512, .f32⟩ : BufTy).Contents (Elt F)),
    unary main_v19 main_v20 (broadcastInDim S8192x512 ![0, 1] bcast_S1x512_S8192x512_0_1 : (⟨S1x512, .f32⟩ : BufTy).Contents (Elt F) → (⟨S8192x512, .f32⟩ : BufTy).Contents (Elt F)),
    binary main_v15 main_v20 main_v21 (mulf : (⟨S8192x512, .f32⟩ : BufTy).Contents (Elt F) → (⟨S8192x512, .f32⟩ : BufTy).Contents (Elt F) → (⟨S8192x512, .f32⟩ : BufTy).Contents (Elt F)),
    unary main_arg5 main_v22 (broadcastInDim S1x512 ![1] bcast_S512_S1x512_1 : (⟨S512, .f32⟩ : BufTy).Contents (Elt F) → (⟨S1x512, .f32⟩ : BufTy).Contents (Elt F)),
    unary main_v22 main_v23 (broadcastInDim S8192x512 ![0, 1] bcast_S1x512_S8192x512_0_1 : (⟨S1x512, .f32⟩ : BufTy).Contents (Elt F) → (⟨S8192x512, .f32⟩ : BufTy).Contents (Elt F)),
    binary main_v21 main_v23 main_v24 (mulf : (⟨S8192x512, .f32⟩ : BufTy).Contents (Elt F) → (⟨S8192x512, .f32⟩ : BufTy).Contents (Elt F) → (⟨S8192x512, .f32⟩ : BufTy).Contents (Elt F)),
    unary main_arg6 main_v25 (broadcastInDim S1x512 ![1] bcast_S512_S1x512_1 : (⟨S512, .f32⟩ : BufTy).Contents (Elt F) → (⟨S1x512, .f32⟩ : BufTy).Contents (Elt F)),
    unary main_v25 main_v26 (broadcastInDim S8192x512 ![0, 1] bcast_S1x512_S8192x512_0_1 : (⟨S1x512, .f32⟩ : BufTy).Contents (Elt F) → (⟨S8192x512, .f32⟩ : BufTy).Contents (Elt F)),
    binary main_v24 main_v26 main_v27 (addf : (⟨S8192x512, .f32⟩ : BufTy).Contents (Elt F) → (⟨S8192x512, .f32⟩ : BufTy).Contents (Elt F) → (⟨S8192x512, .f32⟩ : BufTy).Contents (Elt F)) ]

/-- The buffers stretch 5 writes. -/
abbrev wr5 : List (Ref sig .tc) := [main_v13, main_v14, main_v15, main_cst_1, main_v16, main_v17, main_v18, main_v19, main_v20, main_v21, main_v22, main_v23, main_v24, main_v25, main_v26, main_v27]

theorem seg5_writes : (seg5 : List (HloOp τ sig (Elt F))).Forall fun op => op.writes ⊆ ((wr5).map (Proc.devRef (τ := τ) .tc)).toFinset :=
  ⟨writes_sub main_v13 rfl (by decide),
    writes_sub main_v14 rfl (by decide),
    writes_sub main_v15 rfl (by decide),
    writes_sub main_cst_1 rfl (by decide),
    writes_sub main_v16 rfl (by decide),
    writes_sub main_v17 rfl (by decide),
    writes_sub main_v18 rfl (by decide),
    writes_sub main_v19 rfl (by decide),
    writes_sub main_v20 rfl (by decide),
    writes_sub main_v21 rfl (by decide),
    writes_sub main_v22 rfl (by decide),
    writes_sub main_v23 rfl (by decide),
    writes_sub main_v24 rfl (by decide),
    writes_sub main_v25 rfl (by decide),
    writes_sub main_v26 rfl (by decide),
    writes_sub main_v27 rfl (by decide)⟩

/-- A buffer stretch 5 does not write keeps its contents. -/
theorem seg5_frame (W : Valuation τ sig (Elt F)) {r : Ref sig .tc} (hr : r ∉ wr5) :
    after seg5 W (r : DevRef τ sig) = W (r : DevRef τ sig) :=
  after_of_writes_sub seg5 W seg5_writes hr

set_option maxRecDepth 8192 in
set_option maxHeartbeats 1000000 in
/-- Stretch 5's result is its stage of the buffers it reads. -/
theorem seg5_res (W : Valuation τ sig (Elt F)) :
    after seg5 W (main_v27 : DevRef τ sig) = normR (W (main_v8 : DevRef τ sig)) (W (main_v11 : DevRef τ sig)) (W (main_v12 : DevRef τ sig)) (W (main_arg5 : DevRef τ sig)) (W (main_arg6 : DevRef τ sig)) := by
  simp (disch := decide) only [after_cons, after_nil,
      nullary_result', unary_result', binary_result', ternary_result', nary_result',
      nullary_result_ne', unary_result_ne', binary_result_ne', ternary_result_ne', nary_result_ne',
      Matrix.cons_val_zero, Matrix.cons_val_one, Matrix.cons_val_two, Matrix.head_cons, Matrix.tail_cons]
  rfl

/-- Operations 55 to 57: the stretch that computes `main_v30`. -/
abbrev seg6 : List (HloOp τ sig (Elt F)) :=
  [ binary main_arg1 main_v27 main_v28 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)),
    binary main_arg2 main_v27 main_v29 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)),
    binary main_v28 main_v29 main_v30 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)) ]

/-- The buffers stretch 6 writes. -/
abbrev wr6 : List (Ref sig .tc) := [main_v28, main_v29, main_v30]

theorem seg6_writes : (seg6 : List (HloOp τ sig (Elt F))).Forall fun op => op.writes ⊆ ((wr6).map (Proc.devRef (τ := τ) .tc)).toFinset :=
  ⟨writes_sub main_v28 rfl (by decide),
    writes_sub main_v29 rfl (by decide),
    writes_sub main_v30 rfl (by decide)⟩

/-- A buffer stretch 6 does not write keeps its contents. -/
theorem seg6_frame (W : Valuation τ sig (Elt F)) {r : Ref sig .tc} (hr : r ∉ wr6) :
    after seg6 W (r : DevRef τ sig) = W (r : DevRef τ sig) :=
  after_of_writes_sub seg6 W seg6_writes hr

set_option maxRecDepth 8192 in
set_option maxHeartbeats 1000000 in
/-- Stretch 6's result is its stage of the buffers it reads. -/
theorem seg6_res (W : Valuation τ sig (Elt F)) :
    after seg6 W (main_v30 : DevRef τ sig) = z2R (W (main_v27 : DevRef τ sig)) (W (main_arg1 : DevRef τ sig)) (W (main_arg2 : DevRef τ sig)) := by
  simp (disch := decide) only [after_cons, after_nil,
      nullary_result', unary_result', binary_result', ternary_result', nary_result',
      nullary_result_ne', unary_result_ne', binary_result_ne', ternary_result_ne', nary_result_ne',
      Matrix.cons_val_zero, Matrix.cons_val_one, Matrix.cons_val_two, Matrix.head_cons, Matrix.tail_cons]
  rfl

/-- Operations 58 to 63: the stretch that computes `main_v36`. -/
abbrev seg7 : List (HloOp τ sig (Elt F)) :=
  [ nary ![main_v5, main_v27, main_v30] main_v31 (fun u => concatenate S8192x1792 1 [⟨S8192x256, u 0⟩, ⟨S8192x512, u 1⟩, ⟨S8192x1024, u 2⟩] concatenates_S8192x256_S8192x512_S8192x1024_S8192x1792_d1),
    unary main_arg7 main_v32 ((transpose S1792x64 [1, 0] · transposes_S64x1792_S1792x64_1_0) : (⟨S64x1792, .f32⟩ : BufTy).Contents (Elt F) → (⟨S1792x64, .f32⟩ : BufTy).Contents (Elt F)),
    binary main_v31 main_v32 main_v33 ((fun l r => Host.dotGeneral dot_S8192x1792_S1792x64_S8192x64_1_0_0_1_n_n none l r) : (⟨S8192x1792, .f32⟩ : BufTy).Contents (Elt F) → (⟨S1792x64, .f32⟩ : BufTy).Contents (Elt F) → (⟨S8192x64, .f32⟩ : BufTy).Contents (Elt F)),
    unary main_arg8 main_v34 (broadcastInDim S1x64 ![1] bcast_S64_S1x64_1 : (⟨S64, .f32⟩ : BufTy).Contents (Elt F) → (⟨S1x64, .f32⟩ : BufTy).Contents (Elt F)),
    unary main_v34 main_v35 (broadcastInDim S8192x64 ![0, 1] bcast_S1x64_S8192x64_0_1 : (⟨S1x64, .f32⟩ : BufTy).Contents (Elt F) → (⟨S8192x64, .f32⟩ : BufTy).Contents (Elt F)),
    binary main_v33 main_v35 main_v36 (addf : (⟨S8192x64, .f32⟩ : BufTy).Contents (Elt F) → (⟨S8192x64, .f32⟩ : BufTy).Contents (Elt F) → (⟨S8192x64, .f32⟩ : BufTy).Contents (Elt F)) ]

/-- The buffers stretch 7 writes. -/
abbrev wr7 : List (Ref sig .tc) := [main_v31, main_v32, main_v33, main_v34, main_v35, main_v36]

theorem seg7_writes : (seg7 : List (HloOp τ sig (Elt F))).Forall fun op => op.writes ⊆ ((wr7).map (Proc.devRef (τ := τ) .tc)).toFinset :=
  ⟨writes_sub main_v31 rfl (by decide),
    writes_sub main_v32 rfl (by decide),
    writes_sub main_v33 rfl (by decide),
    writes_sub main_v34 rfl (by decide),
    writes_sub main_v35 rfl (by decide),
    writes_sub main_v36 rfl (by decide)⟩

/-- A buffer stretch 7 does not write keeps its contents. -/
theorem seg7_frame (W : Valuation τ sig (Elt F)) {r : Ref sig .tc} (hr : r ∉ wr7) :
    after seg7 W (r : DevRef τ sig) = W (r : DevRef τ sig) :=
  after_of_writes_sub seg7 W seg7_writes hr

set_option maxRecDepth 8192 in
set_option maxHeartbeats 1000000 in
/-- Stretch 7's result is its stage of the buffers it reads. -/
theorem seg7_res (W : Valuation τ sig (Elt F)) :
    after seg7 W (main_v36 : DevRef τ sig) = outAuxR (W (main_v5 : DevRef τ sig)) (W (main_v27 : DevRef τ sig)) (W (main_v30 : DevRef τ sig)) (W (main_arg7 : DevRef τ sig)) (W (main_arg8 : DevRef τ sig)) := by
  simp (disch := decide) only [after_cons, after_nil,
      nullary_result', unary_result', binary_result', ternary_result', nary_result',
      nullary_result_ne', unary_result_ne', binary_result_ne', ternary_result_ne', nary_result_ne',
      Matrix.cons_val_zero, Matrix.cons_val_one, Matrix.cons_val_two, Matrix.head_cons, Matrix.tail_cons]
  rfl

set_option maxRecDepth 8192 in
/-- The list is the seven stretches in order. -/
theorem ops_split : (ops : List (HloOp τ sig (Elt F))) = seg1 ++ (seg2 ++ (seg3 ++ (seg4 ++ (seg5 ++ (seg6 ++ seg7))))) := rfl

/-- Every buffer the program writes. -/
abbrev wrAll : List (Ref sig .tc) := [main_v0, main_v1, main_v2, main_v3, main_v4, main_call0_cst, main_call0_v0, main_v5, main_v6, main_v7, main_v8, main_cst, main_v9, main_cst_0, main_v10, main_v11, main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v12, main_v13, main_v14, main_v15, main_cst_1, main_v16, main_v17, main_v18, main_v19, main_v20, main_v21, main_v22, main_v23, main_v24, main_v25, main_v26, main_v27, main_v28, main_v29, main_v30, main_v31, main_v32, main_v33, main_v34, main_v35, main_v36]

set_option maxRecDepth 8192 in
theorem ops_writes : (ops : List (HloOp τ sig (Elt F))).Forall fun op => op.writes ⊆ ((wrAll).map (Proc.devRef (τ := τ) .tc)).toFinset :=
  ⟨writes_sub main_v0 rfl (by decide),
    writes_sub main_v1 rfl (by decide),
    writes_sub main_v2 rfl (by decide),
    writes_sub main_v3 rfl (by decide),
    writes_sub main_v4 rfl (by decide),
    writes_sub main_call0_cst rfl (by decide),
    writes_sub main_call0_v0 rfl (by decide),
    writes_sub main_v5 rfl (by decide),
    writes_sub main_v6 rfl (by decide),
    writes_sub main_v7 rfl (by decide),
    writes_sub main_v8 rfl (by decide),
    writes_sub main_cst rfl (by decide),
    writes_sub main_v9 rfl (by decide),
    writes_sub main_cst_0 rfl (by decide),
    writes_sub main_v10 rfl (by decide),
    writes_sub main_v11 rfl (by decide),
    writes_sub main_c rfl (by decide),
    writes_sub main_call1_cst rfl (by decide),
    writes_sub main_call1_v0 rfl (by decide),
    writes_sub main_call1_v1 rfl (by decide),
    writes_sub main_call1_cst_0 rfl (by decide),
    writes_sub main_call1_v2 rfl (by decide),
    writes_sub main_call1_v3 rfl (by decide),
    writes_sub main_call1_v4 rfl (by decide),
    writes_sub main_call1_v5 rfl (by decide),
    writes_sub main_call1_v6 rfl (by decide),
    writes_sub main_call1_v7 rfl (by decide),
    writes_sub main_call1_cst_1 rfl (by decide),
    writes_sub main_call1_v8 rfl (by decide),
    writes_sub main_call1_cst_2 rfl (by decide),
    writes_sub main_call1_v9 rfl (by decide),
    writes_sub main_call1_v10 rfl (by decide),
    writes_sub main_call1_v11 rfl (by decide),
    writes_sub main_call1_cst_3 rfl (by decide),
    writes_sub main_call1_v12 rfl (by decide),
    writes_sub main_call1_cst_4 rfl (by decide),
    writes_sub main_call1_call0_v0 rfl (by decide),
    writes_sub main_call1_call0_v1 rfl (by decide),
    writes_sub main_v12 rfl (by decide),
    writes_sub main_v13 rfl (by decide),
    writes_sub main_v14 rfl (by decide),
    writes_sub main_v15 rfl (by decide),
    writes_sub main_cst_1 rfl (by decide),
    writes_sub main_v16 rfl (by decide),
    writes_sub main_v17 rfl (by decide),
    writes_sub main_v18 rfl (by decide),
    writes_sub main_v19 rfl (by decide),
    writes_sub main_v20 rfl (by decide),
    writes_sub main_v21 rfl (by decide),
    writes_sub main_v22 rfl (by decide),
    writes_sub main_v23 rfl (by decide),
    writes_sub main_v24 rfl (by decide),
    writes_sub main_v25 rfl (by decide),
    writes_sub main_v26 rfl (by decide),
    writes_sub main_v27 rfl (by decide),
    writes_sub main_v28 rfl (by decide),
    writes_sub main_v29 rfl (by decide),
    writes_sub main_v30 rfl (by decide),
    writes_sub main_v31 rfl (by decide),
    writes_sub main_v32 rfl (by decide),
    writes_sub main_v33 rfl (by decide),
    writes_sub main_v34 rfl (by decide),
    writes_sub main_v35 rfl (by decide),
    writes_sub main_v36 rfl (by decide)⟩

/-- A buffer the program does not write keeps its contents: the arguments among them. -/
theorem ops_frame (V : Valuation τ sig (Elt F)) {r : Ref sig .tc} (hr : r ∉ wrAll) :
    after ops V (r : DevRef τ sig) = V (r : DevRef τ sig) :=
  after_of_writes_sub ops V ops_writes hr

/-! ## The fold at the result and at the arguments -/

set_option maxRecDepth 8192 in
set_option maxHeartbeats 1000000 in
/-- The fold of the whole list at the result buffer is `out` of the arguments' contents: stretch by stretch, each
    stretch's result its stage of what the earlier stretches left in the buffers it reads. -/
theorem out_eq (V : Valuation τ sig (Elt F)) :
    after ops V (main_v36 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  have h1_v5 : (after seg1 V) (main_v5 : DevRef τ sig) = (hR (V (main_arg0 : DevRef τ sig)) (V (main_arg3 : DevRef τ sig)) (V (main_arg4 : DevRef τ sig))) :=
    (seg1_res V).trans (by rfl)
  have h1_arg1 : (after seg1 V) (main_arg1 : DevRef τ sig) = (V (main_arg1 : DevRef τ sig)) :=
    seg1_frame V (by decide)
  have h1_arg2 : (after seg1 V) (main_arg2 : DevRef τ sig) = (V (main_arg2 : DevRef τ sig)) :=
    seg1_frame V (by decide)
  have h1_arg5 : (after seg1 V) (main_arg5 : DevRef τ sig) = (V (main_arg5 : DevRef τ sig)) :=
    seg1_frame V (by decide)
  have h1_arg6 : (after seg1 V) (main_arg6 : DevRef τ sig) = (V (main_arg6 : DevRef τ sig)) :=
    seg1_frame V (by decide)
  have h1_arg7 : (after seg1 V) (main_arg7 : DevRef τ sig) = (V (main_arg7 : DevRef τ sig)) :=
    seg1_frame V (by decide)
  have h1_arg8 : (after seg1 V) (main_arg8 : DevRef τ sig) = (V (main_arg8 : DevRef τ sig)) :=
    seg1_frame V (by decide)
  have h2_v8 : (after seg2 (after seg1 V)) (main_v8 : DevRef τ sig) = (zrawR (V (main_arg1 : DevRef τ sig)) (V (main_arg2 : DevRef τ sig)) (hR (V (main_arg0 : DevRef τ sig)) (V (main_arg3 : DevRef τ sig)) (V (main_arg4 : DevRef τ sig)))) :=
    (seg2_res (after seg1 V)).trans (by rw [h1_arg1, h1_arg2, h1_v5])
  have h2_v5 : (after seg2 (after seg1 V)) (main_v5 : DevRef τ sig) = (hR (V (main_arg0 : DevRef τ sig)) (V (main_arg3 : DevRef τ sig)) (V (main_arg4 : DevRef τ sig))) :=
    (seg2_frame (after seg1 V) (by decide)).trans h1_v5
  have h2_arg1 : (after seg2 (after seg1 V)) (main_arg1 : DevRef τ sig) = (V (main_arg1 : DevRef τ sig)) :=
    (seg2_frame (after seg1 V) (by decide)).trans h1_arg1
  have h2_arg2 : (after seg2 (after seg1 V)) (main_arg2 : DevRef τ sig) = (V (main_arg2 : DevRef τ sig)) :=
    (seg2_frame (after seg1 V) (by decide)).trans h1_arg2
  have h2_arg5 : (after seg2 (after seg1 V)) (main_arg5 : DevRef τ sig) = (V (main_arg5 : DevRef τ sig)) :=
    (seg2_frame (after seg1 V) (by decide)).trans h1_arg5
  have h2_arg6 : (after seg2 (after seg1 V)) (main_arg6 : DevRef τ sig) = (V (main_arg6 : DevRef τ sig)) :=
    (seg2_frame (after seg1 V) (by decide)).trans h1_arg6
  have h2_arg7 : (after seg2 (after seg1 V)) (main_arg7 : DevRef τ sig) = (V (main_arg7 : DevRef τ sig)) :=
    (seg2_frame (after seg1 V) (by decide)).trans h1_arg7
  have h2_arg8 : (after seg2 (after seg1 V)) (main_arg8 : DevRef τ sig) = (V (main_arg8 : DevRef τ sig)) :=
    (seg2_frame (after seg1 V) (by decide)).trans h1_arg8
  have h3_v11 : (after seg3 (after seg2 (after seg1 V))) (main_v11 : DevRef τ sig) = (meanR (zrawR (V (main_arg1 : DevRef τ sig)) (V (main_arg2 : DevRef τ sig)) (hR (V (main_arg0 : DevRef τ sig)) (V (main_arg3 : DevRef τ sig)) (V (main_arg4 : DevRef τ sig))))) :=
    (seg3_res (after seg2 (after seg1 V))).trans (by rw [h2_v8])
  have h3_v8 : (after seg3 (after seg2 (after seg1 V))) (main_v8 : DevRef τ sig) = (zrawR (V (main_arg1 : DevRef τ sig)) (V (main_arg2 : DevRef τ sig)) (hR (V (main_arg0 : DevRef τ sig)) (V (main_arg3 : DevRef τ sig)) (V (main_arg4 : DevRef τ sig)))) :=
    (seg3_frame (after seg2 (after seg1 V)) (by decide)).trans h2_v8
  have h3_v5 : (after seg3 (after seg2 (after seg1 V))) (main_v5 : DevRef τ sig) = (hR (V (main_arg0 : DevRef τ sig)) (V (main_arg3 : DevRef τ sig)) (V (main_arg4 : DevRef τ sig))) :=
    (seg3_frame (after seg2 (after seg1 V)) (by decide)).trans h2_v5
  have h3_arg1 : (after seg3 (after seg2 (after seg1 V))) (main_arg1 : DevRef τ sig) = (V (main_arg1 : DevRef τ sig)) :=
    (seg3_frame (after seg2 (after seg1 V)) (by decide)).trans h2_arg1
  have h3_arg2 : (after seg3 (after seg2 (after seg1 V))) (main_arg2 : DevRef τ sig) = (V (main_arg2 : DevRef τ sig)) :=
    (seg3_frame (after seg2 (after seg1 V)) (by decide)).trans h2_arg2
  have h3_arg5 : (after seg3 (after seg2 (after seg1 V))) (main_arg5 : DevRef τ sig) = (V (main_arg5 : DevRef τ sig)) :=
    (seg3_frame (after seg2 (after seg1 V)) (by decide)).trans h2_arg5
  have h3_arg6 : (after seg3 (after seg2 (after seg1 V))) (main_arg6 : DevRef τ sig) = (V (main_arg6 : DevRef τ sig)) :=
    (seg3_frame (after seg2 (after seg1 V)) (by decide)).trans h2_arg6
  have h3_arg7 : (after seg3 (after seg2 (after seg1 V))) (main_arg7 : DevRef τ sig) = (V (main_arg7 : DevRef τ sig)) :=
    (seg3_frame (after seg2 (after seg1 V)) (by decide)).trans h2_arg7
  have h3_arg8 : (after seg3 (after seg2 (after seg1 V))) (main_arg8 : DevRef τ sig) = (V (main_arg8 : DevRef τ sig)) :=
    (seg3_frame (after seg2 (after seg1 V)) (by decide)).trans h2_arg8
  have h4_v12 : (after seg4 (after seg3 (after seg2 (after seg1 V)))) (main_v12 : DevRef τ sig) = (varR (zrawR (V (main_arg1 : DevRef τ sig)) (V (main_arg2 : DevRef τ sig)) (hR (V (main_arg0 : DevRef τ sig)) (V (main_arg3 : DevRef τ sig)) (V (main_arg4 : DevRef τ sig))))) :=
    (seg4_res (after seg3 (after seg2 (after seg1 V)))).trans (by rw [h3_v8])
  have h4_v11 : (after seg4 (after seg3 (after seg2 (after seg1 V)))) (main_v11 : DevRef τ sig) = (meanR (zrawR (V (main_arg1 : DevRef τ sig)) (V (main_arg2 : DevRef τ sig)) (hR (V (main_arg0 : DevRef τ sig)) (V (main_arg3 : DevRef τ sig)) (V (main_arg4 : DevRef τ sig))))) :=
    (seg4_frame (after seg3 (after seg2 (after seg1 V))) (by decide)).trans h3_v11
  have h4_v8 : (after seg4 (after seg3 (after seg2 (after seg1 V)))) (main_v8 : DevRef τ sig) = (zrawR (V (main_arg1 : DevRef τ sig)) (V (main_arg2 : DevRef τ sig)) (hR (V (main_arg0 : DevRef τ sig)) (V (main_arg3 : DevRef τ sig)) (V (main_arg4 : DevRef τ sig)))) :=
    (seg4_frame (after seg3 (after seg2 (after seg1 V))) (by decide)).trans h3_v8
  have h4_v5 : (after seg4 (after seg3 (after seg2 (after seg1 V)))) (main_v5 : DevRef τ sig) = (hR (V (main_arg0 : DevRef τ sig)) (V (main_arg3 : DevRef τ sig)) (V (main_arg4 : DevRef τ sig))) :=
    (seg4_frame (after seg3 (after seg2 (after seg1 V))) (by decide)).trans h3_v5
  have h4_arg1 : (after seg4 (after seg3 (after seg2 (after seg1 V)))) (main_arg1 : DevRef τ sig) = (V (main_arg1 : DevRef τ sig)) :=
    (seg4_frame (after seg3 (after seg2 (after seg1 V))) (by decide)).trans h3_arg1
  have h4_arg2 : (after seg4 (after seg3 (after seg2 (after seg1 V)))) (main_arg2 : DevRef τ sig) = (V (main_arg2 : DevRef τ sig)) :=
    (seg4_frame (after seg3 (after seg2 (after seg1 V))) (by decide)).trans h3_arg2
  have h4_arg5 : (after seg4 (after seg3 (after seg2 (after seg1 V)))) (main_arg5 : DevRef τ sig) = (V (main_arg5 : DevRef τ sig)) :=
    (seg4_frame (after seg3 (after seg2 (after seg1 V))) (by decide)).trans h3_arg5
  have h4_arg6 : (after seg4 (after seg3 (after seg2 (after seg1 V)))) (main_arg6 : DevRef τ sig) = (V (main_arg6 : DevRef τ sig)) :=
    (seg4_frame (after seg3 (after seg2 (after seg1 V))) (by decide)).trans h3_arg6
  have h4_arg7 : (after seg4 (after seg3 (after seg2 (after seg1 V)))) (main_arg7 : DevRef τ sig) = (V (main_arg7 : DevRef τ sig)) :=
    (seg4_frame (after seg3 (after seg2 (after seg1 V))) (by decide)).trans h3_arg7
  have h4_arg8 : (after seg4 (after seg3 (after seg2 (after seg1 V)))) (main_arg8 : DevRef τ sig) = (V (main_arg8 : DevRef τ sig)) :=
    (seg4_frame (after seg3 (after seg2 (after seg1 V))) (by decide)).trans h3_arg8
  have h5_v27 : (after seg5 (after seg4 (after seg3 (after seg2 (after seg1 V))))) (main_v27 : DevRef τ sig) = (normR (zrawR (V (main_arg1 : DevRef τ sig)) (V (main_arg2 : DevRef τ sig)) (hR (V (main_arg0 : DevRef τ sig)) (V (main_arg3 : DevRef τ sig)) (V (main_arg4 : DevRef τ sig)))) (meanR (zrawR (V (main_arg1 : DevRef τ sig)) (V (main_arg2 : DevRef τ sig)) (hR (V (main_arg0 : DevRef τ sig)) (V (main_arg3 : DevRef τ sig)) (V (main_arg4 : DevRef τ sig))))) (varR (zrawR (V (main_arg1 : DevRef τ sig)) (V (main_arg2 : DevRef τ sig)) (hR (V (main_arg0 : DevRef τ sig)) (V (main_arg3 : DevRef τ sig)) (V (main_arg4 : DevRef τ sig))))) (V (main_arg5 : DevRef τ sig)) (V (main_arg6 : DevRef τ sig))) :=
    (seg5_res (after seg4 (after seg3 (after seg2 (after seg1 V))))).trans (by rw [h4_v8, h4_v11, h4_v12, h4_arg5, h4_arg6])
  have h5_v5 : (after seg5 (after seg4 (after seg3 (after seg2 (after seg1 V))))) (main_v5 : DevRef τ sig) = (hR (V (main_arg0 : DevRef τ sig)) (V (main_arg3 : DevRef τ sig)) (V (main_arg4 : DevRef τ sig))) :=
    (seg5_frame (after seg4 (after seg3 (after seg2 (after seg1 V)))) (by decide)).trans h4_v5
  have h5_arg1 : (after seg5 (after seg4 (after seg3 (after seg2 (after seg1 V))))) (main_arg1 : DevRef τ sig) = (V (main_arg1 : DevRef τ sig)) :=
    (seg5_frame (after seg4 (after seg3 (after seg2 (after seg1 V)))) (by decide)).trans h4_arg1
  have h5_arg2 : (after seg5 (after seg4 (after seg3 (after seg2 (after seg1 V))))) (main_arg2 : DevRef τ sig) = (V (main_arg2 : DevRef τ sig)) :=
    (seg5_frame (after seg4 (after seg3 (after seg2 (after seg1 V)))) (by decide)).trans h4_arg2
  have h5_arg7 : (after seg5 (after seg4 (after seg3 (after seg2 (after seg1 V))))) (main_arg7 : DevRef τ sig) = (V (main_arg7 : DevRef τ sig)) :=
    (seg5_frame (after seg4 (after seg3 (after seg2 (after seg1 V)))) (by decide)).trans h4_arg7
  have h5_arg8 : (after seg5 (after seg4 (after seg3 (after seg2 (after seg1 V))))) (main_arg8 : DevRef τ sig) = (V (main_arg8 : DevRef τ sig)) :=
    (seg5_frame (after seg4 (after seg3 (after seg2 (after seg1 V)))) (by decide)).trans h4_arg8
  have h6_v30 : (after seg6 (after seg5 (after seg4 (after seg3 (after seg2 (after seg1 V)))))) (main_v30 : DevRef τ sig) = (z2R (normR (zrawR (V (main_arg1 : DevRef τ sig)) (V (main_arg2 : DevRef τ sig)) (hR (V (main_arg0 : DevRef τ sig)) (V (main_arg3 : DevRef τ sig)) (V (main_arg4 : DevRef τ sig)))) (meanR (zrawR (V (main_arg1 : DevRef τ sig)) (V (main_arg2 : DevRef τ sig)) (hR (V (main_arg0 : DevRef τ sig)) (V (main_arg3 : DevRef τ sig)) (V (main_arg4 : DevRef τ sig))))) (varR (zrawR (V (main_arg1 : DevRef τ sig)) (V (main_arg2 : DevRef τ sig)) (hR (V (main_arg0 : DevRef τ sig)) (V (main_arg3 : DevRef τ sig)) (V (main_arg4 : DevRef τ sig))))) (V (main_arg5 : DevRef τ sig)) (V (main_arg6 : DevRef τ sig))) (V (main_arg1 : DevRef τ sig)) (V (main_arg2 : DevRef τ sig))) :=
    (seg6_res (after seg5 (after seg4 (after seg3 (after seg2 (after seg1 V)))))).trans (by rw [h5_v27, h5_arg1, h5_arg2])
  have h6_v27 : (after seg6 (after seg5 (after seg4 (after seg3 (after seg2 (after seg1 V)))))) (main_v27 : DevRef τ sig) = (normR (zrawR (V (main_arg1 : DevRef τ sig)) (V (main_arg2 : DevRef τ sig)) (hR (V (main_arg0 : DevRef τ sig)) (V (main_arg3 : DevRef τ sig)) (V (main_arg4 : DevRef τ sig)))) (meanR (zrawR (V (main_arg1 : DevRef τ sig)) (V (main_arg2 : DevRef τ sig)) (hR (V (main_arg0 : DevRef τ sig)) (V (main_arg3 : DevRef τ sig)) (V (main_arg4 : DevRef τ sig))))) (varR (zrawR (V (main_arg1 : DevRef τ sig)) (V (main_arg2 : DevRef τ sig)) (hR (V (main_arg0 : DevRef τ sig)) (V (main_arg3 : DevRef τ sig)) (V (main_arg4 : DevRef τ sig))))) (V (main_arg5 : DevRef τ sig)) (V (main_arg6 : DevRef τ sig))) :=
    (seg6_frame (after seg5 (after seg4 (after seg3 (after seg2 (after seg1 V))))) (by decide)).trans h5_v27
  have h6_v5 : (after seg6 (after seg5 (after seg4 (after seg3 (after seg2 (after seg1 V)))))) (main_v5 : DevRef τ sig) = (hR (V (main_arg0 : DevRef τ sig)) (V (main_arg3 : DevRef τ sig)) (V (main_arg4 : DevRef τ sig))) :=
    (seg6_frame (after seg5 (after seg4 (after seg3 (after seg2 (after seg1 V))))) (by decide)).trans h5_v5
  have h6_arg7 : (after seg6 (after seg5 (after seg4 (after seg3 (after seg2 (after seg1 V)))))) (main_arg7 : DevRef τ sig) = (V (main_arg7 : DevRef τ sig)) :=
    (seg6_frame (after seg5 (after seg4 (after seg3 (after seg2 (after seg1 V))))) (by decide)).trans h5_arg7
  have h6_arg8 : (after seg6 (after seg5 (after seg4 (after seg3 (after seg2 (after seg1 V)))))) (main_arg8 : DevRef τ sig) = (V (main_arg8 : DevRef τ sig)) :=
    (seg6_frame (after seg5 (after seg4 (after seg3 (after seg2 (after seg1 V))))) (by decide)).trans h5_arg8
  have h7_v36 : (after seg7 (after seg6 (after seg5 (after seg4 (after seg3 (after seg2 (after seg1 V))))))) (main_v36 : DevRef τ sig) = (outAuxR (hR (V (main_arg0 : DevRef τ sig)) (V (main_arg3 : DevRef τ sig)) (V (main_arg4 : DevRef τ sig))) (normR (zrawR (V (main_arg1 : DevRef τ sig)) (V (main_arg2 : DevRef τ sig)) (hR (V (main_arg0 : DevRef τ sig)) (V (main_arg3 : DevRef τ sig)) (V (main_arg4 : DevRef τ sig)))) (meanR (zrawR (V (main_arg1 : DevRef τ sig)) (V (main_arg2 : DevRef τ sig)) (hR (V (main_arg0 : DevRef τ sig)) (V (main_arg3 : DevRef τ sig)) (V (main_arg4 : DevRef τ sig))))) (varR (zrawR (V (main_arg1 : DevRef τ sig)) (V (main_arg2 : DevRef τ sig)) (hR (V (main_arg0 : DevRef τ sig)) (V (main_arg3 : DevRef τ sig)) (V (main_arg4 : DevRef τ sig))))) (V (main_arg5 : DevRef τ sig)) (V (main_arg6 : DevRef τ sig))) (z2R (normR (zrawR (V (main_arg1 : DevRef τ sig)) (V (main_arg2 : DevRef τ sig)) (hR (V (main_arg0 : DevRef τ sig)) (V (main_arg3 : DevRef τ sig)) (V (main_arg4 : DevRef τ sig)))) (meanR (zrawR (V (main_arg1 : DevRef τ sig)) (V (main_arg2 : DevRef τ sig)) (hR (V (main_arg0 : DevRef τ sig)) (V (main_arg3 : DevRef τ sig)) (V (main_arg4 : DevRef τ sig))))) (varR (zrawR (V (main_arg1 : DevRef τ sig)) (V (main_arg2 : DevRef τ sig)) (hR (V (main_arg0 : DevRef τ sig)) (V (main_arg3 : DevRef τ sig)) (V (main_arg4 : DevRef τ sig))))) (V (main_arg5 : DevRef τ sig)) (V (main_arg6 : DevRef τ sig))) (V (main_arg1 : DevRef τ sig)) (V (main_arg2 : DevRef τ sig))) (V (main_arg7 : DevRef τ sig)) (V (main_arg8 : DevRef τ sig))) :=
    (seg7_res (after seg6 (after seg5 (after seg4 (after seg3 (after seg2 (after seg1 V))))))).trans (by rw [h6_v5, h6_v27, h6_v30, h6_arg7, h6_arg8])
  rw [ops_split]
  simp only [after_app]
  exact h7_v36.trans rfl

/-! ## The run -/

/-- On every device, for any float values, from any memory with zero counters: every weakly fair execution of
    @main terminates with the result buffer at `out` of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v36)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v36).trans (out_eq (launchContents m c)),
      (h c main_arg0).trans (ops_frame (launchContents m c) (by decide)),
      (h c main_arg1).trans (ops_frame (launchContents m c) (by decide)),
      (h c main_arg2).trans (ops_frame (launchContents m c) (by decide)),
      (h c main_arg3).trans (ops_frame (launchContents m c) (by decide)),
      (h c main_arg4).trans (ops_frame (launchContents m c) (by decide)),
      (h c main_arg5).trans (ops_frame (launchContents m c) (by decide)),
      (h c main_arg6).trans (ops_frame (launchContents m c) (by decide)),
      (h c main_arg7).trans (ops_frame (launchContents m c) (by decide)),
      (h c main_arg8).trans (ops_frame (launchContents m c) (by decide))⟩)
    (run_seq scopedRefs_eq scopedSems_eq defs main (fun _ => ops) main_eq (fun _ => ops_sub) m ρ)

end Cert.ReferenceIdeal.RefRun

end
-- ==== Proof.Ref.ReadH.lean ====
/- The reference's first two stages read at an index, at the ideal values: the embedding
   `relu (x · Weᵀ + be)` and the two neighbourhood products side by side are the specification's `h` and `zraw`
   of the curried argument arrays. A host product read at an index is the sum over the one contracted coordinate;
   a transpose swaps the coordinates; a broadcast row reads the vector; the relu's zero constant is `0`. -/
import proofs.«109319_j33217277067916_2_alg».proof.Proof.Ref.Stages
import proofs.«109319_j33217277067916_2_alg».proof.Proof.Spec.Defs
import proofs.«109319_j33217277067916_2_alg».proof.Proof.Spec.Cur
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.ReferenceIdeal.ReadH

open Cert.ReferenceIdeal Cert.ReferenceIdeal.Gen Cert.ReferenceIdeal.RefRun
open Idealize.ShloMosaic Idealize.ShloMosaic.ValueIdx Cert.Spec
open scoped BigOperators

/-- The dimension numbers of the [8192, 512] × [512, 256] product: rows × contraction times contraction × columns. -/
abbrev D1 : DotDims S8192x512 S512x256 S8192x256 := dot_S8192x512_S512x256_S8192x256_1_0_0_1_n_n

/-- At output index (p, q) and contraction coordinate k the left operand is read at (p, k). -/
theorem lhs1 (p : Fin 8192) (q : Fin 256) (k : Fin 512) :
    D1.lhsIdx (ix2 p q) ((contrEquiv1 D1 512 rfl rfl).symm k) = ix2 p k := by
  funext a; apply Fin.ext
  match a with
  | ⟨0, _⟩ => simp [DotDims.lhsIdx, D1, dot_S8192x512_S512x256_S8192x256_1_0_0_1_n_n]; rfl
  | ⟨1, _⟩ =>
    refine (D1.lhsIdx_val_of_single (cl := 1) rfl (ix2 p q) _).trans ?_
    exact contrEquiv1_symm_val D1 512 rfl rfl k

/-- At output index (p, q) and contraction coordinate k the right operand is read at (k, q). -/
theorem rhs1 (p : Fin 8192) (q : Fin 256) (k : Fin 512) :
    D1.rhsIdx (ix2 p q) ((contrEquiv1 D1 512 rfl rfl).symm k) = ix2 k q := by
  funext a; apply Fin.ext
  match a with
  | ⟨0, _⟩ =>
    refine (D1.rhsIdx_val_of_single (cr := 0) rfl (ix2 p q) _).trans ?_
    exact contrEquiv1_symm_val D1 512 rfl rfl k
  | ⟨1, _⟩ => simp [DotDims.rhsIdx, D1, dot_S8192x512_S512x256_S8192x256_1_0_0_1_n_n]; rfl

/-- The host's product read at (p, q): the sum over k of lhs (p, k) · rhs (k, q). -/
theorem dot1_apply (lhs : FVec Ideal S8192x512 .f32) (rhs : FVec Ideal S512x256 .f32) (p : Fin 8192) (q : Fin 256) :
    Host.dotGeneral (F := Ideal) dot_S8192x512_S512x256_S8192x256_1_0_0_1_n_n none lhs rhs (ix2 p q)
      = ∑ k : Fin 512, lhs (ix2 p k) * rhs (ix2 k q) := by
  refine (Ideal.dotGeneral_apply D1 none .single lhs rhs (ix2 p q)).trans ?_
  rw [← Equiv.sum_comp (contrEquiv1 D1 512 rfl rfl).symm]
  refine Finset.sum_congr rfl fun k _ => ?_
  rw [lhs1, rhs1]

/-- The dimension numbers of the [8192, 8192] × [8192, 256] product: rows × contraction times contraction × columns. -/
abbrev D2 : DotDims S8192x8192 S8192x256 S8192x256 := dot_S8192x8192_S8192x256_S8192x256_1_0_0_1_n_n

/-- At output index (p, q) and contraction coordinate k the left operand is read at (p, k). -/
theorem lhs2 (p : Fin 8192) (q : Fin 256) (k : Fin 8192) :
    D2.lhsIdx (ix2 p q) ((contrEquiv1 D2 8192 rfl rfl).symm k) = ix2 p k := by
  funext a; apply Fin.ext
  match a with
  | ⟨0, _⟩ => simp [DotDims.lhsIdx, D2, dot_S8192x8192_S8192x256_S8192x256_1_0_0_1_n_n]; rfl
  | ⟨1, _⟩ =>
    refine (D2.lhsIdx_val_of_single (cl := 1) rfl (ix2 p q) _).trans ?_
    exact contrEquiv1_symm_val D2 8192 rfl rfl k

/-- At output index (p, q) and contraction coordinate k the right operand is read at (k, q). -/
theorem rhs2 (p : Fin 8192) (q : Fin 256) (k : Fin 8192) :
    D2.rhsIdx (ix2 p q) ((contrEquiv1 D2 8192 rfl rfl).symm k) = ix2 k q := by
  funext a; apply Fin.ext
  match a with
  | ⟨0, _⟩ =>
    refine (D2.rhsIdx_val_of_single (cr := 0) rfl (ix2 p q) _).trans ?_
    exact contrEquiv1_symm_val D2 8192 rfl rfl k
  | ⟨1, _⟩ => simp [DotDims.rhsIdx, D2, dot_S8192x8192_S8192x256_S8192x256_1_0_0_1_n_n]; rfl

/-- The host's product read at (p, q): the sum over k of lhs (p, k) · rhs (k, q). -/
theorem dot2_apply (lhs : FVec Ideal S8192x8192 .f32) (rhs : FVec Ideal S8192x256 .f32) (p : Fin 8192) (q : Fin 256) :
    Host.dotGeneral (F := Ideal) dot_S8192x8192_S8192x256_S8192x256_1_0_0_1_n_n none lhs rhs (ix2 p q)
      = ∑ k : Fin 8192, lhs (ix2 p k) * rhs (ix2 k q) := by
  refine (Ideal.dotGeneral_apply D2 none .single lhs rhs (ix2 p q)).trans ?_
  rw [← Equiv.sum_comp (contrEquiv1 D2 8192 rfl rfl).symm]
  refine Finset.sum_congr rfl fun k _ => ?_
  rw [lhs2, rhs2]

/-- A vector of `n` entries as one row, read at (u, t), is the vector at t. -/
theorem bcast_vec_row_apply {α : Type} {n : Nat} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) ?_
  intro a
  match a with
  | ⟨0, _⟩ =>
    show t.val = if n = 1 then 0 else t.val
    split_ifs with hn
    · have := t.isLt; omega
    · rfl

/-- The embedding stage at (i, j) is the specification's `h`. -/
theorem hR_apply (a0 : FVec Ideal S8192x512 .f32) (a3 : FVec Ideal S256x512 .f32) (a4 : FVec Ideal S256 .f32)
    (i : Fin 8192) (j : Fin 256) :
    hR (F := Ideal) a0 a3 a4 (ix2 i j) = Cert.Spec.h (cur2 a0) (cur2 a3) (cur1 a4) i j := by
  unfold hR Cert.Spec.h
  rw [maximumf_apply, addf_apply, dot1_apply, broadcastInDim_oneRow_apply, bcast_vec_row_apply,
    broadcastInDim_scalar_apply, constant_apply, Ideal.ofBits_zero_f32]
  refine congrArg (fun t => max (t + a4 (ix1 j)) 0) (Finset.sum_congr rfl fun k _ => ?_)
  exact congrArg (a0 (ix2 i k) * ·) (transpose_ix2_apply (a := 256) (b := 512) a3 _ k j)

/-- The two neighbourhood products side by side at (i, j) are the specification's `zraw`. -/
theorem zrawR_apply (a1 a2 : FVec Ideal S8192x8192 .f32) (hv : FVec Ideal S8192x256 .f32)
    (i : Fin 8192) (j : Fin 512) :
    zrawR (F := Ideal) a1 a2 hv (ix2 i j) = Cert.Spec.zraw (cur2 a1) (cur2 a2) (cur2 hv) i j := by
  unfold zrawR Cert.Spec.zraw
  by_cases hj : j.val < 256
  · rw [dif_pos hj]
    refine (concatenate_pair_apply_left (t := S8192x512) (s₁ := S8192x256) (s₂ := S8192x256) (1 : Fin 2) _ _ _
      (ix2 i j) rfl (ix2 i (⟨j.val, hj⟩ : Fin 256)) (by
        intro b
        match b with
        | ⟨0, _⟩ => rfl
        | ⟨1, _⟩ => rfl)).trans ?_
    exact dot2_apply a1 hv i ⟨j.val, hj⟩
  · rw [dif_neg hj]
    refine (concatenate_pair_apply_right (t := S8192x512) (s₁ := S8192x256) (s₂ := S8192x256) (1 : Fin 2) _ _ _
      (ix2 i j) rfl rfl (ix2 i (⟨j.val - 256, by omega⟩ : Fin 256)) (by
        intro b hb
        match b with
        | ⟨0, _⟩ => rfl
        | ⟨1, _⟩ => exact absurd rfl hb) (by
        show j.val - 256 + 256 = j.val; omega)).trans ?_
    exact dot2_apply a2 hv i ⟨j.val - 256, by omega⟩

end Cert.ReferenceIdeal.ReadH

end
-- ==== Proof.Ref.ReadZ.lean ====
/- The reference's normalisation stages read at an index, at the ideal values: the column mean, the column
   variance (its own mean, the centred squares' column sum, the divisor `8192 - 0` and the guard on the divisor's
   sign, which is decided: `8192 > 0`) and the normalised, scaled and shifted array are the specification's `mean`,
   `var` and `zRef` of the curried argument arrays. A column sum read at an index is the initial value plus the sum
   down the column; a scalar broadcast reads the scalar; a vector laid along a row reads the vector; a row laid down
   the rows reads the row. -/
import proofs.«109319_j33217277067916_2_alg».proof.Proof.Ref.Stages
import proofs.«109319_j33217277067916_2_alg».proof.Proof.Spec.Finite
import proofs.«109319_j33217277067916_2_alg».proof.Proof.Spec.Cur
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.ReferenceIdeal.ReadZ

open Cert.ReferenceIdeal Cert.ReferenceIdeal.Gen Cert.ReferenceIdeal.RefRun
open Idealize.ShloMosaic Idealize.ShloMosaic.ValueIdx Cert.Spec
open scoped BigOperators

/-! ## Single operations at an index -/

/-- A column sum read at an index: the initial value plus the sum down the column. -/
theorem colsum_apply (x : FVec Ideal S8192x512 .f32) (init : S_.Idx → EReal) (j : Fin 512) :
    Host.reduceAdd (F := Ideal) x init reducesTo_S8192x512_S512_d0 h_S_ (ix1 j)
      = init (Shape.Idx.first h_S_) + ∑ i : Fin 8192, x (ix2 i j) := by
  unfold Host.reduceAdd
  rw [Ideal.hostReduceAdd_def]
  refine (Ideal.hostReduceAdd_single reducesTo_S8192x512_S512_d0 (by decide : S8192x512.Reduces [0] S512) x _ (ix1 j)).trans ?_
  refine congrArg (init (Shape.Idx.first h_S_) + ·) (Finset.sum_congr rfl fun k _ => congrArg x ?_)
  funext a; apply Fin.ext
  match a with
  | ⟨0, _⟩ => rfl
  | ⟨1, _⟩ => rfl

theorem hostRsqrt_apply {s : Shape} {φ : FTy} (a : FVec Ideal s φ) (i : s.Idx) : Host.rsqrt a i = Ideal.rsqrt (a i) := rfl

/-- A scalar broadcast to any shape reads the scalar, at whichever name its one index goes by. -/
theorem bcast0_apply {α : Type} {t : Shape} (h : S_.BroadcastsInDim t (![] : Fin 0 → Fin t.rank)) (x : S_.Idx → α)
    (i : t.Idx) (k : S_.Idx) : broadcastInDim t ![] h x i = x k :=
  broadcastInDim_apply _ h x i k (fun a => a.elim0)

/-- A vector of `n` entries as one row, read at (u, t), is the vector at t. -/
theorem bcast_vec_row_apply {α : Type} {n : Nat} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) ?_
  intro a
  match a with
  | ⟨0, _⟩ =>
    show t.val = if n = 1 then 0 else t.val
    split_ifs with hn
    · have := t.isLt; omega
    · rfl

/-- The integer zero converted is the float zero. -/
theorem sitofp_zero32 : (FloatOps.sitofp (F := Ideal) .f32 (0#32 : BitVec 32) : EReal) = 0 := by
  show ((((0#32 : BitVec 32).toInt : ℤ) : ℝ) : EReal) = 0
  simp

/-- `8192 > 0`. -/
theorem cmp_ogt_E8192 : Ideal.cmp .ogt E8192 0 = 1#1 := by
  have h : (0 : EReal) < E8192 := by
    rw [E8192_eq]; exact_mod_cast (by norm_num : (0 : ℝ) < 8192)
  unfold Ideal.cmp
  simp [h]

/-! ## The stages -/

variable (zr : FVec Ideal S8192x512 .f32)

/-- The column mean at j is the specification's `mean`. -/
theorem meanR_apply (j : Fin 512) : RefRun.meanR (F := Ideal) zr (ix1 j) = mean (cur2 zr) j := by
  unfold RefRun.meanR
  rw [hostDivf_apply, colsum_apply, bcast0_apply _ _ _ (Shape.Idx.first h_S_), constant_apply, constant_apply,
    Ideal.ofBits_zero_f32]
  rfl

/-- The variance chain's own mean row at (u, j) is the specification's `mean`. -/
theorem meanRow_apply (u : Fin 1) (j : Fin 512) :
    Host.divf (F := Ideal) (φ := .f32)
        (broadcastInDim S1x512 ![1] bcast_S512_S1x512_1
          (Host.reduceAdd (F := Ideal) zr (constant (F := Ideal) S_ .f32 0x00000000#32) reducesTo_S8192x512_S512_d0 h_S_))
        (broadcastInDim S1x512 ![] bcast_S_S1x512 (constant (F := Ideal) S_ .f32 0x46000000#32)) (ix2 u j)
      = mean (cur2 zr) j := by
  rw [hostDivf_apply, bcast_vec_row_apply, colsum_apply, bcast0_apply _ _ _ (Shape.Idx.first h_S_), constant_apply,
    constant_apply, Ideal.ofBits_zero_f32]
  rfl

/-- The variance's divisor is the literal 8192: the correction converted is zero. -/
theorem varDenR_apply (k : S_.Idx) : varDenR (F := Ideal) k = E8192 := by
  unfold varDenR
  rw [subf_apply, constant_apply, sitofp_apply, constantI_apply, sitofp_zero32, sub_zero]
  rfl

/-- The centred squares' column sum over the divisor at j is the specification's `var`. -/
theorem varQuotR_apply (j : Fin 512) : varQuotR (F := Ideal) zr (ix1 j) = var (cur2 zr) j := by
  unfold varQuotR
  rw [hostDivf_apply, bcast0_apply _ _ _ (Shape.Idx.first h_S_), varDenR_apply, colsum_apply, constant_apply,
    Ideal.ofBits_zero_f32]
  unfold var
  refine congrArg (fun s => Ideal.div (0 + s) E8192) (Finset.sum_congr rfl fun i _ => ?_)
  rw [mulf_apply, subf_apply, broadcastInDim_oneRow_apply, meanRow_apply]
  rfl

/-- The guarded variance at j is the specification's `var`: the divisor is positive. -/
theorem varR_apply (j : Fin 512) : RefRun.varR (F := Ideal) zr (ix1 j) = var (cur2 zr) j := by
  unfold RefRun.varR
  rw [select_apply, bcast0_apply _ _ _ (Shape.Idx.first h_S_)]
  have hp : cmpf (F := Ideal) (φ := .f32) .ogt (varDenR (F := Ideal)) (constant (F := Ideal) S_ .f32 0x00000000#32)
      (Shape.Idx.first h_S_) = 1#1 := by
    rw [cmpf_apply, varDenR_apply, constant_apply, Ideal.ofBits_zero_f32]
    exact cmp_ogt_E8192
  rw [hp, select_one]
  exact varQuotR_apply zr j

/-- The normalised, scaled and shifted array at (i, j) is the specification's `zRef`. -/
theorem zR_apply (a5 a6 : FVec Ideal S512 .f32) (i : Fin 8192) (j : Fin 512) :
    zR (F := Ideal) zr a5 a6 (ix2 i j) = zRef (cur2 zr) (cur1 a5) (cur1 a6) i j := by
  unfold zR
  rw [addf_apply, mulf_apply, mulf_apply, subf_apply,
    broadcastInDim_oneRow_apply, broadcastInDim_oneRow_apply, broadcastInDim_oneRow_apply, broadcastInDim_oneRow_apply,
    bcast_vec_row_apply, bcast_vec_row_apply, bcast_vec_row_apply, bcast_vec_row_apply,
    hostRsqrt_apply, addf_apply, bcast0_apply _ _ _ (Shape.Idx.first h_S_), constant_apply, meanR_apply, varR_apply]
  rfl

end Cert.ReferenceIdeal.ReadZ

end
-- ==== Proof.Ref.ReadOut.lean ====
/- The reference's last stages read at an index, at the ideal values: the two neighbourhood products of the
   normalised features side by side, the concatenation `[h | z | A1 z | A2 z]` along 1792 columns, and the final
   projection `jk · Wfᵀ + bf` are the specification's `az`, `jk` and `outRef` of the curried argument arrays. -/
import proofs.«109319_j33217277067916_2_alg».proof.Proof.Ref.Stages
import proofs.«109319_j33217277067916_2_alg».proof.Proof.Spec.Defs
import proofs.«109319_j33217277067916_2_alg».proof.Proof.Spec.Cur
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.ReferenceIdeal.ReadOut

open Cert.ReferenceIdeal Cert.ReferenceIdeal.Gen Cert.ReferenceIdeal.RefRun
open Idealize.ShloMosaic Idealize.ShloMosaic.ValueIdx Cert.Spec
open scoped BigOperators

/-- The dimension numbers of the [8192, 8192] × [8192, 512] product: rows × contraction times contraction × columns. -/
abbrev D3 : DotDims S8192x8192 S8192x512 S8192x512 := dot_S8192x8192_S8192x512_S8192x512_1_0_0_1_n_n

/-- At output index (p, q) and contraction coordinate k the left operand is read at (p, k). -/
theorem lhs3 (p : Fin 8192) (q : Fin 512) (k : Fin 8192) :
    D3.lhsIdx (ix2 p q) ((contrEquiv1 D3 8192 rfl rfl).symm k) = ix2 p k := by
  funext a; apply Fin.ext
  match a with
  | ⟨0, _⟩ => simp [DotDims.lhsIdx, D3, dot_S8192x8192_S8192x512_S8192x512_1_0_0_1_n_n]; rfl
  | ⟨1, _⟩ =>
    refine (D3.lhsIdx_val_of_single (cl := 1) rfl (ix2 p q) _).trans ?_
    exact contrEquiv1_symm_val D3 8192 rfl rfl k

/-- At output index (p, q) and contraction coordinate k the right operand is read at (k, q). -/
theorem rhs3 (p : Fin 8192) (q : Fin 512) (k : Fin 8192) :
    D3.rhsIdx (ix2 p q) ((contrEquiv1 D3 8192 rfl rfl).symm k) = ix2 k q := by
  funext a; apply Fin.ext
  match a with
  | ⟨0, _⟩ =>
    refine (D3.rhsIdx_val_of_single (cr := 0) rfl (ix2 p q) _).trans ?_
    exact contrEquiv1_symm_val D3 8192 rfl rfl k
  | ⟨1, _⟩ => simp [DotDims.rhsIdx, D3, dot_S8192x8192_S8192x512_S8192x512_1_0_0_1_n_n]; rfl

/-- The host's product read at (p, q): the sum over k of lhs (p, k) · rhs (k, q). -/
theorem dot3_apply (lhs : FVec Ideal S8192x8192 .f32) (rhs : FVec Ideal S8192x512 .f32) (p : Fin 8192) (q : Fin 512) :
    Host.dotGeneral (F := Ideal) dot_S8192x8192_S8192x512_S8192x512_1_0_0_1_n_n none lhs rhs (ix2 p q)
      = ∑ k : Fin 8192, lhs (ix2 p k) * rhs (ix2 k q) := by
  refine (Ideal.dotGeneral_apply D3 none .single lhs rhs (ix2 p q)).trans ?_
  rw [← Equiv.sum_comp (contrEquiv1 D3 8192 rfl rfl).symm]
  refine Finset.sum_congr rfl fun k _ => ?_
  rw [lhs3, rhs3]

/-- The dimension numbers of the [8192, 1792] × [1792, 64] product: rows × contraction times contraction × columns. -/
abbrev D4 : DotDims S8192x1792 S1792x64 S8192x64 := dot_S8192x1792_S1792x64_S8192x64_1_0_0_1_n_n

/-- At output index (p, q) and contraction coordinate k the left operand is read at (p, k). -/
theorem lhs4 (p : Fin 8192) (q : Fin 64) (k : Fin 1792) :
    D4.lhsIdx (ix2 p q) ((contrEquiv1 D4 1792 rfl rfl).symm k) = ix2 p k := by
  funext a; apply Fin.ext
  match a with
  | ⟨0, _⟩ => simp [DotDims.lhsIdx, D4, dot_S8192x1792_S1792x64_S8192x64_1_0_0_1_n_n]; rfl
  | ⟨1, _⟩ =>
    refine (D4.lhsIdx_val_of_single (cl := 1) rfl (ix2 p q) _).trans ?_
    exact contrEquiv1_symm_val D4 1792 rfl rfl k

/-- At output index (p, q) and contraction coordinate k the right operand is read at (k, q). -/
theorem rhs4 (p : Fin 8192) (q : Fin 64) (k : Fin 1792) :
    D4.rhsIdx (ix2 p q) ((contrEquiv1 D4 1792 rfl rfl).symm k) = ix2 k q := by
  funext a; apply Fin.ext
  match a with
  | ⟨0, _⟩ =>
    refine (D4.rhsIdx_val_of_single (cr := 0) rfl (ix2 p q) _).trans ?_
    exact contrEquiv1_symm_val D4 1792 rfl rfl k
  | ⟨1, _⟩ => simp [DotDims.rhsIdx, D4, dot_S8192x1792_S1792x64_S8192x64_1_0_0_1_n_n]; rfl

/-- The host's product read at (p, q): the sum over k of lhs (p, k) · rhs (k, q). -/
theorem dot4_apply (lhs : FVec Ideal S8192x1792 .f32) (rhs : FVec Ideal S1792x64 .f32) (p : Fin 8192) (q : Fin 64) :
    Host.dotGeneral (F := Ideal) dot_S8192x1792_S1792x64_S8192x64_1_0_0_1_n_n none lhs rhs (ix2 p q)
      = ∑ k : Fin 1792, lhs (ix2 p k) * rhs (ix2 k q) := by
  refine (Ideal.dotGeneral_apply D4 none .single lhs rhs (ix2 p q)).trans ?_
  rw [← Equiv.sum_comp (contrEquiv1 D4 1792 rfl rfl).symm]
  refine Finset.sum_congr rfl fun k _ => ?_
  rw [lhs4, rhs4]

/-- A vector of `n` entries as one row, read at (u, t), is the vector at t. -/
theorem bcast_vec_row_apply {α : Type} {n : Nat} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) ?_
  intro a
  match a with
  | ⟨0, _⟩ =>
    show t.val = if n = 1 then 0 else t.val
    split_ifs with hn
    · have := t.isLt; omega
    · rfl

/-- A neighbourhood product of the normalised features at (i, j) is the specification's `az`. -/
theorem dot3_az (a : FVec Ideal S8192x8192 .f32) (zv : FVec Ideal S8192x512 .f32) (i : Fin 8192) (j : Fin 512) :
    Host.dotGeneral (F := Ideal) dot_S8192x8192_S8192x512_S8192x512_1_0_0_1_n_n none a zv (ix2 i j)
      = az (cur2 a) (cur2 zv) i j :=
  dot3_apply a zv i j

/-- The two products side by side at (i, k): `A1 z` on the first 512 columns, `A2 z` on the last 512. -/
theorem z2R_apply (zv : FVec Ideal S8192x512 .f32) (a1 a2 : FVec Ideal S8192x8192 .f32) (i : Fin 8192) (k : Fin 1024) :
    z2R (F := Ideal) zv a1 a2 (ix2 i k)
      = if hk : k.val < 512 then az (cur2 a1) (cur2 zv) i ⟨k.val, hk⟩
        else az (cur2 a2) (cur2 zv) i ⟨k.val - 512, by omega⟩ := by
  unfold z2R
  by_cases hk : k.val < 512
  · rw [dif_pos hk]
    refine (concatenate_pair_apply_left (t := S8192x1024) (s₁ := S8192x512) (s₂ := S8192x512) (1 : Fin 2) _ _ _
      (ix2 i k) rfl (ix2 i (⟨k.val, hk⟩ : Fin 512)) (by
        intro b
        match b with
        | ⟨0, _⟩ => rfl
        | ⟨1, _⟩ => rfl)).trans ?_
    exact dot3_az a1 zv i ⟨k.val, hk⟩
  · rw [dif_neg hk]
    refine (concatenate_pair_apply_right (t := S8192x1024) (s₁ := S8192x512) (s₂ := S8192x512) (1 : Fin 2) _ _ _
      (ix2 i k) rfl rfl (ix2 i (⟨k.val - 512, by omega⟩ : Fin 512)) (by
        intro b hb
        match b with
        | ⟨0, _⟩ => rfl
        | ⟨1, _⟩ => exact absurd rfl hb) (by
        show k.val - 512 + 512 = k.val; omega)).trans ?_
    exact dot3_az a2 zv i ⟨k.val - 512, by omega⟩

/-- The three-piece concatenation at (i, k) is the specification's `jk`. -/
theorem jkR_apply (hv : FVec Ideal S8192x256 .f32) (zv : FVec Ideal S8192x512 .f32) (a1 a2 : FVec Ideal S8192x8192 .f32)
    (i : Fin 8192) (k : Fin 1792) :
    jkR (F := Ideal) hv zv a1 a2 (ix2 i k) = jk (cur2 hv) (cur2 zv) (cur2 a1) (cur2 a2) i k := by
  unfold jkR jk
  by_cases h1 : k.val < 256
  · rw [dif_pos h1]
    exact concatenate_apply_piece (t := S8192x1792) (1 : Fin 2) _ _ (ix2 i k) 0 (by show (0 : ℕ) < 3; omega) S8192x256 hv rfl rfl 0 rfl
      (ix2 i (⟨k.val, h1⟩ : Fin 256)) (by
        intro b hb
        match b with
        | ⟨0, _⟩ => rfl
        | ⟨1, _⟩ => exact absurd rfl hb) (by
        show 0 + k.val = k.val; omega)
  · rw [dif_neg h1]
    by_cases h2 : k.val < 768
    · rw [dif_pos h2]
      exact concatenate_apply_piece (t := S8192x1792) (1 : Fin 2) _ _ (ix2 i k) 1 (by show (1 : ℕ) < 3; omega) S8192x512 zv rfl rfl 256 rfl
        (ix2 i (⟨k.val - 256, by omega⟩ : Fin 512)) (by
          intro b hb
          match b with
          | ⟨0, _⟩ => rfl
          | ⟨1, _⟩ => exact absurd rfl hb) (by
          show 256 + (k.val - 256) = k.val; omega)
    · rw [dif_neg h2]
      refine (concatenate_apply_piece (t := S8192x1792) (1 : Fin 2) _ _ (ix2 i k) 2 (by show (2 : ℕ) < 3; omega) S8192x1024
        (z2R (F := Ideal) zv a1 a2) rfl rfl 768 rfl
        (ix2 i (⟨k.val - 768, by omega⟩ : Fin 1024)) (by
          intro b hb
          match b with
          | ⟨0, _⟩ => rfl
          | ⟨1, _⟩ => exact absurd rfl hb) (by
          show 768 + (k.val - 768) = k.val; omega)).trans ?_
      refine (z2R_apply zv a1 a2 i ⟨k.val - 768, by omega⟩).trans ?_
      by_cases h3 : k.val < 1280
      · rw [dif_pos h3, dif_pos (show k.val - 768 < 512 by omega)]
      · rw [dif_neg h3, dif_neg (show ¬ (k.val - 768 < 512) by omega)]
        exact congrArg (az (cur2 a2) (cur2 zv) i) (Fin.ext (by show k.val - 768 - 512 = k.val - 1280; omega))

/-- The final projection at (i, o) is the specification's `outRef`. -/
theorem outR_apply (hv : FVec Ideal S8192x256 .f32) (zv : FVec Ideal S8192x512 .f32) (a1 a2 : FVec Ideal S8192x8192 .f32)
    (a7 : FVec Ideal S64x1792 .f32) (a8 : FVec Ideal S64 .f32) (i : Fin 8192) (o : Fin 64) :
    outR (F := Ideal) hv zv a1 a2 a7 a8 (ix2 i o)
      = outRef (cur2 hv) (cur2 zv) (cur2 a1) (cur2 a2) (cur2 a7) (cur1 a8) i o := by
  unfold outR outRef
  rw [addf_apply, dot4_apply, broadcastInDim_oneRow_apply, bcast_vec_row_apply]
  refine congrArg (· + a8 (ix1 o)) (Finset.sum_congr rfl fun k _ => ?_)
  exact congrArg₂ (· * ·) (jkR_apply hv zv a1 a2 i k) (transpose_ix2_apply (a := 64) (b := 1792) a7 _ k o)

end Cert.ReferenceIdeal.ReadOut

end
-- ==== Proof.Ref.ReadAll.lean ====
/- The reference's whole result read at an index, at the ideal values: the composition of its stages is the
   specification's `outRef` of the embedding `h`, the reference normalisation `zRef` of `zraw`, and the curried
   argument arrays. -/
import proofs.«109319_j33217277067916_2_alg».proof.Proof.Ref.Stages
import proofs.«109319_j33217277067916_2_alg».proof.Proof.Spec.Finite
import proofs.«109319_j33217277067916_2_alg».proof.Proof.Spec.Cur
import proofs.«109319_j33217277067916_2_alg».proof.Proof.Ref.ReadH
import proofs.«109319_j33217277067916_2_alg».proof.Proof.Ref.ReadZ
import proofs.«109319_j33217277067916_2_alg».proof.Proof.Ref.ReadOut
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.ReferenceIdeal.ReadAll

open Cert.ReferenceIdeal Cert.ReferenceIdeal.Gen Cert.ReferenceIdeal.RefRun
open Idealize.ShloMosaic Idealize.ShloMosaic.ValueIdx Cert.Spec
open scoped BigOperators

open Cert.ReferenceIdeal.ReadH Cert.ReferenceIdeal.ReadZ Cert.ReferenceIdeal.ReadOut

variable (a0 : FVec Ideal S8192x512 .f32) (a1 a2 : FVec Ideal S8192x8192 .f32) (a3 : FVec Ideal S256x512 .f32)
  (a4 : FVec Ideal S256 .f32) (a5 a6 : FVec Ideal S512 .f32) (a7 : FVec Ideal S64x1792 .f32) (a8 : FVec Ideal S64 .f32)

/-- The embedding stage, curried, is the specification's `h`. -/
theorem cur_hR : cur2 (hR (F := Ideal) a0 a3 a4) = h (cur2 a0) (cur2 a3) (cur1 a4) :=
  funext fun i => funext fun j => hR_apply a0 a3 a4 i j

/-- The neighbourhood-product stage of the embedding, curried, is the specification's `zraw` of `h`. -/
theorem cur_zrawR :
    cur2 (zrawR (F := Ideal) a1 a2 (hR (F := Ideal) a0 a3 a4))
      = zraw (cur2 a1) (cur2 a2) (h (cur2 a0) (cur2 a3) (cur1 a4)) :=
  funext fun i => funext fun j =>
    (zrawR_apply a1 a2 (hR (F := Ideal) a0 a3 a4) i j).trans (by rw [cur_hR])

/-- The normalisation stage, curried, is the specification's `zRef` of `zraw`. -/
theorem cur_zR :
    cur2 (zR (F := Ideal) (zrawR (F := Ideal) a1 a2 (hR (F := Ideal) a0 a3 a4)) a5 a6)
      = zRef (zraw (cur2 a1) (cur2 a2) (h (cur2 a0) (cur2 a3) (cur1 a4))) (cur1 a5) (cur1 a6) :=
  funext fun i => funext fun j =>
    (zR_apply (zrawR (F := Ideal) a1 a2 (hR (F := Ideal) a0 a3 a4)) a5 a6 i j).trans (by rw [cur_zrawR])

/-- THE REFERENCE'S RESULT AT (i, o). -/
theorem out_apply (i : Fin 8192) (o : Fin 64) :
    out (F := Ideal) a0 a1 a2 a3 a4 a5 a6 a7 a8 (ix2 i o)
      = outRef (h (cur2 a0) (cur2 a3) (cur1 a4))
          (zRef (zraw (cur2 a1) (cur2 a2) (h (cur2 a0) (cur2 a3) (cur1 a4))) (cur1 a5) (cur1 a6))
          (cur2 a1) (cur2 a2) (cur2 a7) (cur1 a8) i o := by
  unfold out
  refine (outR_apply _ _ a1 a2 a7 a8 i o).trans ?_
  rw [cur_hR, cur_zR]

end Cert.ReferenceIdeal.ReadAll

end
-- ==== Proof.Spec.Affine.lean ====
/- The folded normalisation: `z * scale + shift` with `scale = γ * rs` and `shift = β - mean * scale` equals
   `((z - mean) * rs) * γ + β` when every quantity is a real number. The identity needs distributivity, which
   fails at the infinities of the extended reals, so it is proved for finite arrays only. -/
import proofs.«109319_j33217277067916_2_alg».proof.Proof.Spec.Finite

noncomputable section

namespace Cert.Spec

open Idealize.ShloMosaic
open scoped BigOperators

/-- The identity on reals, written on their coercions. -/
theorem affine_real (a m s g b : ℝ) :
    (a : EReal) * ((g : EReal) * (s : EReal)) + ((b : EReal) - (m : EReal) * ((g : EReal) * (s : EReal)))
      = (((a : EReal) - (m : EReal)) * (s : EReal)) * (g : EReal) + (b : EReal) := by
  simp only [← EReal.coe_mul, ← EReal.coe_sub, ← EReal.coe_add]
  exact congrArg (fun t : ℝ => (t : EReal)) (by ring)

/-- For a finite array and finite `γ`, `β` the folded form is the reference form. -/
theorem zKer_eq_zRef {zr : Fin 8192 → Fin 512 → EReal} {γ β : Fin 512 → EReal}
    (hz : ∀ i j, IsReal (zr i j)) (hγ : ∀ j, IsReal (γ j)) (hβ : ∀ j, IsReal (β j)) :
    zKer zr γ β = zRef zr γ β := by
  funext i j
  obtain ⟨a, ha⟩ := hz i j
  obtain ⟨m, hm⟩ := mean_isReal hz j
  obtain ⟨s, hs⟩ := rs_isReal hz j
  obtain ⟨g, hg⟩ := hγ j
  obtain ⟨b, hb⟩ := hβ j
  unfold zKer zRef shift scale
  rw [ha, hm, hs, hg, hb]
  exact affine_real a m s g b

end Cert.Spec

end
-- ==== Proof.Spec.Concat.lean ====
/- The projection of the concatenation `[h | z | A1 z | A2 z]` equals the four partial projections added
   left to right: a sum over 1792 columns split at 256, 768 and 1280. Sums in the extended reals
   reassociate unconditionally (they form a commutative additive monoid), so no finiteness is needed. -/
import proofs.«109319_j33217277067916_2_alg».proof.Proof.Spec.Defs

noncomputable section

namespace Cert.Spec

open scoped BigOperators

/-- A sum over `Fin n` with `n = a + b` is the sum over the first `a` indices plus the sum over the last `b`. -/
theorem sum_split (a b n : ℕ) (hn : n = a + b) (f : Fin n → EReal) :
    ∑ k : Fin n, f k
      = (∑ k : Fin a, f ⟨k.val, by omega⟩) + ∑ k : Fin b, f ⟨a + k.val, by omega⟩ := by
  subst hn
  rw [Fin.sum_univ_add]
  rfl

/-- The 1792 columns as 256 + 512 + 512 + 512, associated to the left. -/
theorem sum_1792 (f : Fin 1792 → EReal) :
    ∑ k : Fin 1792, f k
      = (((∑ k : Fin 256, f ⟨k.val, by omega⟩)
          + ∑ k : Fin 512, f ⟨256 + k.val, by omega⟩)
          + ∑ k : Fin 512, f ⟨768 + k.val, by omega⟩)
          + ∑ k : Fin 512, f ⟨1280 + k.val, by omega⟩ := by
  refine (sum_split 1280 512 1792 (by norm_num) f).trans ?_
  refine congrArg (· + ∑ k : Fin 512, f ⟨1280 + k.val, by omega⟩) ?_
  refine (sum_split 768 512 1280 (by norm_num) (fun k => f ⟨k.val, by omega⟩)).trans ?_
  refine congrArg (· + ∑ k : Fin 512, f ⟨768 + k.val, by omega⟩) ?_
  exact sum_split 256 512 768 (by norm_num) (fun k => f ⟨k.val, by omega⟩)

variable (hh : Fin 8192 → Fin 256 → EReal) (z : Fin 8192 → Fin 512 → EReal)
  (A1 A2 : Fin 8192 → Fin 8192 → EReal) (i : Fin 8192)

/-- Columns `[0, 256)` of the concatenation are `h`. -/
theorem jk_h (k : Fin 256) : jk hh z A1 A2 i ⟨k.val, by omega⟩ = hh i k := by
  unfold jk
  dsimp only
  rw [dif_pos k.isLt]

/-- Columns `[256, 768)` are `z`. -/
theorem jk_z (k : Fin 512) : jk hh z A1 A2 i ⟨256 + k.val, by omega⟩ = z i k := by
  unfold jk
  dsimp only
  rw [dif_neg (by omega), dif_pos (by omega)]
  exact congrArg (z i) (Fin.ext (Nat.add_sub_cancel_left _ _))

/-- Columns `[768, 1280)` are `A1 z`. -/
theorem jk_az1 (k : Fin 512) : jk hh z A1 A2 i ⟨768 + k.val, by omega⟩ = az A1 z i k := by
  unfold jk
  dsimp only
  rw [dif_neg (by omega), dif_neg (by omega), dif_pos (by omega)]
  exact congrArg (az A1 z i) (Fin.ext (Nat.add_sub_cancel_left _ _))

/-- Columns `[1280, 1792)` are `A2 z`. -/
theorem jk_az2 (k : Fin 512) : jk hh z A1 A2 i ⟨1280 + k.val, by omega⟩ = az A2 z i k := by
  unfold jk
  dsimp only
  rw [dif_neg (by omega), dif_neg (by omega), dif_neg (by omega)]
  exact congrArg (az A2 z i) (Fin.ext (Nat.add_sub_cancel_left _ _))

/-- The projection of the concatenation is the sum of the four partial projections. -/
theorem outRef_eq_outKer (Wf : Fin 64 → Fin 1792 → EReal) (bf : Fin 64 → EReal) :
    outRef hh z A1 A2 Wf bf = outKer hh z A1 A2 Wf bf := by
  funext i o
  unfold outRef outKer
  refine congrArg (· + bf o) ?_
  refine (sum_1792 (fun k => jk hh z A1 A2 i k * Wf o k)).trans ?_
  simp only [jk_h, jk_z, jk_az1, jk_az2]

end Cert.Spec

end
-- ==== Proof.Spec.Main.lean ====
/- The two arrangements of the forward pass agree on finite inputs: the folded normalisation is the reference
   normalisation (finiteness of the embedded features' neighbourhood products, of `γ` and of `β`), and the four
   partial projections are the projection of the concatenation (unconditionally). -/
import proofs.«109319_j33217277067916_2_alg».proof.Proof.Spec.Affine
import proofs.«109319_j33217277067916_2_alg».proof.Proof.Spec.Concat
import proofs.«109319_j33217277067916_2_alg».proof.Proof.Spec.Blocks

noncomputable section

namespace Cert.Spec

open Idealize.ShloMosaic
open scoped BigOperators

/-- With finite `x`, `We`, `be`, `A1`, `A2`, `γ`, `β` the kernel's arrangement equals the reference's
    (the projection weights `Wf`, `bf` may be any extended reals). -/
theorem main {x : Fin 8192 → Fin 512 → EReal} {We : Fin 256 → Fin 512 → EReal} {be : Fin 256 → EReal}
    {A1 A2 : Fin 8192 → Fin 8192 → EReal} {γ β : Fin 512 → EReal}
    (Wf : Fin 64 → Fin 1792 → EReal) (bf : Fin 64 → EReal)
    (hx : ∀ i k, IsReal (x i k)) (hW : ∀ j k, IsReal (We j k)) (hb : ∀ j, IsReal (be j))
    (hA1 : ∀ i k, IsReal (A1 i k)) (hA2 : ∀ i k, IsReal (A2 i k))
    (hγ : ∀ j, IsReal (γ j)) (hβ : ∀ j, IsReal (β j)) :
    outKer (h x We be) (zKer (zraw A1 A2 (h x We be)) γ β) A1 A2 Wf bf
      = outRef (h x We be) (zRef (zraw A1 A2 (h x We be)) γ β) A1 A2 Wf bf := by
  rw [zKer_eq_zRef (zraw_isReal hA1 hA2 (h_isReal hx hW hb)) hγ hβ]
  exact (outRef_eq_outKer _ _ _ _ _ _).symm

end Cert.Spec

end
-- ==== Proof.Fin.Pre.lean ====
/- The precondition read back: the printed predicate takes, for each of the nine argument arrays, the conjunction
   over all entries of `|x| < +∞`, and conjoins the nine. If it is all ones then every entry of every array is
   neither infinity, that is, a real number. -/
import proofs.«109319_j33217277067916_2_alg».proof.Pre_finite_inputs
import proofs.«109319_j33217277067916_2_alg».proof.Proof.Gen.Pre_finite_inputs
import proofs.«109319_j33217277067916_2_alg».proof.Proof.Spec.Finite
import Idealize.ShloMosaic.Lib.ReduceAll
import Idealize.ShloMosaic.Lib.ValueIdx

noncomputable section

namespace Cert.PreFin

open Idealize.ShloMosaic Cert.Pre_finite_inputs Cert.Spec

/-- The rank-0 shape has one index. -/
instance : Subsingleton S_.Idx := ⟨fun _ _ => funext fun d => d.elim0⟩

/-- The pattern `0x7F800000` denotes `+∞`. -/
theorem ofBits_inf : Ideal.ofBits .f32 0x7F800000#32 = ⊤ := by
  simp [Ideal.ofBits, Ideal.ieee]

/-- One entry: `|x| < +∞` (the comparison answering 1) says `x` is a real. -/
theorem isReal_of_abs_lt_inf (x : EReal)
    (e : FloatOps.cmpf (F := Ideal) (φ := .f32) .olt (FloatOps.hostAbsf (F := Ideal) (φ := .f32) x)
          (FloatOps.ofBits (F := Ideal) .f32 0x7F800000#32) = 1#1) : IsReal x := by
  have e' : BitVec.ofBool (decide (max x (-x) < Ideal.ofBits .f32 0x7F800000#32)) = 1#1 := e
  rw [ofBits_inf] at e'
  have hlt : max x (-x) < ⊤ := by
    by_contra hn
    rw [decide_eq_false hn] at e'
    exact absurd e' (by decide)
  induction x using EReal.rec with
  | bot => exact absurd hlt (by simp)
  | top => exact absurd hlt (by simp)
  | coe r => exact ⟨r, rfl⟩

/-- One array: the conjunction over all entries of `|x| < +∞` being 1 says every entry is a real. -/
theorem all_isReal {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf (F := Ideal) .olt (Host.absf (F := Ideal) a)
            (broadcastInDim s ![] hb (constant (F := Ideal) S_ .f32 0x7F800000#32)))
          (constantI S_ 1 1#1) hr hu ValueIdx.ix0 = 1#1)
    (i : s.Idx) : IsReal (a i) :=
  isReal_of_abs_lt_inf (a i) (Host.reduce_andi_all _ _ hr hu _ e i)

/-- The precondition being all ones says every entry of each of the nine arrays is a real. -/
theorem isReal_of_pre [hP : Cert.Pre_finite_inputs.Facts]
    (a0 : FVec Ideal S8192x512 .f32) (a1 : FVec Ideal S8192x8192 .f32) (a2 : FVec Ideal S8192x8192 .f32)
    (a3 : FVec Ideal S256x512 .f32) (a4 : FVec Ideal S256 .f32) (a5 : FVec Ideal S512 .f32)
    (a6 : FVec Ideal S512 .f32) (a7 : FVec Ideal S64x1792 .f32) (a8 : FVec Ideal S64 .f32)
    (h : Cert.Pre_finite_inputs.fn (F := Ideal) a0 a1 a2 a3 a4 a5 a6 a7 a8 = (fun _ => 1#1)) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) ∧ (∀ i, IsReal (a7 i))
      ∧ (∀ i, IsReal (a8 i)) := by
  have e := congrFun h ValueIdx.ix0
  dsimp only [Cert.Pre_finite_inputs.fn, Cert.Pre_finite_inputs.fn_part1, Cert.Pre_finite_inputs.fn_part2,
    Idealize.ShloMosaic.andi] at e
  simp only [IntOp.andi_eq_one] at e
  obtain ⟨⟨⟨⟨⟨⟨⟨⟨r0, r1⟩, r2⟩, r3⟩, r4⟩, r5⟩, r6⟩, r7⟩, r8⟩ := e
  exact ⟨all_isReal a0 _ _ _ r0, all_isReal a1 _ _ _ r1, all_isReal a2 _ _ _ r2, all_isReal a3 _ _ _ r3,
    all_isReal a4 _ _ _ r4, all_isReal a5 _ _ _ r5, all_isReal a6 _ _ _ r6, all_isReal a7 _ _ _ r7,
    all_isReal a8 _ _ _ r8⟩

end Cert.PreFin

end
-- ==== Proof.Ref.Final.lean ====
/- The reference's result at an index equals the kernel's arrangement of the specification, under the
   precondition: the precondition makes every argument entry a real number, the reference's stages compose to
   the specification's reference arrangement, and on finite arguments the two arrangements agree. -/
import proofs.«109319_j33217277067916_2_alg».proof.Proof.Ref.ReadAll
import proofs.«109319_j33217277067916_2_alg».proof.Proof.Spec.Main
import proofs.«109319_j33217277067916_2_alg».proof.Proof.Fin.Pre

noncomputable section

namespace Cert.ReferenceIdeal.Final

open Cert.ReferenceIdeal Cert.ReferenceIdeal.Gen
open Idealize.ShloMosaic Idealize.ShloMosaic.ValueIdx Cert.Spec

/-- THE REFERENCE'S RESULT AT (r, o), under the precondition, is the kernel's arrangement of the specification. -/
theorem out_eq_outKer [Cert.Pre_finite_inputs.Facts]
    (a0 : FVec Ideal S8192x512 .f32) (a1 a2 : FVec Ideal S8192x8192 .f32) (a3 : FVec Ideal S256x512 .f32)
    (a4 : FVec Ideal S256 .f32) (a5 a6 : FVec Ideal S512 .f32) (a7 : FVec Ideal S64x1792 .f32) (a8 : FVec Ideal S64 .f32)
    (hpre : Cert.Pre_finite_inputs.fn (F := Ideal) a0 a1 a2 a3 a4 a5 a6 a7 a8 = (fun _ => 1#1))
    (r : Fin 8192) (o : Fin 64) :
    Cert.ReferenceIdeal.RefRun.out (F := Ideal) a0 a1 a2 a3 a4 a5 a6 a7 a8 (ix2 r o)
      = Cert.Spec.outKer (Cert.Spec.h (cur2 a0) (cur2 a3) (cur1 a4))
          (Cert.Spec.zKer (Cert.Spec.zraw (cur2 a1) (cur2 a2) (Cert.Spec.h (cur2 a0) (cur2 a3) (cur1 a4))) (cur1 a5) (cur1 a6))
          (cur2 a1) (cur2 a2) (cur2 a7) (cur1 a8) r o := by
  obtain ⟨f0, f1, f2, f3, f4, f5, f6, -, -⟩ := Cert.PreFin.isReal_of_pre a0 a1 a2 a3 a4 a5 a6 a7 a8 hpre
  refine (Cert.ReferenceIdeal.ReadAll.out_apply a0 a1 a2 a3 a4 a5 a6 a7 a8 r o).trans ?_
  exact (congrFun (congrFun
    (Cert.Spec.main (x := cur2 a0) (We := cur2 a3) (be := cur1 a4) (A1 := cur2 a1) (A2 := cur2 a2)
      (γ := cur1 a5) (β := cur1 a6) (cur2 a7) (cur1 a8)
      (fun i k => f0 (ix2 i k)) (fun j k => f3 (ix2 j k)) (fun j => f4 (ix1 j))
      (fun i k => f1 (ix2 i k)) (fun i k => f2 (ix2 i k)) (fun j => f5 (ix1 j)) (fun j => f6 (ix1 j))) r) o).symm

end Cert.ReferenceIdeal.Final

end
-- ==== Proof.lean ====
/-
  The certificate's claims. The kernel program is three pipelined regions among host operations: an embedding
  h = relu (x·Wᵀ + b), a first adjacency pass z_raw = [A1·h | A2·h] accumulated over sixteen column blocks, column
  statistics on the host, and a second pass that normalises z_raw on the fly (z = z_raw·scale + shift with
  scale = γ·rsqrt (var + ε), shift = β − mean·scale), accumulates A1·z and A2·z, and projects
  (((h·Wh + z·Wz) + (A1·z)·Wa) + (A2·z)·Wb) + b_fin. The reference computes z = ((z_raw − mean)·rsqrt (var + ε))·γ + β
  and one product of the concatenation [h | z | A1·z | A2·z] with the whole weight matrix. Each program's frame is
  its run with the result dropped. At the ideal values the two results agree entry by entry: the blockwise sums are
  reassociations, the split of the 1792-wide contraction is a regrouping of one sum, and the two normalisations
  agree because every input entry is finite (distributivity over the extended reals needs that).
-/
import proofs.«109319_j33217277067916_2_alg».proof.Defs
import proofs.«109319_j33217277067916_2_alg».proof.Proof.K.RunArgs
import proofs.«109319_j33217277067916_2_alg».proof.Proof.KI.RunArgs
import proofs.«109319_j33217277067916_2_alg».proof.Proof.KI.Comp3
import proofs.«109319_j33217277067916_2_alg».proof.Proof.Ref.Run
import proofs.«109319_j33217277067916_2_alg».proof.Proof.Ref.Final
import proofs.«109319_j33217277067916_2_alg».proof.Proof.Gen.Kernel
import proofs.«109319_j33217277067916_2_alg».proof.Proof.Gen.KernelIdeal
import proofs.«109319_j33217277067916_2_alg».proof.Proof.Gen.ReferenceIdeal
import proofs.«109319_j33217277067916_2_alg».proof.Proof.Gen.Pre_finite_inputs

noncomputable section

namespace Cert.Proof

open Idealize.ShloMosaic Idealize.ShloMosaic.TcCoe Idealize.ShloMosaic.ValueIdx Idealize.SL.Sem
open Cert.Spec

theorem frame_k : Cert.frame_Kernel := fun m ρ _ => Cert.Kernel.Hand.frame_all m ρ
theorem frame_ki : Cert.frame_KernelIdeal := fun m ρ _ => Cert.KernelIdeal.Hand.frame_all m ρ
theorem frame_ri : Cert.frame_ReferenceIdeal := fun m ρ _ =>
  (θ_run Cert.ReferenceIdeal.defs _ _).mono (fun _ h c => (h c).2) (Cert.ReferenceIdeal.RefRun.run (F := Ideal) m ρ)

/-- The idealized kernel's run with its result named: every weakly fair execution ends with the result array at the
    last boundary's contents and the arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v25) = Cert.KernelIdeal.Hand.W7 m c (Proc.devRef .tc Cert.KernelIdeal.main_v25)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono (fun r h c =>
    ⟨h c _ (Cert.KernelIdeal.Hand.mem_uc Cert.KernelIdeal.main_v25 (by decide)),
      (h c _ (Cert.KernelIdeal.Hand.mem_uc Cert.KernelIdeal.main_arg0 (by decide))).trans (Cert.KernelIdeal.Hand.W7_main_arg0 m c),
      (h c _ (Cert.KernelIdeal.Hand.mem_uc Cert.KernelIdeal.main_arg1 (by decide))).trans (Cert.KernelIdeal.Hand.W7_main_arg1 m c),
      (h c _ (Cert.KernelIdeal.Hand.mem_uc Cert.KernelIdeal.main_arg2 (by decide))).trans (Cert.KernelIdeal.Hand.W7_main_arg2 m c),
      (h c _ (Cert.KernelIdeal.Hand.mem_uc Cert.KernelIdeal.main_arg3 (by decide))).trans (Cert.KernelIdeal.Hand.W7_main_arg3 m c),
      (h c _ (Cert.KernelIdeal.Hand.mem_uc Cert.KernelIdeal.main_arg4 (by decide))).trans (Cert.KernelIdeal.Hand.W7_main_arg4 m c),
      (h c _ (Cert.KernelIdeal.Hand.mem_uc Cert.KernelIdeal.main_arg5 (by decide))).trans (Cert.KernelIdeal.Hand.W7_main_arg5 m c),
      (h c _ (Cert.KernelIdeal.Hand.mem_uc Cert.KernelIdeal.main_arg6 (by decide))).trans (Cert.KernelIdeal.Hand.W7_main_arg6 m c),
      (h c _ (Cert.KernelIdeal.Hand.mem_uc Cert.KernelIdeal.main_arg7 (by decide))).trans (Cert.KernelIdeal.Hand.W7_main_arg7 m c),
      (h c _ (Cert.KernelIdeal.Hand.mem_uc Cert.KernelIdeal.main_arg8 (by decide))).trans (Cert.KernelIdeal.Hand.W7_main_arg8 m c)⟩) (Cert.KernelIdeal.Hand.run_all m ρ)

/-- Entry by entry the two results are one extended real: the kernel's regrouped sums and folded normalisation
    against the reference's, equal for finite inputs. -/
theorem result_eq (m : (ℓ : Loc Cert.KernelIdeal.nD Cert.KernelIdeal.τ Cert.KernelIdeal.sig) → Buf (Elt Ideal) ℓ) (hpre : Cert.Pre_KernelIdeal m) (c : Dev Cert.KernelIdeal.nD) :
    Cert.ReferenceIdeal.RefRun.out (F := Ideal)
        (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = Cert.KernelIdeal.Hand.W7 m c (Proc.devRef .tc Cert.KernelIdeal.main_v25) := by
  funext y
  obtain ⟨r, o, rfl⟩ : ∃ (r : Fin 8192) (o : Fin 64), y = ix2 r o := ⟨y 0, y 1, eq_ix2 y⟩
  exact (Cert.ReferenceIdeal.Final.out_eq_outKer _ _ _ _ _ _ _ _ _ (hpre c) r o).trans (Cert.KernelIdeal.Hand.kout_apply m c r o).symm

theorem algebraic : Cert.algebraic_KernelIdeal_ReferenceIdeal := by
  intro m ρ m' ρ' hpre hagree
  refine ⟨fun c => Cert.KernelIdeal.Hand.W7 m c (Proc.devRef .tc Cert.KernelIdeal.main_v25), kernel_run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8⟩ := hagree c
  rw [e0, e1, e2, e3, e4, e5, e6, e7, e8]
  exact result_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
